-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg19 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg15 : FVec F S64 .f32) (main_arg16 : FVec F S64 .f32) (main_arg17 : FVec F S64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128x64 .f32) (main_arg15 : FVec F S64 .f32) (main_arg16 : FVec F S64 .f32) (main_arg17 : FVec F S64 .f32) (main_arg18 : FVec F S64x64 .f32) (main_arg19 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x64 .f32) (main_arg15 : FVec F S64 .f32) (main_arg16 : FVec F S64 .f32) (main_arg17 : FVec F S64 .f32) (main_arg18 : FVec F S64x64 .f32) (main_arg19 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x64 .f32) (main_arg15 : FVec F S64 .f32) (main_arg16 : FVec F S64 .f32) (main_arg17 : FVec F S64 .f32) (main_arg18 : FVec F S64x64 .f32) (main_arg19 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S2x1000000 32) (main_arg2 : FVec F S64x128 .f32) (main_arg3 : FVec F S128 .f32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x64 .f32) (main_arg15 : FVec F S64 .f32) (main_arg16 : FVec F S64 .f32) (main_arg17 : FVec F S64 .f32) (main_arg18 : FVec F S64x64 .f32) (main_arg19 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x128 : Shape := ⟨2, ![1, 128]⟩
abbrev S2000x64 : Shape := ⟨2, ![2000, 64]⟩
abbrev S2000x128 : Shape := ⟨2, ![2000, 128]⟩
abbrev S100000x128 : Shape := ⟨2, ![100000, 128]⟩
abbrev S1000000x128 : Shape := ⟨2, ![1000000, 128]⟩
abbrev S1x64 : Shape := ⟨2, ![1, 64]⟩

abbrev nBuf : Space → Nat
  | .hbm => 111
  | .vmem => 54
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S1x1000000, .i32⟩
  | .hbm, ⟨21, _⟩ => ⟨S1000000, .i32⟩
  | .hbm, ⟨22, _⟩ => ⟨S1x1000000, .i32⟩
  | .hbm, ⟨23, _⟩ => ⟨S1000000, .i32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x64, .f32⟩
  | .hbm, ⟨33, _⟩ => ⟨S_, .f32⟩
  | .hbm, ⟨34, _⟩ => ⟨S100000x64, .f32⟩
  | .hbm, ⟨35, _⟩ => ⟨S1000000x1, .i32⟩
  | .hbm, ⟨36, _⟩ => ⟨S100000x64, .f32⟩
  | .hbm, ⟨37, _⟩ => ⟨S100000x64, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x128, .f32⟩
  | .hbm, ⟨62, _⟩ => ⟨S_, .f32⟩
  | .hbm, ⟨63, _⟩ => ⟨S100000x128, .f32⟩
  | .hbm, ⟨64, _⟩ => ⟨S1000000x1, .i32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S1000000, .i32⟩
  | .hbm, ⟨84, _⟩ => ⟨S1000000, .i1⟩
  | .hbm, ⟨85, _⟩ => ⟨S_, .i32⟩
  | .hbm, ⟨86, _⟩ => ⟨S1000000, .i32⟩
  | .hbm, ⟨87, _⟩ => ⟨S1000000, .i32⟩
  | .hbm, ⟨88, _⟩ => ⟨S1000000, .i32⟩
  | .hbm, ⟨89, _⟩ => ⟨S1000000x1, .i32⟩
  | .hbm, ⟨90, _⟩ => ⟨S1000000x128, .f32⟩
  | .hbm, ⟨91, _⟩ => ⟨S_, .f32⟩
  | .hbm, ⟨92, _⟩ => ⟨S100000x128, .f32⟩
  | .hbm, ⟨93, _⟩ => ⟨S1000000x1, .i32⟩
  | .hbm, ⟨94, _⟩ => ⟨S100000x128, .f32⟩
  | .hbm, ⟨95, _⟩ => ⟨S100000x128, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S_, .f32⟩
  | .hbm, ⟨103, _⟩ => ⟨S1x64, .f32⟩
  | .hbm, ⟨104, _⟩ => ⟨S1x64, .f32⟩
  | .hbm, ⟨105, _⟩ => ⟨S_, .f32⟩
  | .hbm, ⟨106, _⟩ => ⟨S1x64, .f32⟩
  | .hbm, ⟨107, _⟩ => ⟨S1x64, .f32⟩
  | .hbm, ⟨108, _⟩ => ⟨S1x64, .f32⟩
  | .hbm, ⟨109, _⟩ => ⟨S1x64, .f32⟩
  | .hbm, ⟨110, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x64, .f32⟩
  | .local _ .vmem, ⟨7, _⟩ => ⟨S2000x64, .f32⟩
  | .local _ .vmem, ⟨8, _⟩ => ⟨S64x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S2000x128, .f32⟩
  | .local _ .vmem, ⟨43, _⟩ => ⟨S2000x128, .f32⟩
  | .local _ .vmem, ⟨44, _⟩ => ⟨S128x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42_0 : Ref sig .tc := ⟨.hbm, 71, rfl⟩
abbrev main_v42_1 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_8 : Ref sig .tc := ⟨.hbm, 82, rfl⟩
abbrev main_v50 : Ref sig .tc := ⟨.hbm, 83, rfl⟩
abbrev main_v51 : Ref sig .tc := ⟨.hbm, 84, rfl⟩
abbrev main_c_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65_0 : Ref sig .tc := ⟨.hbm, 100, rfl⟩
abbrev main_v65_1 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg9_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg8_0 : Ref sig .tc := ⟨.vmem, 51, rfl⟩
abbrev cc5_stg9_0 : Ref sig .tc := ⟨.vmem, 52, rfl⟩
abbrev cc5_stg9_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem9_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem8_0 : DmaSem sig := 51
abbrev cc5_sem9_0 : DmaSem sig := 52
abbrev cc5_sem9_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S2000x128_S2000x128 : S2000x128.ShapeCasts S2000x128
  shapeCasts_S64_S1x64 : S64.ShapeCasts S1x64
  inb_S1x64_S1x64_0_0 : ∀ a, (![0, 0] : Fin 2 → Nat) a + S1x64.size a ≤ S1x64.size a
  h_S1x64 : 0 < S1x64.numel
  inb_S128x64_S128x64_0_0 : ∀ a, (![0, 0] : Fin 2 → Nat) a + S128x64.size a ≤ S128x64.size a
  h_S128x64 : 0 < S128x64.numel
  shapeCasts_S1x64_S1x64 : S1x64.ShapeCasts S1x64
  broadcasts_S1x64_S2000x64 : S1x64.Broadcasts S2000x64
  reduces_S2000x64_S64 : S2000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S100000x128.size a
  hwx3_9 : ∀ i : grid3.Coords, EltTy.bits .f32 = 32 ∨ (Rect.block (s := S100000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x64.size a ≤ S64x64.size a
  hwx5_7 : ∀ i : grid5.Coords, EltTy.bits .f32 = 32 ∨ (Rect.block (s := S64x64) S64x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x64.size a ≤ S100000x64.size a
  hwx5_9 : ∀ i : grid5.Coords, EltTy.bits .f32 = 32 ∨ (Rect.block (s := S100000x64) S2000x64.size (cc5_transform_9 i) (hinb5_9 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v14) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42_0) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42_1) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v37) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v41) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v49) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65_0) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65_1) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v60) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v63) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg18) S64x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v64) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v72) S2000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x128 : Shape := ⟨2, ![100000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 231
  | .vmem => 0
  | .smem => 0
  | _ => 0

abbrev hbmTy0_0 (i : Nat) : BufTy := match i % 128 with
  | 0 => ⟨S100000x64, .f32⟩
  | 1 => ⟨S2x1000000, .i32⟩
  | 2 => ⟨S64x128, .f32⟩
  | 3 => ⟨S128, .f32⟩
  | 4 => ⟨S128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x64, .f32⟩
  | 15 => ⟨S64, .f32⟩
  | 16 => ⟨S64, .f32⟩
  | 17 => ⟨S64, .f32⟩
  | 18 => ⟨S64x64, .f32⟩
  | 19 => ⟨S64, .f32⟩
  | 20 => ⟨S1x1000000, .i32⟩
  | 21 => ⟨S1000000, .i32⟩
  | 22 => ⟨S1x1000000, .i32⟩
  | 23 => ⟨S1000000, .i32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x64, .f32⟩
  | 33 => ⟨S_, .f32⟩
  | 34 => ⟨S100000x64, .f32⟩
  | 35 => ⟨S1000000x1, .i32⟩
  | 36 => ⟨S100000x64, .f32⟩
  | 37 => ⟨S100000x64, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x128, .f32⟩
  | 102 => ⟨S_, .f32⟩
  | 103 => ⟨S100000x128, .f32⟩
  | 104 => ⟨S1000000x1, .i32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x128, .f32⟩
  | 43 => ⟨S_, .f32⟩
  | 44 => ⟨S100000x128, .f32⟩
  | 45 => ⟨S1000000x1, .i32⟩
  | 46 => ⟨S100000x128, .f32⟩
  | 47 => ⟨S100000x128, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_call1_cst : Ref sig .tc := ⟨.hbm, 86, rfl⟩
abbrev main_call1_v0 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_5 : Ref sig .tc := ⟨.hbm, 93, rfl⟩
abbrev main_v43 : Ref sig .tc := ⟨.hbm, 94, rfl⟩
abbrev main_v44 : Ref sig .tc := ⟨.hbm, 95, rfl⟩
abbrev main_c_6 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_7 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_8 : Ref sig .tc := ⟨.hbm, 111, rfl⟩
abbrev main_v58 : Ref sig .tc := ⟨.hbm, 112, rfl⟩
abbrev main_cst_9 : Ref sig .tc := ⟨.hbm, 113, rfl⟩
abbrev main_v59 : Ref sig .tc := ⟨.hbm, 114, rfl⟩
abbrev main_v60 : Ref sig .tc := ⟨.hbm, 115, rfl⟩
abbrev main_c_10 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_cst_11 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_call3_cst : Ref sig .tc := ⟨.hbm, 155, rfl⟩
abbrev main_call3_v0 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_c_12 : Ref sig .tc := ⟨.hbm, 162, rfl⟩
abbrev main_v82 : Ref sig .tc := ⟨.hbm, 163, rfl⟩
abbrev main_v83 : Ref sig .tc := ⟨.hbm, 164, rfl⟩
abbrev main_c_13 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_14 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_cst_15 : Ref sig .tc := ⟨.hbm, 180, rfl⟩
abbrev main_v97 : Ref sig .tc := ⟨.hbm, 181, rfl⟩
abbrev main_cst_16 : Ref sig .tc := ⟨.hbm, 182, rfl⟩
abbrev main_v98 : Ref sig .tc := ⟨.hbm, 183, rfl⟩
abbrev main_v99 : Ref sig .tc := ⟨.hbm, 184, rfl⟩
abbrev main_c_17 : Ref sig .tc := ⟨.hbm, 185, rfl⟩
abbrev main_call4_cst : Ref sig .tc := ⟨.hbm, 186, rfl⟩
abbrev main_call4_v0 : Ref sig .tc := ⟨.hbm, 187, rfl⟩
abbrev main_call4_v1 : Ref sig .tc := ⟨.hbm, 188, rfl⟩
abbrev main_call4_cst_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_v6 : Ref sig .tc := ⟨.hbm, 194, rfl⟩
abbrev main_call4_v7 : Ref sig .tc := ⟨.hbm, 195, rfl⟩
abbrev main_call4_cst_1 : Ref sig .tc := ⟨.hbm, 196, rfl⟩
abbrev main_call4_v8 : Ref sig .tc := ⟨.hbm, 197, rfl⟩
abbrev main_call4_cst_2 : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_cst_3 : Ref sig .tc := ⟨.hbm, 202, rfl⟩
abbrev main_call4_v12 : Ref sig .tc := ⟨.hbm, 203, rfl⟩
abbrev main_call4_cst_4 : Ref sig .tc := ⟨.hbm, 204, rfl⟩
abbrev main_call4_call0_v0 : Ref sig .tc := ⟨.hbm, 205, rfl⟩
abbrev main_call4_call0_v1 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_cst_18 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_call5_cst : Ref sig .tc := ⟨.hbm, 224, rfl⟩
abbrev main_call5_v0 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its result array named. The program is six pallas regions among stretches of host
  operations; the buffer contents at each boundary are a fold from the launch memory (`Gen.W0 … Gen.W12`: a stretch
  applies its host operations, a region leaves its arrays at what its write-backs assemble and every other buffer as it
  was). Every weakly fair execution terminates with every unscoped buffer at the last fold `Gen.W12`; here the result
  buffer `%72` is read there as well as the twenty arguments, which end as launched.
-/
import proofs.«151523_j51427938402588_1_alg».proof.Proof.Gen.KernelIdeal.Frame

set_option maxRecDepth 16384

noncomputable section

namespace Cert.KernelIdeal.GinK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the arguments as launched. -/
theorem run_value : θ_run defs (onTc (τ := τ) (main (F := F))) ⟨m, fun _ => 0, ρ⟩ (fun r => ∀ c : Dev nD,
      r.2.mem ((c.tc : Thread nD τ).loc main_v72) = W12 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v72 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KernelIdeal.GinK

end
-- ==== Proof.LibStretches.lean ====
/-
  A long straight-line program matched against its list of operations one piece at a time.

  A host program is a list of operations run in order (`StableHlo.seq`). When the program is printed as four pieces run in
  order, and each piece is the operations of its stretch run in order, the program is the four stretches' operations run
  in order as one list — so the program and its list need never be compared as wholes.
-/
import Idealize.ShloMosaic.Lib.StableHlo.Run

noncomputable section

namespace Cert.LibStretches

open Idealize.ShloMosaic Idealize.ShloMosaic.StableHlo Idealize.SL.Sem

variable {nD : Nat} {τ : Topo} {sig : RefSig} {Val : EltTy → Type} {Λ : Labels}

/-- Four pieces run in order, each the operations of its stretch run in order, are the four stretches' operations run in
    order as one list. -/
theorem seq_four (p₀ p₁ p₂ p₃ : Prog (TpuEff nD τ sig Val Λ .tc) PUnit) (w₀ w₁ w₂ w₃ : List (HloOp τ sig Val))
    (h₀ : p₀ = seq w₀) (h₁ : p₁ = seq w₁) (h₂ : p₂ = seq w₂) (h₃ : p₃ = seq w₃) :
    (p₀ >>= fun _ => p₁ >>= fun _ => p₂ >>= fun _ => p₃) = seq (w₀ ++ w₁ ++ w₂ ++ w₃) := by
  subst h₀ h₁ h₂ h₃
  rw [seq_append, seq_append, seq_append]
  simp only [bind_assoc]

end Cert.LibStretches

end
-- ==== Proof.RefRun.lean ====
/-
  The reference program's run, read as one line of host operations.

  The reference is a host-only program: three rounds of message passing on a graph of 100000 nodes and 1000000
  edges. Each round adds to every node's features the sum of the features of the nodes with an edge into it (the rows
  gathered along the edges' sources, summed onto the edges' targets), applies a linear map with bias, normalizes each
  column by its mean and variance over the nodes (scale and shift by two vectors), takes the positive part, and applies a
  second linear map with bias. The column variance, the positive part and the choice between a vector and a scalar are
  functions the program calls; a call is the callee's operations run on the call's own buffers.

  Here the program is matched, statement by statement, against the list of its host operations with each call replaced
  by the callee's operations (`ops0`, `ops1`, `ops2`: the program's three runs of statements, in order), and the
  general fact about straight lines of host operations is applied: every weakly fair execution terminates, and
  afterwards each buffer holds what folding the operations' results over the launch contents leaves there.
-/
import proofs.«151523_j51427938402588_1_alg».proof.Proof.Gen.ReferenceIdeal
import Idealize.ShloMosaic.Lib.StableHlo.Run
import proofs.«151523_j51427938402588_1_alg».proof.Proof.LibStretches

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- Statements 1 … 60, eighty-three operations. The edge table's two rows as vectors (sources, targets); the sources
    with a negative index moved up by the number of nodes, as a column; the features' rows gathered at them and summed
    onto zeros at the targets, added to the features; the first linear map and its bias; the column sums over the nodes
    and the column means; the column variance (the called function's nineteen operations — the sums and means again,
    the centred and squared entries, the count less the correction as a float, the sums of squares divided by it, the
    test that it is positive, the not-a-number constant — then the choice's three: the constant converted, broadcast,
    selected against); the centred entries times the reciprocal root of variance plus epsilon, scaled and shifted; the
    positive part (three: zero, its broadcast, the maximum); the second linear map and its bias; the sources moved into
    range again, the rows gathered at them, and the zero the next sum starts from. -/
abbrev ops0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v18 : StableHlo.TRef sig ⟨S100000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v37 : StableHlo.TRef sig ⟨S100000x128, .f32⟩) main_call1.v0 main_call1.v1 maximumf,
    StableHlo.binary main_v38 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)),
    StableHlo.nullary main_c_5 (constantI S_ 32 0#32),
    StableHlo.unary main_c_5 main_v43 (broadcastInDim S1000000 ![] bcast_S_S1000000 : (⟨S_, .i32⟩ : BufTy).Contents (Elt F) → (⟨S1000000, .i32⟩ : BufTy).Contents (Elt F)),
    StableHlo.binary main_v1 main_v43 main_v44 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v45 (broadcastInDim S1000000 ![] bcast_S_S1000000 : (⟨S_, .i32⟩ : BufTy).Contents (Elt F) → (⟨S1000000, .i32⟩ : BufTy).Contents (Elt F)),
    StableHlo.binary main_v1 main_v45 main_v46 (addi : (⟨S1000000, .i32⟩ : BufTy).Contents (Elt F) → (⟨S1000000, .i32⟩ : BufTy).Contents (Elt F) → (⟨S1000000, .i32⟩ : BufTy).Contents (Elt F)),
    StableHlo.ternary main_v44 main_v46 main_v1 main_v47 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v47 main_v48 (broadcastInDim S1000000x1 ![0] bcast_S1000000_S1000000x1_0 : (⟨S1000000, .i32⟩ : BufTy).Contents (Elt F) → (⟨S1000000x1, .i32⟩ : BufTy).Contents (Elt F)),
    StableHlo.binary main_v42 main_v48 main_v49 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_7 (constant S_ .f32 0x00000000#32) ]

/-- Statements 61 … 120, eighty-three operations. The gathered rows summed onto zeros at the targets and added; the
    second round's first linear map and bias, column means, column variance (twenty-two operations, as above),
    normalization, positive part (three), second linear map and bias; the third round's sum over incoming edges, its
    first linear map (onto 64 columns) and bias, the column sums and means, and the correction constant of its variance. -/
abbrev ops1 : List (HloOp τ sig (Elt F)) :=
  [ StableHlo.unary main_cst_7 main_v50 (broadcastInDim S100000x128 ![] bcast_S_S100000x128 : (⟨S_, .f32⟩ : BufTy).Contents (Elt F) → (⟨S100000x128, .f32⟩ : BufTy).Contents (Elt F)),
    StableHlo.unary main_v3 main_v51 (broadcastInDim S1000000x1 ![0] bcast_S1000000_S1000000x1_0 : (⟨S1000000, .i32⟩ : BufTy).Contents (Elt F) → (⟨S1000000x1, .i32⟩ : BufTy).Contents (Elt F)),
    StableHlo.ternary main_v50 main_v51 main_v49 main_v52 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.binary main_v42 main_v52 main_v53 (addf : (⟨S100000x128, .f32⟩ : BufTy).Contents (Elt F) → (⟨S100000x128, .f32⟩ : BufTy).Contents (Elt F) → (⟨S100000x128, .f32⟩ : BufTy).Contents (Elt F)),
    StableHlo.binary main_v53 main_arg8 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v57 main_cst_8 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v59 (broadcastInDim S128 ![] bcast_S_S128 : (⟨S_, .f32⟩ : BufTy).Contents (Elt F) → (⟨S128, .f32⟩ : BufTy).Contents (Elt F)),
    StableHlo.binary main_v58 main_v59 main_v60 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (StableHlo.TRef.of main_v57 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v57 : StableHlo.TRef sig ⟨S100000x128, .f32⟩) main_call2.v4 main_call2.v5 subf,
    StableHlo.TRef.binary main_call2.v5 main_call2.v5 main_call2.v6 mulf,
    StableHlo.TRef.unary (StableHlo.TRef.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v60 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v63 main_v64 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v65 (broadcastInDim S128 ![] bcast_S_S128 : (⟨S_, .f32⟩ : BufTy).Contents (Elt F) → (⟨S128, .f32⟩ : BufTy).Contents (Elt F)),
    StableHlo.binary main_v61 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v69 main_v70 (mulf : (⟨S100000x128, .f32⟩ : BufTy).Contents (Elt F) → (⟨S100000x128, .f32⟩ : BufTy).Contents (Elt F) → (⟨S100000x128, .f32⟩ : BufTy).Contents (Elt F)),
    StableHlo.unary main_arg10 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v72 main_v73 (mulf : (⟨S100000x128, .f32⟩ : BufTy).Contents (Elt F) → (⟨S100000x128, .f32⟩ : BufTy).Contents (Elt F) → (⟨S100000x128, .f32⟩ : BufTy).Contents (Elt F)),
    StableHlo.unary main_arg11 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v76 : StableHlo.TRef sig ⟨S100000x128, .f32⟩) main_call3.v0 main_call3.v1 maximumf,
    StableHlo.binary main_v77 main_arg12 main_v78 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (addf : (⟨S100000x128, .f32⟩ : BufTy).Contents (Elt F) → (⟨S100000x128, .f32⟩ : BufTy).Contents (Elt F) → (⟨S100000x128, .f32⟩ : BufTy).Contents (Elt F)),
    StableHlo.nullary main_c_12 (constantI S_ 32 0#32),
    StableHlo.unary main_c_12 main_v82 (broadcastInDim S1000000 ![] bcast_S_S1000000 : (⟨S_, .i32⟩ : BufTy).Contents (Elt F) → (⟨S1000000, .i32⟩ : BufTy).Contents (Elt F)),
    StableHlo.binary main_v1 main_v82 main_v83 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 100000#32),
    StableHlo.unary main_c_13 main_v84 (broadcastInDim S1000000 ![] bcast_S_S1000000 : (⟨S_, .i32⟩ : BufTy).Contents (Elt F) → (⟨S1000000, .i32⟩ : BufTy).Contents (Elt F)),
    StableHlo.binary main_v1 main_v84 main_v85 (addi : (⟨S1000000, .i32⟩ : BufTy).Contents (Elt F) → (⟨S1000000, .i32⟩ : BufTy).Contents (Elt F) → (⟨S1000000, .i32⟩ : BufTy).Contents (Elt F)),
    StableHlo.ternary main_v83 main_v85 main_v1 main_v86 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v86 main_v87 (broadcastInDim S1000000x1 ![0] bcast_S1000000_S1000000x1_0 : (⟨S1000000, .i32⟩ : BufTy).Contents (Elt F) → (⟨S1000000x1, .i32⟩ : BufTy).Contents (Elt F)),
    StableHlo.binary main_v81 main_v87 main_v88 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_14 (constant S_ .f32 0x00000000#32),
    StableHlo.unary main_cst_14 main_v89 (broadcastInDim S100000x128 ![] bcast_S_S100000x128 : (⟨S_, .f32⟩ : BufTy).Contents (Elt F) → (⟨S100000x128, .f32⟩ : BufTy).Contents (Elt F)),
    StableHlo.unary main_v3 main_v90 (broadcastInDim S1000000x1 ![0] bcast_S1000000_S1000000x1_0 : (⟨S1000000, .i32⟩ : BufTy).Contents (Elt F) → (⟨S1000000x1, .i32⟩ : BufTy).Contents (Elt F)),
    StableHlo.ternary main_v89 main_v90 main_v88 main_v91 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.binary main_v81 main_v91 main_v92 (addf : (⟨S100000x128, .f32⟩ : BufTy).Contents (Elt F) → (⟨S100000x128, .f32⟩ : BufTy).Contents (Elt F) → (⟨S100000x128, .f32⟩ : BufTy).Contents (Elt F)),
    StableHlo.binary main_v92 main_arg14 main_v93 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg15 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v95 main_v96 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.binary main_v96 main_cst_15 main_v97 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v98 (broadcastInDim S64 ![] bcast_S_S64 : (⟨S_, .f32⟩ : BufTy).Contents (Elt F) → (⟨S64, .f32⟩ : BufTy).Contents (Elt F)),
    StableHlo.binary main_v97 main_v98 main_v99 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32) ]

/-- Statements 121 … 143, forty-five operations. The third round's column variance (twenty-two operations, over 64
    columns), normalization, positive part (three), and second linear map and bias: the result. -/
abbrev ops2 : List (HloOp τ sig (Elt F)) :=
  [ StableHlo.TRef.nullary main_call4.cst (constant S_ .f32 0x00000000#32),
    StableHlo.TRef.binary (StableHlo.TRef.of main_v96 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (StableHlo.TRef.of main_v96 : StableHlo.TRef sig ⟨S100000x64, .f32⟩) main_call4.v4 main_call4.v5 subf,
    StableHlo.TRef.binary main_call4.v5 main_call4.v5 main_call4.v6 mulf,
    StableHlo.TRef.unary (StableHlo.TRef.of main_c_17 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v99 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v102 main_v103 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v104 (broadcastInDim S64 ![] bcast_S_S64 : (⟨S_, .f32⟩ : BufTy).Contents (Elt F) → (⟨S64, .f32⟩ : BufTy).Contents (Elt F)),
    StableHlo.binary main_v100 main_v104 main_v105 (addf : (⟨S64, .f32⟩ : BufTy).Contents (Elt F) → (⟨S64, .f32⟩ : BufTy).Contents (Elt F) → (⟨S64, .f32⟩ : BufTy).Contents (Elt F)),
    StableHlo.unary main_v105 main_v106 (Host.rsqrt : (⟨S64, .f32⟩ : BufTy).Contents (Elt F) → (⟨S64, .f32⟩ : BufTy).Contents (Elt F)),
    StableHlo.unary main_v106 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v108 main_v109 (mulf : (⟨S100000x64, .f32⟩ : BufTy).Contents (Elt F) → (⟨S100000x64, .f32⟩ : BufTy).Contents (Elt F) → (⟨S100000x64, .f32⟩ : BufTy).Contents (Elt F)),
    StableHlo.unary main_arg16 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (mulf : (⟨S100000x64, .f32⟩ : BufTy).Contents (Elt F) → (⟨S100000x64, .f32⟩ : BufTy).Contents (Elt F) → (⟨S100000x64, .f32⟩ : BufTy).Contents (Elt F)),
    StableHlo.unary main_arg17 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S100000x64 ![0, 1] bcast_S1x64_S100000x64_0_1 : (⟨S1x64, .f32⟩ : BufTy).Contents (Elt F) → (⟨S100000x64, .f32⟩ : BufTy).Contents (Elt F)),
    StableHlo.binary main_v112 main_v114 main_v115 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (StableHlo.TRef.of main_v115 : StableHlo.TRef sig ⟨S100000x64, .f32⟩) main_call5.v0 main_call5.v1 maximumf,
    StableHlo.binary main_v116 main_arg18 main_v117 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg19 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S100000x64 ![0, 1] bcast_S1x64_S100000x64_0_1 : (⟨S1x64, .f32⟩ : BufTy).Contents (Elt F) → (⟨S100000x64, .f32⟩ : BufTy).Contents (Elt F)),
    StableHlo.binary main_v117 main_v119 main_v120 (addf : (⟨S100000x64, .f32⟩ : BufTy).Contents (Elt F) → (⟨S100000x64, .f32⟩ : BufTy).Contents (Elt F) → (⟨S100000x64, .f32⟩ : BufTy).Contents (Elt F)) ]

/-- The program's two hundred and eleven operations, in order. -/
abbrev ops : List (HloOp τ sig (Elt F)) := ops0 ++ ops1 ++ ops2

/-! ## The program is that line -/

/-- Three pieces run in order, each the operations of its stretch run in order, are the three stretches' operations run
    in order as one list. -/
theorem seq_three {n : Nat} {t : Topo} {s : RefSig} {Val : EltTy → Type} {L : Labels}
    (p₀ p₁ p₂ : Prog (TpuEff n t s Val L .tc) PUnit) (w₀ w₁ w₂ : List (HloOp t s Val))
    (h₀ : p₀ = seq w₀) (h₁ : p₁ = seq w₁) (h₂ : p₂ = seq w₂) :
    (p₀ >>= fun _ => p₁ >>= fun _ => p₂) = seq (w₀ ++ w₁ ++ w₂) := by
  subst h₀ h₁ h₂
  rw [seq_append, seq_append]
  simp only [bind_assoc]

set_option maxRecDepth 8192 in
set_option maxHeartbeats 4000000 in
/-- Statements 1 … 60 are `ops0` run in order: each called function unfolded at its call and each record at its fields,
    both sides are one chain of single operations once sequencing is reassociated. -/
theorem part0_eq (c : Dev nD) : main_part0 (F := F) c = seq ops0 := by
  simp only [main_part0, fn_var.body, fn_where.body, fn_relu.body, seq, bind_assoc, pure_bind]
  rfl

set_option maxRecDepth 8192 in
set_option maxHeartbeats 4000000 in
/-- Statements 61 … 120 are `ops1` run in order. -/
theorem part1_eq (c : Dev nD) : main_part1 (F := F) c = seq ops1 := by
  simp only [main_part1, fn_var.body, fn_where.body, fn_relu.body, seq, bind_assoc, pure_bind]
  rfl

set_option maxRecDepth 8192 in
set_option maxHeartbeats 4000000 in
/-- Statements 121 … 143 are `ops2` run in order. -/
theorem part2_eq (c : Dev nD) : main_part2 (F := F) c = seq ops2 := by
  simp only [main_part2, fn_var_0.body, fn_where_1.body, fn_relu_2.body, seq, bind_assoc, pure_bind]

/-- The program is its operations run in order. -/
theorem main_eq (c : Dev nD) : main (F := F) c = seq ops :=
  seq_three (main_part0 c) (main_part1 c) (main_part2 c) ops0 ops1 ops2 (part0_eq c) (part1_eq c) (part2_eq c)

/-! ## The side conditions of a straight line -/

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

set_option maxRecDepth 8192 in
/-- Every operation of `ops0` touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub ..⟩

set_option maxRecDepth 8192 in
/-- Every operation of `ops1` touches TensorCore buffers only. -/
theorem ops1_sub : (ops1 : List (HloOp τ sig (Elt F))).Forall fun op => op.bufs ⊆ tcRefs τ sig :=
  ⟨unary_bufs_sub .., unary_bufs_sub .., ternary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub ..⟩

set_option maxRecDepth 8192 in
/-- Every operation of `ops2` touches TensorCore buffers only. -/
theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

/-- Every operation of the program touches TensorCore buffers only. -/
theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp ops0_sub op h, List.forall_iff_forall_mem.mp ops1_sub op h,
      List.forall_iff_forall_mem.mp ops2_sub op h]

set_option maxRecDepth 8192 in
/-- Every operation of `ops0` determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 8192 in
/-- Every operation of `ops1` determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 8192 in
/-- Every operation of `ops2` determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

/-- Every operation of the program determines what it writes. -/
theorem ops_fresh : ∀ op ∈ (ops : List (HloOp τ sig (Elt F))), op.fresh = ∅ := fun op h => by
  simp only [ops, List.mem_append] at h
  rcases h with (h | h) | h
  exacts [List.forall_iff_forall_mem.mp ops0_fresh op h, List.forall_iff_forall_mem.mp ops1_fresh op h,
    List.forall_iff_forall_mem.mp ops2_fresh op h]

/-! ## The run -/

/-- At the compiled mesh, for any float values, from any memory with zero counters: every weakly fair execution of the
    program on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefTerms.lean ====
/-
  The reference program's result as a term. Each definition transcribes a run of the program's operations, in the
  program's order and with the program's own operations, shape facts and dimension records, the bodies of the functions it
  calls written where they are called: the edge list's source row with negative entries wrapped by the number of nodes
  (`src'`), its destination row (`dstc`), the neighbourhood aggregation at the two feature widths (`agg64`,
  `agg128`), and per layer the pieces of its perceptron with batch normalisation (`preK`, `meanK`, `devK`, `varK`,
  `nrmK`, `reluK`, `linK`) composed as `mlpK`; `net` composes the three layers. A value the program uses more than
  once is written once per use. Definitions only.
-/
import proofs.«151523_j51427938402588_1_alg».proof.ReferenceIdeal

namespace Cert.ReferenceIdeal.RefValue

open Cert.ReferenceIdeal Idealize.ShloMosaic
open Cert.ReferenceIdeal.Facts₀ Cert.ReferenceIdeal.Facts

variable {F : FTy → Type} [FloatOps F] [Facts]

/-- The edge list's first row as a column of row numbers, a negative entry wrapped by adding the number of nodes. -/
noncomputable def src' (ei : IVec S2x1000000 32) : IVec S1000000x1 32 :=
  let v1 : IVec S1000000 32 := shapeCast S1000000
    (extractStridedSlice S1x1000000 ![0, 0] ei slices_S2x1000000_S1x1000000_0_0) shapeCasts_S1x1000000_S1000000
  broadcastInDim S1000000x1 ![0] bcast_S1000000_S1000000x1_0
    (select (cmpi .slt v1 (broadcastInDim S1000000 ![] bcast_S_S1000000 (constantI S_ 32 0#32)))
      (addi v1 (broadcastInDim S1000000 ![] bcast_S_S1000000 (constantI S_ 32 100000#32))) v1)

/-- The edge list's second row as a column of row numbers. -/
noncomputable def dstc (ei : IVec S2x1000000 32) : IVec S1000000x1 32 :=
  broadcastInDim S1000000x1 ![0] bcast_S1000000_S1000000x1_0
    (shapeCast S1000000 (extractStridedSlice S1x1000000 ![1, 0] ei slices_S2x1000000_S1x1000000_1_0)
      shapeCasts_S1x1000000_S1000000)

/-- Neighbourhood aggregation at width 64: the features plus, accumulated at each edge's destination row from
    zero, the features gathered at the edge's (wrapped) source row. -/
noncomputable def agg64 (H : FVec F S100000x64 .f32) (ei : IVec S2x1000000 32) : FVec F S100000x64 .f32 :=
  addf H (Host.scatterAdd scatter_S100000x64_S1000000x1_S1000000x64_1_0_0_1 (broadcastInDim S100000x64 ![] bcast_S_S100000x64 (constant S_ .f32 0x00000000#32)) (dstc ei)
    (Host.gather gather_S100000x64_S1000000x1_S1000000x64_1_0_n_n_0_1_164 H (src' ei)))

/-- Neighbourhood aggregation at width 128: the features plus, accumulated at each edge's destination row from
    zero, the features gathered at the edge's (wrapped) source row. -/
noncomputable def agg128 (H : FVec F S100000x128 .f32) (ei : IVec S2x1000000 32) : FVec F S100000x128 .f32 :=
  addf H (Host.scatterAdd scatter_S100000x128_S1000000x1_S1000000x128_1_0_0_1 (broadcastInDim S100000x128 ![] bcast_S_S100000x128 (constant S_ .f32 0x00000000#32)) (dstc ei)
    (Host.gather gather_S100000x128_S1000000x1_S1000000x128_1_0_n_n_0_1_1128 H (src' ei)))

/-- The variance function's divisor: the number of rows less the correction, the correction an integer made a float. -/
noncomputable def cnt (c : IVec S_ 32) : FVec F S_ .f32 :=
  subf (constant S_ .f32 0x47C35000#32) (sitofp .f32 c)

/-! ### Layer 0: 64 features in, 128 hidden, 128 out -/

/-- The first linear map: the product plus the bias laid along the rows. -/
noncomputable def pre0 (A : FVec F S100000x64 .f32) (w1 : FVec F S64x128 .f32) (b1 : FVec F S128 .f32) : FVec F S100000x128 .f32 :=
  addf (Host.dotGeneral dot_S100000x64_S64x128_S100000x128_1_0_0_1_n_n none A w1) (broadcastInDim S100000x128 ![0, 1] bcast_S1x128_S100000x128_0_1 (broadcastInDim S1x128 ![1] bcast_S128_S1x128_1 b1))

/-- The column mean: the sum over the rows from zero, divided by the number of rows. -/
noncomputable def mean0 (P : FVec F S100000x128 .f32) : FVec F S128 .f32 :=
  Host.divf (Host.reduceAdd P (constant S_ .f32 0x00000000#32) reducesTo_S100000x128_S128_d0 h_S_) (broadcastInDim S128 ![] bcast_S_S128 (constant S_ .f32 0x47C35000#32))

/-- The variance function's deviations: the array less its column mean, the mean taken through a one-row array and
    laid along the rows. -/
noncomputable def dev0 (P : FVec F S100000x128 .f32) : FVec F S100000x128 .f32 :=
  subf P (broadcastInDim S100000x128 ![0, 1] bcast_S1x128_S100000x128_0_1
    (Host.divf (broadcastInDim S1x128 ![1] bcast_S128_S1x128_1 (Host.reduceAdd P (constant S_ .f32 0x00000000#32) reducesTo_S100000x128_S128_d0 h_S_))
      (broadcastInDim S1x128 ![] bcast_S_S1x128 (constant S_ .f32 0x47C35000#32))))

/-- The variance function of an array and a correction: the squared deviations summed over the rows from zero, divided
    by the number of rows less the correction; kept where that divisor is positive, the other constant elsewhere. -/
noncomputable def var0 (P : FVec F S100000x128 .f32) (c : IVec S_ 32) : FVec F S128 .f32 :=
  select (broadcastInDim S128 ![] bcast_S_S128 (cmpf .ogt (cnt (F := F) c) (constant S_ .f32 0x00000000#32)))
    (Host.divf (Host.reduceAdd (mulf (dev0 P) (dev0 P)) (constant S_ .f32 0x00000000#32) reducesTo_S100000x128_S128_d0 h_S_)
      (broadcastInDim S128 ![] bcast_S_S128 (cnt c)))
    (broadcastInDim S128 ![] bcast_S_S128 (id (constant S_ .f32 0x7FC00000#32)))

/-- Normalisation: the deviation from the mean, times the reciprocal root of variance plus epsilon, times the scale,
    plus the shift, each vector laid along the rows. -/
noncomputable def nrm0 (P : FVec F S100000x128 .f32) (mu va g be : FVec F S128 .f32) : FVec F S100000x128 .f32 :=
  addf (mulf (mulf (subf P (broadcastInDim S100000x128 ![0, 1] bcast_S1x128_S100000x128_0_1 (broadcastInDim S1x128 ![1] bcast_S128_S1x128_1 mu)))
      (broadcastInDim S100000x128 ![0, 1] bcast_S1x128_S100000x128_0_1 (broadcastInDim S1x128 ![1] bcast_S128_S1x128_1 (Host.rsqrt (addf va (broadcastInDim S128 ![] bcast_S_S128 (constant S_ .f32 0x3727C5AC#32)))))))
    (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))

/-- The maximum with zero. -/
noncomputable def relu0 (Y : FVec F S100000x128 .f32) : FVec F S100000x128 .f32 :=
  maximumf Y (broadcastInDim S100000x128 ![] bcast_S_S100000x128 (constant S_ .f32 0x00000000#32))

/-- The second linear map. -/
noncomputable def lin0 (R : FVec F S100000x128 .f32) (w2 : FVec F S128x128 .f32) (b2 : FVec F S128 .f32) : FVec F S100000x128 .f32 :=
  addf (Host.dotGeneral dot_S100000x128_S128x128_S100000x128_1_0_0_1_n_n none R w2)
    (broadcastInDim S100000x128 ![0, 1] bcast_S1x128_S100000x128_0_1 (broadcastInDim S1x128 ![1] bcast_S128_S1x128_1 b2))

/-- The layer's perceptron: the pieces above composed in the program's order (the correction passed to the variance
    function is the integer zero). -/
noncomputable def mlp0 (A : FVec F S100000x64 .f32) (w1 : FVec F S64x128 .f32) (b1 g be : FVec F S128 .f32)
    (w2 : FVec F S128x128 .f32) (b2 : FVec F S128 .f32) : FVec F S100000x128 .f32 :=
  lin0 (relu0 (nrm0 (pre0 A w1 b1) (mean0 (pre0 A w1 b1)) (var0 (pre0 A w1 b1) (constantI S_ 32 0#32)) g be)) w2 b2

/-! ### Layer 1: 128 features in, 128 hidden, 128 out -/

/-- The first linear map: the product plus the bias laid along the rows. -/
noncomputable def pre1 (A : FVec F S100000x128 .f32) (w1 : FVec F S128x128 .f32) (b1 : FVec F S128 .f32) : FVec F S100000x128 .f32 :=
  addf (Host.dotGeneral dot_S100000x128_S128x128_S100000x128_1_0_0_1_n_n none A w1) (broadcastInDim S100000x128 ![0, 1] bcast_S1x128_S100000x128_0_1 (broadcastInDim S1x128 ![1] bcast_S128_S1x128_1 b1))

/-- The column mean: the sum over the rows from zero, divided by the number of rows. -/
noncomputable def mean1 (P : FVec F S100000x128 .f32) : FVec F S128 .f32 :=
  Host.divf (Host.reduceAdd P (constant S_ .f32 0x00000000#32) reducesTo_S100000x128_S128_d0 h_S_) (broadcastInDim S128 ![] bcast_S_S128 (constant S_ .f32 0x47C35000#32))

/-- The variance function's deviations: the array less its column mean, the mean taken through a one-row array and
    laid along the rows. -/
noncomputable def dev1 (P : FVec F S100000x128 .f32) : FVec F S100000x128 .f32 :=
  subf P (broadcastInDim S100000x128 ![0, 1] bcast_S1x128_S100000x128_0_1
    (Host.divf (broadcastInDim S1x128 ![1] bcast_S128_S1x128_1 (Host.reduceAdd P (constant S_ .f32 0x00000000#32) reducesTo_S100000x128_S128_d0 h_S_))
      (broadcastInDim S1x128 ![] bcast_S_S1x128 (constant S_ .f32 0x47C35000#32))))

/-- The variance function of an array and a correction: the squared deviations summed over the rows from zero, divided
    by the number of rows less the correction; kept where that divisor is positive, the other constant elsewhere. -/
noncomputable def var1 (P : FVec F S100000x128 .f32) (c : IVec S_ 32) : FVec F S128 .f32 :=
  select (broadcastInDim S128 ![] bcast_S_S128 (cmpf .ogt (cnt (F := F) c) (constant S_ .f32 0x00000000#32)))
    (Host.divf (Host.reduceAdd (mulf (dev1 P) (dev1 P)) (constant S_ .f32 0x00000000#32) reducesTo_S100000x128_S128_d0 h_S_)
      (broadcastInDim S128 ![] bcast_S_S128 (cnt c)))
    (broadcastInDim S128 ![] bcast_S_S128 (id (constant S_ .f32 0x7FC00000#32)))

/-- Normalisation: the deviation from the mean, times the reciprocal root of variance plus epsilon, times the scale,
    plus the shift, each vector laid along the rows. -/
noncomputable def nrm1 (P : FVec F S100000x128 .f32) (mu va g be : FVec F S128 .f32) : FVec F S100000x128 .f32 :=
  addf (mulf (mulf (subf P (broadcastInDim S100000x128 ![0, 1] bcast_S1x128_S100000x128_0_1 (broadcastInDim S1x128 ![1] bcast_S128_S1x128_1 mu)))
      (broadcastInDim S100000x128 ![0, 1] bcast_S1x128_S100000x128_0_1 (broadcastInDim S1x128 ![1] bcast_S128_S1x128_1 (Host.rsqrt (addf va (broadcastInDim S128 ![] bcast_S_S128 (constant S_ .f32 0x3727C5AC#32)))))))
    (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))

/-- The maximum with zero. -/
noncomputable def relu1 (Y : FVec F S100000x128 .f32) : FVec F S100000x128 .f32 :=
  maximumf Y (broadcastInDim S100000x128 ![] bcast_S_S100000x128 (constant S_ .f32 0x00000000#32))

/-- The second linear map. -/
noncomputable def lin1 (R : FVec F S100000x128 .f32) (w2 : FVec F S128x128 .f32) (b2 : FVec F S128 .f32) : FVec F S100000x128 .f32 :=
  addf (Host.dotGeneral dot_S100000x128_S128x128_S100000x128_1_0_0_1_n_n none R w2)
    (broadcastInDim S100000x128 ![0, 1] bcast_S1x128_S100000x128_0_1 (broadcastInDim S1x128 ![1] bcast_S128_S1x128_1 b2))

/-- The layer's perceptron: the pieces above composed in the program's order (the correction passed to the variance
    function is the integer zero). -/
noncomputable def mlp1 (A : FVec F S100000x128 .f32) (w1 : FVec F S128x128 .f32) (b1 g be : FVec F S128 .f32)
    (w2 : FVec F S128x128 .f32) (b2 : FVec F S128 .f32) : FVec F S100000x128 .f32 :=
  lin1 (relu1 (nrm1 (pre1 A w1 b1) (mean1 (pre1 A w1 b1)) (var1 (pre1 A w1 b1) (constantI S_ 32 0#32)) g be)) w2 b2

/-! ### Layer 2: 128 features in, 64 hidden, 64 out -/

/-- The first linear map: the product plus the bias laid along the rows. -/
noncomputable def pre2 (A : FVec F S100000x128 .f32) (w1 : FVec F S128x64 .f32) (b1 : FVec F S64 .f32) : FVec F S100000x64 .f32 :=
  addf (Host.dotGeneral dot_S100000x128_S128x64_S100000x64_1_0_0_1_n_n none A w1) (broadcastInDim S100000x64 ![0, 1] bcast_S1x64_S100000x64_0_1 (broadcastInDim S1x64 ![1] bcast_S64_S1x64_1 b1))

/-- The column mean: the sum over the rows from zero, divided by the number of rows. -/
noncomputable def mean2 (P : FVec F S100000x64 .f32) : FVec F S64 .f32 :=
  Host.divf (Host.reduceAdd P (constant S_ .f32 0x00000000#32) reducesTo_S100000x64_S64_d0 h_S_) (broadcastInDim S64 ![] bcast_S_S64 (constant S_ .f32 0x47C35000#32))

/-- The variance function's deviations: the array less its column mean, the mean taken through a one-row array and
    laid along the rows. -/
noncomputable def dev2 (P : FVec F S100000x64 .f32) : FVec F S100000x64 .f32 :=
  subf P (broadcastInDim S100000x64 ![0, 1] bcast_S1x64_S100000x64_0_1
    (Host.divf (broadcastInDim S1x64 ![1] bcast_S64_S1x64_1 (Host.reduceAdd P (constant S_ .f32 0x00000000#32) reducesTo_S100000x64_S64_d0 h_S_))
      (broadcastInDim S1x64 ![] bcast_S_S1x64 (constant S_ .f32 0x47C35000#32))))

/-- The variance function of an array and a correction: the squared deviations summed over the rows from zero, divided
    by the number of rows less the correction; kept where that divisor is positive, the other constant elsewhere. -/
noncomputable def var2 (P : FVec F S100000x64 .f32) (c : IVec S_ 32) : FVec F S64 .f32 :=
  select (broadcastInDim S64 ![] bcast_S_S64 (cmpf .ogt (cnt (F := F) c) (constant S_ .f32 0x00000000#32)))
    (Host.divf (Host.reduceAdd (mulf (dev2 P) (dev2 P)) (constant S_ .f32 0x00000000#32) reducesTo_S100000x64_S64_d0 h_S_)
      (broadcastInDim S64 ![] bcast_S_S64 (cnt c)))
    (broadcastInDim S64 ![] bcast_S_S64 (id (constant S_ .f32 0x7FC00000#32)))

/-- Normalisation: the deviation from the mean, times the reciprocal root of variance plus epsilon, times the scale,
    plus the shift, each vector laid along the rows. -/
noncomputable def nrm2 (P : FVec F S100000x64 .f32) (mu va g be : FVec F S64 .f32) : FVec F S100000x64 .f32 :=
  addf (mulf (mulf (subf P (broadcastInDim S100000x64 ![0, 1] bcast_S1x64_S100000x64_0_1 (broadcastInDim S1x64 ![1] bcast_S64_S1x64_1 mu)))
      (broadcastInDim S100000x64 ![0, 1] bcast_S1x64_S100000x64_0_1 (broadcastInDim S1x64 ![1] bcast_S64_S1x64_1 (Host.rsqrt (addf va (broadcastInDim S64 ![] bcast_S_S64 (constant S_ .f32 0x3727C5AC#32)))))))
    (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 be))

/-- The maximum with zero. -/
noncomputable def relu2 (Y : FVec F S100000x64 .f32) : FVec F S100000x64 .f32 :=
  maximumf Y (broadcastInDim S100000x64 ![] bcast_S_S100000x64 (constant S_ .f32 0x00000000#32))

/-- The second linear map. -/
noncomputable def lin2 (R : FVec F S100000x64 .f32) (w2 : FVec F S64x64 .f32) (b2 : FVec F S64 .f32) : FVec F S100000x64 .f32 :=
  addf (Host.dotGeneral dot_S100000x64_S64x64_S100000x64_1_0_0_1_n_n none R w2)
    (broadcastInDim S100000x64 ![0, 1] bcast_S1x64_S100000x64_0_1 (broadcastInDim S1x64 ![1] bcast_S64_S1x64_1 b2))

/-- The layer's perceptron: the pieces above composed in the program's order (the correction passed to the variance
    function is the integer zero). -/
noncomputable def mlp2 (A : FVec F S100000x128 .f32) (w1 : FVec F S128x64 .f32) (b1 g be : FVec F S64 .f32)
    (w2 : FVec F S64x64 .f32) (b2 : FVec F S64 .f32) : FVec F S100000x64 .f32 :=
  lin2 (relu2 (nrm2 (pre2 A w1 b1) (mean2 (pre2 A w1 b1)) (var2 (pre2 A w1 b1) (constantI S_ 32 0#32)) g be)) w2 b2

/-- The three layers: aggregate, then the layer's perceptron, three times. -/
noncomputable def net (x : FVec F S100000x64 .f32) (ei : IVec S2x1000000 32)
    (w1_0 : FVec F S64x128 .f32) (b1_0 g_0 be_0 : FVec F S128 .f32) (w2_0 : FVec F S128x128 .f32) (b2_0 : FVec F S128 .f32)
    (w1_1 : FVec F S128x128 .f32) (b1_1 g_1 be_1 : FVec F S128 .f32) (w2_1 : FVec F S128x128 .f32) (b2_1 : FVec F S128 .f32)
    (w1_2 : FVec F S128x64 .f32) (b1_2 g_2 be_2 : FVec F S64 .f32) (w2_2 : FVec F S64x64 .f32) (b2_2 : FVec F S64 .f32) :
    FVec F S100000x64 .f32 :=
  mlp2 (agg128 (mlp1 (agg128 (mlp0 (agg64 x ei) w1_0 b1_0 g_0 be_0 w2_0 b2_0) ei) w1_1 b1_1 g_1 be_1 w2_1 b2_1) ei)
    w1_2 b1_2 g_2 be_2 w2_2 b2_2

end Cert.ReferenceIdeal.RefValue
-- ==== Proof.LibFoldCuts.lean ====
import Idealize.ShloMosaic.Lib.StableHlo.Run

/-!
# A line of host operations read one stretch at a time

What a line of host operations leaves in the buffers is a fold over the line (`StableHlo.after`). The fold over a line cut
in two is the fold over the second part from what the first part leaves; so a long line can be read stretch by stretch,
each stretch a sub-list taken by position (`List.take` / `List.drop`), without ever unfolding the whole line. This is what
lets two programs that apply the same host operations between different matrix products be compared section by section:
on each section, rewrite both folds to their composed terms, replace the entry buffers that are known to agree, and close
by reflexivity.

* `FoldCuts.after_app`: two lines run one after the other.
* `FoldCuts.after_split`: a line cut after its first `n` operations.
* `FoldCuts.after_cut`: the rest of a line from position `a`, cut `n` operations further on at `b = a + n`.
* `FoldCuts.concat_two_congr`: a concatenation of two pieces depends only on the pieces. A rewriting pass cannot enter the
  list of pieces because the concatenation's side condition is stated over that list; this lemma crosses it.
-/

namespace FoldCuts

open Idealize.ShloMosaic Idealize.ShloMosaic.StableHlo

variable {τ : Topo} {sig : RefSig} {Val : EltTy → Type}

/-- Two lines run one after the other leave what the second leaves from what the first leaves. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line cut after its first `n` operations. -/
theorem after_split (n : ℕ) (l : List (HloOp τ sig Val)) (V : Valuation τ sig Val) :
    after l V = after (l.drop n) (after (l.take n) V) := by
  conv_lhs => rw [← List.take_append_drop n l]
  exact after_app _ _ _

/-- The rest of a line from position `a`, cut `n` operations further on. -/
theorem after_cut (a n b : ℕ) (h : a + n = b) (l : List (HloOp τ sig Val)) (V : Valuation τ sig Val) :
    after (l.drop a) V = after (l.drop b) (after ((l.drop a).take n) V) := by
  subst h
  have hd : (l.drop a).drop n = l.drop (a + n) := by simp [List.drop_drop, Nat.add_comm]
  rw [after_split n (l.drop a) V, hd]

/-- A concatenation of two pieces depends only on the pieces. -/
theorem concat_two_congr {α : Type} (t : Shape) (a : Fin t.rank) (s₁ s₂ : Shape) (x x' : s₁.Idx → α) (y y' : s₂.Idx → α)
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end FoldCuts
-- ==== Proof.RefOut.lean ====
/-
  The reference program's result, read off its line of host operations.

  The line of two hundred and eleven operations is cut at the six places where a round's sum over incoming edges or a
  round's maps are complete. What a stretch leaves in the buffer it ends on is one function of what it found in a few
  buffers when it began — the previous stretch's result, the edge table's two rows, its own arguments — and every buffer
  it does not write keeps its contents. Composing the six gives the program's result as the three rounds applied in
  turn to the arguments' launch contents, with every argument unchanged.
-/
import proofs.«151523_j51427938402588_1_alg».proof.Proof.RefRun
import proofs.«151523_j51427938402588_1_alg».proof.Proof.RefTerms
import proofs.«151523_j51427938402588_1_alg».proof.Proof.LibFoldCuts

noncomputable section

namespace Cert.ReferenceIdeal.RefOut

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-! ## The six stretches -/

/-- The edge table's two rows as vectors; the first row's negative entries moved up by the number of nodes, as a column; the features' rows gathered there, summed from zero onto the second row's positions, and added to the features. (18 operations.) -/
abbrev stA : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_c (constantI S_ 32 0#32),
    StableHlo.unary main_c main_v4 (broadcastInDim S1000000 ![] bcast_S_S1000000 : (⟨S_, .i32⟩ : BufTy).Contents (Elt F) → (⟨S1000000, .i32⟩ : BufTy).Contents (Elt F)),
    StableHlo.binary main_v1 main_v4 main_v5 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v6 (broadcastInDim S1000000 ![] bcast_S_S1000000 : (⟨S_, .i32⟩ : BufTy).Contents (Elt F) → (⟨S1000000, .i32⟩ : BufTy).Contents (Elt F)),
    StableHlo.binary main_v1 main_v6 main_v7 (addi : (⟨S1000000, .i32⟩ : BufTy).Contents (Elt F) → (⟨S1000000, .i32⟩ : BufTy).Contents (Elt F) → (⟨S1000000, .i32⟩ : BufTy).Contents (Elt F)),
    StableHlo.ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v8 main_v9 (broadcastInDim S1000000x1 ![0] bcast_S1000000_S1000000x1_0 : (⟨S1000000, .i32⟩ : BufTy).Contents (Elt F) → (⟨S1000000x1, .i32⟩ : BufTy).Contents (Elt F)),
    StableHlo.binary main_arg0 main_v9 main_v10 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1000000x1 ![0] bcast_S1000000_S1000000x1_0 : (⟨S1000000, .i32⟩ : BufTy).Contents (Elt F) → (⟨S1000000x1, .i32⟩ : BufTy).Contents (Elt F)),
    StableHlo.ternary main_v11 main_v12 main_v10 main_v13 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)) ]

/-- The first round's maps on the summed features: linear map and bias, column mean, column variance, normalization with scale and shift, positive part, linear map and bias. (55 operations.) -/
abbrev stB : List (HloOp τ sig (Elt F)) :=
  [ StableHlo.binary main_v14 main_arg2 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (StableHlo.TRef.of main_v18 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v18 : StableHlo.TRef sig ⟨S100000x128, .f32⟩) main_call0.v4 main_call0.v5 subf,
    StableHlo.TRef.binary main_call0.v5 main_call0.v5 main_call0.v6 mulf,
    StableHlo.TRef.unary (StableHlo.TRef.of main_c_3 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v24 main_v25 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v25 main_v30 main_v31 (mulf : (⟨S100000x128, .f32⟩ : BufTy).Contents (Elt F) → (⟨S100000x128, .f32⟩ : BufTy).Contents (Elt F) → (⟨S100000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v37 : StableHlo.TRef sig ⟨S100000x128, .f32⟩) main_call1.v0 main_call1.v1 maximumf,
    StableHlo.binary main_v38 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v41 main_v42 (addf : (⟨S100000x128, .f32⟩ : BufTy).Contents (Elt F) → (⟨S100000x128, .f32⟩ : BufTy).Contents (Elt F) → (⟨S100000x128, .f32⟩ : BufTy).Contents (Elt F)) ]

/-- The second round's sum over incoming edges: the first row's entries moved into range again, the rows gathered there, summed from zero onto the second row's positions, and added. (14 operations.) -/
abbrev stC : List (HloOp τ sig (Elt F)) :=
  [ StableHlo.nullary main_c_5 (constantI S_ 32 0#32),
    StableHlo.unary main_c_5 main_v43 (broadcastInDim S1000000 ![] bcast_S_S1000000 : (⟨S_, .i32⟩ : BufTy).Contents (Elt F) → (⟨S1000000, .i32⟩ : BufTy).Contents (Elt F)),
    StableHlo.binary main_v1 main_v43 main_v44 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v45 (broadcastInDim S1000000 ![] bcast_S_S1000000 : (⟨S_, .i32⟩ : BufTy).Contents (Elt F) → (⟨S1000000, .i32⟩ : BufTy).Contents (Elt F)),
    StableHlo.binary main_v1 main_v45 main_v46 (addi : (⟨S1000000, .i32⟩ : BufTy).Contents (Elt F) → (⟨S1000000, .i32⟩ : BufTy).Contents (Elt F) → (⟨S1000000, .i32⟩ : BufTy).Contents (Elt F)),
    StableHlo.ternary main_v44 main_v46 main_v1 main_v47 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v47 main_v48 (broadcastInDim S1000000x1 ![0] bcast_S1000000_S1000000x1_0 : (⟨S1000000, .i32⟩ : BufTy).Contents (Elt F) → (⟨S1000000x1, .i32⟩ : BufTy).Contents (Elt F)),
    StableHlo.binary main_v42 main_v48 main_v49 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_7 (constant S_ .f32 0x00000000#32),
    StableHlo.unary main_cst_7 main_v50 (broadcastInDim S100000x128 ![] bcast_S_S100000x128 : (⟨S_, .f32⟩ : BufTy).Contents (Elt F) → (⟨S100000x128, .f32⟩ : BufTy).Contents (Elt F)),
    StableHlo.unary main_v3 main_v51 (broadcastInDim S1000000x1 ![0] bcast_S1000000_S1000000x1_0 : (⟨S1000000, .i32⟩ : BufTy).Contents (Elt F) → (⟨S1000000x1, .i32⟩ : BufTy).Contents (Elt F)),
    StableHlo.ternary main_v50 main_v51 main_v49 main_v52 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.binary main_v42 main_v52 main_v53 (addf : (⟨S100000x128, .f32⟩ : BufTy).Contents (Elt F) → (⟨S100000x128, .f32⟩ : BufTy).Contents (Elt F) → (⟨S100000x128, .f32⟩ : BufTy).Contents (Elt F)) ]

/-- The second round's maps, as the first's at 128 columns throughout. (55 operations.) -/
abbrev stD : List (HloOp τ sig (Elt F)) :=
  [ StableHlo.binary main_v53 main_arg8 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v57 main_cst_8 main_v58 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v59 (broadcastInDim S128 ![] bcast_S_S128 : (⟨S_, .f32⟩ : BufTy).Contents (Elt F) → (⟨S128, .f32⟩ : BufTy).Contents (Elt F)),
    StableHlo.binary main_v58 main_v59 main_v60 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (StableHlo.TRef.of main_v57 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v57 : StableHlo.TRef sig ⟨S100000x128, .f32⟩) main_call2.v4 main_call2.v5 subf,
    StableHlo.TRef.binary main_call2.v5 main_call2.v5 main_call2.v6 mulf,
    StableHlo.TRef.unary (StableHlo.TRef.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v60 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v63 main_v64 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v65 (broadcastInDim S128 ![] bcast_S_S128 : (⟨S_, .f32⟩ : BufTy).Contents (Elt F) → (⟨S128, .f32⟩ : BufTy).Contents (Elt F)),
    StableHlo.binary main_v61 main_v65 main_v66 (addf : (⟨S128, .f32⟩ : BufTy).Contents (Elt F) → (⟨S128, .f32⟩ : BufTy).Contents (Elt F) → (⟨S128, .f32⟩ : BufTy).Contents (Elt F)),
    StableHlo.unary main_v66 main_v67 (Host.rsqrt : (⟨S128, .f32⟩ : BufTy).Contents (Elt F) → (⟨S128, .f32⟩ : BufTy).Contents (Elt F)),
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v69 main_v70 (mulf : (⟨S100000x128, .f32⟩ : BufTy).Contents (Elt F) → (⟨S100000x128, .f32⟩ : BufTy).Contents (Elt F) → (⟨S100000x128, .f32⟩ : BufTy).Contents (Elt F)),
    StableHlo.unary main_arg10 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v72 main_v73 (mulf : (⟨S100000x128, .f32⟩ : BufTy).Contents (Elt F) → (⟨S100000x128, .f32⟩ : BufTy).Contents (Elt F) → (⟨S100000x128, .f32⟩ : BufTy).Contents (Elt F)),
    StableHlo.unary main_arg11 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v75 main_v76 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v76 : StableHlo.TRef sig ⟨S100000x128, .f32⟩) main_call3.v0 main_call3.v1 maximumf,
    StableHlo.binary main_v77 main_arg12 main_v78 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (addf : (⟨S100000x128, .f32⟩ : BufTy).Contents (Elt F) → (⟨S100000x128, .f32⟩ : BufTy).Contents (Elt F) → (⟨S100000x128, .f32⟩ : BufTy).Contents (Elt F)) ]

/-- The third round's sum over incoming edges. (14 operations.) -/
abbrev stE : List (HloOp τ sig (Elt F)) :=
  [ StableHlo.nullary main_c_12 (constantI S_ 32 0#32),
    StableHlo.unary main_c_12 main_v82 (broadcastInDim S1000000 ![] bcast_S_S1000000 : (⟨S_, .i32⟩ : BufTy).Contents (Elt F) → (⟨S1000000, .i32⟩ : BufTy).Contents (Elt F)),
    StableHlo.binary main_v1 main_v82 main_v83 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 100000#32),
    StableHlo.unary main_c_13 main_v84 (broadcastInDim S1000000 ![] bcast_S_S1000000 : (⟨S_, .i32⟩ : BufTy).Contents (Elt F) → (⟨S1000000, .i32⟩ : BufTy).Contents (Elt F)),
    StableHlo.binary main_v1 main_v84 main_v85 (addi : (⟨S1000000, .i32⟩ : BufTy).Contents (Elt F) → (⟨S1000000, .i32⟩ : BufTy).Contents (Elt F) → (⟨S1000000, .i32⟩ : BufTy).Contents (Elt F)),
    StableHlo.ternary main_v83 main_v85 main_v1 main_v86 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v86 main_v87 (broadcastInDim S1000000x1 ![0] bcast_S1000000_S1000000x1_0 : (⟨S1000000, .i32⟩ : BufTy).Contents (Elt F) → (⟨S1000000x1, .i32⟩ : BufTy).Contents (Elt F)),
    StableHlo.binary main_v81 main_v87 main_v88 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.nullary main_cst_14 (constant S_ .f32 0x00000000#32),
    StableHlo.unary main_cst_14 main_v89 (broadcastInDim S100000x128 ![] bcast_S_S100000x128 : (⟨S_, .f32⟩ : BufTy).Contents (Elt F) → (⟨S100000x128, .f32⟩ : BufTy).Contents (Elt F)),
    StableHlo.unary main_v3 main_v90 (broadcastInDim S1000000x1 ![0] bcast_S1000000_S1000000x1_0 : (⟨S1000000, .i32⟩ : BufTy).Contents (Elt F) → (⟨S1000000x1, .i32⟩ : BufTy).Contents (Elt F)),
    StableHlo.ternary main_v89 main_v90 main_v88 main_v91 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.binary main_v81 main_v91 main_v92 (addf : (⟨S100000x128, .f32⟩ : BufTy).Contents (Elt F) → (⟨S100000x128, .f32⟩ : BufTy).Contents (Elt F) → (⟨S100000x128, .f32⟩ : BufTy).Contents (Elt F)) ]

/-- The third round's maps, onto 64 columns: the result. (55 operations.) -/
abbrev stF : List (HloOp τ sig (Elt F)) :=
  [ StableHlo.binary main_v92 main_arg14 main_v93 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg15 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v95 main_v96 (addf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x00000000#32),
    StableHlo.binary main_v96 main_cst_15 main_v97 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v98 (broadcastInDim S64 ![] bcast_S_S64 : (⟨S_, .f32⟩ : BufTy).Contents (Elt F) → (⟨S64, .f32⟩ : BufTy).Contents (Elt F)),
    StableHlo.binary main_v97 main_v98 main_v99 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call4.cst (constant S_ .f32 0x00000000#32),
    StableHlo.TRef.binary (StableHlo.TRef.of main_v96 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (StableHlo.TRef.of main_v96 : StableHlo.TRef sig ⟨S100000x64, .f32⟩) main_call4.v4 main_call4.v5 subf,
    StableHlo.TRef.binary main_call4.v5 main_call4.v5 main_call4.v6 mulf,
    StableHlo.TRef.unary (StableHlo.TRef.of main_c_17 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v99 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v102 main_v103 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v104 (broadcastInDim S64 ![] bcast_S_S64 : (⟨S_, .f32⟩ : BufTy).Contents (Elt F) → (⟨S64, .f32⟩ : BufTy).Contents (Elt F)),
    StableHlo.binary main_v100 main_v104 main_v105 (addf : (⟨S64, .f32⟩ : BufTy).Contents (Elt F) → (⟨S64, .f32⟩ : BufTy).Contents (Elt F) → (⟨S64, .f32⟩ : BufTy).Contents (Elt F)),
    StableHlo.unary main_v105 main_v106 (Host.rsqrt : (⟨S64, .f32⟩ : BufTy).Contents (Elt F) → (⟨S64, .f32⟩ : BufTy).Contents (Elt F)),
    StableHlo.unary main_v106 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v108 main_v109 (mulf : (⟨S100000x64, .f32⟩ : BufTy).Contents (Elt F) → (⟨S100000x64, .f32⟩ : BufTy).Contents (Elt F) → (⟨S100000x64, .f32⟩ : BufTy).Contents (Elt F)),
    StableHlo.unary main_arg16 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v111 main_v112 (mulf : (⟨S100000x64, .f32⟩ : BufTy).Contents (Elt F) → (⟨S100000x64, .f32⟩ : BufTy).Contents (Elt F) → (⟨S100000x64, .f32⟩ : BufTy).Contents (Elt F)),
    StableHlo.unary main_arg17 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S100000x64 ![0, 1] bcast_S1x64_S100000x64_0_1 : (⟨S1x64, .f32⟩ : BufTy).Contents (Elt F) → (⟨S100000x64, .f32⟩ : BufTy).Contents (Elt F)),
    StableHlo.binary main_v112 main_v114 main_v115 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (StableHlo.TRef.of main_v115 : StableHlo.TRef sig ⟨S100000x64, .f32⟩) main_call5.v0 main_call5.v1 maximumf,
    StableHlo.binary main_v116 main_arg18 main_v117 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg19 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S100000x64 ![0, 1] bcast_S1x64_S100000x64_0_1 : (⟨S1x64, .f32⟩ : BufTy).Contents (Elt F) → (⟨S100000x64, .f32⟩ : BufTy).Contents (Elt F)),
    StableHlo.binary main_v117 main_v119 main_v120 (addf : (⟨S100000x64, .f32⟩ : BufTy).Contents (Elt F) → (⟨S100000x64, .f32⟩ : BufTy).Contents (Elt F) → (⟨S100000x64, .f32⟩ : BufTy).Contents (Elt F)) ]

/-- The program's line is the six stretches one after the other: both sides are the same list of operations. -/
theorem ops_cut : (ops : List (HloOp τ sig (Elt F))) = stA ++ stB ++ stC ++ stD ++ stE ++ stF := by
  simp only [ops, ops0, ops1, ops2, stA, stB, stC, stD, stE, stF, List.cons_append, List.nil_append]

/-! ## What each stretch writes, and what it therefore keeps -/

/-- An operation that writes one buffer writes inside a list that holds that buffer. -/
local macro "writes_one" : tactic =>
  `(tactic| (simp only [nullary_writes, unary_writes, binary_writes, ternary_writes, reshape_writes,
      Finset.singleton_subset_iff, List.mem_toFinset]; exact List.mem_map_of_mem (by decide)))

/-- The buffers stretch A writes, in order. -/
abbrev WA : List (Ref sig .tc) :=
  [main_v0, main_v1, main_v2, main_v3, main_c, main_v4, main_v5, main_c_0,
    main_v6, main_v7, main_v8, main_v9, main_v10, main_cst, main_v11, main_v12,
    main_v13, main_v14]

set_option maxRecDepth 8192 in
theorem stA_writes : (stA : List (HloOp τ sig (Elt F))).Forall fun op =>
    op.writes ⊆ (WA.map (Proc.devRef (τ := τ) .tc)).toFinset := by
  simp only [List.Forall]
  exact
    ⟨by writes_one, by writes_one, by writes_one, by writes_one, by writes_one, by writes_one,
      by writes_one, by writes_one, by writes_one, by writes_one, by writes_one, by writes_one,
      by writes_one, by writes_one, by writes_one, by writes_one, by writes_one, by writes_one⟩

/-- A buffer stretch A does not write keeps its contents through it. -/
theorem keepA (W : Valuation τ sig (Elt F)) (r : Ref sig .tc) (h : r ∉ WA) :
    after stA W (Proc.devRef .tc r) = W (Proc.devRef .tc r) :=
  after_of_writes_sub stA W stA_writes h

/-- The buffers stretch B writes, in order. -/
abbrev WB : List (Ref sig .tc) :=
  [main_v15, main_v16, main_v17, main_v18, main_cst_1, main_v19, main_cst_2, main_v20,
    main_v21, main_c_3, main_call0_cst, main_call0_v0, main_call0_v1, main_call0_cst_0, main_call0_v2, main_call0_v3,
    main_call0_v4, main_call0_v5, main_call0_v6, main_call0_v7, main_call0_cst_1, main_call0_v8, main_call0_cst_2, main_call0_v9,
    main_call0_v10, main_call0_v11, main_call0_cst_3, main_call0_v12, main_call0_cst_4, main_call0_call0_v0, main_call0_call0_v1, main_v22,
    main_v23, main_v24, main_v25, main_cst_4, main_v26, main_v27, main_v28, main_v29,
    main_v30, main_v31, main_v32, main_v33, main_v34, main_v35, main_v36, main_v37,
    main_call1_cst, main_call1_v0, main_v38, main_v39, main_v40, main_v41, main_v42]

set_option maxRecDepth 8192 in
theorem stB_writes : (stB : List (HloOp τ sig (Elt F))).Forall fun op =>
    op.writes ⊆ (WB.map (Proc.devRef (τ := τ) .tc)).toFinset := by
  simp only [List.Forall]
  exact
    ⟨by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one⟩

/-- A buffer stretch B does not write keeps its contents through it. -/
theorem keepB (W : Valuation τ sig (Elt F)) (r : Ref sig .tc) (h : r ∉ WB) :
    after stB W (Proc.devRef .tc r) = W (Proc.devRef .tc r) :=
  after_of_writes_sub stB W stB_writes h

/-- The buffers stretch C writes, in order. -/
abbrev WC : List (Ref sig .tc) :=
  [main_c_5, main_v43, main_v44, main_c_6, main_v45, main_v46, main_v47, main_v48,
    main_v49, main_cst_7, main_v50, main_v51, main_v52, main_v53]

set_option maxRecDepth 8192 in
theorem stC_writes : (stC : List (HloOp τ sig (Elt F))).Forall fun op =>
    op.writes ⊆ (WC.map (Proc.devRef (τ := τ) .tc)).toFinset := by
  simp only [List.Forall]
  exact
    ⟨by writes_one, by writes_one, by writes_one, by writes_one, by writes_one, by writes_one,
      by writes_one, by writes_one, by writes_one, by writes_one, by writes_one, by writes_one,
      by writes_one, by writes_one⟩

/-- A buffer stretch C does not write keeps its contents through it. -/
theorem keepC (W : Valuation τ sig (Elt F)) (r : Ref sig .tc) (h : r ∉ WC) :
    after stC W (Proc.devRef .tc r) = W (Proc.devRef .tc r) :=
  after_of_writes_sub stC W stC_writes h

/-- The buffers stretch D writes, in order. -/
abbrev WD : List (Ref sig .tc) :=
  [main_v54, main_v55, main_v56, main_v57, main_cst_8, main_v58, main_cst_9, main_v59,
    main_v60, main_c_10, main_call2_cst, main_call2_v0, main_call2_v1, main_call2_cst_0, main_call2_v2, main_call2_v3,
    main_call2_v4, main_call2_v5, main_call2_v6, main_call2_v7, main_call2_cst_1, main_call2_v8, main_call2_cst_2, main_call2_v9,
    main_call2_v10, main_call2_v11, main_call2_cst_3, main_call2_v12, main_call2_cst_4, main_call2_call0_v0, main_call2_call0_v1, main_v61,
    main_v62, main_v63, main_v64, main_cst_11, main_v65, main_v66, main_v67, main_v68,
    main_v69, main_v70, main_v71, main_v72, main_v73, main_v74, main_v75, main_v76,
    main_call3_cst, main_call3_v0, main_v77, main_v78, main_v79, main_v80, main_v81]

set_option maxRecDepth 8192 in
theorem stD_writes : (stD : List (HloOp τ sig (Elt F))).Forall fun op =>
    op.writes ⊆ (WD.map (Proc.devRef (τ := τ) .tc)).toFinset := by
  simp only [List.Forall]
  exact
    ⟨by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one⟩

/-- A buffer stretch D does not write keeps its contents through it. -/
theorem keepD (W : Valuation τ sig (Elt F)) (r : Ref sig .tc) (h : r ∉ WD) :
    after stD W (Proc.devRef .tc r) = W (Proc.devRef .tc r) :=
  after_of_writes_sub stD W stD_writes h

/-- The buffers stretch E writes, in order. -/
abbrev WE : List (Ref sig .tc) :=
  [main_c_12, main_v82, main_v83, main_c_13, main_v84, main_v85, main_v86, main_v87,
    main_v88, main_cst_14, main_v89, main_v90, main_v91, main_v92]

set_option maxRecDepth 8192 in
theorem stE_writes : (stE : List (HloOp τ sig (Elt F))).Forall fun op =>
    op.writes ⊆ (WE.map (Proc.devRef (τ := τ) .tc)).toFinset := by
  simp only [List.Forall]
  exact
    ⟨by writes_one, by writes_one, by writes_one, by writes_one, by writes_one, by writes_one,
      by writes_one, by writes_one, by writes_one, by writes_one, by writes_one, by writes_one,
      by writes_one, by writes_one⟩

/-- A buffer stretch E does not write keeps its contents through it. -/
theorem keepE (W : Valuation τ sig (Elt F)) (r : Ref sig .tc) (h : r ∉ WE) :
    after stE W (Proc.devRef .tc r) = W (Proc.devRef .tc r) :=
  after_of_writes_sub stE W stE_writes h

/-- The buffers stretch F writes, in order. -/
abbrev WF : List (Ref sig .tc) :=
  [main_v93, main_v94, main_v95, main_v96, main_cst_15, main_v97, main_cst_16, main_v98,
    main_v99, main_c_17, main_call4_cst, main_call4_v0, main_call4_v1, main_call4_cst_0, main_call4_v2, main_call4_v3,
    main_call4_v4, main_call4_v5, main_call4_v6, main_call4_v7, main_call4_cst_1, main_call4_v8, main_call4_cst_2, main_call4_v9,
    main_call4_v10, main_call4_v11, main_call4_cst_3, main_call4_v12, main_call4_cst_4, main_call4_call0_v0, main_call4_call0_v1, main_v100,
    main_v101, main_v102, main_v103, main_cst_18, main_v104, main_v105, main_v106, main_v107,
    main_v108, main_v109, main_v110, main_v111, main_v112, main_v113, main_v114, main_v115,
    main_call5_cst, main_call5_v0, main_v116, main_v117, main_v118, main_v119, main_v120]

set_option maxRecDepth 8192 in
theorem stF_writes : (stF : List (HloOp τ sig (Elt F))).Forall fun op =>
    op.writes ⊆ (WF.map (Proc.devRef (τ := τ) .tc)).toFinset := by
  simp only [List.Forall]
  exact
    ⟨by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one, by writes_one, by writes_one, by writes_one, by writes_one, by writes_one,
      by writes_one⟩

/-- A buffer stretch F does not write keeps its contents through it. -/
theorem keepF (W : Valuation τ sig (Elt F)) (r : Ref sig .tc) (h : r ∉ WF) :
    after stF W (Proc.devRef .tc r) = W (Proc.devRef .tc r) :=
  after_of_writes_sub stF W stF_writes h

/-! ## What each stretch leaves in the buffer it ends on

The sums over incoming edges of the second and third rounds read the edge table's rows from the buffers the first
round left them in, so they are stated over those rows (`aggr128`), and the round's sum over the table itself
(`RefValue.agg128`) is that at the table's two rows. -/

/-- The edge table's first row as a vector. -/
def row0 (ei : IVec S2x1000000 32) : IVec S1000000 32 :=
  shapeCast S1000000 (extractStridedSlice S1x1000000 ![0, 0] ei slices_S2x1000000_S1x1000000_0_0) shapeCasts_S1x1000000_S1000000

/-- The edge table's second row as a vector. -/
def row1 (ei : IVec S2x1000000 32) : IVec S1000000 32 :=
  shapeCast S1000000 (extractStridedSlice S1x1000000 ![1, 0] ei slices_S2x1000000_S1x1000000_1_0) shapeCasts_S1x1000000_S1000000

/-- A vector of row numbers as a column, a negative entry moved up by the number of nodes. -/
def wrapc (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- A vector of row numbers as a column. -/
def colOf (v : IVec S1000000 32) : IVec S1000000x1 32 :=
  broadcastInDim S1000000x1 ![0] bcast_S1000000_S1000000x1_0 v

/-- The sum over incoming edges at 128 columns, over the two rows of the edge table: the features plus, summed from zero
    at each edge's target, the features' rows gathered at the edge's source. -/
def aggr128 (H : FVec F S100000x128 .f32) (s d : IVec S1000000 32) : FVec F S100000x128 .f32 :=
  addf H (Host.scatterAdd scatter_S100000x128_S1000000x1_S1000000x128_1_0_0_1
    (broadcastInDim S100000x128 ![] bcast_S_S100000x128 (constant S_ .f32 0x00000000#32)) (colOf d)
    (Host.gather gather_S100000x128_S1000000x1_S1000000x128_1_0_n_n_0_1_1128 H (wrapc s)))

attribute [local irreducible] Host.gather Host.scatterAdd Host.reduceAdd

/-- The sum over the table is the sum over its two rows: the same term, the rows named. -/
theorem agg128_eq (H : FVec F S100000x128 .f32) (ei : IVec S2x1000000 32) :
    RefValue.agg128 H ei = aggr128 H (row0 ei) (row1 ei) := rfl

set_option maxRecDepth 8192 in
set_option maxHeartbeats 2000000 in
/-- Stretch A ends on the first round's sum over incoming edges: the fold unrolled, each operation's result read at the
    buffer it writes and passed over elsewhere, what is left is that term. -/
theorem stA_v14 (W : Valuation τ sig (Elt F)) :
    after stA W (main_v14 : DevRef τ sig) = RefValue.agg64 (W (main_arg0 : DevRef τ sig)) (W (main_arg1 : DevRef τ sig)) := by
  simp only [stA]
  after_results_simp
  rfl

set_option maxRecDepth 8192 in
set_option maxHeartbeats 2000000 in
/-- Stretch A leaves the table's first row in its buffer. -/
theorem stA_v1 (W : Valuation τ sig (Elt F)) : after stA W (main_v1 : DevRef τ sig) = row0 (W (main_arg1 : DevRef τ sig)) := by
  simp only [stA]
  after_results_simp
  rfl

set_option maxRecDepth 8192 in
set_option maxHeartbeats 2000000 in
/-- Stretch A leaves the table's second row in its buffer. -/
theorem stA_v3 (W : Valuation τ sig (Elt F)) : after stA W (main_v3 : DevRef τ sig) = row1 (W (main_arg1 : DevRef τ sig)) := by
  simp only [stA]
  after_results_simp
  rfl

set_option maxRecDepth 8192 in
set_option maxHeartbeats 4000000 in
/-- Stretch B ends on the first round's maps of what it found in the buffer stretch A ends on. -/
theorem stB_v42 (W : Valuation τ sig (Elt F)) :
    after stB W (main_v42 : DevRef τ sig) = RefValue.mlp0 (W (main_v14 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) := by
  simp only [stB]
  after_results_simp
  rfl

set_option maxRecDepth 8192 in
set_option maxHeartbeats 2000000 in
/-- Stretch C ends on the sum over incoming edges of what it found in the buffer stretch B ends on. -/
theorem stC_v53 (W : Valuation τ sig (Elt F)) :
    after stC W (main_v53 : DevRef τ sig) = aggr128 (W (main_v42 : DevRef τ sig)) (W (main_v1 : DevRef τ sig)) (W (main_v3 : DevRef τ sig)) := by
  simp only [stC]
  after_results_simp
  rfl

set_option maxRecDepth 8192 in
set_option maxHeartbeats 4000000 in
/-- Stretch D ends on the second round's maps of what it found in the buffer stretch C ends on. -/
theorem stD_v81 (W : Valuation τ sig (Elt F)) :
    after stD W (main_v81 : DevRef τ sig) = RefValue.mlp1 (W (main_v53 : DevRef τ sig)) (W (main_arg8 : DevRef τ sig)) (W (main_arg9 : DevRef τ sig)) (W (main_arg10 : DevRef τ sig)) (W (main_arg11 : DevRef τ sig)) (W (main_arg12 : DevRef τ sig)) (W (main_arg13 : DevRef τ sig)) := by
  simp only [stD]
  after_results_simp
  rfl

set_option maxRecDepth 8192 in
set_option maxHeartbeats 2000000 in
/-- Stretch E ends on the sum over incoming edges of what it found in the buffer stretch D ends on. -/
theorem stE_v92 (W : Valuation τ sig (Elt F)) :
    after stE W (main_v92 : DevRef τ sig) = aggr128 (W (main_v81 : DevRef τ sig)) (W (main_v1 : DevRef τ sig)) (W (main_v3 : DevRef τ sig)) := by
  simp only [stE]
  after_results_simp
  rfl

set_option maxRecDepth 8192 in
set_option maxHeartbeats 4000000 in
/-- Stretch F ends on the third round's maps of what it found in the buffer stretch E ends on. -/
theorem stF_v120 (W : Valuation τ sig (Elt F)) :
    after stF W (main_v120 : DevRef τ sig) = RefValue.mlp2 (W (main_v92 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig)) := by
  simp only [stF]
  after_results_simp
  rfl

/-! ## The stretches composed -/

/-- The buffers' contents after stretch A, …, after stretch E, from contents `V`. -/
def vA (V : Valuation τ sig (Elt F)) : Valuation τ sig (Elt F) := after stA V
@[inherit_doc vA] def vB (V : Valuation τ sig (Elt F)) : Valuation τ sig (Elt F) := after stB (vA V)
@[inherit_doc vA] def vC (V : Valuation τ sig (Elt F)) : Valuation τ sig (Elt F) := after stC (vB V)
@[inherit_doc vA] def vD (V : Valuation τ sig (Elt F)) : Valuation τ sig (Elt F) := after stD (vC V)
@[inherit_doc vA] def vE (V : Valuation τ sig (Elt F)) : Valuation τ sig (Elt F) := after stE (vD V)

/-- The whole line leaves what stretch F leaves from what the first five left. -/
theorem after_ops (V : Valuation τ sig (Elt F)) : after ops V = after stF (vE V) := by
  rw [ops_cut]
  simp only [FoldCuts.after_app]
  rfl

/-- A buffer none of the first stretches writes still holds its launch contents after them. -/
theorem vA_keep (V : Valuation τ sig (Elt F)) (r : Ref sig .tc) (hA : r ∉ WA) :
    vA V (Proc.devRef .tc r) = V (Proc.devRef .tc r) := keepA V r hA
@[inherit_doc vA_keep]
theorem vB_keep (V : Valuation τ sig (Elt F)) (r : Ref sig .tc) (hA : r ∉ WA) (hB : r ∉ WB) :
    vB V (Proc.devRef .tc r) = V (Proc.devRef .tc r) := (keepB _ r hB).trans (vA_keep V r hA)
@[inherit_doc vA_keep]
theorem vC_keep (V : Valuation τ sig (Elt F)) (r : Ref sig .tc) (hA : r ∉ WA) (hB : r ∉ WB) (hC : r ∉ WC) :
    vC V (Proc.devRef .tc r) = V (Proc.devRef .tc r) := (keepC _ r hC).trans (vB_keep V r hA hB)
@[inherit_doc vA_keep]
theorem vD_keep (V : Valuation τ sig (Elt F)) (r : Ref sig .tc) (hA : r ∉ WA) (hB : r ∉ WB) (hC : r ∉ WC) (hD : r ∉ WD) :
    vD V (Proc.devRef .tc r) = V (Proc.devRef .tc r) := (keepD _ r hD).trans (vC_keep V r hA hB hC)
@[inherit_doc vA_keep]
theorem vE_keep (V : Valuation τ sig (Elt F)) (r : Ref sig .tc) (hA : r ∉ WA) (hB : r ∉ WB) (hC : r ∉ WC) (hD : r ∉ WD)
    (hE : r ∉ WE) : vE V (Proc.devRef .tc r) = V (Proc.devRef .tc r) := (keepE _ r hE).trans (vD_keep V r hA hB hC hD)

/-- The table's rows stay where stretch A left them: no later stretch writes their buffers. -/
theorem vB_v1 (V : Valuation τ sig (Elt F)) : vB V (main_v1 : DevRef τ sig) = row0 (V (main_arg1 : DevRef τ sig)) :=
  (keepB _ main_v1 (by decide)).trans (stA_v1 V)
@[inherit_doc vB_v1]
theorem vB_v3 (V : Valuation τ sig (Elt F)) : vB V (main_v3 : DevRef τ sig) = row1 (V (main_arg1 : DevRef τ sig)) :=
  (keepB _ main_v3 (by decide)).trans (stA_v3 V)
@[inherit_doc vB_v1]
theorem vD_v1 (V : Valuation τ sig (Elt F)) : vD V (main_v1 : DevRef τ sig) = row0 (V (main_arg1 : DevRef τ sig)) :=
  (keepD _ main_v1 (by decide)).trans ((keepC _ main_v1 (by decide)).trans (vB_v1 V))
@[inherit_doc vB_v1]
theorem vD_v3 (V : Valuation τ sig (Elt F)) : vD V (main_v3 : DevRef τ sig) = row1 (V (main_arg1 : DevRef τ sig)) :=
  (keepD _ main_v3 (by decide)).trans ((keepC _ main_v3 (by decide)).trans (vB_v3 V))

/-- The first round's sum, …, the third round's sum, of the arguments' contents. -/
def tA (V : Valuation τ sig (Elt F)) : FVec F S100000x64 .f32 := RefValue.agg64 (V (main_arg0 : DevRef τ sig)) (V (main_arg1 : DevRef τ sig))
@[inherit_doc tA] def tB (V : Valuation τ sig (Elt F)) : FVec F S100000x128 .f32 :=
  RefValue.mlp0 (tA V) (V (main_arg2 : DevRef τ sig)) (V (main_arg3 : DevRef τ sig)) (V (main_arg4 : DevRef τ sig)) (V (main_arg5 : DevRef τ sig)) (V (main_arg6 : DevRef τ sig)) (V (main_arg7 : DevRef τ sig))
@[inherit_doc tA] def tC (V : Valuation τ sig (Elt F)) : FVec F S100000x128 .f32 := RefValue.agg128 (tB V) (V (main_arg1 : DevRef τ sig))
@[inherit_doc tA] def tD (V : Valuation τ sig (Elt F)) : FVec F S100000x128 .f32 :=
  RefValue.mlp1 (tC V) (V (main_arg8 : DevRef τ sig)) (V (main_arg9 : DevRef τ sig)) (V (main_arg10 : DevRef τ sig)) (V (main_arg11 : DevRef τ sig)) (V (main_arg12 : DevRef τ sig)) (V (main_arg13 : DevRef τ sig))
@[inherit_doc tA] def tE (V : Valuation τ sig (Elt F)) : FVec F S100000x128 .f32 := RefValue.agg128 (tD V) (V (main_arg1 : DevRef τ sig))

theorem vA_v14 (V : Valuation τ sig (Elt F)) : vA V (main_v14 : DevRef τ sig) = tA V := stA_v14 V

theorem vB_v42 (V : Valuation τ sig (Elt F)) : vB V (main_v42 : DevRef τ sig) = tB V := by
  unfold vB tB
  rw [stB_v42, vA_v14, vA_keep V main_arg2 (by decide), vA_keep V main_arg3 (by decide), vA_keep V main_arg4 (by decide), vA_keep V main_arg5 (by decide), vA_keep V main_arg6 (by decide), vA_keep V main_arg7 (by decide)]

theorem vC_v53 (V : Valuation τ sig (Elt F)) : vC V (main_v53 : DevRef τ sig) = tC V := by
  unfold vC tC
  rw [stC_v53, vB_v42, vB_v1, vB_v3, agg128_eq]

theorem vD_v81 (V : Valuation τ sig (Elt F)) : vD V (main_v81 : DevRef τ sig) = tD V := by
  unfold vD tD
  rw [stD_v81, vC_v53, vC_keep V main_arg8 (by decide) (by decide) (by decide), vC_keep V main_arg9 (by decide) (by decide) (by decide), vC_keep V main_arg10 (by decide) (by decide) (by decide), vC_keep V main_arg11 (by decide) (by decide) (by decide), vC_keep V main_arg12 (by decide) (by decide) (by decide), vC_keep V main_arg13 (by decide) (by decide) (by decide)]

theorem vE_v92 (V : Valuation τ sig (Elt F)) : vE V (main_v92 : DevRef τ sig) = tE V := by
  unfold vE tE
  rw [stE_v92, vD_v81, vD_v1, vD_v3, agg128_eq]

/-! ## The result and the arguments -/

/-- The buffer the program ends on holds the three rounds applied in turn to the arguments' contents. -/
theorem out_eq (V : Valuation τ sig (Elt F)) :
    after ops V (main_v120 : DevRef τ sig)
      = RefValue.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) := by
  rw [after_ops, stF_v120, vE_v92, vE_keep V main_arg14 (by decide) (by decide) (by decide) (by decide) (by decide), vE_keep V main_arg15 (by decide) (by decide) (by decide) (by decide) (by decide), vE_keep V main_arg16 (by decide) (by decide) (by decide) (by decide) (by decide), vE_keep V main_arg17 (by decide) (by decide) (by decide) (by decide) (by decide), vE_keep V main_arg18 (by decide) (by decide) (by decide) (by decide) (by decide), vE_keep V main_arg19 (by decide) (by decide) (by decide) (by decide) (by decide)]
  rfl

/-- No operation of the line writes an argument's buffer: it holds its launch contents at the end. -/
theorem arg0_eq (V : Valuation τ sig (Elt F)) : after ops V (main_arg0 : DevRef τ sig) = V (main_arg0 : DevRef τ sig) := by
  rw [after_ops]; exact (keepF _ main_arg0 (by decide)).trans (vE_keep V main_arg0 (by decide) (by decide) (by decide) (by decide) (by decide))
@[inherit_doc arg0_eq]
theorem arg1_eq (V : Valuation τ sig (Elt F)) : after ops V (main_arg1 : DevRef τ sig) = V (main_arg1 : DevRef τ sig) := by
  rw [after_ops]; exact (keepF _ main_arg1 (by decide)).trans (vE_keep V main_arg1 (by decide) (by decide) (by decide) (by decide) (by decide))
@[inherit_doc arg0_eq]
theorem arg2_eq (V : Valuation τ sig (Elt F)) : after ops V (main_arg2 : DevRef τ sig) = V (main_arg2 : DevRef τ sig) := by
  rw [after_ops]; exact (keepF _ main_arg2 (by decide)).trans (vE_keep V main_arg2 (by decide) (by decide) (by decide) (by decide) (by decide))
@[inherit_doc arg0_eq]
theorem arg3_eq (V : Valuation τ sig (Elt F)) : after ops V (main_arg3 : DevRef τ sig) = V (main_arg3 : DevRef τ sig) := by
  rw [after_ops]; exact (keepF _ main_arg3 (by decide)).trans (vE_keep V main_arg3 (by decide) (by decide) (by decide) (by decide) (by decide))
@[inherit_doc arg0_eq]
theorem arg4_eq (V : Valuation τ sig (Elt F)) : after ops V (main_arg4 : DevRef τ sig) = V (main_arg4 : DevRef τ sig) := by
  rw [after_ops]; exact (keepF _ main_arg4 (by decide)).trans (vE_keep V main_arg4 (by decide) (by decide) (by decide) (by decide) (by decide))
@[inherit_doc arg0_eq]
theorem arg5_eq (V : Valuation τ sig (Elt F)) : after ops V (main_arg5 : DevRef τ sig) = V (main_arg5 : DevRef τ sig) := by
  rw [after_ops]; exact (keepF _ main_arg5 (by decide)).trans (vE_keep V main_arg5 (by decide) (by decide) (by decide) (by decide) (by decide))
@[inherit_doc arg0_eq]
theorem arg6_eq (V : Valuation τ sig (Elt F)) : after ops V (main_arg6 : DevRef τ sig) = V (main_arg6 : DevRef τ sig) := by
  rw [after_ops]; exact (keepF _ main_arg6 (by decide)).trans (vE_keep V main_arg6 (by decide) (by decide) (by decide) (by decide) (by decide))
@[inherit_doc arg0_eq]
theorem arg7_eq (V : Valuation τ sig (Elt F)) : after ops V (main_arg7 : DevRef τ sig) = V (main_arg7 : DevRef τ sig) := by
  rw [after_ops]; exact (keepF _ main_arg7 (by decide)).trans (vE_keep V main_arg7 (by decide) (by decide) (by decide) (by decide) (by decide))
@[inherit_doc arg0_eq]
theorem arg8_eq (V : Valuation τ sig (Elt F)) : after ops V (main_arg8 : DevRef τ sig) = V (main_arg8 : DevRef τ sig) := by
  rw [after_ops]; exact (keepF _ main_arg8 (by decide)).trans (vE_keep V main_arg8 (by decide) (by decide) (by decide) (by decide) (by decide))
@[inherit_doc arg0_eq]
theorem arg9_eq (V : Valuation τ sig (Elt F)) : after ops V (main_arg9 : DevRef τ sig) = V (main_arg9 : DevRef τ sig) := by
  rw [after_ops]; exact (keepF _ main_arg9 (by decide)).trans (vE_keep V main_arg9 (by decide) (by decide) (by decide) (by decide) (by decide))
@[inherit_doc arg0_eq]
theorem arg10_eq (V : Valuation τ sig (Elt F)) : after ops V (main_arg10 : DevRef τ sig) = V (main_arg10 : DevRef τ sig) := by
  rw [after_ops]; exact (keepF _ main_arg10 (by decide)).trans (vE_keep V main_arg10 (by decide) (by decide) (by decide) (by decide) (by decide))
@[inherit_doc arg0_eq]
theorem arg11_eq (V : Valuation τ sig (Elt F)) : after ops V (main_arg11 : DevRef τ sig) = V (main_arg11 : DevRef τ sig) := by
  rw [after_ops]; exact (keepF _ main_arg11 (by decide)).trans (vE_keep V main_arg11 (by decide) (by decide) (by decide) (by decide) (by decide))
@[inherit_doc arg0_eq]
theorem arg12_eq (V : Valuation τ sig (Elt F)) : after ops V (main_arg12 : DevRef τ sig) = V (main_arg12 : DevRef τ sig) := by
  rw [after_ops]; exact (keepF _ main_arg12 (by decide)).trans (vE_keep V main_arg12 (by decide) (by decide) (by decide) (by decide) (by decide))
@[inherit_doc arg0_eq]
theorem arg13_eq (V : Valuation τ sig (Elt F)) : after ops V (main_arg13 : DevRef τ sig) = V (main_arg13 : DevRef τ sig) := by
  rw [after_ops]; exact (keepF _ main_arg13 (by decide)).trans (vE_keep V main_arg13 (by decide) (by decide) (by decide) (by decide) (by decide))
@[inherit_doc arg0_eq]
theorem arg14_eq (V : Valuation τ sig (Elt F)) : after ops V (main_arg14 : DevRef τ sig) = V (main_arg14 : DevRef τ sig) := by
  rw [after_ops]; exact (keepF _ main_arg14 (by decide)).trans (vE_keep V main_arg14 (by decide) (by decide) (by decide) (by decide) (by decide))
@[inherit_doc arg0_eq]
theorem arg15_eq (V : Valuation τ sig (Elt F)) : after ops V (main_arg15 : DevRef τ sig) = V (main_arg15 : DevRef τ sig) := by
  rw [after_ops]; exact (keepF _ main_arg15 (by decide)).trans (vE_keep V main_arg15 (by decide) (by decide) (by decide) (by decide) (by decide))
@[inherit_doc arg0_eq]
theorem arg16_eq (V : Valuation τ sig (Elt F)) : after ops V (main_arg16 : DevRef τ sig) = V (main_arg16 : DevRef τ sig) := by
  rw [after_ops]; exact (keepF _ main_arg16 (by decide)).trans (vE_keep V main_arg16 (by decide) (by decide) (by decide) (by decide) (by decide))
@[inherit_doc arg0_eq]
theorem arg17_eq (V : Valuation τ sig (Elt F)) : after ops V (main_arg17 : DevRef τ sig) = V (main_arg17 : DevRef τ sig) := by
  rw [after_ops]; exact (keepF _ main_arg17 (by decide)).trans (vE_keep V main_arg17 (by decide) (by decide) (by decide) (by decide) (by decide))
@[inherit_doc arg0_eq]
theorem arg18_eq (V : Valuation τ sig (Elt F)) : after ops V (main_arg18 : DevRef τ sig) = V (main_arg18 : DevRef τ sig) := by
  rw [after_ops]; exact (keepF _ main_arg18 (by decide)).trans (vE_keep V main_arg18 (by decide) (by decide) (by decide) (by decide) (by decide))
@[inherit_doc arg0_eq]
theorem arg19_eq (V : Valuation τ sig (Elt F)) : after ops V (main_arg19 : DevRef τ sig) = V (main_arg19 : DevRef τ sig) := by
  rw [after_ops]; exact (keepF _ main_arg19 (by decide)).trans (vE_keep V main_arg19 (by decide) (by decide) (by decide) (by decide) (by decide))

/-- At the compiled mesh, for any float values, from any memory with zero counters: every weakly fair execution of the
    program terminates with the result buffer at the three rounds of the arguments' launch contents and every argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v120)
          = RefValue.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v120).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _)⟩)
    (RefRun.run_main m ρ)

end Cert.ReferenceIdeal.RefOut

end
-- ==== Proof.KKeep.lean ====
/-
  Which buffers keep their contents across which boundaries of the kernel program, and where each region's outputs
  land. The program's buffer contents are a fold `W0, W1, …, W12` (W0 the launch memory; an odd boundary is reached by
  a stretch of host operations, an even one by a pallas region). A stretch changes only the buffers its operations
  write; a region changes only its output arrays — an input array is read back unchanged, and a buffer that is none of
  its arrays is not touched. So, layer by layer: the seven arrays a layer's second region reads besides the mean and the
  variance (node features, both weight matrices, the four parameter rows) are at its entry what they were at the entry
  of the layer's first region; the source and destination node lists and the later layers' parameters are, when a
  later layer's host stretch reads them, what the first stretch left.
-/
import proofs.«151523_j51427938402588_1_alg».proof.Proof.Gen.KernelIdeal.Frame

set_option maxRecDepth 16384

noncomputable section

namespace Cert.KernelIdeal.GinK

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A stretch of host operations none of which writes buffer `b` leaves `b` as it was. -/
local macro "host_keep " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Layer 0: the second region's inputs at its entry are what the first region's entry held -/

theorem keep3_v14 (c : Dev nD) : W3 m ρ c (Proc.devRef .tc main_v14) = W1 m ρ c (Proc.devRef .tc main_v14) :=
  (show StableHlo.after hostOps1 (W2 m ρ c) (Proc.devRef .tc main_v14) = W2 m ρ c (Proc.devRef .tc main_v14) from (by host_keep hostOps1)).trans
    ((W2_arr m ρ c 0).trans (((dat0 (V1 m ρ) c).arrAt_in 0 rfl _).trans (A_eq0 (V1 m ρ) c 0)))
theorem keep3_arg2 (c : Dev nD) : W3 m ρ c (Proc.devRef .tc main_arg2) = W1 m ρ c (Proc.devRef .tc main_arg2) :=
  (show StableHlo.after hostOps1 (W2 m ρ c) (Proc.devRef .tc main_arg2) = W2 m ρ c (Proc.devRef .tc main_arg2) from (by host_keep hostOps1)).trans
    ((W2_arr m ρ c 1).trans (((dat0 (V1 m ρ) c).arrAt_in 1 rfl _).trans (A_eq0 (V1 m ρ) c 1)))
theorem keep3_v15 (c : Dev nD) : W3 m ρ c (Proc.devRef .tc main_v15) = W1 m ρ c (Proc.devRef .tc main_v15) :=
  (show StableHlo.after hostOps1 (W2 m ρ c) (Proc.devRef .tc main_v15) = W2 m ρ c (Proc.devRef .tc main_v15) from (by host_keep hostOps1)).trans
    ((W2_arr m ρ c 2).trans (((dat0 (V1 m ρ) c).arrAt_in 2 rfl _).trans (A_eq0 (V1 m ρ) c 2)))
theorem keep3_v16 (c : Dev nD) : W3 m ρ c (Proc.devRef .tc main_v16) = W1 m ρ c (Proc.devRef .tc main_v16) :=
  (show StableHlo.after hostOps1 (W2 m ρ c) (Proc.devRef .tc main_v16) = W2 m ρ c (Proc.devRef .tc main_v16) from (by host_keep hostOps1)).trans
    (W2_of_ne m ρ c main_v16 (by decide))
theorem keep3_v17 (c : Dev nD) : W3 m ρ c (Proc.devRef .tc main_v17) = W1 m ρ c (Proc.devRef .tc main_v17) :=
  (show StableHlo.after hostOps1 (W2 m ρ c) (Proc.devRef .tc main_v17) = W2 m ρ c (Proc.devRef .tc main_v17) from (by host_keep hostOps1)).trans
    (W2_of_ne m ρ c main_v17 (by decide))
theorem keep3_arg6 (c : Dev nD) : W3 m ρ c (Proc.devRef .tc main_arg6) = W1 m ρ c (Proc.devRef .tc main_arg6) :=
  (show StableHlo.after hostOps1 (W2 m ρ c) (Proc.devRef .tc main_arg6) = W2 m ρ c (Proc.devRef .tc main_arg6) from (by host_keep hostOps1)).trans
    (W2_of_ne m ρ c main_arg6 (by decide))
theorem keep3_v18 (c : Dev nD) : W3 m ρ c (Proc.devRef .tc main_v18) = W1 m ρ c (Proc.devRef .tc main_v18) :=
  (show StableHlo.after hostOps1 (W2 m ρ c) (Proc.devRef .tc main_v18) = W2 m ρ c (Proc.devRef .tc main_v18) from (by host_keep hostOps1)).trans
    (W2_of_ne m ρ c main_v18 (by decide))

/-- The first region's two outputs, and the second region's output, are what their write-backs assemble. -/
theorem sum0_at (c : Dev nD) : W2 m ρ c (Proc.devRef .tc main_v19_0) = (dat0 (V1 m ρ) c).arrAt 3 cfg0.N := W2_arr m ρ c 3
theorem sumsq0_at (c : Dev nD) : W2 m ρ c (Proc.devRef .tc main_v19_1) = (dat0 (V1 m ρ) c).arrAt 4 cfg0.N := W2_arr m ρ c 4
theorem res0_at (c : Dev nD) : W4 m ρ c (Proc.devRef .tc main_v26) = (dat1 (V3 m ρ) c).arrAt 9 cfg1.N := W4_arr m ρ c 9

/-! ## Layer 1: the second region's inputs at its entry are what the first region's entry held -/

theorem keep7_v37 (c : Dev nD) : W7 m ρ c (Proc.devRef .tc main_v37) = W5 m ρ c (Proc.devRef .tc main_v37) :=
  (show StableHlo.after hostOps3 (W6 m ρ c) (Proc.devRef .tc main_v37) = W6 m ρ c (Proc.devRef .tc main_v37) from (by host_keep hostOps3)).trans
    ((W6_arr m ρ c 0).trans (((dat2 (V5 m ρ) c).arrAt_in 0 rfl _).trans (A_eq2 (V5 m ρ) c 0)))
theorem keep7_arg8 (c : Dev nD) : W7 m ρ c (Proc.devRef .tc main_arg8) = W5 m ρ c (Proc.devRef .tc main_arg8) :=
  (show StableHlo.after hostOps3 (W6 m ρ c) (Proc.devRef .tc main_arg8) = W6 m ρ c (Proc.devRef .tc main_arg8) from (by host_keep hostOps3)).trans
    ((W6_arr m ρ c 1).trans (((dat2 (V5 m ρ) c).arrAt_in 1 rfl _).trans (A_eq2 (V5 m ρ) c 1)))
theorem keep7_v38 (c : Dev nD) : W7 m ρ c (Proc.devRef .tc main_v38) = W5 m ρ c (Proc.devRef .tc main_v38) :=
  (show StableHlo.after hostOps3 (W6 m ρ c) (Proc.devRef .tc main_v38) = W6 m ρ c (Proc.devRef .tc main_v38) from (by host_keep hostOps3)).trans
    ((W6_arr m ρ c 2).trans (((dat2 (V5 m ρ) c).arrAt_in 2 rfl _).trans (A_eq2 (V5 m ρ) c 2)))
theorem keep7_v39 (c : Dev nD) : W7 m ρ c (Proc.devRef .tc main_v39) = W5 m ρ c (Proc.devRef .tc main_v39) :=
  (show StableHlo.after hostOps3 (W6 m ρ c) (Proc.devRef .tc main_v39) = W6 m ρ c (Proc.devRef .tc main_v39) from (by host_keep hostOps3)).trans
    (W6_of_ne m ρ c main_v39 (by decide))
theorem keep7_v40 (c : Dev nD) : W7 m ρ c (Proc.devRef .tc main_v40) = W5 m ρ c (Proc.devRef .tc main_v40) :=
  (show StableHlo.after hostOps3 (W6 m ρ c) (Proc.devRef .tc main_v40) = W6 m ρ c (Proc.devRef .tc main_v40) from (by host_keep hostOps3)).trans
    (W6_of_ne m ρ c main_v40 (by decide))
theorem keep7_arg12 (c : Dev nD) : W7 m ρ c (Proc.devRef .tc main_arg12) = W5 m ρ c (Proc.devRef .tc main_arg12) :=
  (show StableHlo.after hostOps3 (W6 m ρ c) (Proc.devRef .tc main_arg12) = W6 m ρ c (Proc.devRef .tc main_arg12) from (by host_keep hostOps3)).trans
    (W6_of_ne m ρ c main_arg12 (by decide))
theorem keep7_v41 (c : Dev nD) : W7 m ρ c (Proc.devRef .tc main_v41) = W5 m ρ c (Proc.devRef .tc main_v41) :=
  (show StableHlo.after hostOps3 (W6 m ρ c) (Proc.devRef .tc main_v41) = W6 m ρ c (Proc.devRef .tc main_v41) from (by host_keep hostOps3)).trans
    (W6_of_ne m ρ c main_v41 (by decide))

/-- The first region's two outputs, and the second region's output, are what their write-backs assemble. -/
theorem sum1_at (c : Dev nD) : W6 m ρ c (Proc.devRef .tc main_v42_0) = (dat2 (V5 m ρ) c).arrAt 3 cfg2.N := W6_arr m ρ c 3
theorem sumsq1_at (c : Dev nD) : W6 m ρ c (Proc.devRef .tc main_v42_1) = (dat2 (V5 m ρ) c).arrAt 4 cfg2.N := W6_arr m ρ c 4
theorem res1_at (c : Dev nD) : W8 m ρ c (Proc.devRef .tc main_v49) = (dat3 (V7 m ρ) c).arrAt 9 cfg3.N := W8_arr m ρ c 9

/-! ## Layer 2: the second region's inputs at its entry are what the first region's entry held -/

theorem keep11_v60 (c : Dev nD) : W11 m ρ c (Proc.devRef .tc main_v60) = W9 m ρ c (Proc.devRef .tc main_v60) :=
  (show StableHlo.after hostOps5 (W10 m ρ c) (Proc.devRef .tc main_v60) = W10 m ρ c (Proc.devRef .tc main_v60) from (by host_keep hostOps5)).trans
    ((W10_arr m ρ c 0).trans (((dat4 (V9 m ρ) c).arrAt_in 0 rfl _).trans (A_eq4 (V9 m ρ) c 0)))
theorem keep11_arg14 (c : Dev nD) : W11 m ρ c (Proc.devRef .tc main_arg14) = W9 m ρ c (Proc.devRef .tc main_arg14) :=
  (show StableHlo.after hostOps5 (W10 m ρ c) (Proc.devRef .tc main_arg14) = W10 m ρ c (Proc.devRef .tc main_arg14) from (by host_keep hostOps5)).trans
    ((W10_arr m ρ c 1).trans (((dat4 (V9 m ρ) c).arrAt_in 1 rfl _).trans (A_eq4 (V9 m ρ) c 1)))
theorem keep11_v61 (c : Dev nD) : W11 m ρ c (Proc.devRef .tc main_v61) = W9 m ρ c (Proc.devRef .tc main_v61) :=
  (show StableHlo.after hostOps5 (W10 m ρ c) (Proc.devRef .tc main_v61) = W10 m ρ c (Proc.devRef .tc main_v61) from (by host_keep hostOps5)).trans
    ((W10_arr m ρ c 2).trans (((dat4 (V9 m ρ) c).arrAt_in 2 rfl _).trans (A_eq4 (V9 m ρ) c 2)))
theorem keep11_v62 (c : Dev nD) : W11 m ρ c (Proc.devRef .tc main_v62) = W9 m ρ c (Proc.devRef .tc main_v62) :=
  (show StableHlo.after hostOps5 (W10 m ρ c) (Proc.devRef .tc main_v62) = W10 m ρ c (Proc.devRef .tc main_v62) from (by host_keep hostOps5)).trans
    (W10_of_ne m ρ c main_v62 (by decide))
theorem keep11_v63 (c : Dev nD) : W11 m ρ c (Proc.devRef .tc main_v63) = W9 m ρ c (Proc.devRef .tc main_v63) :=
  (show StableHlo.after hostOps5 (W10 m ρ c) (Proc.devRef .tc main_v63) = W10 m ρ c (Proc.devRef .tc main_v63) from (by host_keep hostOps5)).trans
    (W10_of_ne m ρ c main_v63 (by decide))
theorem keep11_arg18 (c : Dev nD) : W11 m ρ c (Proc.devRef .tc main_arg18) = W9 m ρ c (Proc.devRef .tc main_arg18) :=
  (show StableHlo.after hostOps5 (W10 m ρ c) (Proc.devRef .tc main_arg18) = W10 m ρ c (Proc.devRef .tc main_arg18) from (by host_keep hostOps5)).trans
    (W10_of_ne m ρ c main_arg18 (by decide))
theorem keep11_v64 (c : Dev nD) : W11 m ρ c (Proc.devRef .tc main_v64) = W9 m ρ c (Proc.devRef .tc main_v64) :=
  (show StableHlo.after hostOps5 (W10 m ρ c) (Proc.devRef .tc main_v64) = W10 m ρ c (Proc.devRef .tc main_v64) from (by host_keep hostOps5)).trans
    (W10_of_ne m ρ c main_v64 (by decide))

/-- The first region's two outputs, and the second region's output, are what their write-backs assemble. -/
theorem sum2_at (c : Dev nD) : W10 m ρ c (Proc.devRef .tc main_v65_0) = (dat4 (V9 m ρ) c).arrAt 3 cfg4.N := W10_arr m ρ c 3
theorem sumsq2_at (c : Dev nD) : W10 m ρ c (Proc.devRef .tc main_v65_1) = (dat4 (V9 m ρ) c).arrAt 4 cfg4.N := W10_arr m ρ c 4
theorem res2_at (c : Dev nD) : W12 m ρ c (Proc.devRef .tc main_v72) = (dat5 (V11 m ρ) c).arrAt 9 cfg5.N := W12_arr m ρ c 9

/-! ## The node lists and the later layers' parameters, when a later layer's host stretch reads them -/

theorem keep4_v1 (c : Dev nD) : W4 m ρ c (Proc.devRef .tc main_v1) = W1 m ρ c (Proc.devRef .tc main_v1) :=
  (((W4_of_ne m ρ c main_v1 (by decide)).trans
    (show StableHlo.after hostOps1 (W2 m ρ c) (Proc.devRef .tc main_v1) = W2 m ρ c (Proc.devRef .tc main_v1) from (by host_keep hostOps1))).trans
    (W2_of_ne m ρ c main_v1 (by decide)))
theorem keep4_v3 (c : Dev nD) : W4 m ρ c (Proc.devRef .tc main_v3) = W1 m ρ c (Proc.devRef .tc main_v3) :=
  (((W4_of_ne m ρ c main_v3 (by decide)).trans
    (show StableHlo.after hostOps1 (W2 m ρ c) (Proc.devRef .tc main_v3) = W2 m ρ c (Proc.devRef .tc main_v3) from (by host_keep hostOps1))).trans
    (W2_of_ne m ρ c main_v3 (by decide)))
theorem keep4_arg8 (c : Dev nD) : W4 m ρ c (Proc.devRef .tc main_arg8) = W1 m ρ c (Proc.devRef .tc main_arg8) :=
  (((W4_of_ne m ρ c main_arg8 (by decide)).trans
    (show StableHlo.after hostOps1 (W2 m ρ c) (Proc.devRef .tc main_arg8) = W2 m ρ c (Proc.devRef .tc main_arg8) from (by host_keep hostOps1))).trans
    (W2_of_ne m ρ c main_arg8 (by decide)))
theorem keep4_arg9 (c : Dev nD) : W4 m ρ c (Proc.devRef .tc main_arg9) = W1 m ρ c (Proc.devRef .tc main_arg9) :=
  (((W4_of_ne m ρ c main_arg9 (by decide)).trans
    (show StableHlo.after hostOps1 (W2 m ρ c) (Proc.devRef .tc main_arg9) = W2 m ρ c (Proc.devRef .tc main_arg9) from (by host_keep hostOps1))).trans
    (W2_of_ne m ρ c main_arg9 (by decide)))
theorem keep4_arg10 (c : Dev nD) : W4 m ρ c (Proc.devRef .tc main_arg10) = W1 m ρ c (Proc.devRef .tc main_arg10) :=
  (((W4_of_ne m ρ c main_arg10 (by decide)).trans
    (show StableHlo.after hostOps1 (W2 m ρ c) (Proc.devRef .tc main_arg10) = W2 m ρ c (Proc.devRef .tc main_arg10) from (by host_keep hostOps1))).trans
    (W2_of_ne m ρ c main_arg10 (by decide)))
theorem keep4_arg11 (c : Dev nD) : W4 m ρ c (Proc.devRef .tc main_arg11) = W1 m ρ c (Proc.devRef .tc main_arg11) :=
  (((W4_of_ne m ρ c main_arg11 (by decide)).trans
    (show StableHlo.after hostOps1 (W2 m ρ c) (Proc.devRef .tc main_arg11) = W2 m ρ c (Proc.devRef .tc main_arg11) from (by host_keep hostOps1))).trans
    (W2_of_ne m ρ c main_arg11 (by decide)))
theorem keep4_arg12 (c : Dev nD) : W4 m ρ c (Proc.devRef .tc main_arg12) = W1 m ρ c (Proc.devRef .tc main_arg12) :=
  (((W4_of_ne m ρ c main_arg12 (by decide)).trans
    (show StableHlo.after hostOps1 (W2 m ρ c) (Proc.devRef .tc main_arg12) = W2 m ρ c (Proc.devRef .tc main_arg12) from (by host_keep hostOps1))).trans
    (W2_of_ne m ρ c main_arg12 (by decide)))
theorem keep4_arg13 (c : Dev nD) : W4 m ρ c (Proc.devRef .tc main_arg13) = W1 m ρ c (Proc.devRef .tc main_arg13) :=
  (((W4_of_ne m ρ c main_arg13 (by decide)).trans
    (show StableHlo.after hostOps1 (W2 m ρ c) (Proc.devRef .tc main_arg13) = W2 m ρ c (Proc.devRef .tc main_arg13) from (by host_keep hostOps1))).trans
    (W2_of_ne m ρ c main_arg13 (by decide)))
theorem keep8_v1 (c : Dev nD) : W8 m ρ c (Proc.devRef .tc main_v1) = W1 m ρ c (Proc.devRef .tc main_v1) :=
  (((((((W8_of_ne m ρ c main_v1 (by decide)).trans
    (show StableHlo.after hostOps3 (W6 m ρ c) (Proc.devRef .tc main_v1) = W6 m ρ c (Proc.devRef .tc main_v1) from (by host_keep hostOps3))).trans
    (W6_of_ne m ρ c main_v1 (by decide))).trans
    (show StableHlo.after hostOps2 (W4 m ρ c) (Proc.devRef .tc main_v1) = W4 m ρ c (Proc.devRef .tc main_v1) from (by host_keep hostOps2))).trans
    (W4_of_ne m ρ c main_v1 (by decide))).trans
    (show StableHlo.after hostOps1 (W2 m ρ c) (Proc.devRef .tc main_v1) = W2 m ρ c (Proc.devRef .tc main_v1) from (by host_keep hostOps1))).trans
    (W2_of_ne m ρ c main_v1 (by decide)))
theorem keep8_v3 (c : Dev nD) : W8 m ρ c (Proc.devRef .tc main_v3) = W1 m ρ c (Proc.devRef .tc main_v3) :=
  (((((((W8_of_ne m ρ c main_v3 (by decide)).trans
    (show StableHlo.after hostOps3 (W6 m ρ c) (Proc.devRef .tc main_v3) = W6 m ρ c (Proc.devRef .tc main_v3) from (by host_keep hostOps3))).trans
    (W6_of_ne m ρ c main_v3 (by decide))).trans
    (show StableHlo.after hostOps2 (W4 m ρ c) (Proc.devRef .tc main_v3) = W4 m ρ c (Proc.devRef .tc main_v3) from (by host_keep hostOps2))).trans
    (W4_of_ne m ρ c main_v3 (by decide))).trans
    (show StableHlo.after hostOps1 (W2 m ρ c) (Proc.devRef .tc main_v3) = W2 m ρ c (Proc.devRef .tc main_v3) from (by host_keep hostOps1))).trans
    (W2_of_ne m ρ c main_v3 (by decide)))
theorem keep8_arg14 (c : Dev nD) : W8 m ρ c (Proc.devRef .tc main_arg14) = W1 m ρ c (Proc.devRef .tc main_arg14) :=
  (((((((W8_of_ne m ρ c main_arg14 (by decide)).trans
    (show StableHlo.after hostOps3 (W6 m ρ c) (Proc.devRef .tc main_arg14) = W6 m ρ c (Proc.devRef .tc main_arg14) from (by host_keep hostOps3))).trans
    (W6_of_ne m ρ c main_arg14 (by decide))).trans
    (show StableHlo.after hostOps2 (W4 m ρ c) (Proc.devRef .tc main_arg14) = W4 m ρ c (Proc.devRef .tc main_arg14) from (by host_keep hostOps2))).trans
    (W4_of_ne m ρ c main_arg14 (by decide))).trans
    (show StableHlo.after hostOps1 (W2 m ρ c) (Proc.devRef .tc main_arg14) = W2 m ρ c (Proc.devRef .tc main_arg14) from (by host_keep hostOps1))).trans
    (W2_of_ne m ρ c main_arg14 (by decide)))
theorem keep8_arg15 (c : Dev nD) : W8 m ρ c (Proc.devRef .tc main_arg15) = W1 m ρ c (Proc.devRef .tc main_arg15) :=
  (((((((W8_of_ne m ρ c main_arg15 (by decide)).trans
    (show StableHlo.after hostOps3 (W6 m ρ c) (Proc.devRef .tc main_arg15) = W6 m ρ c (Proc.devRef .tc main_arg15) from (by host_keep hostOps3))).trans
    (W6_of_ne m ρ c main_arg15 (by decide))).trans
    (show StableHlo.after hostOps2 (W4 m ρ c) (Proc.devRef .tc main_arg15) = W4 m ρ c (Proc.devRef .tc main_arg15) from (by host_keep hostOps2))).trans
    (W4_of_ne m ρ c main_arg15 (by decide))).trans
    (show StableHlo.after hostOps1 (W2 m ρ c) (Proc.devRef .tc main_arg15) = W2 m ρ c (Proc.devRef .tc main_arg15) from (by host_keep hostOps1))).trans
    (W2_of_ne m ρ c main_arg15 (by decide)))
theorem keep8_arg16 (c : Dev nD) : W8 m ρ c (Proc.devRef .tc main_arg16) = W1 m ρ c (Proc.devRef .tc main_arg16) :=
  (((((((W8_of_ne m ρ c main_arg16 (by decide)).trans
    (show StableHlo.after hostOps3 (W6 m ρ c) (Proc.devRef .tc main_arg16) = W6 m ρ c (Proc.devRef .tc main_arg16) from (by host_keep hostOps3))).trans
    (W6_of_ne m ρ c main_arg16 (by decide))).trans
    (show StableHlo.after hostOps2 (W4 m ρ c) (Proc.devRef .tc main_arg16) = W4 m ρ c (Proc.devRef .tc main_arg16) from (by host_keep hostOps2))).trans
    (W4_of_ne m ρ c main_arg16 (by decide))).trans
    (show StableHlo.after hostOps1 (W2 m ρ c) (Proc.devRef .tc main_arg16) = W2 m ρ c (Proc.devRef .tc main_arg16) from (by host_keep hostOps1))).trans
    (W2_of_ne m ρ c main_arg16 (by decide)))
theorem keep8_arg17 (c : Dev nD) : W8 m ρ c (Proc.devRef .tc main_arg17) = W1 m ρ c (Proc.devRef .tc main_arg17) :=
  (((((((W8_of_ne m ρ c main_arg17 (by decide)).trans
    (show StableHlo.after hostOps3 (W6 m ρ c) (Proc.devRef .tc main_arg17) = W6 m ρ c (Proc.devRef .tc main_arg17) from (by host_keep hostOps3))).trans
    (W6_of_ne m ρ c main_arg17 (by decide))).trans
    (show StableHlo.after hostOps2 (W4 m ρ c) (Proc.devRef .tc main_arg17) = W4 m ρ c (Proc.devRef .tc main_arg17) from (by host_keep hostOps2))).trans
    (W4_of_ne m ρ c main_arg17 (by decide))).trans
    (show StableHlo.after hostOps1 (W2 m ρ c) (Proc.devRef .tc main_arg17) = W2 m ρ c (Proc.devRef .tc main_arg17) from (by host_keep hostOps1))).trans
    (W2_of_ne m ρ c main_arg17 (by decide)))
theorem keep8_arg18 (c : Dev nD) : W8 m ρ c (Proc.devRef .tc main_arg18) = W1 m ρ c (Proc.devRef .tc main_arg18) :=
  (((((((W8_of_ne m ρ c main_arg18 (by decide)).trans
    (show StableHlo.after hostOps3 (W6 m ρ c) (Proc.devRef .tc main_arg18) = W6 m ρ c (Proc.devRef .tc main_arg18) from (by host_keep hostOps3))).trans
    (W6_of_ne m ρ c main_arg18 (by decide))).trans
    (show StableHlo.after hostOps2 (W4 m ρ c) (Proc.devRef .tc main_arg18) = W4 m ρ c (Proc.devRef .tc main_arg18) from (by host_keep hostOps2))).trans
    (W4_of_ne m ρ c main_arg18 (by decide))).trans
    (show StableHlo.after hostOps1 (W2 m ρ c) (Proc.devRef .tc main_arg18) = W2 m ρ c (Proc.devRef .tc main_arg18) from (by host_keep hostOps1))).trans
    (W2_of_ne m ρ c main_arg18 (by decide)))
theorem keep8_arg19 (c : Dev nD) : W8 m ρ c (Proc.devRef .tc main_arg19) = W1 m ρ c (Proc.devRef .tc main_arg19) :=
  (((((((W8_of_ne m ρ c main_arg19 (by decide)).trans
    (show StableHlo.after hostOps3 (W6 m ρ c) (Proc.devRef .tc main_arg19) = W6 m ρ c (Proc.devRef .tc main_arg19) from (by host_keep hostOps3))).trans
    (W6_of_ne m ρ c main_arg19 (by decide))).trans
    (show StableHlo.after hostOps2 (W4 m ρ c) (Proc.devRef .tc main_arg19) = W4 m ρ c (Proc.devRef .tc main_arg19) from (by host_keep hostOps2))).trans
    (W4_of_ne m ρ c main_arg19 (by decide))).trans
    (show StableHlo.after hostOps1 (W2 m ρ c) (Proc.devRef .tc main_arg19) = W2 m ρ c (Proc.devRef .tc main_arg19) from (by host_keep hostOps1))).trans
    (W2_of_ne m ρ c main_arg19 (by decide)))

end Cert.KernelIdeal.GinK

end
-- ==== Proof.KHost.lean ====
/-
  What the kernel program's host stretches compute, as functions of what they read.

  Before each layer's first region: the neighbour aggregation  A = H + scatterAdd(zeros, dst, gather(H, wrap src))
  of the layer's node features `H` over the edge table (`wrap` adds 100000 to a negative source entry; the gather
  clamps a start index into range and the scatter-add drops an update that lands outside, so `A` is defined for
  every edge table), and the four parameter vectors stood up as one-row arrays. Between a layer's two regions: the
  column mean  sum / 100000  and the variance  sumsq / 100000 − mean · mean  of the pre-activation, as rows.
-/
import proofs.«151523_j51427938402588_1_alg».proof.Proof.Gen.KernelIdeal.Frame
import proofs.«151523_j51427938402588_1_alg».proof.Proof.KKeep
import Idealize.ShloMosaic.Lib.StableHlo.Run

set_option maxRecDepth 16384

noncomputable section

namespace Cert.KernelIdeal.GinK

open Cert.KernelIdeal Cert.KernelIdeal.Gen Idealize.ShloMosaic Idealize.ShloMosaic.TcCoe Idealize.SL.Sem

variable {F : FTy → Type} [FloatOps F]

/-- The edge table's first row: the source node of each edge. -/
def srcK (ei : IVec S2x1000000 32) : IVec S1000000 32 :=
  shapeCast S1000000 (extractStridedSlice S1x1000000 ![0, 0] ei slices_S2x1000000_S1x1000000_0_0) shapeCasts_S1x1000000_S1000000

/-- The edge table's second row: the destination node of each edge. -/
def dstK (ei : IVec S2x1000000 32) : IVec S1000000 32 :=
  shapeCast S1000000 (extractStridedSlice S1x1000000 ![1, 0] ei slices_S2x1000000_S1x1000000_1_0) shapeCasts_S1x1000000_S1000000

/-- A negative source entry counts from the end: 100000 is added to it; the list is then stood up as a column. -/
def wrapK (v1 : IVec S1000000 32) : IVec S1000000x1 32 :=
  broadcastInDim S1000000x1 ![0] bcast_S1000000_S1000000x1_0
    (select (cmpi .slt v1 (broadcastInDim S1000000 ![] bcast_S_S1000000 (constantI S_ 32 0#32)))
      (addi v1 (broadcastInDim S1000000 ![] bcast_S_S1000000 (constantI S_ 32 100000#32))) v1)

/-- The neighbour aggregation of 64-wide node features. -/
def aggK64 (H : FVec F S100000x64 .f32) (v1 v3 : IVec S1000000 32) : FVec F S100000x64 .f32 :=
  addf H (Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 v3)
    (Host.gather gather_S100000x64_S1000000x1_S1000000x64_1_0_n_n_0_1_164 H (wrapK v1)))

/-- The neighbour aggregation of 128-wide node features. -/
def aggK128 (H : FVec F S100000x128 .f32) (v1 v3 : IVec S1000000 32) : FVec F S100000x128 .f32 :=
  addf H (Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 v3)
    (Host.gather gather_S100000x128_S1000000x1_S1000000x128_1_0_n_n_0_1_1128 H (wrapK v1)))

variable (m : (ℓ : Loc nD τ sig) → Buf (Elt F) ℓ) (ρ : Dev nD → PrngReg)

attribute [local irreducible] Host.gather Host.scatterAdd

/-- A stretch's result at a buffer: the stretch's operations unrolled down to what they read. -/
local macro "host_read " W:ident : tactic => `(tactic| (unfold $W:ident; after_results <;> rfl))

/-! ## The first stretch: from the launch memory -/

theorem v1_at (c : Dev nD) : W1 m ρ c (Proc.devRef .tc main_v1) = srcK (m ((c : Thread nD τ).loc main_arg1)) := by host_read W1
theorem v3_at (c : Dev nD) : W1 m ρ c (Proc.devRef .tc main_v3) = dstK (m ((c : Thread nD τ).loc main_arg1)) := by host_read W1
theorem arg2_at (c : Dev nD) : W1 m ρ c (Proc.devRef .tc main_arg2) = (m ((c : Thread nD τ).loc main_arg2)) := by host_read W1
theorem arg3_at (c : Dev nD) : W1 m ρ c (Proc.devRef .tc main_arg3) = (m ((c : Thread nD τ).loc main_arg3)) := by host_read W1
theorem arg4_at (c : Dev nD) : W1 m ρ c (Proc.devRef .tc main_arg4) = (m ((c : Thread nD τ).loc main_arg4)) := by host_read W1
theorem arg5_at (c : Dev nD) : W1 m ρ c (Proc.devRef .tc main_arg5) = (m ((c : Thread nD τ).loc main_arg5)) := by host_read W1
theorem arg6_at (c : Dev nD) : W1 m ρ c (Proc.devRef .tc main_arg6) = (m ((c : Thread nD τ).loc main_arg6)) := by host_read W1
theorem arg7_at (c : Dev nD) : W1 m ρ c (Proc.devRef .tc main_arg7) = (m ((c : Thread nD τ).loc main_arg7)) := by host_read W1
theorem arg8_at (c : Dev nD) : W1 m ρ c (Proc.devRef .tc main_arg8) = (m ((c : Thread nD τ).loc main_arg8)) := by host_read W1
theorem arg9_at (c : Dev nD) : W1 m ρ c (Proc.devRef .tc main_arg9) = (m ((c : Thread nD τ).loc main_arg9)) := by host_read W1
theorem arg10_at (c : Dev nD) : W1 m ρ c (Proc.devRef .tc main_arg10) = (m ((c : Thread nD τ).loc main_arg10)) := by host_read W1
theorem arg11_at (c : Dev nD) : W1 m ρ c (Proc.devRef .tc main_arg11) = (m ((c : Thread nD τ).loc main_arg11)) := by host_read W1
theorem arg12_at (c : Dev nD) : W1 m ρ c (Proc.devRef .tc main_arg12) = (m ((c : Thread nD τ).loc main_arg12)) := by host_read W1
theorem arg13_at (c : Dev nD) : W1 m ρ c (Proc.devRef .tc main_arg13) = (m ((c : Thread nD τ).loc main_arg13)) := by host_read W1
theorem arg14_at (c : Dev nD) : W1 m ρ c (Proc.devRef .tc main_arg14) = (m ((c : Thread nD τ).loc main_arg14)) := by host_read W1
theorem arg15_at (c : Dev nD) : W1 m ρ c (Proc.devRef .tc main_arg15) = (m ((c : Thread nD τ).loc main_arg15)) := by host_read W1
theorem arg16_at (c : Dev nD) : W1 m ρ c (Proc.devRef .tc main_arg16) = (m ((c : Thread nD τ).loc main_arg16)) := by host_read W1
theorem arg17_at (c : Dev nD) : W1 m ρ c (Proc.devRef .tc main_arg17) = (m ((c : Thread nD τ).loc main_arg17)) := by host_read W1
theorem arg18_at (c : Dev nD) : W1 m ρ c (Proc.devRef .tc main_arg18) = (m ((c : Thread nD τ).loc main_arg18)) := by host_read W1
theorem arg19_at (c : Dev nD) : W1 m ρ c (Proc.devRef .tc main_arg19) = (m ((c : Thread nD τ).loc main_arg19)) := by host_read W1

/-! ## Layer 0: what its first region finds, and the mean and variance rows its second region finds -/

set_option maxHeartbeats 1000000 in
theorem rawA0_at (c : Dev nD) : W1 m ρ c (Proc.devRef .tc main_v14) = aggK64 (m ((c : Thread nD τ).loc main_arg0)) (srcK (m ((c : Thread nD τ).loc main_arg1))) (dstK (m ((c : Thread nD τ).loc main_arg1))) := by host_read W1
theorem rawb10_at (c : Dev nD) : W1 m ρ c (Proc.devRef .tc main_v15) = shapeCast S1x128 (m ((c : Thread nD τ).loc main_arg3)) shapeCasts_S128_S1x128 := by host_read W1
theorem rawg0_at (c : Dev nD) : W1 m ρ c (Proc.devRef .tc main_v16) = shapeCast S1x128 (m ((c : Thread nD τ).loc main_arg4)) shapeCasts_S128_S1x128 := by host_read W1
theorem rawbe0_at (c : Dev nD) : W1 m ρ c (Proc.devRef .tc main_v17) = shapeCast S1x128 (m ((c : Thread nD τ).loc main_arg5)) shapeCasts_S128_S1x128 := by host_read W1
theorem rawb20_at (c : Dev nD) : W1 m ρ c (Proc.devRef .tc main_v18) = shapeCast S1x128 (m ((c : Thread nD τ).loc main_arg7)) shapeCasts_S128_S1x128 := by host_read W1
theorem raww10_at (c : Dev nD) : W1 m ρ c (Proc.devRef .tc main_arg2) = (m ((c : Thread nD τ).loc main_arg2)) := by host_read W1
theorem raww20_at (c : Dev nD) : W1 m ρ c (Proc.devRef .tc main_arg6) = (m ((c : Thread nD τ).loc main_arg6)) := by host_read W1

/-- The same with the node lists and the parameters read back to the launch memory. -/
theorem A0_at (c : Dev nD) : W1 m ρ c (Proc.devRef .tc main_v14) = aggK64 (m ((c : Thread nD τ).loc main_arg0)) (srcK (m ((c : Thread nD τ).loc main_arg1))) (dstK (m ((c : Thread nD τ).loc main_arg1))) := rawA0_at m ρ c
theorem b10_at (c : Dev nD) : W1 m ρ c (Proc.devRef .tc main_v15) = shapeCast S1x128 (m ((c : Thread nD τ).loc main_arg3)) shapeCasts_S128_S1x128 := rawb10_at m ρ c
theorem g0_at (c : Dev nD) : W1 m ρ c (Proc.devRef .tc main_v16) = shapeCast S1x128 (m ((c : Thread nD τ).loc main_arg4)) shapeCasts_S128_S1x128 := rawg0_at m ρ c
theorem be0_at (c : Dev nD) : W1 m ρ c (Proc.devRef .tc main_v17) = shapeCast S1x128 (m ((c : Thread nD τ).loc main_arg5)) shapeCasts_S128_S1x128 := rawbe0_at m ρ c
theorem b20_at (c : Dev nD) : W1 m ρ c (Proc.devRef .tc main_v18) = shapeCast S1x128 (m ((c : Thread nD τ).loc main_arg7)) shapeCasts_S128_S1x128 := rawb20_at m ρ c
theorem w10_at (c : Dev nD) : W1 m ρ c (Proc.devRef .tc main_arg2) = (m ((c : Thread nD τ).loc main_arg2)) := raww10_at m ρ c
theorem w20_at (c : Dev nD) : W1 m ρ c (Proc.devRef .tc main_arg6) = (m ((c : Thread nD τ).loc main_arg6)) := raww20_at m ρ c

theorem mean0_at (c : Dev nD) : W3 m ρ c (Proc.devRef .tc main_v21) = Host.divf (W2 m ρ c (Proc.devRef .tc main_v19_0)) (broadcastInDim S1x128 ![] bcast_S_S1x128 (constant (F := F) S_ .f32 0x47C35000#32)) := by host_read W3
theorem var0_at (c : Dev nD) : W3 m ρ c (Proc.devRef .tc main_v25) = subf (Host.divf (W2 m ρ c (Proc.devRef .tc main_v19_1)) (broadcastInDim S1x128 ![] bcast_S_S1x128 (constant (F := F) S_ .f32 0x47C35000#32))) (mulf (W3 m ρ c (Proc.devRef .tc main_v21)) (W3 m ρ c (Proc.devRef .tc main_v21))) := by
  rw [mean0_at]; host_read W3

/-! ## Layer 1: what its first region finds, and the mean and variance rows its second region finds -/

set_option maxHeartbeats 1000000 in
theorem rawA1_at (c : Dev nD) : W5 m ρ c (Proc.devRef .tc main_v37) = aggK128 (W4 m ρ c (Proc.devRef .tc main_v26)) (W4 m ρ c (Proc.devRef .tc main_v1)) (W4 m ρ c (Proc.devRef .tc main_v3)) := by host_read W5
theorem rawb11_at (c : Dev nD) : W5 m ρ c (Proc.devRef .tc main_v38) = shapeCast S1x128 (W4 m ρ c (Proc.devRef .tc main_arg9)) shapeCasts_S128_S1x128 := by host_read W5
theorem rawg1_at (c : Dev nD) : W5 m ρ c (Proc.devRef .tc main_v39) = shapeCast S1x128 (W4 m ρ c (Proc.devRef .tc main_arg10)) shapeCasts_S128_S1x128 := by host_read W5
theorem rawbe1_at (c : Dev nD) : W5 m ρ c (Proc.devRef .tc main_v40) = shapeCast S1x128 (W4 m ρ c (Proc.devRef .tc main_arg11)) shapeCasts_S128_S1x128 := by host_read W5
theorem rawb21_at (c : Dev nD) : W5 m ρ c (Proc.devRef .tc main_v41) = shapeCast S1x128 (W4 m ρ c (Proc.devRef .tc main_arg13)) shapeCasts_S128_S1x128 := by host_read W5
theorem raww11_at (c : Dev nD) : W5 m ρ c (Proc.devRef .tc main_arg8) = (W4 m ρ c (Proc.devRef .tc main_arg8)) := by host_read W5
theorem raww21_at (c : Dev nD) : W5 m ρ c (Proc.devRef .tc main_arg12) = (W4 m ρ c (Proc.devRef .tc main_arg12)) := by host_read W5

/-- The same with the node lists and the parameters read back to the launch memory. -/
theorem A1_at (c : Dev nD) : W5 m ρ c (Proc.devRef .tc main_v37) = aggK128 (W4 m ρ c (Proc.devRef .tc main_v26)) (srcK (m ((c : Thread nD τ).loc main_arg1))) (dstK (m ((c : Thread nD τ).loc main_arg1))) := by
  rw [rawA1_at, keep4_v1, v1_at, keep4_v3, v3_at]
theorem b11_at (c : Dev nD) : W5 m ρ c (Proc.devRef .tc main_v38) = shapeCast S1x128 (m ((c : Thread nD τ).loc main_arg9)) shapeCasts_S128_S1x128 := by
  rw [rawb11_at, keep4_arg9, arg9_at]
theorem g1_at (c : Dev nD) : W5 m ρ c (Proc.devRef .tc main_v39) = shapeCast S1x128 (m ((c : Thread nD τ).loc main_arg10)) shapeCasts_S128_S1x128 := by
  rw [rawg1_at, keep4_arg10, arg10_at]
theorem be1_at (c : Dev nD) : W5 m ρ c (Proc.devRef .tc main_v40) = shapeCast S1x128 (m ((c : Thread nD τ).loc main_arg11)) shapeCasts_S128_S1x128 := by
  rw [rawbe1_at, keep4_arg11, arg11_at]
theorem b21_at (c : Dev nD) : W5 m ρ c (Proc.devRef .tc main_v41) = shapeCast S1x128 (m ((c : Thread nD τ).loc main_arg13)) shapeCasts_S128_S1x128 := by
  rw [rawb21_at, keep4_arg13, arg13_at]
theorem w11_at (c : Dev nD) : W5 m ρ c (Proc.devRef .tc main_arg8) = (m ((c : Thread nD τ).loc main_arg8)) := by
  rw [raww11_at, keep4_arg8, arg8_at]
theorem w21_at (c : Dev nD) : W5 m ρ c (Proc.devRef .tc main_arg12) = (m ((c : Thread nD τ).loc main_arg12)) := by
  rw [raww21_at, keep4_arg12, arg12_at]

theorem mean1_at (c : Dev nD) : W7 m ρ c (Proc.devRef .tc main_v44) = Host.divf (W6 m ρ c (Proc.devRef .tc main_v42_0)) (broadcastInDim S1x128 ![] bcast_S_S1x128 (constant (F := F) S_ .f32 0x47C35000#32)) := by host_read W7
theorem var1_at (c : Dev nD) : W7 m ρ c (Proc.devRef .tc main_v48) = subf (Host.divf (W6 m ρ c (Proc.devRef .tc main_v42_1)) (broadcastInDim S1x128 ![] bcast_S_S1x128 (constant (F := F) S_ .f32 0x47C35000#32))) (mulf (W7 m ρ c (Proc.devRef .tc main_v44)) (W7 m ρ c (Proc.devRef .tc main_v44))) := by
  rw [mean1_at]; host_read W7

/-! ## Layer 2: what its first region finds, and the mean and variance rows its second region finds -/

set_option maxHeartbeats 1000000 in
theorem rawA2_at (c : Dev nD) : W9 m ρ c (Proc.devRef .tc main_v60) = aggK128 (W8 m ρ c (Proc.devRef .tc main_v49)) (W8 m ρ c (Proc.devRef .tc main_v1)) (W8 m ρ c (Proc.devRef .tc main_v3)) := by host_read W9
theorem rawb12_at (c : Dev nD) : W9 m ρ c (Proc.devRef .tc main_v61) = shapeCast S1x64 (W8 m ρ c (Proc.devRef .tc main_arg15)) shapeCasts_S64_S1x64 := by host_read W9
theorem rawg2_at (c : Dev nD) : W9 m ρ c (Proc.devRef .tc main_v62) = shapeCast S1x64 (W8 m ρ c (Proc.devRef .tc main_arg16)) shapeCasts_S64_S1x64 := by host_read W9
theorem rawbe2_at (c : Dev nD) : W9 m ρ c (Proc.devRef .tc main_v63) = shapeCast S1x64 (W8 m ρ c (Proc.devRef .tc main_arg17)) shapeCasts_S64_S1x64 := by host_read W9
theorem rawb22_at (c : Dev nD) : W9 m ρ c (Proc.devRef .tc main_v64) = shapeCast S1x64 (W8 m ρ c (Proc.devRef .tc main_arg19)) shapeCasts_S64_S1x64 := by host_read W9
theorem raww12_at (c : Dev nD) : W9 m ρ c (Proc.devRef .tc main_arg14) = (W8 m ρ c (Proc.devRef .tc main_arg14)) := by host_read W9
theorem raww22_at (c : Dev nD) : W9 m ρ c (Proc.devRef .tc main_arg18) = (W8 m ρ c (Proc.devRef .tc main_arg18)) := by host_read W9

/-- The same with the node lists and the parameters read back to the launch memory. -/
theorem A2_at (c : Dev nD) : W9 m ρ c (Proc.devRef .tc main_v60) = aggK128 (W8 m ρ c (Proc.devRef .tc main_v49)) (srcK (m ((c : Thread nD τ).loc main_arg1))) (dstK (m ((c : Thread nD τ).loc main_arg1))) := by
  rw [rawA2_at, keep8_v1, v1_at, keep8_v3, v3_at]
theorem b12_at (c : Dev nD) : W9 m ρ c (Proc.devRef .tc main_v61) = shapeCast S1x64 (m ((c : Thread nD τ).loc main_arg15)) shapeCasts_S64_S1x64 := by
  rw [rawb12_at, keep8_arg15, arg15_at]
theorem g2_at (c : Dev nD) : W9 m ρ c (Proc.devRef .tc main_v62) = shapeCast S1x64 (m ((c : Thread nD τ).loc main_arg16)) shapeCasts_S64_S1x64 := by
  rw [rawg2_at, keep8_arg16, arg16_at]
theorem be2_at (c : Dev nD) : W9 m ρ c (Proc.devRef .tc main_v63) = shapeCast S1x64 (m ((c : Thread nD τ).loc main_arg17)) shapeCasts_S64_S1x64 := by
  rw [rawbe2_at, keep8_arg17, arg17_at]
theorem b22_at (c : Dev nD) : W9 m ρ c (Proc.devRef .tc main_v64) = shapeCast S1x64 (m ((c : Thread nD τ).loc main_arg19)) shapeCasts_S64_S1x64 := by
  rw [rawb22_at, keep8_arg19, arg19_at]
theorem w12_at (c : Dev nD) : W9 m ρ c (Proc.devRef .tc main_arg14) = (m ((c : Thread nD τ).loc main_arg14)) := by
  rw [raww12_at, keep8_arg14, arg14_at]
theorem w22_at (c : Dev nD) : W9 m ρ c (Proc.devRef .tc main_arg18) = (m ((c : Thread nD τ).loc main_arg18)) := by
  rw [raww22_at, keep8_arg18, arg18_at]

theorem mean2_at (c : Dev nD) : W11 m ρ c (Proc.devRef .tc main_v67) = Host.divf (W10 m ρ c (Proc.devRef .tc main_v65_0)) (broadcastInDim S1x64 ![] bcast_S_S1x64 (constant (F := F) S_ .f32 0x47C35000#32)) := by host_read W11
theorem var2_at (c : Dev nD) : W11 m ρ c (Proc.devRef .tc main_v71) = subf (Host.divf (W10 m ρ c (Proc.devRef .tc main_v65_1)) (broadcastInDim S1x64 ![] bcast_S_S1x64 (constant (F := F) S_ .f32 0x47C35000#32))) (mulf (W11 m ρ c (Proc.devRef .tc main_v67)) (W11 m ρ c (Proc.devRef .tc main_v67))) := by
  rw [mean2_at]; host_read W11

end Cert.KernelIdeal.GinK

end
-- ==== Proof.GinSpec.lean ====
/-
  One GIN layer's MLP over the extended reals, index by index, for any sizes: the node features `A` (rows = nodes),
  first linear map `w1, b1`, batch normalisation over the rows with scale `g` and shift `be`, ReLU, second linear map
  `w2, b2`.

    pre    P i j   = (∑ₖ A i k · w1 k j) + b1 j                    the pre-activation
    csum   S j     = ∑ᵢ P i j          csumsq  Q j = ∑ᵢ P i j · P i j   column sums over the rows
    meanOf μ j     = S j / n
    varK   j       = Q j / n − μ j · μ j                            "mean of squares minus square of the mean"
    varR   j       = (∑ᵢ (P i j − μ j) · (P i j − μ j)) / n         "mean of squared deviations"
    norm   Y i j   = (P i j − μ j) · rsqrt (var j + ε) · g j + be j
    lin2   Z i j   = (∑ₖ max (Y i k) 0 · w2 k j) + b2 j

  `layerK` uses `varK`, `layerR` uses `varR`; nothing else differs. Over the reals the two variances are one number;
  over the extended reals they agree when every `P i j` is a real number (GinMath).
-/
import Idealize.ShloMosaic.PureOps.Ideal
import Mathlib.Data.EReal.Basic

noncomputable section

namespace Gin

open Idealize.ShloMosaic

/-- An extended real that is a real number. -/
def IsReal (x : EReal) : Prop := ∃ r : ℝ, x = (r : EReal)

variable {n di dz d2 : ℕ}

/-- The pre-activation `A · w1 + b1`. -/
def pre (A : Fin n → Fin di → EReal) (w1 : Fin di → Fin dz → EReal) (b1 : Fin dz → EReal) : Fin n → Fin dz → EReal :=
  fun i j => (∑ k : Fin di, A i k * w1 k j) + b1 j

/-- Column sums over the rows. -/
def csum (P : Fin n → Fin dz → EReal) : Fin dz → EReal := fun j => ∑ i : Fin n, P i j

/-- Column sums of squares over the rows. -/
def csumsq (P : Fin n → Fin dz → EReal) : Fin dz → EReal := fun j => ∑ i : Fin n, P i j * P i j

/-- The column mean, `nn` the number of rows as an extended real. -/
def meanOf (nn : EReal) (P : Fin n → Fin dz → EReal) : Fin dz → EReal := fun j => Ideal.div (csum P j) nn

/-- The variance as mean of squares minus square of the mean. -/
def varK (nn : EReal) (P : Fin n → Fin dz → EReal) : Fin dz → EReal :=
  fun j => Ideal.div (csumsq P j) nn - meanOf nn P j * meanOf nn P j

/-- The variance as mean of squared deviations from the mean. -/
def varR (nn : EReal) (P : Fin n → Fin dz → EReal) : Fin dz → EReal :=
  fun j => Ideal.div (∑ i : Fin n, (P i j - meanOf nn P j) * (P i j - meanOf nn P j)) nn

/-- Batch normalisation with scale and shift. -/
def norm (eps : EReal) (P : Fin n → Fin dz → EReal) (mu var g be : Fin dz → EReal) : Fin n → Fin dz → EReal :=
  fun i j => (P i j - mu j) * Ideal.rsqrt (var j + eps) * g j + be j

/-- ReLU then the second linear map. -/
def lin2 (Y : Fin n → Fin dz → EReal) (w2 : Fin dz → Fin d2 → EReal) (b2 : Fin d2 → EReal) : Fin n → Fin d2 → EReal :=
  fun i j => (∑ k : Fin dz, max (Y i k) 0 * w2 k j) + b2 j

/-- The layer with the variance taken as mean of squares minus square of the mean. -/
def layerK (nn eps : EReal) (A : Fin n → Fin di → EReal) (w1 : Fin di → Fin dz → EReal) (b1 g be : Fin dz → EReal)
    (w2 : Fin dz → Fin d2 → EReal) (b2 : Fin d2 → EReal) : Fin n → Fin d2 → EReal :=
  lin2 (norm eps (pre A w1 b1) (meanOf nn (pre A w1 b1)) (varK nn (pre A w1 b1)) g be) w2 b2

/-- The layer with the variance taken as mean of squared deviations. -/
def layerR (nn eps : EReal) (A : Fin n → Fin di → EReal) (w1 : Fin di → Fin dz → EReal) (b1 g be : Fin dz → EReal)
    (w2 : Fin dz → Fin d2 → EReal) (b2 : Fin d2 → EReal) : Fin n → Fin d2 → EReal :=
  lin2 (norm eps (pre A w1 b1) (meanOf nn (pre A w1 b1)) (varR nn (pre A w1 b1)) g be) w2 b2

end Gin

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.KStats4.lean ====
import proofs.«151523_j51427938402588_1_alg».proof.Proof.Gen.KernelIdeal.Frame
import proofs.«151523_j51427938402588_1_alg».proof.Proof.GinSpec
import proofs.«151523_j51427938402588_1_alg».proof.Proof.LibPlainProduct
import proofs.«151523_j51427938402588_1_alg».proof.Proof.LibBlockedSum
import Idealize.ShloMosaic.Lib.Pipeline.Value
import Idealize.ShloMosaic.Lib.ValueIdx
import Idealize.ShloMosaic.Lib.ValueLayout
import Idealize.ShloMosaic.Lib.Tactic

/-!
# The third statistics pass: column sums and column sums of squares of a layer's pre-activation

The region walks the 100000 rows of its node array (`100000 × 128`) in 50 tiles of 2000 rows. At each tile it forms
the tile of pre-activations `P = x · w1 + b1` (`2000 × 64`, the weights `128 × 64`, the bias one row of 64), adds
the tile's column sums to one running row and the column sums of `P ∘ P` to another; both rows are zeroed at the
first tile and written back once, after the last. Over the extended reals a change of float format is the identity
and addition is associative and commutative, so the row of sums ends at `∑ᵢ P i j` over all 100000 rows `i` and the
row of squares at `∑ᵢ P i j · P i j`. Nothing here needs a finite entry: `0 + x = x` for every extended real.

The steps: what one grid point leaves in each row (the accumulation payload of its blocks and of the row it found);
the payloads entry by entry; the blocks as rows of the arrays the region finds; the running rows by induction on the
point; the one write-back; fifty tiles of 2000 rows re-read as one sum over 100000 rows.
-/

noncomputable section

namespace Cert.KernelIdeal.GinK

open Cert.KernelIdeal Cert.KernelIdeal.Gen Idealize.ShloMosaic Idealize.ShloMosaic.ValueIdx

/-! ## What one grid point leaves in the two accumulator rows

At the first point the rows are zeroed and the point's column sums added; at every later point the point's column
sums are added to what the point before left. In both cases the row a point leaves is the accumulation payload
applied to the point's three input blocks and the row it started from. -/

section Pieces

variable {F : FTy → Type} [FloatOps F]

/-- The zero offsets of a whole-buffer load or store. -/
theorem zero_offsets4 : (![0, 0] : Fin 2 → Nat) = fun _ => 0 := funext fun a => by fin_cases a <;> rfl

/-- A later point leaves, in the row of sums, the row it found plus the column sums of its tile. -/
theorem later4_sum (c : Dev nD) (i : grid4.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond4_0 i) (x0 : Vec F S2000x128 .f32) (x1 : Vec F S128x64 .f32) (x2 : Vec F S1x64 .f32)
    (xo3 xo4 : Vec F S1x64 .f32) :
    out4_B_3 c i a1 h1 a2 h2 a3 h3 a4 h4 a5 h5 hc x0 x1 x2 xo3 xo4 = k4_pay4 x0 x1 x2 xo3 := by
  unfold out4_B_3
  rw [View.read_writes_eq_canon _ _ _ (cover4_B_3 c i a1 h1 a2 h2 a3 h3 a4 h4 a5 h5 hc x0 x1 x2 xo3 xo4)]
  unfold kernelRun4_B
  dsimp only
  rw [View.canon_unit_zero (S := S1x64) zero_offsets4]
  simp only [View.readAt_eq_ld, h1.read_unread, h2.read_unread, h3.read_unread, h4.read_unread,
    View.ld_unit_zero (S := S2000x128) zero_offsets4, View.ld_unit_zero (S := S128x64) zero_offsets4,
    View.ld_unit_zero (S := S1x64) zero_offsets4]

/-- A later point leaves, in the row of sums of squares, the row it found plus the column sums of squares of its tile. -/
theorem later4_sumsq (c : Dev nD) (i : grid4.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : ¬cond4_0 i) (x0 : Vec F S2000x128 .f32) (x1 : Vec F S128x64 .f32) (x2 : Vec F S1x64 .f32)
    (xo3 xo4 : Vec F S1x64 .f32) :
    out4_B_4 c i a1 h1 a2 h2 a3 h3 a4 h4 a5 h5 hc x0 x1 x2 xo3 xo4 = k4_pay5 x0 x1 x2 xo4 := by
  unfold out4_B_4
  rw [View.read_writes_eq_canon _ _ _ (cover4_B_4 c i a1 h1 a2 h2 a3 h3 a4 h4 a5 h5 hc x0 x1 x2 xo3 xo4)]
  unfold kernelRun4_B
  dsimp only
  rw [View.canon_unit_zero (S := S1x64) zero_offsets4]
  simp only [View.readAt_eq_ld, h1.read_unread, h2.read_unread, h3.read_unread, h5.read_unread,
    View.ld_unit_zero (S := S2000x128) zero_offsets4, View.ld_unit_zero (S := S128x64) zero_offsets4,
    View.ld_unit_zero (S := S1x64) zero_offsets4]

/-- The first point leaves, in the row of sums, the zero row plus the column sums of its tile. -/
theorem first4_sum (c : Dev nD) (i : grid4.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond4_0 i) (x0 : Vec F S2000x128 .f32) (x1 : Vec F S128x64 .f32) (x2 : Vec F S1x64 .f32) :
    out4_A_3 c i a1 h1 a2 h2 a3 h3 a4 h4 a5 h5 hc x0 x1 x2 = k4_pay4 x0 x1 x2 k4_pay1 := by
  unfold out4_A_3
  rw [View.read_writes_eq_canon _ _ _ (cover4_A_3 c i a1 h1 a2 h2 a3 h3 a4 h4 a5 h5 hc x0 x1 x2)]
  unfold kernelRun4_A
  dsimp only
  sl_unfold_words
  rw [View.canon_cons_unit_zero (S := S1x64) zero_offsets4, View.readCov_unit_zero (S := S1x64) _ zero_offsets4]
  simp only [View.readAt_eq_ld, h1.read_unread, h2.read_unread, h3.read_unread,
    View.ld_unit_zero (S := S2000x128) zero_offsets4, View.ld_unit_zero (S := S128x64) zero_offsets4,
    View.ld_unit_zero (S := S1x64) zero_offsets4]

/-- The first point leaves, in the row of sums of squares, the zero row plus the column sums of squares of its tile. -/
theorem first4_sumsq (c : Dev nD) (i : grid4.Coords) (a1 : Memref sig .tc .vmem S2000x128 .f32) (h1 : a1.IsWhole)
    (a2 : Memref sig .tc .vmem S128x64 .f32) (h2 : a2.IsWhole) (a3 : Memref sig .tc .vmem S1x64 .f32) (h3 : a3.IsWhole)
    (a4 : Memref sig .tc .vmem S1x64 .f32) (h4 : a4.IsWhole) (a5 : Memref sig .tc .vmem S1x64 .f32) (h5 : a5.IsWhole)
    (hc : cond4_0 i) (x0 : Vec F S2000x128 .f32) (x1 : Vec F S128x64 .f32) (x2 : Vec F S1x64 .f32) :
    out4_A_4 c i a1 h1 a2 h2 a3 h3 a4 h4 a5 h5 hc x0 x1 x2 = k4_pay5 x0 x1 x2 k4_pay2 := by
  unfold out4_A_4
  rw [View.read_writes_eq_canon _ _ _ (cover4_A_4 c i a1 h1 a2 h2 a3 h3 a4 h4 a5 h5 hc x0 x1 x2)]
  unfold kernelRun4_A
  dsimp only
  sl_unfold_words
  rw [View.canon_cons_unit_zero (S := S1x64) zero_offsets4, View.readCov_unit_zero (S := S1x64) _ zero_offsets4]
  simp only [View.readAt_eq_ld, h1.read_unread, h2.read_unread, h3.read_unread,
    View.ld_unit_zero (S := S2000x128) zero_offsets4, View.ld_unit_zero (S := S128x64) zero_offsets4,
    View.ld_unit_zero (S := S1x64) zero_offsets4]

end Pieces

/-! ## The payloads read entry by entry over the extended reals

A change of float format is the identity on extended reals, a product into a zero accumulator is the plain sum of
products, and a reduction along the rows is the sum over the rows. -/

/-- A sum along the rows of an `a × b` matrix, read at column `j`: the sum over the rows `r` of the entry `(r, j)`. -/
theorem colsum4_at {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ r : Fin a, src (ix2 r j) := by
  refine (Ideal.multiReduction_add_single src _ h hφ hacc (ix1 j)).trans ?_
  refine Finset.sum_congr rfl fun r _ => congrArg src ?_
  funext d
  apply Fin.ext
  match d with
  | ⟨0, _⟩ => rfl
  | ⟨1, _⟩ => rfl

/-- The tile of pre-activations: entry `(r, j)` is `(∑ₖ x r k · w k j) + b j`. -/
theorem tile4_at (x0 : Vec Ideal S2000x128 .f32) (x1 : Vec Ideal S128x64 .f32) (x2 : Vec Ideal S1x64 .f32)
    (r : Fin 2000) (j : Fin 64) :
    k4_pay3 x0 x1 x2 (ix2 r j) = (∑ k : Fin 128, x0 (ix2 r k) * x1 (ix2 k j)) + x2 (ix2 (0 : Fin 1) j) := by
  unfold k4_pay3
  refine (addf_apply _ _ _).trans ?_
  refine congrArg₂ (· + ·) ?_ ?_
  · refine (PlainProduct.matmul_at _ rfl none _ _ _ r j).trans ?_
    rw [constant_apply, Ideal.ofBits_zero_f32, zero_add, shapeCast_self]
    rfl
  · refine (broadcastTo_1b_ab_apply _ _ r j).trans ?_
    rw [shapeCast_self]

/-- The row of sums after a point: what it held plus, in column `j`, the sum of the tile's column `j`. -/
theorem sumrow4_at (x0 : Vec Ideal S2000x128 .f32) (x1 : Vec Ideal S128x64 .f32) (x2 : Vec Ideal S1x64 .f32)
    (acc : Vec Ideal S1x64 .f32) (j : Fin 64) :
    k4_pay4 x0 x1 x2 acc (ix2 (0 : Fin 1) j) = acc (ix2 (0 : Fin 1) j) + ∑ r : Fin 2000, k4_pay3 x0 x1 x2 (ix2 r j) := by
  unfold k4_pay4
  refine (addf_apply _ _ _).trans ?_
  refine congrArg₂ (· + ·) ?_ ?_
  · rw [shapeCast_self]
  · refine (shapeCast_a_1a_apply _ _ (0 : Fin 1) j).trans ?_
    exact colsum4_at (k4_pay3 x0 x1 x2) reduces_S2000x64_S64 (.inl rfl) rfl j

/-- The row of sums of squares after a point: what it held plus, in column `j`, the sum of the squares of the tile's column `j`. -/
theorem sqrow4_at (x0 : Vec Ideal S2000x128 .f32) (x1 : Vec Ideal S128x64 .f32) (x2 : Vec Ideal S1x64 .f32)
    (acc : Vec Ideal S1x64 .f32) (j : Fin 64) :
    k4_pay5 x0 x1 x2 acc (ix2 (0 : Fin 1) j)
      = acc (ix2 (0 : Fin 1) j) + ∑ r : Fin 2000, k4_pay3 x0 x1 x2 (ix2 r j) * k4_pay3 x0 x1 x2 (ix2 r j) := by
  unfold k4_pay5
  refine (addf_apply _ _ _).trans ?_
  refine congrArg₂ (· + ·) ?_ ?_
  · rw [shapeCast_self]
  · refine (shapeCast_a_1a_apply _ _ (0 : Fin 1) j).trans ?_
    exact colsum4_at (mulf (k4_pay3 x0 x1 x2) (k4_pay3 x0 x1 x2)) reduces_S2000x64_S64 (.inl rfl) rfl j

/-- The zero rows are zero. -/
theorem zerorow4_sum (j : Fin 64) : (k4_pay1 (F := Ideal)) (ix2 (0 : Fin 1) j) = 0 := Ideal.ofBits_zero_f32
theorem zerorow4_sumsq (j : Fin 64) : (k4_pay2 (F := Ideal)) (ix2 (0 : Fin 1) j) = 0 := Ideal.ofBits_zero_f32

/-! ## The arrays the region reads, and its blocks

Window 0 cuts the node array into 50 tiles of 2000 rows: row `r` of tile `t` is row `2000·t + r` of the array.
Windows 1 and 2 hold the whole weight matrix and the whole bias row at every point. -/

section Region

open Idealize.ShloMosaic.TcCoe

variable (V : (c : Dev nD) → (b : Ref sig .tc) → Buf (Elt Ideal) ((c : Thread nD τ).loc b))

/-- The node features the region finds: `100000 × 128`. -/
def s4A (c : Dev nD) : Fin 100000 → Fin 128 → EReal :=
  fun i k => (V c (Pipeline.arrRef spec4 0) : Vec Ideal S100000x128 .f32) (ix2 i k)
/-- The first linear map's weights: `128 × 64`. -/
def s4W (c : Dev nD) : Fin 128 → Fin 64 → EReal :=
  fun k j => (V c (Pipeline.arrRef spec4 1) : Vec Ideal S128x64 .f32) (ix2 k j)
/-- The first linear map's bias, one row of 64. -/
def s4B (c : Dev nD) : Fin 64 → EReal :=
  fun j => (V c (Pipeline.arrRef spec4 2) : Vec Ideal S1x64 .f32) (ix2 (0 : Fin 1) j)

/-- The block index of window 0 at point `t` is `(t, 0)`; windows 1 and 2 stay at `(0, 0)`. -/
theorem where4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem where4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)
theorem where4_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)

/-- Row `r` of the tile at point `t` is row `2000·t + r` of the node array. -/
theorem tileA4_at (c : Dev nD) (t : Fin cfg4.N) (r : Fin 2000) (k : Fin 128) (h : t.val * 2000 + r.val < 100000) :
    (iblk4 V c 0 t : Vec Ideal S2000x128 .f32) (ix2 r k) = s4A V c ⟨t.val * 2000 + r.val, h⟩ k := by
  unfold iblk4 s4A
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * r.val = t.val * 2000 + r.val; rw [(where4_0 t).1]; omega
  | ⟨1, _⟩ => show win4_0.index t (1 : Fin 2) * 128 + 1 * k.val = k.val; rw [(where4_0 t).2]; omega

/-- The weights' block at any point is the whole matrix. -/
theorem tileW4_at (c : Dev nD) (t : Fin cfg4.N) (k : Fin 128) (j : Fin 64) :
    (iblk4 V c 1 t : Vec Ideal S128x64 .f32) (ix2 k j) = s4W V c k j := by
  unfold iblk4 s4W
  rw [View.read_apply]
  show V c (Pipeline.arrRef spec4 1) _ = V c (Pipeline.arrRef spec4 1) _
  congr 1
  funext a
  apply Fin.ext
  match a with
  | ⟨0, _⟩ => show win4_1.index t (0 : Fin 2) * 128 + 1 * k.val = k.val; rw [(where4_1 t).1]; omega
  | ⟨1, _⟩ => show win4_1.index t (1 : Fin 2) * 64 + 1 * j.val = j.val; rw [(where4_1 t).2]; omega

/-- The bias's block at any point is the whole row. -/
theorem tileB4_at (c : Dev nD) (t : Fin cfg4.N) (j : Fin 64) :
    (iblk4 V c 2 t : Vec Ideal S1x64 .f32) (ix2 (0 : Fin 1) j) = s4B V c j := by
  unfold iblk4 s4B
  rw [View.read_apply]
  show V c (Pipeline.arrRef spec4 2) _ = V c (Pipeline.arrRef spec4 2) _
  congr 1
  funext a
  apply Fin.ext
  match a with
  | ⟨0, _⟩ => show win4_2.index t (0 : Fin 2) * 1 + 1 * 0 = 0; rw [(where4_2 t).1]
  | ⟨1, _⟩ => show win4_2.index t (1 : Fin 2) * 64 + 1 * j.val = j.val; rw [(where4_2 t).2]; omega

/-! ## One point's tile of pre-activations, by row number -/

/-- The pre-activation `A · w1 + b1` of the region's arrays. -/
def s4P (c : Dev nD) : Fin 100000 → Fin 64 → EReal := Gin.pre (s4A V c) (s4W V c) (s4B V c)

/-- Column `j` of the pre-activation by row number, zero past the last row. -/
def s4col (c : Dev nD) (j : Fin 64) (i : ℕ) : EReal := if h : i < 100000 then s4P V c ⟨i, h⟩ j else 0

/-- Its square. -/
def s4colsq (c : Dev nD) (j : Fin 64) (i : ℕ) : EReal :=
  if h : i < 100000 then s4P V c ⟨i, h⟩ j * s4P V c ⟨i, h⟩ j else 0

/-- Entry `(r, j)` of the tile the body forms at point `t` is the pre-activation at row `2000·t + r`. -/
theorem tile4_point (c : Dev nD) (t : Fin cfg4.N) (r : Fin 2000) (j : Fin 64) :
    k4_pay3 (F := Ideal) (iblk4 V c 0 t) (iblk4 V c 1 t) (iblk4 V c 2 t) (ix2 r j) = s4col V c j (t.val * 2000 + r.val) := by
  have hN : t.val < 50 := lt_of_lt_of_eq t.isLt (show cfg4.N = 50 from N_4)
  have hr : r.val < 2000 := r.isLt
  have hb : t.val * 2000 + r.val < 100000 := by omega
  refine (tile4_at (iblk4 V c 0 t) (iblk4 V c 1 t) (iblk4 V c 2 t) r j).trans ?_
  unfold s4col
  rw [dif_pos hb]
  unfold s4P Gin.pre
  exact congrArg₂ (· + ·)
    (Finset.sum_congr rfl fun k _ => congrArg₂ (· * ·) (tileA4_at V c t r k hb) (tileW4_at V c t k j))
    (tileB4_at V c t j)

/-- The same for the square. -/
theorem tilesq4_point (c : Dev nD) (t : Fin cfg4.N) (r : Fin 2000) (j : Fin 64) :
    k4_pay3 (F := Ideal) (iblk4 V c 0 t) (iblk4 V c 1 t) (iblk4 V c 2 t) (ix2 r j)
        * k4_pay3 (F := Ideal) (iblk4 V c 0 t) (iblk4 V c 1 t) (iblk4 V c 2 t) (ix2 r j)
      = s4colsq V c j (t.val * 2000 + r.val) := by
  have hN : t.val < 50 := lt_of_lt_of_eq t.isLt (show cfg4.N = 50 from N_4)
  have hr : r.val < 2000 := r.isLt
  have hb : t.val * 2000 + r.val < 100000 := by omega
  rw [tile4_point V c t r j]
  unfold s4col s4colsq
  rw [dif_pos hb, dif_pos hb]

/-- The column sums of the tile at point `t`: rows `2000·t … 2000·t + 1999`. -/
theorem tilesum4_point (c : Dev nD) (t : Fin cfg4.N) (j : Fin 64) :
    ∑ r : Fin 2000, k4_pay3 (F := Ideal) (iblk4 V c 0 t) (iblk4 V c 1 t) (iblk4 V c 2 t) (ix2 r j)
      = ∑ r ∈ Finset.range 2000, s4col V c j (t.val * 2000 + r) :=
  (Finset.sum_congr rfl fun r _ => tile4_point V c t r j).trans
    (Fin.sum_univ_eq_sum_range (fun r => s4col V c j (t.val * 2000 + r)) 2000)

theorem tilesumsq4_point (c : Dev nD) (t : Fin cfg4.N) (j : Fin 64) :
    ∑ r : Fin 2000, k4_pay3 (F := Ideal) (iblk4 V c 0 t) (iblk4 V c 1 t) (iblk4 V c 2 t) (ix2 r j)
        * k4_pay3 (F := Ideal) (iblk4 V c 0 t) (iblk4 V c 1 t) (iblk4 V c 2 t) (ix2 r j)
      = ∑ r ∈ Finset.range 2000, s4colsq V c j (t.val * 2000 + r) :=
  (Finset.sum_congr rfl fun r _ => tilesq4_point V c t r j).trans
    (Fin.sum_univ_eq_sum_range (fun r => s4colsq V c j (t.val * 2000 + r)) 2000)

/-! ## The running rows, by induction on the point

After point `n` the row of sums holds, in column `j`, the sum of column `j` of the pre-activation over the rows of
tiles `0 … n`; the row of sums of squares likewise. The first point starts from the zero row, every later point from
what the point before left. -/

theorem run4_sum (c : Dev nD) (j : Fin 64) : ∀ (n : ℕ) (h : n < cfg4.N),
    (outsAt4 V c n h).1 (ix2 (0 : Fin 1) j)
      = ∑ s ∈ Finset.range (n + 1), ∑ r ∈ Finset.range 2000, s4col V c j (s * 2000 + r)
  | 0, h => by
    rw [outsAt4_A V c ⟨0, h⟩ rfl]
    dsimp only
    rw [first4_sum]
    refine (sumrow4_at _ _ _ _ j).trans ?_
    rw [zerorow4_sum, zero_add, Finset.sum_range_one]
    exact tilesum4_point V c ⟨0, h⟩ j
  | n + 1, h => by
    have hN : cfg4.N = 50 := N_4
    have hB : ¬(⟨n + 1, h⟩ : Fin cfg4.N).val % 50 = 0 := by dsimp only; omega
    rw [outsAt4_B V c ⟨n + 1, h⟩ hB]
    dsimp only
    rw [later4_sum]
    refine (sumrow4_at _ _ _ _ j).trans ?_
    rw [Finset.sum_range_succ _ (n + 1)]
    exact congrArg₂ (· + ·) (run4_sum c j n (Nat.lt_of_succ_lt h)) (tilesum4_point V c ⟨n + 1, h⟩ j)

theorem run4_sumsq (c : Dev nD) (j : Fin 64) : ∀ (n : ℕ) (h : n < cfg4.N),
    (outsAt4 V c n h).2 (ix2 (0 : Fin 1) j)
      = ∑ s ∈ Finset.range (n + 1), ∑ r ∈ Finset.range 2000, s4colsq V c j (s * 2000 + r)
  | 0, h => by
    rw [outsAt4_A V c ⟨0, h⟩ rfl]
    dsimp only
    rw [first4_sumsq]
    refine (sqrow4_at _ _ _ _ j).trans ?_
    rw [zerorow4_sumsq, zero_add, Finset.sum_range_one]
    exact tilesumsq4_point V c ⟨0, h⟩ j
  | n + 1, h => by
    have hN : cfg4.N = 50 := N_4
    have hB : ¬(⟨n + 1, h⟩ : Fin cfg4.N).val % 50 = 0 := by dsimp only; omega
    rw [outsAt4_B V c ⟨n + 1, h⟩ hB]
    dsimp only
    rw [later4_sumsq]
    refine (sqrow4_at _ _ _ _ j).trans ?_
    rw [Finset.sum_range_succ _ (n + 1)]
    exact congrArg₂ (· + ·) (run4_sumsq c j n (Nat.lt_of_succ_lt h)) (tilesumsq4_point V c ⟨n + 1, h⟩ j)

/-! ## The result arrays

Each accumulator row is written back once, after the last point, and its one block is the whole `1 × 64` array: the
array ends holding the row the last point left, and taking the 50 tiles of 2000 rows one after the other is the sum
over all 100000 rows. -/

/-- The last point. -/
theorem last4 : 49 < cfg4.N := by rw [show cfg4.N = 50 from N_4]; decide

/-- The block of either output sits at offset zero at every point. -/
theorem where4_3 : ∀ t : Fin cfg4.N, (fun a => win4_3.index t a * main_v65_0.ty.shape.size a) = fun _ => 0 :=
  (by decide +kernel : ∀ t : Fin grid4.N, (fun a => win4_3.index t a * main_v65_0.ty.shape.size a) = fun _ => 0)
theorem where4_4 : ∀ t : Fin cfg4.N, (fun a => win4_4.index t a * main_v65_1.ty.shape.size a) = fun _ => 0 :=
  (by decide +kernel : ∀ t : Fin grid4.N, (fun a => win4_4.index t a * main_v65_1.ty.shape.size a) = fun _ => 0)

/-- The one write-back of the row of sums writes what the last point left. -/
theorem flushed4_sum (c : Dev nD) (t : Fin cfg4.N) (hf : (cfg4.win 3).flush t = true) :
    (dat4 V c).flushed 3 t = ((cfg4.win 3).blk t).view.read (Elt Ideal) ((outsAt4 V c 49 last4).1) := by
  have hN : cfg4.N = 50 := N_4
  have h49 : t.val = 49 := by have := (flush4_3 t).mp hf; have := t.isLt; omega
  obtain rfl : t = ⟨49, last4⟩ := Fin.ext h49
  show (cfg4.win 3).cut (grid4.coords ⟨49, last4⟩) ((dat4 V c).after 3 ⟨49, last4⟩) = _
  rw [after4_3]
  exact (Memref.read_access_unit_zero (Elt Ideal) main_v65_0 (where4_3 ⟨49, last4⟩)
    (fun a => by rw [congrFun (where4_3 ⟨49, last4⟩) a]; simp) (outsAt4 V c 49 last4).1).symm

theorem flushed4_sumsq (c : Dev nD) (t : Fin cfg4.N) (hf : (cfg4.win 4).flush t = true) :
    (dat4 V c).flushed 4 t = ((cfg4.win 4).blk t).view.read (Elt Ideal) ((outsAt4 V c 49 last4).2) := by
  have hN : cfg4.N = 50 := N_4
  have h49 : t.val = 49 := by have := (flush4_4 t).mp hf; have := t.isLt; omega
  obtain rfl : t = ⟨49, last4⟩ := Fin.ext h49
  show (cfg4.win 4).cut (grid4.coords ⟨49, last4⟩) ((dat4 V c).after 4 ⟨49, last4⟩) = _
  rw [after4_4]
  exact (Memref.read_access_unit_zero (Elt Ideal) main_v65_1 (where4_4 ⟨49, last4⟩)
    (fun a => by rw [congrFun (where4_4 ⟨49, last4⟩) a]; simp) (outsAt4 V c 49 last4).2).symm

/-- So the array of sums ends holding the row the last point left. -/
theorem final4_sum (c : Dev nD) : (dat4 V c).arrAt 3 cfg4.N = (outsAt4 V c 49 last4).1 :=
  (dat4 V c).arrAt_eq_of_cover 3 (outsAt4 V c 49 last4).1 (flushed4_sum V c) fun i =>
    ⟨⟨49, last4⟩, (flush4_3 _).mpr rfl, by
      show i ∈ ((View.whole main_v65_0).slice (win4_3.rect ⟨49, last4⟩)).set
      rw [View.set_slice_whole, Rect.mem_set_unit]
      intro a
      have hrow : (i 0 : Nat) < 1 := (i 0).isLt
      have hcol : (i 1 : Nat) < 64 := (i 1).isLt
      match a with
      | ⟨0, _⟩ =>
        show win4_3.index ⟨49, last4⟩ 0 * win4_3.size 0 ≤ (i 0 : Nat)
          ∧ (i 0 : Nat) < win4_3.index ⟨49, last4⟩ 0 * win4_3.size 0 + win4_3.xsize (grid4.coords ⟨49, last4⟩) 0
        rw [show win4_3.index ⟨49, last4⟩ 0 * win4_3.size 0 = 0 from by decide +kernel,
          show win4_3.xsize (grid4.coords ⟨49, last4⟩) 0 = 1 from by decide +kernel]
        omega
      | ⟨1, _⟩ =>
        show win4_3.index ⟨49, last4⟩ 1 * win4_3.size 1 ≤ (i 1 : Nat)
          ∧ (i 1 : Nat) < win4_3.index ⟨49, last4⟩ 1 * win4_3.size 1 + win4_3.xsize (grid4.coords ⟨49, last4⟩) 1
        rw [show win4_3.index ⟨49, last4⟩ 1 * win4_3.size 1 = 0 from by decide +kernel,
          show win4_3.xsize (grid4.coords ⟨49, last4⟩) 1 = 64 from by decide +kernel]
        omega⟩

theorem final4_sumsq (c : Dev nD) : (dat4 V c).arrAt 4 cfg4.N = (outsAt4 V c 49 last4).2 :=
  (dat4 V c).arrAt_eq_of_cover 4 (outsAt4 V c 49 last4).2 (flushed4_sumsq V c) fun i =>
    ⟨⟨49, last4⟩, (flush4_4 _).mpr rfl, by
      show i ∈ ((View.whole main_v65_1).slice (win4_4.rect ⟨49, last4⟩)).set
      rw [View.set_slice_whole, Rect.mem_set_unit]
      intro a
      have hrow : (i 0 : Nat) < 1 := (i 0).isLt
      have hcol : (i 1 : Nat) < 64 := (i 1).isLt
      match a with
      | ⟨0, _⟩ =>
        show win4_4.index ⟨49, last4⟩ 0 * win4_4.size 0 ≤ (i 0 : Nat)
          ∧ (i 0 : Nat) < win4_4.index ⟨49, last4⟩ 0 * win4_4.size 0 + win4_4.xsize (grid4.coords ⟨49, last4⟩) 0
        rw [show win4_4.index ⟨49, last4⟩ 0 * win4_4.size 0 = 0 from by decide +kernel,
          show win4_4.xsize (grid4.coords ⟨49, last4⟩) 0 = 1 from by decide +kernel]
        omega
      | ⟨1, _⟩ =>
        show win4_4.index ⟨49, last4⟩ 1 * win4_4.size 1 ≤ (i 1 : Nat)
          ∧ (i 1 : Nat) < win4_4.index ⟨49, last4⟩ 1 * win4_4.size 1 + win4_4.xsize (grid4.coords ⟨49, last4⟩) 1
        rw [show win4_4.index ⟨49, last4⟩ 1 * win4_4.size 1 = 0 from by decide +kernel,
          show win4_4.xsize (grid4.coords ⟨49, last4⟩) 1 = 64 from by decide +kernel]
        omega⟩

/-- Fifty tiles of 2000 rows, one after the other, are all 100000 rows. -/
theorem allrows4 (f : ℕ → EReal) :
    ∑ s ∈ Finset.range (49 + 1), ∑ r ∈ Finset.range 2000, f (s * 2000 + r) = ∑ i : Fin 100000, f i.val := by
  rw [← BlockedSum.sum_range_mul f 50 2000]
  exact (Fin.sum_univ_eq_sum_range f 100000).symm

/-- The array of sums after the region: column `j` is the sum of column `j` of `A · w1 + b1` over all rows. -/
theorem stats4_sum (c : Dev nD) (j : Fin 64) :
    (dat4 (F := Ideal) V c).arrAt 3 cfg4.N (ix2 (0 : Fin 1) j) = Gin.csum (Gin.pre (s4A V c) (s4W V c) (s4B V c)) j := by
  refine (congrFun (final4_sum V c) (ix2 (0 : Fin 1) j)).trans ?_
  refine (run4_sum V c j 49 last4).trans ?_
  rw [allrows4]
  unfold Gin.csum
  refine Finset.sum_congr rfl fun i _ => ?_
  unfold s4col
  rw [dif_pos i.isLt]
  rfl

/-- The array of sums of squares after the region: column `j` is the sum of the squares of column `j` of `A · w1 + b1`
    over all rows. -/
theorem stats4_sumsq (c : Dev nD) (j : Fin 64) :
    (dat4 (F := Ideal) V c).arrAt 4 cfg4.N (ix2 (0 : Fin 1) j) = Gin.csumsq (Gin.pre (s4A V c) (s4W V c) (s4B V c)) j := by
  refine (congrFun (final4_sumsq V c) (ix2 (0 : Fin 1) j)).trans ?_
  refine (run4_sumsq V c j 49 last4).trans ?_
  rw [allrows4]
  unfold Gin.csumsq
  refine Finset.sum_congr rfl fun i _ => ?_
  unfold s4colsq
  rw [dif_pos i.isLt]
  rfl

end Region

end Cert.KernelIdeal.GinK

end
-- ==== Proof.KApply1.lean ====
import proofs.«151523_j51427938402588_1_alg».proof.Proof.Gen.KernelIdeal.Frame
import proofs.«151523_j51427938402588_1_alg».proof.Proof.GinSpec
import proofs.«151523_j51427938402588_1_alg».proof.Proof.LibPlainProduct
import Idealize.ShloMosaic.Lib.Pipeline.Value
import Idealize.ShloMosaic.Lib.ValueLayout

/-!
# The first apply region, read as values over the extended reals

One grid point handles a tile of 2000 rows of the node array (64 columns). On the tile it forms the pre-activation
`P = tile · w1 + b1` (128 columns), normalises each column with a given mean row and variance row,
`Y = (P − μ) · rsqrt (var + ε) · g + be`, and stores `Z = max (Y, 0) · w2 + b2` (128 columns). A change of float
format is the identity here, and a product into a zero accumulator is the plain sum over the contracted coordinate.
Every row of `Z` depends only on the same row of the tile and on the whole small arrays, so the fifty tiles written
back, one below the other, are the same formula over the whole node array: row `i` is written by point `i / 2000`.
-/

noncomputable section

namespace Cert.KernelIdeal.GinK

open Cert.KernelIdeal Cert.KernelIdeal.Gen Idealize.ShloMosaic Idealize.ShloMosaic.TcCoe Idealize.ShloMosaic.ValueIdx
open Idealize.ShloMosaic.Pipeline (Dat)

/-- The ε added to the variance, as the extended real its f32 word denotes. -/
abbrev epsW : EReal := Ideal.ofBits .f32 0x3727C5AC#32

/-- The zero offsets of a whole-block access, spelt as a function. -/
theorem hzA : (![0, 0] : Fin 2 → Nat) = fun _ => 0 := funext fun a => by fin_cases a <;> rfl

/-- The layer is row-wise: its value at row `r` of one node array and at row `i` of another agree when the two rows
    agree and the small arrays are the same. -/
theorem layer_row {n n' di dz d2 : ℕ} (eps : EReal) (A : Fin n → Fin di → EReal) (A' : Fin n' → Fin di → EReal)
    (w1 w1' : Fin di → Fin dz → EReal) (b1 b1' mu mu' var var' g g' be be' : Fin dz → EReal)
    (w2 w2' : Fin dz → Fin d2 → EReal) (b2 b2' : Fin d2 → EReal) (r : Fin n) (i : Fin n') (j : Fin d2)
    (hA : A r = A' i) (hw1 : w1 = w1') (hb1 : b1 = b1') (hmu : mu = mu') (hvar : var = var') (hg : g = g')
    (hbe : be = be') (hw2 : w2 = w2') (hb2 : b2 = b2') :
    Gin.lin2 (Gin.norm eps (Gin.pre A w1 b1) mu var g be) w2 b2 r j
      = Gin.lin2 (Gin.norm eps (Gin.pre A' w1' b1') mu' var' g' be') w2' b2' i j := by
  subst hw1 hb1 hmu hvar hg hbe hw2 hb2
  unfold Gin.lin2 Gin.norm Gin.pre
  simp only [hA]

/-! ## One tile: the stored block at an index -/

/-- Everything up to the second product, at `(r, j)`: the sum over `k` of `max (Y r k) 0 · w2 k j`, with `Y` the
    normalised pre-activation of the tile. -/
theorem pay2_1_at (v0 : Vec Ideal S2000x64 .f32) (v3 : Vec Ideal S64x128 .f32) (v6 v10 v15 v21 v25 : Vec Ideal S1x128 .f32)
    (v32 : Vec Ideal S128x128 .f32) (r : Fin 2000) (j : Fin 128) :
    k1_pay2 (F := Ideal) v0 v3 v6 v10 v15 v21 v25 v32 (ix2 r j)
      = ∑ k : Fin 128, max (Gin.norm epsW (Gin.pre (fun r k => v0 (ix2 r k)) (fun k j => v3 (ix2 k j)) (fun j => v6 (ix2 (0 : Fin 1) j)))
          (fun j => v15 (ix2 (0 : Fin 1) j)) (fun j => v10 (ix2 (0 : Fin 1) j)) (fun j => v21 (ix2 (0 : Fin 1) j))
          (fun j => v25 (ix2 (0 : Fin 1) j)) r k) 0 * v32 (ix2 k j) := by
  unfold k1_pay2
  refine (PlainProduct.matmul_at _ rfl none _ _ _ r j).trans ?_
  rw [constant_apply, Ideal.ofBits_zero_f32, zero_add]
  refine Finset.sum_congr rfl fun k _ => ?_
  have hrow : ∀ (v : Vec Ideal S1x128 .f32) (q : Fin 128),
      broadcastTo S2000x128 (shapeCast S1x128 v shapeCasts_S1x128_S1x128) broadcasts_S1x128_S2000x128 (ix2 r q)
        = v (ix2 (0 : Fin 1) q) := by
    intro v q; rw [shapeCast_self]; exact broadcastTo_1b_ab_apply v _ r q
  have hrs : broadcastTo S2000x128 (rsqrt (addf (shapeCast S1x128 v10 shapeCasts_S1x128_S1x128)
        (broadcast S1x128 (FloatOps.ofBits (F := Ideal) FTy.f32 0x3727C5AC#32)))) broadcasts_S1x128_S2000x128 (ix2 r k)
        = Ideal.rsqrt (v10 (ix2 (0 : Fin 1) k) + epsW) := by
    rw [shapeCast_self]; exact broadcastTo_1b_ab_apply _ _ r k
  have hmm : matmul dot_S2000x64_S64x128_S2000x128_1_0_0_1_n_n none
        (truncf FTy.bf16 (shapeCast S2000x64 v0 shapeCasts_S2000x64_S2000x64) bitsLt_bf16_f32)
        (truncf FTy.bf16 v3 bitsLt_bf16_f32) (constant (F := Ideal) S2000x128 FTy.f32 0x00000000#32) (ix2 r k)
        = ∑ c : Fin 64, v0 (ix2 r c) * v3 (ix2 c k) := by
    refine (PlainProduct.matmul_at _ rfl none _ _ _ r k).trans ?_
    rw [constant_apply, Ideal.ofBits_zero_f32, zero_add, shapeCast_self]
    rfl
  rw [truncf_apply, truncf_apply, maximumf_apply, addf_apply, mulf_apply, mulf_apply, subf_apply, addf_apply,
    hrow, hrow, hrow, hrow, hrs, hmm, broadcast_apply]
  show max _ (Ideal.ofBits .f32 0x00000000#32) * _ = _
  rw [Ideal.ofBits_zero_f32]
  rfl

/-- What the body leaves in the output block, at `(r, j)`: the layer of the tile and of the small blocks. -/
theorem out1_at (x0 : Vec Ideal S2000x64 .f32) (x1 : Vec Ideal S64x128 .f32) (x2 x3 x4 x5 x6 : Vec Ideal S1x128 .f32)
    (x7 : Vec Ideal S128x128 .f32) (x8 : Vec Ideal S1x128 .f32) (r : Fin 2000) (j : Fin 128) :
    out1_9 (F := Ideal) x0 x1 x2 x3 x4 x5 x6 x7 x8 (ix2 r j)
      = Gin.lin2 (Gin.norm epsW (Gin.pre (fun r k => x0 (ix2 r k)) (fun k j => x1 (ix2 k j)) (fun j => x2 (ix2 (0 : Fin 1) j)))
          (fun j => x3 (ix2 (0 : Fin 1) j)) (fun j => x4 (ix2 (0 : Fin 1) j)) (fun j => x5 (ix2 (0 : Fin 1) j))
          (fun j => x6 (ix2 (0 : Fin 1) j))) (fun k j => x7 (ix2 k j)) (fun j => x8 (ix2 (0 : Fin 1) j)) r j := by
  unfold out1_9
  rw [View.canon_unit_zero hzA]
  simp only [View.ld_unit_zero (S := S2000x64) hzA, View.ld_unit_zero (S := S64x128) hzA, View.ld_unit_zero (S := S1x128) hzA, View.ld_unit_zero (S := S128x128) hzA]
  unfold k1_pay1 k1_pay3
  rw [addf_apply, pay2_1_at, shapeCast_self]
  refine congrArg (_ + ·) ?_
  exact broadcastTo_1b_ab_apply x8 _ r j

/-! ## The arrays as the region finds them -/

variable (V : (c : Dev nD) → (b : Ref sig .tc) → Buf (Elt Ideal) ((c : Thread nD τ).loc b))

/-- The node array. -/
def a1A (c : Dev nD) : Fin 100000 → Fin 64 → EReal := fun i k => (V c (Pipeline.arrRef spec1 0) : S100000x64.Idx → EReal) (ix2 i k)
/-- The first weight matrix. -/
def a1W1 (c : Dev nD) : Fin 64 → Fin 128 → EReal := fun k j => (V c (Pipeline.arrRef spec1 1) : S64x128.Idx → EReal) (ix2 k j)
/-- The first bias row. -/
def a1B1 (c : Dev nD) : Fin 128 → EReal := fun j => (V c (Pipeline.arrRef spec1 2) : S1x128.Idx → EReal) (ix2 (0 : Fin 1) j)
/-- The mean row. -/
def a1Mu (c : Dev nD) : Fin 128 → EReal := fun j => (V c (Pipeline.arrRef spec1 3) : S1x128.Idx → EReal) (ix2 (0 : Fin 1) j)
/-- The variance row. -/
def a1Var (c : Dev nD) : Fin 128 → EReal := fun j => (V c (Pipeline.arrRef spec1 4) : S1x128.Idx → EReal) (ix2 (0 : Fin 1) j)
/-- The scale row. -/
def a1G (c : Dev nD) : Fin 128 → EReal := fun j => (V c (Pipeline.arrRef spec1 5) : S1x128.Idx → EReal) (ix2 (0 : Fin 1) j)
/-- The shift row. -/
def a1Be (c : Dev nD) : Fin 128 → EReal := fun j => (V c (Pipeline.arrRef spec1 6) : S1x128.Idx → EReal) (ix2 (0 : Fin 1) j)
/-- The second weight matrix. -/
def a1W2 (c : Dev nD) : Fin 128 → Fin 128 → EReal := fun k j => (V c (Pipeline.arrRef spec1 7) : S128x128.Idx → EReal) (ix2 k j)
/-- The second bias row. -/
def a1B2 (c : Dev nD) : Fin 128 → EReal := fun j => (V c (Pipeline.arrRef spec1 8) : S1x128.Idx → EReal) (ix2 (0 : Fin 1) j)

/-- The layer over the whole node array, entry by entry. -/
def z1 (c : Dev nD) : Fin 100000 → Fin 128 → EReal :=
  Gin.lin2 (Gin.norm epsW (Gin.pre (a1A V c) (a1W1 V c) (a1B1 V c)) (a1Mu V c) (a1Var V c) (a1G V c) (a1Be V c))
    (a1W2 V c) (a1B2 V c)

/-- The same as one function of the output array's index. -/
def Z1 (c : Dev nD) : S100000x128.Idx → EReal := fun i => z1 V c (i 0) (i 1)

/-! ## Where each window's block sits in its array -/

/-- The windows' index maps, decided over the fifty points: the node window and the output window are at block row `t`,
    every other window at block (0, 0). -/
theorem idx_facts1 : ∀ t : Fin cfg1.N,
    win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The node window's block at point `t` is rows `2000 t … 2000 t + 1999` of the node array. -/
theorem blk1_A (c : Dev nD) (t : Fin cfg1.N) (r : Fin 2000) (i : Fin 100000) (hi : i.val = 2000 * t.val + r.val) :
    (fun k => (iblk1 V c 0 t : Vec Ideal S2000x64 .f32) (ix2 r k)) = a1A V c i := by
  obtain ⟨e0, e1, -⟩ := idx_facts1 t
  funext k
  unfold iblk1 a1A
  rw [View.read_apply]
  refine congrArg (V c (Pipeline.arrRef spec1 0) : S100000x64.Idx → EReal) (funext fun a => Fin.ext ?_)
  match a with
  | ⟨0, _⟩ => show win1_0.index t (0 : Fin 2) * 2000 + 1 * r.val = i.val; rw [e0, hi]; omega
  | ⟨1, _⟩ => show win1_0.index t (1 : Fin 2) * 64 + 1 * k.val = k.val; rw [e1]; omega

/-- Window 1's block at every point is its whole array. -/
theorem blk1_W1 (c : Dev nD) (t : Fin cfg1.N) :
    (fun k j => (iblk1 V c 1 t : Vec Ideal S64x128 .f32) (ix2 k j)) = a1W1 V c := by
  obtain ⟨-, -, -, -, e0, e1, -⟩ := idx_facts1 t
  funext k j
  unfold iblk1 a1W1
  rw [View.read_apply]
  refine congrArg (V c (Pipeline.arrRef spec1 1) : S64x128.Idx → EReal) (funext fun a => Fin.ext ?_)
  match a with
  | ⟨0, _⟩ => show win1_1.index t (0 : Fin 2) * 64 + 1 * k.val = k.val; rw [e0]; omega
  | ⟨1, _⟩ => show win1_1.index t (1 : Fin 2) * 128 + 1 * j.val = j.val; rw [e1]; omega

/-- Window 2's block at every point is its whole row. -/
theorem blk1_B1 (c : Dev nD) (t : Fin cfg1.N) :
    (fun j => (iblk1 V c 2 t : Vec Ideal S1x128 .f32) (ix2 (0 : Fin 1) j)) = a1B1 V c := by
  obtain ⟨-, -, -, -, -, -, e0, e1, -⟩ := idx_facts1 t
  funext j
  unfold iblk1 a1B1
  rw [View.read_apply]
  refine congrArg (V c (Pipeline.arrRef spec1 2) : S1x128.Idx → EReal) (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

/-- Window 3's block at every point is its whole row. -/
theorem blk1_Mu (c : Dev nD) (t : Fin cfg1.N) :
    (fun j => (iblk1 V c 3 t : Vec Ideal S1x128 .f32) (ix2 (0 : Fin 1) j)) = a1Mu V c := by
  obtain ⟨-, -, -, -, -, -, -, -, e0, e1, -⟩ := idx_facts1 t
  funext j
  unfold iblk1 a1Mu
  rw [View.read_apply]
  refine congrArg (V c (Pipeline.arrRef spec1 3) : S1x128.Idx → EReal) (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- Window 4's block at every point is its whole row. -/
theorem blk1_Var (c : Dev nD) (t : Fin cfg1.N) :
    (fun j => (iblk1 V c 4 t : Vec Ideal S1x128 .f32) (ix2 (0 : Fin 1) j)) = a1Var V c := by
  obtain ⟨-, -, -, -, -, -, -, -, -, -, e0, e1, -⟩ := idx_facts1 t
  funext j
  unfold iblk1 a1Var
  rw [View.read_apply]
  refine congrArg (V c (Pipeline.arrRef spec1 4) : S1x128.Idx → EReal) (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

/-- Window 5's block at every point is its whole row. -/
theorem blk1_G (c : Dev nD) (t : Fin cfg1.N) :
    (fun j => (iblk1 V c 5 t : Vec Ideal S1x128 .f32) (ix2 (0 : Fin 1) j)) = a1G V c := by
  obtain ⟨-, -, -, -, -, -, -, -, -, -, -, -, e0, e1, -⟩ := idx_facts1 t
  funext j
  unfold iblk1 a1G
  rw [View.read_apply]
  refine congrArg (V c (Pipeline.arrRef spec1 5) : S1x128.Idx → EReal) (funext fun a => Fin.ext ?_)
  match a with
  | ⟨0, _⟩ => show win1_5.index t (0 : Fin 2) * 1 + 1 * 0 = 0; rw [e0]
  | ⟨1, _⟩ => show win1_5.index t (1 : Fin 2) * 128 + 1 * j.val = j.val; rw [e1]; omega

/-- Window 6's block at every point is its whole row. -/
theorem blk1_Be (c : Dev nD) (t : Fin cfg1.N) :
    (fun j => (iblk1 V c 6 t : Vec Ideal S1x128 .f32) (ix2 (0 : Fin 1) j)) = a1Be V c := by
  obtain ⟨-, -, -, -, -, -, -, -, -, -, -, -, -, -, e0, e1, -⟩ := idx_facts1 t
  funext j
  unfold iblk1 a1Be
  rw [View.read_apply]
  refine congrArg (V c (Pipeline.arrRef spec1 6) : S1x128.Idx → EReal) (funext fun a => Fin.ext ?_)
  match a with
  | ⟨0, _⟩ => show win1_6.index t (0 : Fin 2) * 1 + 1 * 0 = 0; rw [e0]
  | ⟨1, _⟩ => show win1_6.index t (1 : Fin 2) * 128 + 1 * j.val = j.val; rw [e1]; omega

/-- Window 7's block at every point is its whole array. -/
theorem blk1_W2 (c : Dev nD) (t : Fin cfg1.N) :
    (fun k j => (iblk1 V c 7 t : Vec Ideal S128x128 .f32) (ix2 k j)) = a1W2 V c := by
  obtain ⟨-, -, -, -, -, -, -, -, -, -, -, -, -, -, -, -, e0, e1, -⟩ := idx_facts1 t
  funext k j
  unfold iblk1 a1W2
  rw [View.read_apply]
  refine congrArg (V c (Pipeline.arrRef spec1 7) : S128x128.Idx → EReal) (funext fun a => Fin.ext ?_)
  match a with
  | ⟨0, _⟩ => show win1_7.index t (0 : Fin 2) * 128 + 1 * k.val = k.val; rw [e0]; omega
  | ⟨1, _⟩ => show win1_7.index t (1 : Fin 2) * 128 + 1 * j.val = j.val; rw [e1]; omega

/-- Window 8's block at every point is its whole row. -/
theorem blk1_B2 (c : Dev nD) (t : Fin cfg1.N) :
    (fun j => (iblk1 V c 8 t : Vec Ideal S1x128 .f32) (ix2 (0 : Fin 1) j)) = a1B2 V c := by
  obtain ⟨-, -, -, -, -, -, -, -, -, -, -, -, -, -, -, -, -, -, e0, e1⟩ := idx_facts1 t
  funext j
  unfold iblk1 a1B2
  rw [View.read_apply]
  refine congrArg (V c (Pipeline.arrRef spec1 8) : S1x128.Idx → EReal) (funext fun a => Fin.ext ?_)
  match a with
  | ⟨0, _⟩ => show win1_8.index t (0 : Fin 2) * 1 + 1 * 0 = 0; rw [e0]
  | ⟨1, _⟩ => show win1_8.index t (1 : Fin 2) * 128 + 1 * j.val = j.val; rw [e1]; omega

/-! ## From the blocks to the array -/

/-- What point `t` writes back is block `t` of the layer over the whole node array. -/
theorem flushed1_eq (c : Dev nD) (t : Fin cfg1.N) :
    (dat1 (F := Ideal) V c).flushed 9 t = ((cfg1.win 9).blk t).view.read (Elt Ideal) (Z1 V c) := by
  show (cfg1.win 9).cut (grid1.coords t) ((dat1 (F := Ideal) V c).after 9 t) = _
  rw [after1_9]
  obtain ⟨-, -, e0, e1, -⟩ := idx_facts1 t
  have hN : t.val < 50 := lt_of_lt_of_eq t.isLt (show cfg1.N = 50 from N_1)
  funext y
  obtain ⟨r, j, rfl⟩ : ∃ (r : Fin 2000) (j : Fin 128), y = ix2 r j := ⟨y 0, y 1, eq_ix2 (n0 := 2000) (n1 := 128) y⟩
  have hemb : ((cfg1.win 9).blk t).view.emb (ix2 r j) = (ix2 (⟨2000 * t.val + r.val, by omega⟩ : Fin 100000) j : S100000x128.Idx) := by
    funext a; apply Fin.ext
    match a with
    | ⟨0, _⟩ => show win1_9.index t (0 : Fin 2) * 2000 + 1 * r.val = 2000 * t.val + r.val; rw [e0]; omega
    | ⟨1, _⟩ => show win1_9.index t (1 : Fin 2) * 128 + 1 * j.val = j.val; rw [e1]; omega
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 r j)
    = Z1 V c (((cfg1.win 9).blk t).view.emb (ix2 r j))
  refine (out1_at _ _ _ _ _ _ _ _ _ r j).trans ?_
  refine Eq.trans ?_ (congrArg (Z1 V c) hemb).symm
  show _ = z1 V c (⟨2000 * t.val + r.val, by omega⟩ : Fin 100000) j
  unfold z1
  exact layer_row epsW _ _ _ _ _ _ _ _ _ _ _ _ _ _ _ _ _ _ r _ j (blk1_A V c t r _ rfl) (blk1_W1 V c t) (blk1_B1 V c t)
    (blk1_Mu V c t) (blk1_Var V c t) (blk1_G V c t) (blk1_Be V c t) (blk1_W2 V c t) (blk1_B2 V c t)

/-- An index of the output array is in point `t`'s block iff each coordinate is in the block's range on its axis. -/
theorem mem_blk1 (t : Fin cfg1.N) (i : S100000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v26).slice (win1_9.rect t)).set ↔ _
  rw [View.set_slice_whole, Rect.mem_set_unit]
  exact Iff.rfl

/-- Every index of the output array is in some point's block: row `i` is in the block of point `i / 2000`. -/
theorem cover1 (i : S100000x128.Idx) : ∃ t : Fin cfg1.N, (cfg1.win 9).flush t = true ∧ i ∈ ((cfg1.win 9).blk t).view.set := by
  have hi0 : (i 0).val < 100000 := idx2_lt0 i
  have hi1 : (i 1).val < 128 := idx2_lt1 i
  have hN : cfg1.N = 50 := N_1
  let t : Fin cfg1.N := ⟨(i 0).val / 2000, by rw [hN]; omega⟩
  have ht : t.val = (i 0).val / 2000 := rfl
  obtain ⟨-, -, e0, e1, -⟩ := idx_facts1 t
  refine ⟨t, flush1_9 t, ?_⟩
  rw [mem_blk1]
  intro a
  match a with
  | ⟨0, _⟩ => show win1_9.index t (0 : Fin 2) * 2000 ≤ (i 0).val ∧ (i 0).val < win1_9.index t (0 : Fin 2) * 2000 + 2000; rw [e0, ht]; omega
  | ⟨1, _⟩ => show win1_9.index t (1 : Fin 2) * 128 ≤ (i 1).val ∧ (i 1).val < win1_9.index t (1 : Fin 2) * 128 + 128; rw [e1]; omega

/-- The output array after the region is the layer over the whole node array. -/
theorem final1 (c : Dev nD) : (dat1 (F := Ideal) V c).arrAt 9 cfg1.N = Z1 V c :=
  (dat1 (F := Ideal) V c).arrAt_eq_of_cover 9 (Z1 V c) (fun t _ => flushed1_eq V c t) cover1

/-- The output array after the region, entry by entry. -/
theorem apply1 (c : Dev nD) (i : Fin 100000) (j : Fin 128) :
    (dat1 (F := Ideal) V c).arrAt 9 cfg1.N (ix2 i j)
      = Gin.lin2 (Gin.norm epsW (Gin.pre (a1A V c) (a1W1 V c) (a1B1 V c)) (a1Mu V c) (a1Var V c) (a1G V c) (a1Be V c))
          (a1W2 V c) (a1B2 V c) i j := by
  rw [final1]
  rfl

end Cert.KernelIdeal.GinK

end
-- ==== Proof.KApply5.lean ====
import proofs.«151523_j51427938402588_1_alg».proof.Proof.Gen.KernelIdeal.Frame
import proofs.«151523_j51427938402588_1_alg».proof.Proof.GinSpec
import proofs.«151523_j51427938402588_1_alg».proof.Proof.LibPlainProduct
import proofs.«151523_j51427938402588_1_alg».proof.Proof.KApply1
import Idealize.ShloMosaic.Lib.Pipeline.Value
import Idealize.ShloMosaic.Lib.ValueLayout

/-!
# The third apply region, read as values over the extended reals

One grid point handles a tile of 2000 rows of the node array (128 columns). On the tile it forms the pre-activation
`P = tile · w1 + b1` (64 columns), normalises each column with a given mean row and variance row,
`Y = (P − μ) · rsqrt (var + ε) · g + be`, and stores `Z = max (Y, 0) · w2 + b2` (64 columns). A change of float
format is the identity here, and a product into a zero accumulator is the plain sum over the contracted coordinate.
Every row of `Z` depends only on the same row of the tile and on the whole small arrays, so the fifty tiles written
back, one below the other, are the same formula over the whole node array: row `i` is written by point `i / 2000`.
-/

noncomputable section

namespace Cert.KernelIdeal.GinK

open Cert.KernelIdeal Cert.KernelIdeal.Gen Idealize.ShloMosaic Idealize.ShloMosaic.TcCoe Idealize.ShloMosaic.ValueIdx
open Idealize.ShloMosaic.Pipeline (Dat)

/-! ## One tile: the stored block at an index -/

/-- Everything up to the second product, at `(r, j)`: the sum over `k` of `max (Y r k) 0 · w2 k j`, with `Y` the
    normalised pre-activation of the tile. -/
theorem pay2_5_at (v0 : Vec Ideal S2000x128 .f32) (v3 : Vec Ideal S128x64 .f32) (v6 v10 v15 v21 v25 : Vec Ideal S1x64 .f32)
    (v32 : Vec Ideal S64x64 .f32) (r : Fin 2000) (j : Fin 64) :
    k5_pay2 (F := Ideal) v0 v3 v6 v10 v15 v21 v25 v32 (ix2 r j)
      = ∑ k : Fin 64, max (Gin.norm epsW (Gin.pre (fun r k => v0 (ix2 r k)) (fun k j => v3 (ix2 k j)) (fun j => v6 (ix2 (0 : Fin 1) j)))
          (fun j => v15 (ix2 (0 : Fin 1) j)) (fun j => v10 (ix2 (0 : Fin 1) j)) (fun j => v21 (ix2 (0 : Fin 1) j))
          (fun j => v25 (ix2 (0 : Fin 1) j)) r k) 0 * v32 (ix2 k j) := by
  unfold k5_pay2
  refine (PlainProduct.matmul_at _ rfl none _ _ _ r j).trans ?_
  rw [constant_apply, Ideal.ofBits_zero_f32, zero_add]
  refine Finset.sum_congr rfl fun k _ => ?_
  have hrow : ∀ (v : Vec Ideal S1x64 .f32) (q : Fin 64),
      broadcastTo S2000x64 (shapeCast S1x64 v shapeCasts_S1x64_S1x64) broadcasts_S1x64_S2000x64 (ix2 r q)
        = v (ix2 (0 : Fin 1) q) := by
    intro v q; rw [shapeCast_self]; exact broadcastTo_1b_ab_apply v _ r q
  have hrs : broadcastTo S2000x64 (rsqrt (addf (shapeCast S1x64 v10 shapeCasts_S1x64_S1x64)
        (broadcast S1x64 (FloatOps.ofBits (F := Ideal) FTy.f32 0x3727C5AC#32)))) broadcasts_S1x64_S2000x64 (ix2 r k)
        = Ideal.rsqrt (v10 (ix2 (0 : Fin 1) k) + epsW) := by
    rw [shapeCast_self]; exact broadcastTo_1b_ab_apply _ _ r k
  have hmm : matmul dot_S2000x128_S128x64_S2000x64_1_0_0_1_n_n none
        (truncf FTy.bf16 (shapeCast S2000x128 v0 shapeCasts_S2000x128_S2000x128) bitsLt_bf16_f32)
        (truncf FTy.bf16 v3 bitsLt_bf16_f32) (constant (F := Ideal) S2000x64 FTy.f32 0x00000000#32) (ix2 r k)
        = ∑ c : Fin 128, v0 (ix2 r c) * v3 (ix2 c k) := by
    refine (PlainProduct.matmul_at _ rfl none _ _ _ r k).trans ?_
    rw [constant_apply, Ideal.ofBits_zero_f32, zero_add, shapeCast_self]
    rfl
  rw [truncf_apply, truncf_apply, maximumf_apply, addf_apply, mulf_apply, mulf_apply, subf_apply, addf_apply,
    hrow, hrow, hrow, hrow, hrs, hmm, broadcast_apply]
  show max _ (Ideal.ofBits .f32 0x00000000#32) * _ = _
  rw [Ideal.ofBits_zero_f32]
  rfl

/-- What the body leaves in the output block, at `(r, j)`: the layer of the tile and of the small blocks. -/
theorem out5_at (x0 : Vec Ideal S2000x128 .f32) (x1 : Vec Ideal S128x64 .f32) (x2 x3 x4 x5 x6 : Vec Ideal S1x64 .f32)
    (x7 : Vec Ideal S64x64 .f32) (x8 : Vec Ideal S1x64 .f32) (r : Fin 2000) (j : Fin 64) :
    out5_9 (F := Ideal) x0 x1 x2 x3 x4 x5 x6 x7 x8 (ix2 r j)
      = Gin.lin2 (Gin.norm epsW (Gin.pre (fun r k => x0 (ix2 r k)) (fun k j => x1 (ix2 k j)) (fun j => x2 (ix2 (0 : Fin 1) j)))
          (fun j => x3 (ix2 (0 : Fin 1) j)) (fun j => x4 (ix2 (0 : Fin 1) j)) (fun j => x5 (ix2 (0 : Fin 1) j))
          (fun j => x6 (ix2 (0 : Fin 1) j))) (fun k j => x7 (ix2 k j)) (fun j => x8 (ix2 (0 : Fin 1) j)) r j := by
  unfold out5_9
  rw [View.canon_unit_zero hzA]
  simp only [View.ld_unit_zero (S := S2000x128) hzA, View.ld_unit_zero (S := S128x64) hzA, View.ld_unit_zero (S := S1x64) hzA, View.ld_unit_zero (S := S64x64) hzA]
  unfold k5_pay1 k5_pay3
  rw [addf_apply, pay2_5_at, shapeCast_self]
  refine congrArg (_ + ·) ?_
  exact broadcastTo_1b_ab_apply x8 _ r j

/-! ## The arrays as the region finds them -/

variable (V : (c : Dev nD) → (b : Ref sig .tc) → Buf (Elt Ideal) ((c : Thread nD τ).loc b))

/-- The node array. -/
def a5A (c : Dev nD) : Fin 100000 → Fin 128 → EReal := fun i k => (V c (Pipeline.arrRef spec5 0) : S100000x128.Idx → EReal) (ix2 i k)
/-- The first weight matrix. -/
def a5W1 (c : Dev nD) : Fin 128 → Fin 64 → EReal := fun k j => (V c (Pipeline.arrRef spec5 1) : S128x64.Idx → EReal) (ix2 k j)
/-- The first bias row. -/
def a5B1 (c : Dev nD) : Fin 64 → EReal := fun j => (V c (Pipeline.arrRef spec5 2) : S1x64.Idx → EReal) (ix2 (0 : Fin 1) j)
/-- The mean row. -/
def a5Mu (c : Dev nD) : Fin 64 → EReal := fun j => (V c (Pipeline.arrRef spec5 3) : S1x64.Idx → EReal) (ix2 (0 : Fin 1) j)
/-- The variance row. -/
def a5Var (c : Dev nD) : Fin 64 → EReal := fun j => (V c (Pipeline.arrRef spec5 4) : S1x64.Idx → EReal) (ix2 (0 : Fin 1) j)
/-- The scale row. -/
def a5G (c : Dev nD) : Fin 64 → EReal := fun j => (V c (Pipeline.arrRef spec5 5) : S1x64.Idx → EReal) (ix2 (0 : Fin 1) j)
/-- The shift row. -/
def a5Be (c : Dev nD) : Fin 64 → EReal := fun j => (V c (Pipeline.arrRef spec5 6) : S1x64.Idx → EReal) (ix2 (0 : Fin 1) j)
/-- The second weight matrix. -/
def a5W2 (c : Dev nD) : Fin 64 → Fin 64 → EReal := fun k j => (V c (Pipeline.arrRef spec5 7) : S64x64.Idx → EReal) (ix2 k j)
/-- The second bias row. -/
def a5B2 (c : Dev nD) : Fin 64 → EReal := fun j => (V c (Pipeline.arrRef spec5 8) : S1x64.Idx → EReal) (ix2 (0 : Fin 1) j)

/-- The layer over the whole node array, entry by entry. -/
def z5 (c : Dev nD) : Fin 100000 → Fin 64 → EReal :=
  Gin.lin2 (Gin.norm epsW (Gin.pre (a5A V c) (a5W1 V c) (a5B1 V c)) (a5Mu V c) (a5Var V c) (a5G V c) (a5Be V c))
    (a5W2 V c) (a5B2 V c)

/-- The same as one function of the output array's index. -/
def Z5 (c : Dev nD) : S100000x64.Idx → EReal := fun i => z5 V c (i 0) (i 1)

/-! ## Where each window's block sits in its array -/

/-- The windows' index maps, decided over the fifty points: the node window and the output window are at block row `t`,
    every other window at block (0, 0). -/
theorem idx_facts5 : ∀ t : Fin cfg5.N,
    win5_0.index t (0 : Fin 2) = t.val ∧ win5_0.index t (1 : Fin 2) = 0
    ∧ win5_9.index t (0 : Fin 2) = t.val ∧ win5_9.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0 :=
  (by decide +kernel : ∀ t : Fin grid5.N, _)

/-- The node window's block at point `t` is rows `2000 t … 2000 t + 1999` of the node array. -/
theorem blk5_A (c : Dev nD) (t : Fin cfg5.N) (r : Fin 2000) (i : Fin 100000) (hi : i.val = 2000 * t.val + r.val) :
    (fun k => (iblk5 V c 0 t : Vec Ideal S2000x128 .f32) (ix2 r k)) = a5A V c i := by
  obtain ⟨e0, e1, -⟩ := idx_facts5 t
  funext k
  unfold iblk5 a5A
  rw [View.read_apply]
  refine congrArg (V c (Pipeline.arrRef spec5 0) : S100000x128.Idx → EReal) (funext fun a => Fin.ext ?_)
  match a with
  | ⟨0, _⟩ => show win5_0.index t (0 : Fin 2) * 2000 + 1 * r.val = i.val; rw [e0, hi]; omega
  | ⟨1, _⟩ => show win5_0.index t (1 : Fin 2) * 128 + 1 * k.val = k.val; rw [e1]; omega

/-- Window 1's block at every point is its whole array. -/
theorem blk5_W1 (c : Dev nD) (t : Fin cfg5.N) :
    (fun k j => (iblk5 V c 1 t : Vec Ideal S128x64 .f32) (ix2 k j)) = a5W1 V c := by
  obtain ⟨-, -, -, -, e0, e1, -⟩ := idx_facts5 t
  funext k j
  unfold iblk5 a5W1
  rw [View.read_apply]
  refine congrArg (V c (Pipeline.arrRef spec5 1) : S128x64.Idx → EReal) (funext fun a => Fin.ext ?_)
  match a with
  | ⟨0, _⟩ => show win5_1.index t (0 : Fin 2) * 128 + 1 * k.val = k.val; rw [e0]; omega
  | ⟨1, _⟩ => show win5_1.index t (1 : Fin 2) * 64 + 1 * j.val = j.val; rw [e1]; omega

/-- Window 2's block at every point is its whole row. -/
theorem blk5_B1 (c : Dev nD) (t : Fin cfg5.N) :
    (fun j => (iblk5 V c 2 t : Vec Ideal S1x64 .f32) (ix2 (0 : Fin 1) j)) = a5B1 V c := by
  obtain ⟨-, -, -, -, -, -, e0, e1, -⟩ := idx_facts5 t
  funext j
  unfold iblk5 a5B1
  rw [View.read_apply]
  refine congrArg (V c (Pipeline.arrRef spec5 2) : S1x64.Idx → EReal) (funext fun a => Fin.ext ?_)
  match a with
  | ⟨0, _⟩ => show win5_2.index t (0 : Fin 2) * 1 + 1 * 0 = 0; rw [e0]
  | ⟨1, _⟩ => show win5_2.index t (1 : Fin 2) * 64 + 1 * j.val = j.val; rw [e1]; omega

/-- Window 3's block at every point is its whole row. -/
theorem blk5_Mu (c : Dev nD) (t : Fin cfg5.N) :
    (fun j => (iblk5 V c 3 t : Vec Ideal S1x64 .f32) (ix2 (0 : Fin 1) j)) = a5Mu V c := by
  obtain ⟨-, -, -, -, -, -, -, -, e0, e1, -⟩ := idx_facts5 t
  funext j
  unfold iblk5 a5Mu
  rw [View.read_apply]
  refine congrArg (V c (Pipeline.arrRef spec5 3) : S1x64.Idx → EReal) (funext fun a => Fin.ext ?_)
  match a with
  | ⟨0, _⟩ => show win5_3.index t (0 : Fin 2) * 1 + 1 * 0 = 0; rw [e0]
  | ⟨1, _⟩ => show win5_3.index t (1 : Fin 2) * 64 + 1 * j.val = j.val; rw [e1]; omega

/-- Window 4's block at every point is its whole row. -/
theorem blk5_Var (c : Dev nD) (t : Fin cfg5.N) :
    (fun j => (iblk5 V c 4 t : Vec Ideal S1x64 .f32) (ix2 (0 : Fin 1) j)) = a5Var V c := by
  obtain ⟨-, -, -, -, -, -, -, -, -, -, e0, e1, -⟩ := idx_facts5 t
  funext j
  unfold iblk5 a5Var
  rw [View.read_apply]
  refine congrArg (V c (Pipeline.arrRef spec5 4) : S1x64.Idx → EReal) (funext fun a => Fin.ext ?_)
  match a with
  | ⟨0, _⟩ => show win5_4.index t (0 : Fin 2) * 1 + 1 * 0 = 0; rw [e0]
  | ⟨1, _⟩ => show win5_4.index t (1 : Fin 2) * 64 + 1 * j.val = j.val; rw [e1]; omega

/-- Window 5's block at every point is its whole row. -/
theorem blk5_G (c : Dev nD) (t : Fin cfg5.N) :
    (fun j => (iblk5 V c 5 t : Vec Ideal S1x64 .f32) (ix2 (0 : Fin 1) j)) = a5G V c := by
  obtain ⟨-, -, -, -, -, -, -, -, -, -, -, -, e0, e1, -⟩ := idx_facts5 t
  funext j
  unfold iblk5 a5G
  rw [View.read_apply]
  refine congrArg (V c (Pipeline.arrRef spec5 5) : S1x64.Idx → EReal) (funext fun a => Fin.ext ?_)
  match a with
  | ⟨0, _⟩ => show win5_5.index t (0 : Fin 2) * 1 + 1 * 0 = 0; rw [e0]
  | ⟨1, _⟩ => show win5_5.index t (1 : Fin 2) * 64 + 1 * j.val = j.val; rw [e1]; omega

/-- Window 6's block at every point is its whole row. -/
theorem blk5_Be (c : Dev nD) (t : Fin cfg5.N) :
    (fun j => (iblk5 V c 6 t : Vec Ideal S1x64 .f32) (ix2 (0 : Fin 1) j)) = a5Be V c := by
  obtain ⟨-, -, -, -, -, -, -, -, -, -, -, -, -, -, e0, e1, -⟩ := idx_facts5 t
  funext j
  unfold iblk5 a5Be
  rw [View.read_apply]
  refine congrArg (V c (Pipeline.arrRef spec5 6) : S1x64.Idx → EReal) (funext fun a => Fin.ext ?_)
  match a with
  | ⟨0, _⟩ => show win5_6.index t (0 : Fin 2) * 1 + 1 * 0 = 0; rw [e0]
  | ⟨1, _⟩ => show win5_6.index t (1 : Fin 2) * 64 + 1 * j.val = j.val; rw [e1]; omega

/-- Window 7's block at every point is its whole array. -/
theorem blk5_W2 (c : Dev nD) (t : Fin cfg5.N) :
    (fun k j => (iblk5 V c 7 t : Vec Ideal S64x64 .f32) (ix2 k j)) = a5W2 V c := by
  obtain ⟨-, -, -, -, -, -, -, -, -, -, -, -, -, -, -, -, e0, e1, -⟩ := idx_facts5 t
  funext k j
  unfold iblk5 a5W2
  rw [View.read_apply]
  refine congrArg (V c (Pipeline.arrRef spec5 7) : S64x64.Idx → EReal) (funext fun a => Fin.ext ?_)
  match a with
  | ⟨0, _⟩ => show win5_7.index t (0 : Fin 2) * 64 + 1 * k.val = k.val; rw [e0]; omega
  | ⟨1, _⟩ => show win5_7.index t (1 : Fin 2) * 64 + 1 * j.val = j.val; rw [e1]; omega

/-- Window 8's block at every point is its whole row. -/
theorem blk5_B2 (c : Dev nD) (t : Fin cfg5.N) :
    (fun j => (iblk5 V c 8 t : Vec Ideal S1x64 .f32) (ix2 (0 : Fin 1) j)) = a5B2 V c := by
  obtain ⟨-, -, -, -, -, -, -, -, -, -, -, -, -, -, -, -, -, -, e0, e1⟩ := idx_facts5 t
  funext j
  unfold iblk5 a5B2
  rw [View.read_apply]
  refine congrArg (V c (Pipeline.arrRef spec5 8) : S1x64.Idx → EReal) (funext fun a => Fin.ext ?_)
  match a with
  | ⟨0, _⟩ => show win5_8.index t (0 : Fin 2) * 1 + 1 * 0 = 0; rw [e0]
  | ⟨1, _⟩ => show win5_8.index t (1 : Fin 2) * 64 + 1 * j.val = j.val; rw [e1]; omega

/-! ## From the blocks to the array -/

/-- What point `t` writes back is block `t` of the layer over the whole node array. -/
theorem flushed5_eq (c : Dev nD) (t : Fin cfg5.N) :
    (dat5 (F := Ideal) V c).flushed 9 t = ((cfg5.win 9).blk t).view.read (Elt Ideal) (Z5 V c) := by
  show (cfg5.win 9).cut (grid5.coords t) ((dat5 (F := Ideal) V c).after 9 t) = _
  rw [after5_9]
  obtain ⟨-, -, e0, e1, -⟩ := idx_facts5 t
  have hN : t.val < 50 := lt_of_lt_of_eq t.isLt (show cfg5.N = 50 from N_5)
  funext y
  obtain ⟨r, j, rfl⟩ : ∃ (r : Fin 2000) (j : Fin 64), y = ix2 r j := ⟨y 0, y 1, eq_ix2 (n0 := 2000) (n1 := 64) y⟩
  have hemb : ((cfg5.win 9).blk t).view.emb (ix2 r j) = (ix2 (⟨2000 * t.val + r.val, by omega⟩ : Fin 100000) j : S100000x64.Idx) := by
    funext a; apply Fin.ext
    match a with
    | ⟨0, _⟩ => show win5_9.index t (0 : Fin 2) * 2000 + 1 * r.val = 2000 * t.val + r.val; rw [e0]; omega
    | ⟨1, _⟩ => show win5_9.index t (1 : Fin 2) * 64 + 1 * j.val = j.val; rw [e1]; omega
  show out5_9 (iblk5 V c 0 t) (iblk5 V c 1 t) (iblk5 V c 2 t) (iblk5 V c 3 t) (iblk5 V c 4 t) (iblk5 V c 5 t) (iblk5 V c 6 t) (iblk5 V c 7 t) (iblk5 V c 8 t) (ix2 r j)
    = Z5 V c (((cfg5.win 9).blk t).view.emb (ix2 r j))
  refine (out5_at _ _ _ _ _ _ _ _ _ r j).trans ?_
  refine Eq.trans ?_ (congrArg (Z5 V c) hemb).symm
  show _ = z5 V c (⟨2000 * t.val + r.val, by omega⟩ : Fin 100000) j
  unfold z5
  exact layer_row epsW _ _ _ _ _ _ _ _ _ _ _ _ _ _ _ _ _ _ r _ j (blk5_A V c t r _ rfl) (blk5_W1 V c t) (blk5_B1 V c t)
    (blk5_Mu V c t) (blk5_Var V c t) (blk5_G V c t) (blk5_Be V c t) (blk5_W2 V c t) (blk5_B2 V c t)

/-- An index of the output array is in point `t`'s block iff each coordinate is in the block's range on its axis. -/
theorem mem_blk5 (t : Fin cfg5.N) (i : S100000x64.Idx) :
    i ∈ ((cfg5.win 9).blk t).view.set ↔ ∀ a : Fin 2, win5_9.index t a * S2000x64.size a ≤ (i a).val ∧ (i a).val < win5_9.index t a * S2000x64.size a + S2000x64.size a := by
  show i ∈ ((View.whole main_v72).slice (win5_9.rect t)).set ↔ _
  rw [View.set_slice_whole, Rect.mem_set_unit]
  exact Iff.rfl

/-- Every index of the output array is in some point's block: row `i` is in the block of point `i / 2000`. -/
theorem cover5 (i : S100000x64.Idx) : ∃ t : Fin cfg5.N, (cfg5.win 9).flush t = true ∧ i ∈ ((cfg5.win 9).blk t).view.set := by
  have hi0 : (i 0).val < 100000 := idx2_lt0 i
  have hi1 : (i 1).val < 64 := idx2_lt1 i
  have hN : cfg5.N = 50 := N_5
  let t : Fin cfg5.N := ⟨(i 0).val / 2000, by rw [hN]; omega⟩
  have ht : t.val = (i 0).val / 2000 := rfl
  obtain ⟨-, -, e0, e1, -⟩ := idx_facts5 t
  refine ⟨t, flush5_9 t, ?_⟩
  rw [mem_blk5]
  intro a
  match a with
  | ⟨0, _⟩ => show win5_9.index t (0 : Fin 2) * 2000 ≤ (i 0).val ∧ (i 0).val < win5_9.index t (0 : Fin 2) * 2000 + 2000; rw [e0, ht]; omega
  | ⟨1, _⟩ => show win5_9.index t (1 : Fin 2) * 64 ≤ (i 1).val ∧ (i 1).val < win5_9.index t (1 : Fin 2) * 64 + 64; rw [e1]; omega

/-- The output array after the region is the layer over the whole node array. -/
theorem final5 (c : Dev nD) : (dat5 (F := Ideal) V c).arrAt 9 cfg5.N = Z5 V c :=
  (dat5 (F := Ideal) V c).arrAt_eq_of_cover 9 (Z5 V c) (fun t _ => flushed5_eq V c t) cover5

/-- The output array after the region, entry by entry. -/
theorem apply5 (c : Dev nD) (i : Fin 100000) (j : Fin 64) :
    (dat5 (F := Ideal) V c).arrAt 9 cfg5.N (ix2 i j)
      = Gin.lin2 (Gin.norm epsW (Gin.pre (a5A V c) (a5W1 V c) (a5B1 V c)) (a5Mu V c) (a5Var V c) (a5G V c) (a5Be V c))
          (a5W2 V c) (a5B2 V c) i j := by
  rw [final5]
  rfl

end Cert.KernelIdeal.GinK

end
-- ==== Proof.GinRows.lean ====
/-
  Three reads at an index over the extended reals, for a row of any length: a vector reshaped to a single row reads
  the vector; a row divided entrywise by a scalar constant reads the entry divided by what the constant denotes; and
  a row minus the entrywise square of another reads the difference of the entry and the square of the other's entry.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Gin

open Idealize.ShloMosaic Idealize.ShloMosaic.ValueIdx

/-- A vector `[b]` reshaped to the single row `[1, b]` reads, at `(0, j)`, the vector at `j`: both indices have
    row-major position `j`. -/
theorem row_of_vec {b : ℕ} {α : Type} (v : (⟨1, ![b]⟩ : Shape).Idx → α)
    (h : (⟨1, ![b]⟩ : Shape).ShapeCasts ⟨2, ![1, b]⟩) (j : Fin b) :
    shapeCast ⟨2, ![1, b]⟩ v h (ix2 (0 : Fin 1) j) = v (ix1 j) := by
  refine shapeCast_apply v h (ix2 (0 : Fin 1) j) (ix1 j) ?_
  rw [Shape.rowMajor_val_one, Shape.rowMajor_val_two]
  show j.val = 0 * b + j.val
  omega

/-- A row divided entrywise by a scalar constant broadcast along it reads the entry divided by the constant. -/
theorem div_row_apply {b : ℕ} (x : FVec Ideal ⟨2, ![1, b]⟩ .f32)
    (hb : (⟨0, ![]⟩ : Shape).BroadcastsInDim ⟨2, ![1, b]⟩ ![]) (w : BitVec 32) (j : Fin b) :
    Host.divf x (broadcastInDim ⟨2, ![1, b]⟩ ![] hb (constant (F := Ideal) ⟨0, ![]⟩ .f32 w)) (ix2 (0 : Fin 1) j)
      = Ideal.div (x (ix2 (0 : Fin 1) j)) (Ideal.ofBits .f32 w) := by
  rw [hostDivf_apply, broadcastInDim_scalar_apply, constant_apply]

/-- A row minus the entrywise square of another, read at an entry. -/
theorem sub_mul_row_apply {b : ℕ} (x y : FVec Ideal ⟨2, ![1, b]⟩ .f32) (j : Fin b) :
    subf x (mulf y y) (ix2 (0 : Fin 1) j)
      = x (ix2 (0 : Fin 1) j) - y (ix2 (0 : Fin 1) j) * y (ix2 (0 : Fin 1) j) := by
  rw [subf_apply, mulf_apply]

end Gin

end
-- ==== Proof.KStats2.lean ====
import proofs.«151523_j51427938402588_1_alg».proof.Proof.Gen.KernelIdeal.Frame
import proofs.«151523_j51427938402588_1_alg».proof.Proof.GinSpec
import proofs.«151523_j51427938402588_1_alg».proof.Proof.LibPlainProduct
import proofs.«151523_j51427938402588_1_alg».proof.Proof.LibBlockedSum
import Idealize.ShloMosaic.Lib.Pipeline.Value
import Idealize.ShloMosaic.Lib.ValueIdx
import Idealize.ShloMosaic.Lib.ValueLayout
import Idealize.ShloMosaic.Lib.Tactic

/-!
# The second statistics pass: column sums and column sums of squares of a layer's pre-activation

The region walks the 100000 rows of its node array (`100000 × 128`) in 50 tiles of 2000 rows. At each tile it forms
the tile of pre-activations `P = x · w1 + b1` (`2000 × 128`, the weights `128 × 128`, the bias one row of 128), adds
the tile's column sums to one running row and the column sums of `P ∘ P` to another; both rows are zeroed at the
first tile and written back once, after the last. Over the extended reals a change of float format is the identity
and addition is associative and commutative, so the row of sums ends at `∑ᵢ P i j` over all 100000 rows `i` and the
row of squares at `∑ᵢ P i j · P i j`. Nothing here needs a finite entry: `0 + x = x` for every extended real.

The steps: what one grid point leaves in each row (the accumulation payload of its blocks and of the row it found);
the payloads entry by entry; the blocks as rows of the arrays the region finds; the running rows by induction on the
point; the one write-back; fifty tiles of 2000 rows re-read as one sum over 100000 rows.
-/

noncomputable section

namespace Cert.KernelIdeal.GinK

open Cert.KernelIdeal Cert.KernelIdeal.Gen Idealize.ShloMosaic Idealize.ShloMosaic.ValueIdx

/-! ## What one grid point leaves in the two accumulator rows

At the first point the rows are zeroed and the point's column sums added; at every later point the point's column
sums are added to what the point before left. In both cases the row a point leaves is the accumulation payload
applied to the point's three input blocks and the row it started from. -/

section Pieces

variable {F : FTy → Type} [FloatOps F]

/-- The zero offsets of a whole-buffer load or store. -/
theorem zero_offsets2 : (![0, 0] : Fin 2 → Nat) = fun _ => 0 := funext fun a => by fin_cases a <;> rfl

/-- A later point leaves, in the row of sums, the row it found plus the column sums of its tile. -/
theorem later2_sum (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec F S2000x128 .f32) (x1 : Vec F S128x128 .f32) (x2 : Vec F S1x128 .f32)
    (xo3 xo4 : Vec F S1x128 .f32) :
    out2_B_3 c i a1 h1 a2 h2 a3 h3 a4 h4 a5 h5 hc x0 x1 x2 xo3 xo4 = k2_pay4 x0 x1 x2 xo3 := by
  unfold out2_B_3
  rw [View.read_writes_eq_canon _ _ _ (cover2_B_3 c i a1 h1 a2 h2 a3 h3 a4 h4 a5 h5 hc x0 x1 x2 xo3 xo4)]
  unfold kernelRun2_B
  dsimp only
  rw [View.canon_unit_zero (S := S1x128) zero_offsets2]
  simp only [View.readAt_eq_ld, h1.read_unread, h2.read_unread, h3.read_unread, h4.read_unread,
    View.ld_unit_zero (S := S2000x128) zero_offsets2, View.ld_unit_zero (S := S128x128) zero_offsets2,
    View.ld_unit_zero (S := S1x128) zero_offsets2]

/-- A later point leaves, in the row of sums of squares, the row it found plus the column sums of squares of its tile. -/
theorem later2_sumsq (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec F S2000x128 .f32) (x1 : Vec F S128x128 .f32) (x2 : Vec F S1x128 .f32)
    (xo3 xo4 : Vec F S1x128 .f32) :
    out2_B_4 c i a1 h1 a2 h2 a3 h3 a4 h4 a5 h5 hc x0 x1 x2 xo3 xo4 = k2_pay5 x0 x1 x2 xo4 := by
  unfold out2_B_4
  rw [View.read_writes_eq_canon _ _ _ (cover2_B_4 c i a1 h1 a2 h2 a3 h3 a4 h4 a5 h5 hc x0 x1 x2 xo3 xo4)]
  unfold kernelRun2_B
  dsimp only
  rw [View.canon_unit_zero (S := S1x128) zero_offsets2]
  simp only [View.readAt_eq_ld, h1.read_unread, h2.read_unread, h3.read_unread, h5.read_unread,
    View.ld_unit_zero (S := S2000x128) zero_offsets2, View.ld_unit_zero (S := S128x128) zero_offsets2,
    View.ld_unit_zero (S := S1x128) zero_offsets2]

/-- The first point leaves, in the row of sums, the zero row plus the column sums of its tile. -/
theorem first2_sum (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec F S2000x128 .f32) (x1 : Vec F S128x128 .f32) (x2 : Vec F S1x128 .f32) :
    out2_A_3 c i a1 h1 a2 h2 a3 h3 a4 h4 a5 h5 hc x0 x1 x2 = k2_pay4 x0 x1 x2 k2_pay1 := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_cons_unit_zero (S := S1x128) zero_offsets2, View.readCov_unit_zero (S := S1x128) _ zero_offsets2]
  simp only [View.readAt_eq_ld, h1.read_unread, h2.read_unread, h3.read_unread,
    View.ld_unit_zero (S := S2000x128) zero_offsets2, View.ld_unit_zero (S := S128x128) zero_offsets2,
    View.ld_unit_zero (S := S1x128) zero_offsets2]

/-- The first point leaves, in the row of sums of squares, the zero row plus the column sums of squares of its tile. -/
theorem first2_sumsq (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec F S2000x128 .f32) (x1 : Vec F S128x128 .f32) (x2 : Vec F S1x128 .f32) :
    out2_A_4 c i a1 h1 a2 h2 a3 h3 a4 h4 a5 h5 hc x0 x1 x2 = k2_pay5 x0 x1 x2 k2_pay2 := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S1x128) zero_offsets2, View.readCov_unit_zero (S := S1x128) _ zero_offsets2]
  simp only [View.readAt_eq_ld, h1.read_unread, h2.read_unread, h3.read_unread,
    View.ld_unit_zero (S := S2000x128) zero_offsets2, View.ld_unit_zero (S := S128x128) zero_offsets2,
    View.ld_unit_zero (S := S1x128) zero_offsets2]

end Pieces

/-! ## The payloads read entry by entry over the extended reals

A change of float format is the identity on extended reals, a product into a zero accumulator is the plain sum of
products, and a reduction along the rows is the sum over the rows. -/

/-- A sum along the rows of an `a × b` matrix, read at column `j`: the sum over the rows `r` of the entry `(r, j)`. -/
theorem colsum2_at {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ r : Fin a, src (ix2 r j) := by
  refine (Ideal.multiReduction_add_single src _ h hφ hacc (ix1 j)).trans ?_
  refine Finset.sum_congr rfl fun r _ => congrArg src ?_
  funext d
  apply Fin.ext
  match d with
  | ⟨0, _⟩ => rfl
  | ⟨1, _⟩ => rfl

/-- The tile of pre-activations: entry `(r, j)` is `(∑ₖ x r k · w k j) + b j`. -/
theorem tile2_at (x0 : Vec Ideal S2000x128 .f32) (x1 : Vec Ideal S128x128 .f32) (x2 : Vec Ideal S1x128 .f32)
    (r : Fin 2000) (j : Fin 128) :
    k2_pay3 x0 x1 x2 (ix2 r j) = (∑ k : Fin 128, x0 (ix2 r k) * x1 (ix2 k j)) + x2 (ix2 (0 : Fin 1) j) := by
  unfold k2_pay3
  refine (addf_apply _ _ _).trans ?_
  refine congrArg₂ (· + ·) ?_ ?_
  · refine (PlainProduct.matmul_at _ rfl none _ _ _ r j).trans ?_
    rw [constant_apply, Ideal.ofBits_zero_f32, zero_add, shapeCast_self]
    rfl
  · refine (broadcastTo_1b_ab_apply _ _ r j).trans ?_
    rw [shapeCast_self]

/-- The row of sums after a point: what it held plus, in column `j`, the sum of the tile's column `j`. -/
theorem sumrow2_at (x0 : Vec Ideal S2000x128 .f32) (x1 : Vec Ideal S128x128 .f32) (x2 : Vec Ideal S1x128 .f32)
    (acc : Vec Ideal S1x128 .f32) (j : Fin 128) :
    k2_pay4 x0 x1 x2 acc (ix2 (0 : Fin 1) j) = acc (ix2 (0 : Fin 1) j) + ∑ r : Fin 2000, k2_pay3 x0 x1 x2 (ix2 r j) := by
  unfold k2_pay4
  refine (addf_apply _ _ _).trans ?_
  refine congrArg₂ (· + ·) ?_ ?_
  · rw [shapeCast_self]
  · refine (shapeCast_a_1a_apply _ _ (0 : Fin 1) j).trans ?_
    exact colsum2_at (k2_pay3 x0 x1 x2) reduces_S2000x128_S128 (.inl rfl) rfl j

/-- The row of sums of squares after a point: what it held plus, in column `j`, the sum of the squares of the tile's column `j`. -/
theorem sqrow2_at (x0 : Vec Ideal S2000x128 .f32) (x1 : Vec Ideal S128x128 .f32) (x2 : Vec Ideal S1x128 .f32)
    (acc : Vec Ideal S1x128 .f32) (j : Fin 128) :
    k2_pay5 x0 x1 x2 acc (ix2 (0 : Fin 1) j)
      = acc (ix2 (0 : Fin 1) j) + ∑ r : Fin 2000, k2_pay3 x0 x1 x2 (ix2 r j) * k2_pay3 x0 x1 x2 (ix2 r j) := by
  unfold k2_pay5
  refine (addf_apply _ _ _).trans ?_
  refine congrArg₂ (· + ·) ?_ ?_
  · rw [shapeCast_self]
  · refine (shapeCast_a_1a_apply _ _ (0 : Fin 1) j).trans ?_
    exact colsum2_at (mulf (k2_pay3 x0 x1 x2) (k2_pay3 x0 x1 x2)) reduces_S2000x128_S128 (.inl rfl) rfl j

/-- The zero rows are zero. -/
theorem zerorow2_sum (j : Fin 128) : (k2_pay1 (F := Ideal)) (ix2 (0 : Fin 1) j) = 0 := Ideal.ofBits_zero_f32
theorem zerorow2_sumsq (j : Fin 128) : (k2_pay2 (F := Ideal)) (ix2 (0 : Fin 1) j) = 0 := Ideal.ofBits_zero_f32

/-! ## The arrays the region reads, and its blocks

Window 0 cuts the node array into 50 tiles of 2000 rows: row `r` of tile `t` is row `2000·t + r` of the array.
Windows 1 and 2 hold the whole weight matrix and the whole bias row at every point. -/

section Region

open Idealize.ShloMosaic.TcCoe

variable (V : (c : Dev nD) → (b : Ref sig .tc) → Buf (Elt Ideal) ((c : Thread nD τ).loc b))

/-- The node features the region finds: `100000 × 128`. -/
def s2A (c : Dev nD) : Fin 100000 → Fin 128 → EReal :=
  fun i k => (V c (Pipeline.arrRef spec2 0) : Vec Ideal S100000x128 .f32) (ix2 i k)
/-- The first linear map's weights: `128 × 128`. -/
def s2W (c : Dev nD) : Fin 128 → Fin 128 → EReal :=
  fun k j => (V c (Pipeline.arrRef spec2 1) : Vec Ideal S128x128 .f32) (ix2 k j)
/-- The first linear map's bias, one row of 128. -/
def s2B (c : Dev nD) : Fin 128 → EReal :=
  fun j => (V c (Pipeline.arrRef spec2 2) : Vec Ideal S1x128 .f32) (ix2 (0 : Fin 1) j)

/-- The block index of window 0 at point `t` is `(t, 0)`; windows 1 and 2 stay at `(0, 0)`. -/
theorem where2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem where2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem where2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- Row `r` of the tile at point `t` is row `2000·t + r` of the node array. -/
theorem tileA2_at (c : Dev nD) (t : Fin cfg2.N) (r : Fin 2000) (k : Fin 128) (h : t.val * 2000 + r.val < 100000) :
    (iblk2 V c 0 t : Vec Ideal S2000x128 .f32) (ix2 r k) = s2A V c ⟨t.val * 2000 + r.val, h⟩ k := by
  unfold iblk2 s2A
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * r.val = t.val * 2000 + r.val; rw [(where2_0 t).1]; omega
  | ⟨1, _⟩ => show win2_0.index t (1 : Fin 2) * 128 + 1 * k.val = k.val; rw [(where2_0 t).2]; omega

/-- The weights' block at any point is the whole matrix. -/
theorem tileW2_at (c : Dev nD) (t : Fin cfg2.N) (k : Fin 128) (j : Fin 128) :
    (iblk2 V c 1 t : Vec Ideal S128x128 .f32) (ix2 k j) = s2W V c k j := by
  unfold iblk2 s2W
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * k.val = k.val; rw [(where2_1 t).1]; omega
  | ⟨1, _⟩ => show win2_1.index t (1 : Fin 2) * 128 + 1 * j.val = j.val; rw [(where2_1 t).2]; omega

/-- The bias's block at any point is the whole row. -/
theorem tileB2_at (c : Dev nD) (t : Fin cfg2.N) (j : Fin 128) :
    (iblk2 V c 2 t : Vec Ideal S1x128 .f32) (ix2 (0 : Fin 1) j) = s2B V c j := by
  unfold iblk2 s2B
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; rw [(where2_2 t).1]
  | ⟨1, _⟩ => show win2_2.index t (1 : Fin 2) * 128 + 1 * j.val = j.val; rw [(where2_2 t).2]; omega

/-! ## One point's tile of pre-activations, by row number -/

/-- The pre-activation `A · w1 + b1` of the region's arrays. -/
def s2P (c : Dev nD) : Fin 100000 → Fin 128 → EReal := Gin.pre (s2A V c) (s2W V c) (s2B V c)

/-- Column `j` of the pre-activation by row number, zero past the last row. -/
def s2col (c : Dev nD) (j : Fin 128) (i : ℕ) : EReal := if h : i < 100000 then s2P V c ⟨i, h⟩ j else 0

/-- Its square. -/
def s2colsq (c : Dev nD) (j : Fin 128) (i : ℕ) : EReal :=
  if h : i < 100000 then s2P V c ⟨i, h⟩ j * s2P V c ⟨i, h⟩ j else 0

/-- Entry `(r, j)` of the tile the body forms at point `t` is the pre-activation at row `2000·t + r`. -/
theorem tile2_point (c : Dev nD) (t : Fin cfg2.N) (r : Fin 2000) (j : Fin 128) :
    k2_pay3 (F := Ideal) (iblk2 V c 0 t) (iblk2 V c 1 t) (iblk2 V c 2 t) (ix2 r j) = s2col V c j (t.val * 2000 + r.val) := by
  have hN : t.val < 50 := lt_of_lt_of_eq t.isLt (show cfg2.N = 50 from N_2)
  have hr : r.val < 2000 := r.isLt
  have hb : t.val * 2000 + r.val < 100000 := by omega
  refine (tile2_at (iblk2 V c 0 t) (iblk2 V c 1 t) (iblk2 V c 2 t) r j).trans ?_
  unfold s2col
  rw [dif_pos hb]
  unfold s2P Gin.pre
  exact congrArg₂ (· + ·)
    (Finset.sum_congr rfl fun k _ => congrArg₂ (· * ·) (tileA2_at V c t r k hb) (tileW2_at V c t k j))
    (tileB2_at V c t j)

/-- The same for the square. -/
theorem tilesq2_point (c : Dev nD) (t : Fin cfg2.N) (r : Fin 2000) (j : Fin 128) :
    k2_pay3 (F := Ideal) (iblk2 V c 0 t) (iblk2 V c 1 t) (iblk2 V c 2 t) (ix2 r j)
        * k2_pay3 (F := Ideal) (iblk2 V c 0 t) (iblk2 V c 1 t) (iblk2 V c 2 t) (ix2 r j)
      = s2colsq V c j (t.val * 2000 + r.val) := by
  have hN : t.val < 50 := lt_of_lt_of_eq t.isLt (show cfg2.N = 50 from N_2)
  have hr : r.val < 2000 := r.isLt
  have hb : t.val * 2000 + r.val < 100000 := by omega
  rw [tile2_point V c t r j]
  unfold s2col s2colsq
  rw [dif_pos hb, dif_pos hb]

/-- The column sums of the tile at point `t`: rows `2000·t … 2000·t + 1999`. -/
theorem tilesum2_point (c : Dev nD) (t : Fin cfg2.N) (j : Fin 128) :
    ∑ r : Fin 2000, k2_pay3 (F := Ideal) (iblk2 V c 0 t) (iblk2 V c 1 t) (iblk2 V c 2 t) (ix2 r j)
      = ∑ r ∈ Finset.range 2000, s2col V c j (t.val * 2000 + r) :=
  (Finset.sum_congr rfl fun r _ => tile2_point V c t r j).trans
    (Fin.sum_univ_eq_sum_range (fun r => s2col V c j (t.val * 2000 + r)) 2000)

theorem tilesumsq2_point (c : Dev nD) (t : Fin cfg2.N) (j : Fin 128) :
    ∑ r : Fin 2000, k2_pay3 (F := Ideal) (iblk2 V c 0 t) (iblk2 V c 1 t) (iblk2 V c 2 t) (ix2 r j)
        * k2_pay3 (F := Ideal) (iblk2 V c 0 t) (iblk2 V c 1 t) (iblk2 V c 2 t) (ix2 r j)
      = ∑ r ∈ Finset.range 2000, s2colsq V c j (t.val * 2000 + r) :=
  (Finset.sum_congr rfl fun r _ => tilesq2_point V c t r j).trans
    (Fin.sum_univ_eq_sum_range (fun r => s2colsq V c j (t.val * 2000 + r)) 2000)

/-! ## The running rows, by induction on the point

After point `n` the row of sums holds, in column `j`, the sum of column `j` of the pre-activation over the rows of
tiles `0 … n`; the row of sums of squares likewise. The first point starts from the zero row, every later point from
what the point before left. -/

theorem run2_sum (c : Dev nD) (j : Fin 128) : ∀ (n : ℕ) (h : n < cfg2.N),
    (outsAt2 V c n h).1 (ix2 (0 : Fin 1) j)
      = ∑ s ∈ Finset.range (n + 1), ∑ r ∈ Finset.range 2000, s2col V c j (s * 2000 + r)
  | 0, h => by
    rw [outsAt2_A V c ⟨0, h⟩ rfl]
    dsimp only
    rw [first2_sum]
    refine (sumrow2_at _ _ _ _ j).trans ?_
    rw [zerorow2_sum, zero_add, Finset.sum_range_one]
    exact tilesum2_point V c ⟨0, h⟩ j
  | n + 1, h => by
    have hN : cfg2.N = 50 := N_2
    have hB : ¬(⟨n + 1, h⟩ : Fin cfg2.N).val % 50 = 0 := by dsimp only; omega
    rw [outsAt2_B V c ⟨n + 1, h⟩ hB]
    dsimp only
    rw [later2_sum]
    refine (sumrow2_at _ _ _ _ j).trans ?_
    rw [Finset.sum_range_succ _ (n + 1)]
    exact congrArg₂ (· + ·) (run2_sum c j n (Nat.lt_of_succ_lt h)) (tilesum2_point V c ⟨n + 1, h⟩ j)

theorem run2_sumsq (c : Dev nD) (j : Fin 128) : ∀ (n : ℕ) (h : n < cfg2.N),
    (outsAt2 V c n h).2 (ix2 (0 : Fin 1) j)
      = ∑ s ∈ Finset.range (n + 1), ∑ r ∈ Finset.range 2000, s2colsq V c j (s * 2000 + r)
  | 0, h => by
    rw [outsAt2_A V c ⟨0, h⟩ rfl]
    dsimp only
    rw [first2_sumsq]
    refine (sqrow2_at _ _ _ _ j).trans ?_
    rw [zerorow2_sumsq, zero_add, Finset.sum_range_one]
    exact tilesumsq2_point V c ⟨0, h⟩ j
  | n + 1, h => by
    have hN : cfg2.N = 50 := N_2
    have hB : ¬(⟨n + 1, h⟩ : Fin cfg2.N).val % 50 = 0 := by dsimp only; omega
    rw [outsAt2_B V c ⟨n + 1, h⟩ hB]
    dsimp only
    rw [later2_sumsq]
    refine (sqrow2_at _ _ _ _ j).trans ?_
    rw [Finset.sum_range_succ _ (n + 1)]
    exact congrArg₂ (· + ·) (run2_sumsq c j n (Nat.lt_of_succ_lt h)) (tilesumsq2_point V c ⟨n + 1, h⟩ j)

/-! ## The result arrays

Each accumulator row is written back once, after the last point, and its one block is the whole `1 × 128` array: the
array ends holding the row the last point left, and taking the 50 tiles of 2000 rows one after the other is the sum
over all 100000 rows. -/

/-- The last point. -/
theorem last2 : 49 < cfg2.N := by rw [show cfg2.N = 50 from N_2]; decide

/-- The block of either output sits at offset zero at every point. -/
theorem where2_3 : ∀ t : Fin cfg2.N, (fun a => win2_3.index t a * main_v42_0.ty.shape.size a) = fun _ => 0 :=
  (by decide +kernel : ∀ t : Fin grid2.N, (fun a => win2_3.index t a * main_v42_0.ty.shape.size a) = fun _ => 0)
theorem where2_4 : ∀ t : Fin cfg2.N, (fun a => win2_4.index t a * main_v42_1.ty.shape.size a) = fun _ => 0 :=
  (by decide +kernel : ∀ t : Fin grid2.N, (fun a => win2_4.index t a * main_v42_1.ty.shape.size a) = fun _ => 0)

/-- The one write-back of the row of sums writes what the last point left. -/
theorem flushed2_sum (c : Dev nD) (t : Fin cfg2.N) (hf : (cfg2.win 3).flush t = true) :
    (dat2 V c).flushed 3 t = ((cfg2.win 3).blk t).view.read (Elt Ideal) ((outsAt2 V c 49 last2).1) := by
  have hN : cfg2.N = 50 := N_2
  have h49 : t.val = 49 := by have := (flush2_3 t).mp hf; have := t.isLt; omega
  obtain rfl : t = ⟨49, last2⟩ := Fin.ext h49
  show (cfg2.win 3).cut (grid2.coords ⟨49, last2⟩) ((dat2 V c).after 3 ⟨49, last2⟩) = _
  rw [after2_3]
  exact (Memref.read_access_unit_zero (Elt Ideal) main_v42_0 (where2_3 ⟨49, last2⟩)
    (fun a => by rw [congrFun (where2_3 ⟨49, last2⟩) a]; simp) (outsAt2 V c 49 last2).1).symm

theorem flushed2_sumsq (c : Dev nD) (t : Fin cfg2.N) (hf : (cfg2.win 4).flush t = true) :
    (dat2 V c).flushed 4 t = ((cfg2.win 4).blk t).view.read (Elt Ideal) ((outsAt2 V c 49 last2).2) := by
  have hN : cfg2.N = 50 := N_2
  have h49 : t.val = 49 := by have := (flush2_4 t).mp hf; have := t.isLt; omega
  obtain rfl : t = ⟨49, last2⟩ := Fin.ext h49
  show (cfg2.win 4).cut (grid2.coords ⟨49, last2⟩) ((dat2 V c).after 4 ⟨49, last2⟩) = _
  rw [after2_4]
  exact (Memref.read_access_unit_zero (Elt Ideal) main_v42_1 (where2_4 ⟨49, last2⟩)
    (fun a => by rw [congrFun (where2_4 ⟨49, last2⟩) a]; simp) (outsAt2 V c 49 last2).2).symm

/-- So the array of sums ends holding the row the last point left. -/
theorem final2_sum (c : Dev nD) : (dat2 V c).arrAt 3 cfg2.N = (outsAt2 V c 49 last2).1 :=
  (dat2 V c).arrAt_eq_of_cover 3 (outsAt2 V c 49 last2).1 (flushed2_sum V c) fun i =>
    ⟨⟨49, last2⟩, (flush2_3 _).mpr rfl, by
      show i ∈ ((View.whole main_v42_0).slice (win2_3.rect ⟨49, last2⟩)).set
      rw [View.set_slice_whole, Rect.mem_set_unit]
      intro a
      have hrow : (i 0 : Nat) < 1 := (i 0).isLt
      have hcol : (i 1 : Nat) < 128 := (i 1).isLt
      match a with
      | ⟨0, _⟩ =>
        show win2_3.index ⟨49, last2⟩ 0 * win2_3.size 0 ≤ (i 0 : Nat)
          ∧ (i 0 : Nat) < win2_3.index ⟨49, last2⟩ 0 * win2_3.size 0 + win2_3.xsize (grid2.coords ⟨49, last2⟩) 0
        rw [show win2_3.index ⟨49, last2⟩ 0 * win2_3.size 0 = 0 from by decide +kernel,
          show win2_3.xsize (grid2.coords ⟨49, last2⟩) 0 = 1 from by decide +kernel]
        omega
      | ⟨1, _⟩ =>
        show win2_3.index ⟨49, last2⟩ 1 * win2_3.size 1 ≤ (i 1 : Nat)
          ∧ (i 1 : Nat) < win2_3.index ⟨49, last2⟩ 1 * win2_3.size 1 + win2_3.xsize (grid2.coords ⟨49, last2⟩) 1
        rw [show win2_3.index ⟨49, last2⟩ 1 * win2_3.size 1 = 0 from by decide +kernel,
          show win2_3.xsize (grid2.coords ⟨49, last2⟩) 1 = 128 from by decide +kernel]
        omega⟩

theorem final2_sumsq (c : Dev nD) : (dat2 V c).arrAt 4 cfg2.N = (outsAt2 V c 49 last2).2 :=
  (dat2 V c).arrAt_eq_of_cover 4 (outsAt2 V c 49 last2).2 (flushed2_sumsq V c) fun i =>
    ⟨⟨49, last2⟩, (flush2_4 _).mpr rfl, by
      show i ∈ ((View.whole main_v42_1).slice (win2_4.rect ⟨49, last2⟩)).set
      rw [View.set_slice_whole, Rect.mem_set_unit]
      intro a
      have hrow : (i 0 : Nat) < 1 := (i 0).isLt
      have hcol : (i 1 : Nat) < 128 := (i 1).isLt
      match a with
      | ⟨0, _⟩ =>
        show win2_4.index ⟨49, last2⟩ 0 * win2_4.size 0 ≤ (i 0 : Nat)
          ∧ (i 0 : Nat) < win2_4.index ⟨49, last2⟩ 0 * win2_4.size 0 + win2_4.xsize (grid2.coords ⟨49, last2⟩) 0
        rw [show win2_4.index ⟨49, last2⟩ 0 * win2_4.size 0 = 0 from by decide +kernel,
          show win2_4.xsize (grid2.coords ⟨49, last2⟩) 0 = 1 from by decide +kernel]
        omega
      | ⟨1, _⟩ =>
        show win2_4.index ⟨49, last2⟩ 1 * win2_4.size 1 ≤ (i 1 : Nat)
          ∧ (i 1 : Nat) < win2_4.index ⟨49, last2⟩ 1 * win2_4.size 1 + win2_4.xsize (grid2.coords ⟨49, last2⟩) 1
        rw [show win2_4.index ⟨49, last2⟩ 1 * win2_4.size 1 = 0 from by decide +kernel,
          show win2_4.xsize (grid2.coords ⟨49, last2⟩) 1 = 128 from by decide +kernel]
        omega⟩

/-- Fifty tiles of 2000 rows, one after the other, are all 100000 rows. -/
theorem allrows2 (f : ℕ → EReal) :
    ∑ s ∈ Finset.range (49 + 1), ∑ r ∈ Finset.range 2000, f (s * 2000 + r) = ∑ i : Fin 100000, f i.val := by
  rw [← BlockedSum.sum_range_mul f 50 2000]
  exact (Fin.sum_univ_eq_sum_range f 100000).symm

/-- The array of sums after the region: column `j` is the sum of column `j` of `A · w1 + b1` over all rows. -/
theorem stats2_sum (c : Dev nD) (j : Fin 128) :
    (dat2 (F := Ideal) V c).arrAt 3 cfg2.N (ix2 (0 : Fin 1) j) = Gin.csum (Gin.pre (s2A V c) (s2W V c) (s2B V c)) j := by
  refine (congrFun (final2_sum V c) (ix2 (0 : Fin 1) j)).trans ?_
  refine (run2_sum V c j 49 last2).trans ?_
  rw [allrows2]
  unfold Gin.csum
  refine Finset.sum_congr rfl fun i _ => ?_
  unfold s2col
  rw [dif_pos i.isLt]
  rfl

/-- The array of sums of squares after the region: column `j` is the sum of the squares of column `j` of `A · w1 + b1`
    over all rows. -/
theorem stats2_sumsq (c : Dev nD) (j : Fin 128) :
    (dat2 (F := Ideal) V c).arrAt 4 cfg2.N (ix2 (0 : Fin 1) j) = Gin.csumsq (Gin.pre (s2A V c) (s2W V c) (s2B V c)) j := by
  refine (congrFun (final2_sumsq V c) (ix2 (0 : Fin 1) j)).trans ?_
  refine (run2_sumsq V c j 49 last2).trans ?_
  rw [allrows2]
  unfold Gin.csumsq
  refine Finset.sum_congr rfl fun i _ => ?_
  unfold s2colsq
  rw [dif_pos i.isLt]
  rfl

end Region

end Cert.KernelIdeal.GinK

end
-- ==== Proof.KApply3.lean ====
import proofs.«151523_j51427938402588_1_alg».proof.Proof.Gen.KernelIdeal.Frame
import proofs.«151523_j51427938402588_1_alg».proof.Proof.GinSpec
import proofs.«151523_j51427938402588_1_alg».proof.Proof.LibPlainProduct
import proofs.«151523_j51427938402588_1_alg».proof.Proof.KApply1
import Idealize.ShloMosaic.Lib.Pipeline.Value
import Idealize.ShloMosaic.Lib.ValueLayout

/-!
# The second apply region, read as values over the extended reals

One grid point handles a tile of 2000 rows of the node array (128 columns). On the tile it forms the pre-activation
`P = tile · w1 + b1` (128 columns), normalises each column with a given mean row and variance row,
`Y = (P − μ) · rsqrt (var + ε) · g + be`, and stores `Z = max (Y, 0) · w2 + b2` (128 columns). A change of float
format is the identity here, and a product into a zero accumulator is the plain sum over the contracted coordinate.
Every row of `Z` depends only on the same row of the tile and on the whole small arrays, so the fifty tiles written
back, one below the other, are the same formula over the whole node array: row `i` is written by point `i / 2000`.
-/

noncomputable section

namespace Cert.KernelIdeal.GinK

open Cert.KernelIdeal Cert.KernelIdeal.Gen Idealize.ShloMosaic Idealize.ShloMosaic.TcCoe Idealize.ShloMosaic.ValueIdx
open Idealize.ShloMosaic.Pipeline (Dat)

/-! ## One tile: the stored block at an index -/

/-- Everything up to the second product, at `(r, j)`: the sum over `k` of `max (Y r k) 0 · w2 k j`, with `Y` the
    normalised pre-activation of the tile. -/
theorem pay2_3_at (v0 : Vec Ideal S2000x128 .f32) (v3 : Vec Ideal S128x128 .f32) (v6 v10 v15 v21 v25 : Vec Ideal S1x128 .f32)
    (v32 : Vec Ideal S128x128 .f32) (r : Fin 2000) (j : Fin 128) :
    k3_pay2 (F := Ideal) v0 v3 v6 v10 v15 v21 v25 v32 (ix2 r j)
      = ∑ k : Fin 128, max (Gin.norm epsW (Gin.pre (fun r k => v0 (ix2 r k)) (fun k j => v3 (ix2 k j)) (fun j => v6 (ix2 (0 : Fin 1) j)))
          (fun j => v15 (ix2 (0 : Fin 1) j)) (fun j => v10 (ix2 (0 : Fin 1) j)) (fun j => v21 (ix2 (0 : Fin 1) j))
          (fun j => v25 (ix2 (0 : Fin 1) j)) r k) 0 * v32 (ix2 k j) := by
  unfold k3_pay2
  refine (PlainProduct.matmul_at _ rfl none _ _ _ r j).trans ?_
  rw [constant_apply, Ideal.ofBits_zero_f32, zero_add]
  refine Finset.sum_congr rfl fun k _ => ?_
  have hrow : ∀ (v : Vec Ideal S1x128 .f32) (q : Fin 128),
      broadcastTo S2000x128 (shapeCast S1x128 v shapeCasts_S1x128_S1x128) broadcasts_S1x128_S2000x128 (ix2 r q)
        = v (ix2 (0 : Fin 1) q) := by
    intro v q; rw [shapeCast_self]; exact broadcastTo_1b_ab_apply v _ r q
  have hrs : broadcastTo S2000x128 (rsqrt (addf (shapeCast S1x128 v10 shapeCasts_S1x128_S1x128)
        (broadcast S1x128 (FloatOps.ofBits (F := Ideal) FTy.f32 0x3727C5AC#32)))) broadcasts_S1x128_S2000x128 (ix2 r k)
        = Ideal.rsqrt (v10 (ix2 (0 : Fin 1) k) + epsW) := by
    rw [shapeCast_self]; exact broadcastTo_1b_ab_apply _ _ r k
  have hmm : matmul dot_S2000x128_S128x128_S2000x128_1_0_0_1_n_n none
        (truncf FTy.bf16 (shapeCast S2000x128 v0 shapeCasts_S2000x128_S2000x128) bitsLt_bf16_f32)
        (truncf FTy.bf16 v3 bitsLt_bf16_f32) (constant (F := Ideal) S2000x128 FTy.f32 0x00000000#32) (ix2 r k)
        = ∑ c : Fin 128, v0 (ix2 r c) * v3 (ix2 c k) := by
    refine (PlainProduct.matmul_at _ rfl none _ _ _ r k).trans ?_
    rw [constant_apply, Ideal.ofBits_zero_f32, zero_add, shapeCast_self]
    rfl
  rw [truncf_apply, truncf_apply, maximumf_apply, addf_apply, mulf_apply, mulf_apply, subf_apply, addf_apply,
    hrow, hrow, hrow, hrow, hrs, hmm, broadcast_apply]
  show max _ (Ideal.ofBits .f32 0x00000000#32) * _ = _
  rw [Ideal.ofBits_zero_f32]
  rfl

/-- What the body leaves in the output block, at `(r, j)`: the layer of the tile and of the small blocks. -/
theorem out3_at (x0 : Vec Ideal S2000x128 .f32) (x1 : Vec Ideal S128x128 .f32) (x2 x3 x4 x5 x6 : Vec Ideal S1x128 .f32)
    (x7 : Vec Ideal S128x128 .f32) (x8 : Vec Ideal S1x128 .f32) (r : Fin 2000) (j : Fin 128) :
    out3_9 (F := Ideal) x0 x1 x2 x3 x4 x5 x6 x7 x8 (ix2 r j)
      = Gin.lin2 (Gin.norm epsW (Gin.pre (fun r k => x0 (ix2 r k)) (fun k j => x1 (ix2 k j)) (fun j => x2 (ix2 (0 : Fin 1) j)))
          (fun j => x3 (ix2 (0 : Fin 1) j)) (fun j => x4 (ix2 (0 : Fin 1) j)) (fun j => x5 (ix2 (0 : Fin 1) j))
          (fun j => x6 (ix2 (0 : Fin 1) j))) (fun k j => x7 (ix2 k j)) (fun j => x8 (ix2 (0 : Fin 1) j)) r j := by
  unfold out3_9
  rw [View.canon_unit_zero hzA]
  simp only [View.ld_unit_zero (S := S2000x128) hzA, View.ld_unit_zero (S := S128x128) hzA, View.ld_unit_zero (S := S1x128) hzA]
  unfold k3_pay1 k3_pay3
  rw [addf_apply, pay2_3_at, shapeCast_self]
  refine congrArg (_ + ·) ?_
  exact broadcastTo_1b_ab_apply x8 _ r j

/-! ## The arrays as the region finds them -/

variable (V : (c : Dev nD) → (b : Ref sig .tc) → Buf (Elt Ideal) ((c : Thread nD τ).loc b))

/-- The node array. -/
def a3A (c : Dev nD) : Fin 100000 → Fin 128 → EReal := fun i k => (V c (Pipeline.arrRef spec3 0) : S100000x128.Idx → EReal) (ix2 i k)
/-- The first weight matrix. -/
def a3W1 (c : Dev nD) : Fin 128 → Fin 128 → EReal := fun k j => (V c (Pipeline.arrRef spec3 1) : S128x128.Idx → EReal) (ix2 k j)
/-- The first bias row. -/
def a3B1 (c : Dev nD) : Fin 128 → EReal := fun j => (V c (Pipeline.arrRef spec3 2) : S1x128.Idx → EReal) (ix2 (0 : Fin 1) j)
/-- The mean row. -/
def a3Mu (c : Dev nD) : Fin 128 → EReal := fun j => (V c (Pipeline.arrRef spec3 3) : S1x128.Idx → EReal) (ix2 (0 : Fin 1) j)
/-- The variance row. -/
def a3Var (c : Dev nD) : Fin 128 → EReal := fun j => (V c (Pipeline.arrRef spec3 4) : S1x128.Idx → EReal) (ix2 (0 : Fin 1) j)
/-- The scale row. -/
def a3G (c : Dev nD) : Fin 128 → EReal := fun j => (V c (Pipeline.arrRef spec3 5) : S1x128.Idx → EReal) (ix2 (0 : Fin 1) j)
/-- The shift row. -/
def a3Be (c : Dev nD) : Fin 128 → EReal := fun j => (V c (Pipeline.arrRef spec3 6) : S1x128.Idx → EReal) (ix2 (0 : Fin 1) j)
/-- The second weight matrix. -/
def a3W2 (c : Dev nD) : Fin 128 → Fin 128 → EReal := fun k j => (V c (Pipeline.arrRef spec3 7) : S128x128.Idx → EReal) (ix2 k j)
/-- The second bias row. -/
def a3B2 (c : Dev nD) : Fin 128 → EReal := fun j => (V c (Pipeline.arrRef spec3 8) : S1x128.Idx → EReal) (ix2 (0 : Fin 1) j)

/-- The layer over the whole node array, entry by entry. -/
def z3 (c : Dev nD) : Fin 100000 → Fin 128 → EReal :=
  Gin.lin2 (Gin.norm epsW (Gin.pre (a3A V c) (a3W1 V c) (a3B1 V c)) (a3Mu V c) (a3Var V c) (a3G V c) (a3Be V c))
    (a3W2 V c) (a3B2 V c)

/-- The same as one function of the output array's index. -/
def Z3 (c : Dev nD) : S100000x128.Idx → EReal := fun i => z3 V c (i 0) (i 1)

/-! ## Where each window's block sits in its array -/

/-- The windows' index maps, decided over the fifty points: the node window and the output window are at block row `t`,
    every other window at block (0, 0). -/
theorem idx_facts3 : ∀ t : Fin cfg3.N,
    win3_0.index t (0 : Fin 2) = t.val ∧ win3_0.index t (1 : Fin 2) = 0
    ∧ win3_9.index t (0 : Fin 2) = t.val ∧ win3_9.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- The node window's block at point `t` is rows `2000 t … 2000 t + 1999` of the node array. -/
theorem blk3_A (c : Dev nD) (t : Fin cfg3.N) (r : Fin 2000) (i : Fin 100000) (hi : i.val = 2000 * t.val + r.val) :
    (fun k => (iblk3 V c 0 t : Vec Ideal S2000x128 .f32) (ix2 r k)) = a3A V c i := by
  obtain ⟨e0, e1, -⟩ := idx_facts3 t
  funext k
  unfold iblk3 a3A
  rw [View.read_apply]
  refine congrArg (V c (Pipeline.arrRef spec3 0) : S100000x128.Idx → EReal) (funext fun a => Fin.ext ?_)
  match a with
  | ⟨0, _⟩ => show win3_0.index t (0 : Fin 2) * 2000 + 1 * r.val = i.val; rw [e0, hi]; omega
  | ⟨1, _⟩ => show win3_0.index t (1 : Fin 2) * 128 + 1 * k.val = k.val; rw [e1]; omega

/-- Window 1's block at every point is its whole array. -/
theorem blk3_W1 (c : Dev nD) (t : Fin cfg3.N) :
    (fun k j => (iblk3 V c 1 t : Vec Ideal S128x128 .f32) (ix2 k j)) = a3W1 V c := by
  obtain ⟨-, -, -, -, e0, e1, -⟩ := idx_facts3 t
  funext k j
  unfold iblk3 a3W1
  rw [View.read_apply]
  refine congrArg (V c (Pipeline.arrRef spec3 1) : S128x128.Idx → EReal) (funext fun a => Fin.ext ?_)
  match a with
  | ⟨0, _⟩ => show win3_1.index t (0 : Fin 2) * 128 + 1 * k.val = k.val; rw [e0]; omega
  | ⟨1, _⟩ => show win3_1.index t (1 : Fin 2) * 128 + 1 * j.val = j.val; rw [e1]; omega

/-- Window 2's block at every point is its whole row. -/
theorem blk3_B1 (c : Dev nD) (t : Fin cfg3.N) :
    (fun j => (iblk3 V c 2 t : Vec Ideal S1x128 .f32) (ix2 (0 : Fin 1) j)) = a3B1 V c := by
  obtain ⟨-, -, -, -, -, -, e0, e1, -⟩ := idx_facts3 t
  funext j
  unfold iblk3 a3B1
  rw [View.read_apply]
  refine congrArg (V c (Pipeline.arrRef spec3 2) : S1x128.Idx → EReal) (funext fun a => Fin.ext ?_)
  match a with
  | ⟨0, _⟩ => show win3_2.index t (0 : Fin 2) * 1 + 1 * 0 = 0; rw [e0]
  | ⟨1, _⟩ => show win3_2.index t (1 : Fin 2) * 128 + 1 * j.val = j.val; rw [e1]; omega

/-- Window 3's block at every point is its whole row. -/
theorem blk3_Mu (c : Dev nD) (t : Fin cfg3.N) :
    (fun j => (iblk3 V c 3 t : Vec Ideal S1x128 .f32) (ix2 (0 : Fin 1) j)) = a3Mu V c := by
  obtain ⟨-, -, -, -, -, -, -, -, e0, e1, -⟩ := idx_facts3 t
  funext j
  unfold iblk3 a3Mu
  rw [View.read_apply]
  refine congrArg (V c (Pipeline.arrRef spec3 3) : S1x128.Idx → EReal) (funext fun a => Fin.ext ?_)
  match a with
  | ⟨0, _⟩ => show win3_3.index t (0 : Fin 2) * 1 + 1 * 0 = 0; rw [e0]
  | ⟨1, _⟩ => show win3_3.index t (1 : Fin 2) * 128 + 1 * j.val = j.val; rw [e1]; omega

/-- Window 4's block at every point is its whole row. -/
theorem blk3_Var (c : Dev nD) (t : Fin cfg3.N) :
    (fun j => (iblk3 V c 4 t : Vec Ideal S1x128 .f32) (ix2 (0 : Fin 1) j)) = a3Var V c := by
  obtain ⟨-, -, -, -, -, -, -, -, -, -, e0, e1, -⟩ := idx_facts3 t
  funext j
  unfold iblk3 a3Var
  rw [View.read_apply]
  refine congrArg (V c (Pipeline.arrRef spec3 4) : S1x128.Idx → EReal) (funext fun a => Fin.ext ?_)
  match a with
  | ⟨0, _⟩ => show win3_4.index t (0 : Fin 2) * 1 + 1 * 0 = 0; rw [e0]
  | ⟨1, _⟩ => show win3_4.index t (1 : Fin 2) * 128 + 1 * j.val = j.val; rw [e1]; omega

/-- Window 5's block at every point is its whole row. -/
theorem blk3_G (c : Dev nD) (t : Fin cfg3.N) :
    (fun j => (iblk3 V c 5 t : Vec Ideal S1x128 .f32) (ix2 (0 : Fin 1) j)) = a3G V c := by
  obtain ⟨-, -, -, -, -, -, -, -, -, -, -, -, e0, e1, -⟩ := idx_facts3 t
  funext j
  unfold iblk3 a3G
  rw [View.read_apply]
  refine congrArg (V c (Pipeline.arrRef spec3 5) : S1x128.Idx → EReal) (funext fun a => Fin.ext ?_)
  match a with
  | ⟨0, _⟩ => show win3_5.index t (0 : Fin 2) * 1 + 1 * 0 = 0; rw [e0]
  | ⟨1, _⟩ => show win3_5.index t (1 : Fin 2) * 128 + 1 * j.val = j.val; rw [e1]; omega

/-- Window 6's block at every point is its whole row. -/
theorem blk3_Be (c : Dev nD) (t : Fin cfg3.N) :
    (fun j => (iblk3 V c 6 t : Vec Ideal S1x128 .f32) (ix2 (0 : Fin 1) j)) = a3Be V c := by
  obtain ⟨-, -, -, -, -, -, -, -, -, -, -, -, -, -, e0, e1, -⟩ := idx_facts3 t
  funext j
  unfold iblk3 a3Be
  rw [View.read_apply]
  refine congrArg (V c (Pipeline.arrRef spec3 6) : S1x128.Idx → EReal) (funext fun a => Fin.ext ?_)
  match a with
  | ⟨0, _⟩ => show win3_6.index t (0 : Fin 2) * 1 + 1 * 0 = 0; rw [e0]
  | ⟨1, _⟩ => show win3_6.index t (1 : Fin 2) * 128 + 1 * j.val = j.val; rw [e1]; omega

/-- Window 7's block at every point is its whole array. -/
theorem blk3_W2 (c : Dev nD) (t : Fin cfg3.N) :
    (fun k j => (iblk3 V c 7 t : Vec Ideal S128x128 .f32) (ix2 k j)) = a3W2 V c := by
  obtain ⟨-, -, -, -, -, -, -, -, -, -, -, -, -, -, -, -, e0, e1, -⟩ := idx_facts3 t
  funext k j
  unfold iblk3 a3W2
  rw [View.read_apply]
  refine congrArg (V c (Pipeline.arrRef spec3 7) : S128x128.Idx → EReal) (funext fun a => Fin.ext ?_)
  match a with
  | ⟨0, _⟩ => show win3_7.index t (0 : Fin 2) * 128 + 1 * k.val = k.val; rw [e0]; omega
  | ⟨1, _⟩ => show win3_7.index t (1 : Fin 2) * 128 + 1 * j.val = j.val; rw [e1]; omega

/-- Window 8's block at every point is its whole row. -/
theorem blk3_B2 (c : Dev nD) (t : Fin cfg3.N) :
    (fun j => (iblk3 V c 8 t : Vec Ideal S1x128 .f32) (ix2 (0 : Fin 1) j)) = a3B2 V c := by
  obtain ⟨-, -, -, -, -, -, -, -, -, -, -, -, -, -, -, -, -, -, e0, e1⟩ := idx_facts3 t
  funext j
  unfold iblk3 a3B2
  rw [View.read_apply]
  refine congrArg (V c (Pipeline.arrRef spec3 8) : S1x128.Idx → EReal) (funext fun a => Fin.ext ?_)
  match a with
  | ⟨0, _⟩ => show win3_8.index t (0 : Fin 2) * 1 + 1 * 0 = 0; rw [e0]
  | ⟨1, _⟩ => show win3_8.index t (1 : Fin 2) * 128 + 1 * j.val = j.val; rw [e1]; omega

/-! ## From the blocks to the array -/

/-- What point `t` writes back is block `t` of the layer over the whole node array. -/
theorem flushed3_eq (c : Dev nD) (t : Fin cfg3.N) :
    (dat3 (F := Ideal) V c).flushed 9 t = ((cfg3.win 9).blk t).view.read (Elt Ideal) (Z3 V c) := by
  show (cfg3.win 9).cut (grid3.coords t) ((dat3 (F := Ideal) V c).after 9 t) = _
  rw [after3_9]
  obtain ⟨-, -, e0, e1, -⟩ := idx_facts3 t
  have hN : t.val < 50 := lt_of_lt_of_eq t.isLt (show cfg3.N = 50 from N_3)
  funext y
  obtain ⟨r, j, rfl⟩ : ∃ (r : Fin 2000) (j : Fin 128), y = ix2 r j := ⟨y 0, y 1, eq_ix2 (n0 := 2000) (n1 := 128) y⟩
  have hemb : ((cfg3.win 9).blk t).view.emb (ix2 r j) = (ix2 (⟨2000 * t.val + r.val, by omega⟩ : Fin 100000) j : S100000x128.Idx) := by
    funext a; apply Fin.ext
    match a with
    | ⟨0, _⟩ => show win3_9.index t (0 : Fin 2) * 2000 + 1 * r.val = 2000 * t.val + r.val; rw [e0]; omega
    | ⟨1, _⟩ => show win3_9.index t (1 : Fin 2) * 128 + 1 * j.val = j.val; rw [e1]; omega
  show out3_9 (iblk3 V c 0 t) (iblk3 V c 1 t) (iblk3 V c 2 t) (iblk3 V c 3 t) (iblk3 V c 4 t) (iblk3 V c 5 t) (iblk3 V c 6 t) (iblk3 V c 7 t) (iblk3 V c 8 t) (ix2 r j)
    = Z3 V c (((cfg3.win 9).blk t).view.emb (ix2 r j))
  refine (out3_at _ _ _ _ _ _ _ _ _ r j).trans ?_
  refine Eq.trans ?_ (congrArg (Z3 V c) hemb).symm
  show _ = z3 V c (⟨2000 * t.val + r.val, by omega⟩ : Fin 100000) j
  unfold z3
  exact layer_row epsW _ _ _ _ _ _ _ _ _ _ _ _ _ _ _ _ _ _ r _ j (blk3_A V c t r _ rfl) (blk3_W1 V c t) (blk3_B1 V c t)
    (blk3_Mu V c t) (blk3_Var V c t) (blk3_G V c t) (blk3_Be V c t) (blk3_W2 V c t) (blk3_B2 V c t)

/-- An index of the output array is in point `t`'s block iff each coordinate is in the block's range on its axis. -/
theorem mem_blk3 (t : Fin cfg3.N) (i : S100000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v49).slice (win3_9.rect t)).set ↔ _
  rw [View.set_slice_whole, Rect.mem_set_unit]
  exact Iff.rfl

/-- Every index of the output array is in some point's block: row `i` is in the block of point `i / 2000`. -/
theorem cover3 (i : S100000x128.Idx) : ∃ t : Fin cfg3.N, (cfg3.win 9).flush t = true ∧ i ∈ ((cfg3.win 9).blk t).view.set := by
  have hi0 : (i 0).val < 100000 := idx2_lt0 i
  have hi1 : (i 1).val < 128 := idx2_lt1 i
  have hN : cfg3.N = 50 := N_3
  let t : Fin cfg3.N := ⟨(i 0).val / 2000, by rw [hN]; omega⟩
  have ht : t.val = (i 0).val / 2000 := rfl
  obtain ⟨-, -, e0, e1, -⟩ := idx_facts3 t
  refine ⟨t, flush3_9 t, ?_⟩
  rw [mem_blk3]
  intro a
  match a with
  | ⟨0, _⟩ => show win3_9.index t (0 : Fin 2) * 2000 ≤ (i 0).val ∧ (i 0).val < win3_9.index t (0 : Fin 2) * 2000 + 2000; rw [e0, ht]; omega
  | ⟨1, _⟩ => show win3_9.index t (1 : Fin 2) * 128 ≤ (i 1).val ∧ (i 1).val < win3_9.index t (1 : Fin 2) * 128 + 128; rw [e1]; omega

/-- The output array after the region is the layer over the whole node array. -/
theorem final3 (c : Dev nD) : (dat3 (F := Ideal) V c).arrAt 9 cfg3.N = Z3 V c :=
  (dat3 (F := Ideal) V c).arrAt_eq_of_cover 9 (Z3 V c) (fun t _ => flushed3_eq V c t) cover3

/-- The output array after the region, entry by entry. -/
theorem apply3 (c : Dev nD) (i : Fin 100000) (j : Fin 128) :
    (dat3 (F := Ideal) V c).arrAt 9 cfg3.N (ix2 i j)
      = Gin.lin2 (Gin.norm epsW (Gin.pre (a3A V c) (a3W1 V c) (a3B1 V c)) (a3Mu V c) (a3Var V c) (a3G V c) (a3Be V c))
          (a3W2 V c) (a3B2 V c) i j := by
  rw [final3]
  rfl

end Cert.KernelIdeal.GinK

end
-- ==== Proof.KStats0.lean ====
import proofs.«151523_j51427938402588_1_alg».proof.Proof.Gen.KernelIdeal.Frame
import proofs.«151523_j51427938402588_1_alg».proof.Proof.GinSpec
import proofs.«151523_j51427938402588_1_alg».proof.Proof.LibPlainProduct
import proofs.«151523_j51427938402588_1_alg».proof.Proof.LibBlockedSum
import Idealize.ShloMosaic.Lib.Pipeline.Value
import Idealize.ShloMosaic.Lib.ValueIdx
import Idealize.ShloMosaic.Lib.ValueLayout
import Idealize.ShloMosaic.Lib.Tactic

/-!
# The first statistics pass: column sums and column sums of squares of a layer's pre-activation

The region walks the 100000 rows of its node array (`100000 × 64`) in 50 tiles of 2000 rows. At each tile it forms
the tile of pre-activations `P = x · w1 + b1` (`2000 × 128`, the weights `64 × 128`, the bias one row of 128), adds
the tile's column sums to one running row and the column sums of `P ∘ P` to another; both rows are zeroed at the
first tile and written back once, after the last. Over the extended reals a change of float format is the identity
and addition is associative and commutative, so the row of sums ends at `∑ᵢ P i j` over all 100000 rows `i` and the
row of squares at `∑ᵢ P i j · P i j`. Nothing here needs a finite entry: `0 + x = x` for every extended real.

The steps: what one grid point leaves in each row (the accumulation payload of its blocks and of the row it found);
the payloads entry by entry; the blocks as rows of the arrays the region finds; the running rows by induction on the
point; the one write-back; fifty tiles of 2000 rows re-read as one sum over 100000 rows.
-/

noncomputable section

namespace Cert.KernelIdeal.GinK

open Cert.KernelIdeal Cert.KernelIdeal.Gen Idealize.ShloMosaic Idealize.ShloMosaic.ValueIdx

/-! ## What one grid point leaves in the two accumulator rows

At the first point the rows are zeroed and the point's column sums added; at every later point the point's column
sums are added to what the point before left. In both cases the row a point leaves is the accumulation payload
applied to the point's three input blocks and the row it started from. -/

section Pieces

variable {F : FTy → Type} [FloatOps F]

/-- The zero offsets of a whole-buffer load or store. -/
theorem zero_offsets0 : (![0, 0] : Fin 2 → Nat) = fun _ => 0 := funext fun a => by fin_cases a <;> rfl

/-- A later point leaves, in the row of sums, the row it found plus the column sums of its tile. -/
theorem later0_sum (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond0_0 i) (x0 : Vec F S2000x64 .f32) (x1 : Vec F S64x128 .f32) (x2 : Vec F S1x128 .f32)
    (xo3 xo4 : Vec F S1x128 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero (S := S1x128) zero_offsets0]
  simp only [View.readAt_eq_ld, h1.read_unread, h2.read_unread, h3.read_unread, h4.read_unread,
    View.ld_unit_zero (S := S2000x64) zero_offsets0, View.ld_unit_zero (S := S64x128) zero_offsets0,
    View.ld_unit_zero (S := S1x128) zero_offsets0]

/-- A later point leaves, in the row of sums of squares, the row it found plus the column sums of squares of its tile. -/
theorem later0_sumsq (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond0_0 i) (x0 : Vec F S2000x64 .f32) (x1 : Vec F S64x128 .f32) (x2 : Vec F S1x128 .f32)
    (xo3 xo4 : Vec F S1x128 .f32) :
    out0_B_4 c i a1 h1 a2 h2 a3 h3 a4 h4 a5 h5 hc x0 x1 x2 xo3 xo4 = k0_pay5 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero (S := S1x128) zero_offsets0]
  simp only [View.readAt_eq_ld, h1.read_unread, h2.read_unread, h3.read_unread, h5.read_unread,
    View.ld_unit_zero (S := S2000x64) zero_offsets0, View.ld_unit_zero (S := S64x128) zero_offsets0,
    View.ld_unit_zero (S := S1x128) zero_offsets0]

/-- The first point leaves, in the row of sums, the zero row plus the column sums of its tile. -/
theorem first0_sum (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond0_0 i) (x0 : Vec F S2000x64 .f32) (x1 : Vec F S64x128 .f32) (x2 : Vec F S1x128 .f32) :
    out0_A_3 c i a1 h1 a2 h2 a3 h3 a4 h4 a5 h5 hc x0 x1 x2 = k0_pay4 x0 x1 x2 k0_pay1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x128) zero_offsets0, View.readCov_unit_zero (S := S1x128) _ zero_offsets0]
  simp only [View.readAt_eq_ld, h1.read_unread, h2.read_unread, h3.read_unread,
    View.ld_unit_zero (S := S2000x64) zero_offsets0, View.ld_unit_zero (S := S64x128) zero_offsets0,
    View.ld_unit_zero (S := S1x128) zero_offsets0]

/-- The first point leaves, in the row of sums of squares, the zero row plus the column sums of squares of its tile. -/
theorem first0_sumsq (c : Dev nD) (i : grid0.Coords) (a1 : Memref sig .tc .vmem S2000x64 .f32) (h1 : a1.IsWhole)
    (a2 : Memref sig .tc .vmem S64x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond0_0 i) (x0 : Vec F S2000x64 .f32) (x1 : Vec F S64x128 .f32) (x2 : Vec F S1x128 .f32) :
    out0_A_4 c i a1 h1 a2 h2 a3 h3 a4 h4 a5 h5 hc x0 x1 x2 = k0_pay5 x0 x1 x2 k0_pay2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) zero_offsets0, View.readCov_unit_zero (S := S1x128) _ zero_offsets0]
  simp only [View.readAt_eq_ld, h1.read_unread, h2.read_unread, h3.read_unread,
    View.ld_unit_zero (S := S2000x64) zero_offsets0, View.ld_unit_zero (S := S64x128) zero_offsets0,
    View.ld_unit_zero (S := S1x128) zero_offsets0]

end Pieces

/-! ## The payloads read entry by entry over the extended reals

A change of float format is the identity on extended reals, a product into a zero accumulator is the plain sum of
products, and a reduction along the rows is the sum over the rows. -/

/-- A sum along the rows of an `a × b` matrix, read at column `j`: the sum over the rows `r` of the entry `(r, j)`. -/
theorem colsum0_at {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ r : Fin a, src (ix2 r j) := by
  refine (Ideal.multiReduction_add_single src _ h hφ hacc (ix1 j)).trans ?_
  refine Finset.sum_congr rfl fun r _ => congrArg src ?_
  funext d
  apply Fin.ext
  match d with
  | ⟨0, _⟩ => rfl
  | ⟨1, _⟩ => rfl

/-- The tile of pre-activations: entry `(r, j)` is `(∑ₖ x r k · w k j) + b j`. -/
theorem tile0_at (x0 : Vec Ideal S2000x64 .f32) (x1 : Vec Ideal S64x128 .f32) (x2 : Vec Ideal S1x128 .f32)
    (r : Fin 2000) (j : Fin 128) :
    k0_pay3 x0 x1 x2 (ix2 r j) = (∑ k : Fin 64, x0 (ix2 r k) * x1 (ix2 k j)) + x2 (ix2 (0 : Fin 1) j) := by
  unfold k0_pay3
  refine (addf_apply _ _ _).trans ?_
  refine congrArg₂ (· + ·) ?_ ?_
  · refine (PlainProduct.matmul_at _ rfl none _ _ _ r j).trans ?_
    rw [constant_apply, Ideal.ofBits_zero_f32, zero_add, shapeCast_self]
    rfl
  · refine (broadcastTo_1b_ab_apply _ _ r j).trans ?_
    rw [shapeCast_self]

/-- The row of sums after a point: what it held plus, in column `j`, the sum of the tile's column `j`. -/
theorem sumrow0_at (x0 : Vec Ideal S2000x64 .f32) (x1 : Vec Ideal S64x128 .f32) (x2 : Vec Ideal S1x128 .f32)
    (acc : Vec Ideal S1x128 .f32) (j : Fin 128) :
    k0_pay4 x0 x1 x2 acc (ix2 (0 : Fin 1) j) = acc (ix2 (0 : Fin 1) j) + ∑ r : Fin 2000, k0_pay3 x0 x1 x2 (ix2 r j) := by
  unfold k0_pay4
  refine (addf_apply _ _ _).trans ?_
  refine congrArg₂ (· + ·) ?_ ?_
  · rw [shapeCast_self]
  · refine (shapeCast_a_1a_apply _ _ (0 : Fin 1) j).trans ?_
    exact colsum0_at (k0_pay3 x0 x1 x2) reduces_S2000x128_S128 (.inl rfl) rfl j

/-- The row of sums of squares after a point: what it held plus, in column `j`, the sum of the squares of the tile's column `j`. -/
theorem sqrow0_at (x0 : Vec Ideal S2000x64 .f32) (x1 : Vec Ideal S64x128 .f32) (x2 : Vec Ideal S1x128 .f32)
    (acc : Vec Ideal S1x128 .f32) (j : Fin 128) :
    k0_pay5 x0 x1 x2 acc (ix2 (0 : Fin 1) j)
      = acc (ix2 (0 : Fin 1) j) + ∑ r : Fin 2000, k0_pay3 x0 x1 x2 (ix2 r j) * k0_pay3 x0 x1 x2 (ix2 r j) := by
  unfold k0_pay5
  refine (addf_apply _ _ _).trans ?_
  refine congrArg₂ (· + ·) ?_ ?_
  · rw [shapeCast_self]
  · refine (shapeCast_a_1a_apply _ _ (0 : Fin 1) j).trans ?_
    exact colsum0_at (mulf (k0_pay3 x0 x1 x2) (k0_pay3 x0 x1 x2)) reduces_S2000x128_S128 (.inl rfl) rfl j

/-- The zero rows are zero. -/
theorem zerorow0_sum (j : Fin 128) : (k0_pay1 (F := Ideal)) (ix2 (0 : Fin 1) j) = 0 := Ideal.ofBits_zero_f32
theorem zerorow0_sumsq (j : Fin 128) : (k0_pay2 (F := Ideal)) (ix2 (0 : Fin 1) j) = 0 := Ideal.ofBits_zero_f32

/-! ## The arrays the region reads, and its blocks

Window 0 cuts the node array into 50 tiles of 2000 rows: row `r` of tile `t` is row `2000·t + r` of the array.
Windows 1 and 2 hold the whole weight matrix and the whole bias row at every point. -/

section Region

open Idealize.ShloMosaic.TcCoe

variable (V : (c : Dev nD) → (b : Ref sig .tc) → Buf (Elt Ideal) ((c : Thread nD τ).loc b))

/-- The node features the region finds: `100000 × 64`. -/
def s0A (c : Dev nD) : Fin 100000 → Fin 64 → EReal :=
  fun i k => (V c (Pipeline.arrRef spec0 0) : Vec Ideal S100000x64 .f32) (ix2 i k)
/-- The first linear map's weights: `64 × 128`. -/
def s0W (c : Dev nD) : Fin 64 → Fin 128 → EReal :=
  fun k j => (V c (Pipeline.arrRef spec0 1) : Vec Ideal S64x128 .f32) (ix2 k j)
/-- The first linear map's bias, one row of 128. -/
def s0B (c : Dev nD) : Fin 128 → EReal :=
  fun j => (V c (Pipeline.arrRef spec0 2) : Vec Ideal S1x128 .f32) (ix2 (0 : Fin 1) j)

/-- The block index of window 0 at point `t` is `(t, 0)`; windows 1 and 2 stay at `(0, 0)`. -/
theorem where0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem where0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem where0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Row `r` of the tile at point `t` is row `2000·t + r` of the node array. -/
theorem tileA0_at (c : Dev nD) (t : Fin cfg0.N) (r : Fin 2000) (k : Fin 64) (h : t.val * 2000 + r.val < 100000) :
    (iblk0 V c 0 t : Vec Ideal S2000x64 .f32) (ix2 r k) = s0A V c ⟨t.val * 2000 + r.val, h⟩ k := by
  unfold iblk0 s0A
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * r.val = t.val * 2000 + r.val; rw [(where0_0 t).1]; omega
  | ⟨1, _⟩ => show win0_0.index t (1 : Fin 2) * 64 + 1 * k.val = k.val; rw [(where0_0 t).2]; omega

/-- The weights' block at any point is the whole matrix. -/
theorem tileW0_at (c : Dev nD) (t : Fin cfg0.N) (k : Fin 64) (j : Fin 128) :
    (iblk0 V c 1 t : Vec Ideal S64x128 .f32) (ix2 k j) = s0W V c k j := by
  unfold iblk0 s0W
  rw [View.read_apply]
  show V c (Pipeline.arrRef spec0 1) _ = V c (Pipeline.arrRef spec0 1) _
  congr 1
  funext a
  apply Fin.ext
  match a with
  | ⟨0, _⟩ => show win0_1.index t (0 : Fin 2) * 64 + 1 * k.val = k.val; rw [(where0_1 t).1]; omega
  | ⟨1, _⟩ => show win0_1.index t (1 : Fin 2) * 128 + 1 * j.val = j.val; rw [(where0_1 t).2]; omega

/-- The bias's block at any point is the whole row. -/
theorem tileB0_at (c : Dev nD) (t : Fin cfg0.N) (j : Fin 128) :
    (iblk0 V c 2 t : Vec Ideal S1x128 .f32) (ix2 (0 : Fin 1) j) = s0B V c j := by
  unfold iblk0 s0B
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [(where0_2 t).1]
  | ⟨1, _⟩ => show win0_2.index t (1 : Fin 2) * 128 + 1 * j.val = j.val; rw [(where0_2 t).2]; omega

/-! ## One point's tile of pre-activations, by row number -/

/-- The pre-activation `A · w1 + b1` of the region's arrays. -/
def s0P (c : Dev nD) : Fin 100000 → Fin 128 → EReal := Gin.pre (s0A V c) (s0W V c) (s0B V c)

/-- Column `j` of the pre-activation by row number, zero past the last row. -/
def s0col (c : Dev nD) (j : Fin 128) (i : ℕ) : EReal := if h : i < 100000 then s0P V c ⟨i, h⟩ j else 0

/-- Its square. -/
def s0colsq (c : Dev nD) (j : Fin 128) (i : ℕ) : EReal :=
  if h : i < 100000 then s0P V c ⟨i, h⟩ j * s0P V c ⟨i, h⟩ j else 0

/-- Entry `(r, j)` of the tile the body forms at point `t` is the pre-activation at row `2000·t + r`. -/
theorem tile0_point (c : Dev nD) (t : Fin cfg0.N) (r : Fin 2000) (j : Fin 128) :
    k0_pay3 (F := Ideal) (iblk0 V c 0 t) (iblk0 V c 1 t) (iblk0 V c 2 t) (ix2 r j) = s0col V c j (t.val * 2000 + r.val) := by
  have hN : t.val < 50 := lt_of_lt_of_eq t.isLt (show cfg0.N = 50 from N_0)
  have hr : r.val < 2000 := r.isLt
  have hb : t.val * 2000 + r.val < 100000 := by omega
  refine (tile0_at (iblk0 V c 0 t) (iblk0 V c 1 t) (iblk0 V c 2 t) r j).trans ?_
  unfold s0col
  rw [dif_pos hb]
  unfold s0P Gin.pre
  exact congrArg₂ (· + ·)
    (Finset.sum_congr rfl fun k _ => congrArg₂ (· * ·) (tileA0_at V c t r k hb) (tileW0_at V c t k j))
    (tileB0_at V c t j)

/-- The same for the square. -/
theorem tilesq0_point (c : Dev nD) (t : Fin cfg0.N) (r : Fin 2000) (j : Fin 128) :
    k0_pay3 (F := Ideal) (iblk0 V c 0 t) (iblk0 V c 1 t) (iblk0 V c 2 t) (ix2 r j)
        * k0_pay3 (F := Ideal) (iblk0 V c 0 t) (iblk0 V c 1 t) (iblk0 V c 2 t) (ix2 r j)
      = s0colsq V c j (t.val * 2000 + r.val) := by
  have hN : t.val < 50 := lt_of_lt_of_eq t.isLt (show cfg0.N = 50 from N_0)
  have hr : r.val < 2000 := r.isLt
  have hb : t.val * 2000 + r.val < 100000 := by omega
  rw [tile0_point V c t r j]
  unfold s0col s0colsq
  rw [dif_pos hb, dif_pos hb]

/-- The column sums of the tile at point `t`: rows `2000·t … 2000·t + 1999`. -/
theorem tilesum0_point (c : Dev nD) (t : Fin cfg0.N) (j : Fin 128) :
    ∑ r : Fin 2000, k0_pay3 (F := Ideal) (iblk0 V c 0 t) (iblk0 V c 1 t) (iblk0 V c 2 t) (ix2 r j)
      = ∑ r ∈ Finset.range 2000, s0col V c j (t.val * 2000 + r) :=
  (Finset.sum_congr rfl fun r _ => tile0_point V c t r j).trans
    (Fin.sum_univ_eq_sum_range (fun r => s0col V c j (t.val * 2000 + r)) 2000)

theorem tilesumsq0_point (c : Dev nD) (t : Fin cfg0.N) (j : Fin 128) :
    ∑ r : Fin 2000, k0_pay3 (F := Ideal) (iblk0 V c 0 t) (iblk0 V c 1 t) (iblk0 V c 2 t) (ix2 r j)
        * k0_pay3 (F := Ideal) (iblk0 V c 0 t) (iblk0 V c 1 t) (iblk0 V c 2 t) (ix2 r j)
      = ∑ r ∈ Finset.range 2000, s0colsq V c j (t.val * 2000 + r) :=
  (Finset.sum_congr rfl fun r _ => tilesq0_point V c t r j).trans
    (Fin.sum_univ_eq_sum_range (fun r => s0colsq V c j (t.val * 2000 + r)) 2000)

/-! ## The running rows, by induction on the point

After point `n` the row of sums holds, in column `j`, the sum of column `j` of the pre-activation over the rows of
tiles `0 … n`; the row of sums of squares likewise. The first point starts from the zero row, every later point from
what the point before left. -/

theorem run0_sum (c : Dev nD) (j : Fin 128) : ∀ (n : ℕ) (h : n < cfg0.N),
    (outsAt0 V c n h).1 (ix2 (0 : Fin 1) j)
      = ∑ s ∈ Finset.range (n + 1), ∑ r ∈ Finset.range 2000, s0col V c j (s * 2000 + r)
  | 0, h => by
    rw [outsAt0_A V c ⟨0, h⟩ rfl]
    dsimp only
    rw [first0_sum]
    refine (sumrow0_at _ _ _ _ j).trans ?_
    rw [zerorow0_sum, zero_add, Finset.sum_range_one]
    exact tilesum0_point V c ⟨0, h⟩ j
  | n + 1, h => by
    have hN : cfg0.N = 50 := N_0
    have hB : ¬(⟨n + 1, h⟩ : Fin cfg0.N).val % 50 = 0 := by dsimp only; omega
    rw [outsAt0_B V c ⟨n + 1, h⟩ hB]
    dsimp only
    rw [later0_sum]
    refine (sumrow0_at _ _ _ _ j).trans ?_
    rw [Finset.sum_range_succ _ (n + 1)]
    exact congrArg₂ (· + ·) (run0_sum c j n (Nat.lt_of_succ_lt h)) (tilesum0_point V c ⟨n + 1, h⟩ j)

theorem run0_sumsq (c : Dev nD) (j : Fin 128) : ∀ (n : ℕ) (h : n < cfg0.N),
    (outsAt0 V c n h).2 (ix2 (0 : Fin 1) j)
      = ∑ s ∈ Finset.range (n + 1), ∑ r ∈ Finset.range 2000, s0colsq V c j (s * 2000 + r)
  | 0, h => by
    rw [outsAt0_A V c ⟨0, h⟩ rfl]
    dsimp only
    rw [first0_sumsq]
    refine (sqrow0_at _ _ _ _ j).trans ?_
    rw [zerorow0_sumsq, zero_add, Finset.sum_range_one]
    exact tilesumsq0_point V c ⟨0, h⟩ j
  | n + 1, h => by
    have hN : cfg0.N = 50 := N_0
    have hB : ¬(⟨n + 1, h⟩ : Fin cfg0.N).val % 50 = 0 := by dsimp only; omega
    rw [outsAt0_B V c ⟨n + 1, h⟩ hB]
    dsimp only
    rw [later0_sumsq]
    refine (sqrow0_at _ _ _ _ j).trans ?_
    rw [Finset.sum_range_succ _ (n + 1)]
    exact congrArg₂ (· + ·) (run0_sumsq c j n (Nat.lt_of_succ_lt h)) (tilesumsq0_point V c ⟨n + 1, h⟩ j)

/-! ## The result arrays

Each accumulator row is written back once, after the last point, and its one block is the whole `1 × 128` array: the
array ends holding the row the last point left, and taking the 50 tiles of 2000 rows one after the other is the sum
over all 100000 rows. -/

/-- The last point. -/
theorem last0 : 49 < cfg0.N := by rw [show cfg0.N = 50 from N_0]; decide

/-- The block of either output sits at offset zero at every point. -/
theorem where0_3 : ∀ t : Fin cfg0.N, (fun a => win0_3.index t a * main_v19_0.ty.shape.size a) = fun _ => 0 :=
  (by decide +kernel : ∀ t : Fin grid0.N, (fun a => win0_3.index t a * main_v19_0.ty.shape.size a) = fun _ => 0)
theorem where0_4 : ∀ t : Fin cfg0.N, (fun a => win0_4.index t a * main_v19_1.ty.shape.size a) = fun _ => 0 :=
  (by decide +kernel : ∀ t : Fin grid0.N, (fun a => win0_4.index t a * main_v19_1.ty.shape.size a) = fun _ => 0)

/-- The one write-back of the row of sums writes what the last point left. -/
theorem flushed0_sum (c : Dev nD) (t : Fin cfg0.N) (hf : (cfg0.win 3).flush t = true) :
    (dat0 V c).flushed 3 t = ((cfg0.win 3).blk t).view.read (Elt Ideal) ((outsAt0 V c 49 last0).1) := by
  have hN : cfg0.N = 50 := N_0
  have h49 : t.val = 49 := by have := (flush0_3 t).mp hf; have := t.isLt; omega
  obtain rfl : t = ⟨49, last0⟩ := Fin.ext h49
  show (cfg0.win 3).cut (grid0.coords ⟨49, last0⟩) ((dat0 V c).after 3 ⟨49, last0⟩) = _
  rw [after0_3]
  exact (Memref.read_access_unit_zero (Elt Ideal) main_v19_0 (where0_3 ⟨49, last0⟩)
    (fun a => by rw [congrFun (where0_3 ⟨49, last0⟩) a]; simp) (outsAt0 V c 49 last0).1).symm

theorem flushed0_sumsq (c : Dev nD) (t : Fin cfg0.N) (hf : (cfg0.win 4).flush t = true) :
    (dat0 V c).flushed 4 t = ((cfg0.win 4).blk t).view.read (Elt Ideal) ((outsAt0 V c 49 last0).2) := by
  have hN : cfg0.N = 50 := N_0
  have h49 : t.val = 49 := by have := (flush0_4 t).mp hf; have := t.isLt; omega
  obtain rfl : t = ⟨49, last0⟩ := Fin.ext h49
  show (cfg0.win 4).cut (grid0.coords ⟨49, last0⟩) ((dat0 V c).after 4 ⟨49, last0⟩) = _
  rw [after0_4]
  exact (Memref.read_access_unit_zero (Elt Ideal) main_v19_1 (where0_4 ⟨49, last0⟩)
    (fun a => by rw [congrFun (where0_4 ⟨49, last0⟩) a]; simp) (outsAt0 V c 49 last0).2).symm

/-- So the array of sums ends holding the row the last point left. -/
theorem final0_sum (c : Dev nD) : (dat0 V c).arrAt 3 cfg0.N = (outsAt0 V c 49 last0).1 :=
  (dat0 V c).arrAt_eq_of_cover 3 (outsAt0 V c 49 last0).1 (flushed0_sum V c) fun i =>
    ⟨⟨49, last0⟩, (flush0_3 _).mpr rfl, by
      show i ∈ ((View.whole main_v19_0).slice (win0_3.rect ⟨49, last0⟩)).set
      rw [View.set_slice_whole, Rect.mem_set_unit]
      intro a
      have hrow : (i 0 : Nat) < 1 := (i 0).isLt
      have hcol : (i 1 : Nat) < 128 := (i 1).isLt
      match a with
      | ⟨0, _⟩ =>
        show win0_3.index ⟨49, last0⟩ 0 * win0_3.size 0 ≤ (i 0 : Nat)
          ∧ (i 0 : Nat) < win0_3.index ⟨49, last0⟩ 0 * win0_3.size 0 + win0_3.xsize (grid0.coords ⟨49, last0⟩) 0
        rw [show win0_3.index ⟨49, last0⟩ 0 * win0_3.size 0 = 0 from by decide +kernel,
          show win0_3.xsize (grid0.coords ⟨49, last0⟩) 0 = 1 from by decide +kernel]
        omega
      | ⟨1, _⟩ =>
        show win0_3.index ⟨49, last0⟩ 1 * win0_3.size 1 ≤ (i 1 : Nat)
          ∧ (i 1 : Nat) < win0_3.index ⟨49, last0⟩ 1 * win0_3.size 1 + win0_3.xsize (grid0.coords ⟨49, last0⟩) 1
        rw [show win0_3.index ⟨49, last0⟩ 1 * win0_3.size 1 = 0 from by decide +kernel,
          show win0_3.xsize (grid0.coords ⟨49, last0⟩) 1 = 128 from by decide +kernel]
        omega⟩

theorem final0_sumsq (c : Dev nD) : (dat0 V c).arrAt 4 cfg0.N = (outsAt0 V c 49 last0).2 :=
  (dat0 V c).arrAt_eq_of_cover 4 (outsAt0 V c 49 last0).2 (flushed0_sumsq V c) fun i =>
    ⟨⟨49, last0⟩, (flush0_4 _).mpr rfl, by
      show i ∈ ((View.whole main_v19_1).slice (win0_4.rect ⟨49, last0⟩)).set
      rw [View.set_slice_whole, Rect.mem_set_unit]
      intro a
      have hrow : (i 0 : Nat) < 1 := (i 0).isLt
      have hcol : (i 1 : Nat) < 128 := (i 1).isLt
      match a with
      | ⟨0, _⟩ =>
        show win0_4.index ⟨49, last0⟩ 0 * win0_4.size 0 ≤ (i 0 : Nat)
          ∧ (i 0 : Nat) < win0_4.index ⟨49, last0⟩ 0 * win0_4.size 0 + win0_4.xsize (grid0.coords ⟨49, last0⟩) 0
        rw [show win0_4.index ⟨49, last0⟩ 0 * win0_4.size 0 = 0 from by decide +kernel,
          show win0_4.xsize (grid0.coords ⟨49, last0⟩) 0 = 1 from by decide +kernel]
        omega
      | ⟨1, _⟩ =>
        show win0_4.index ⟨49, last0⟩ 1 * win0_4.size 1 ≤ (i 1 : Nat)
          ∧ (i 1 : Nat) < win0_4.index ⟨49, last0⟩ 1 * win0_4.size 1 + win0_4.xsize (grid0.coords ⟨49, last0⟩) 1
        rw [show win0_4.index ⟨49, last0⟩ 1 * win0_4.size 1 = 0 from by decide +kernel,
          show win0_4.xsize (grid0.coords ⟨49, last0⟩) 1 = 128 from by decide +kernel]
        omega⟩

/-- Fifty tiles of 2000 rows, one after the other, are all 100000 rows. -/
theorem allrows0 (f : ℕ → EReal) :
    ∑ s ∈ Finset.range (49 + 1), ∑ r ∈ Finset.range 2000, f (s * 2000 + r) = ∑ i : Fin 100000, f i.val := by
  rw [← BlockedSum.sum_range_mul f 50 2000]
  exact (Fin.sum_univ_eq_sum_range f 100000).symm

/-- The array of sums after the region: column `j` is the sum of column `j` of `A · w1 + b1` over all rows. -/
theorem stats0_sum (c : Dev nD) (j : Fin 128) :
    (dat0 (F := Ideal) V c).arrAt 3 cfg0.N (ix2 (0 : Fin 1) j) = Gin.csum (Gin.pre (s0A V c) (s0W V c) (s0B V c)) j := by
  refine (congrFun (final0_sum V c) (ix2 (0 : Fin 1) j)).trans ?_
  refine (run0_sum V c j 49 last0).trans ?_
  rw [allrows0]
  unfold Gin.csum
  refine Finset.sum_congr rfl fun i _ => ?_
  unfold s0col
  rw [dif_pos i.isLt]
  rfl

/-- The array of sums of squares after the region: column `j` is the sum of the squares of column `j` of `A · w1 + b1`
    over all rows. -/
theorem stats0_sumsq (c : Dev nD) (j : Fin 128) :
    (dat0 (F := Ideal) V c).arrAt 4 cfg0.N (ix2 (0 : Fin 1) j) = Gin.csumsq (Gin.pre (s0A V c) (s0W V c) (s0B V c)) j := by
  refine (congrFun (final0_sumsq V c) (ix2 (0 : Fin 1) j)).trans ?_
  refine (run0_sumsq V c j 49 last0).trans ?_
  rw [allrows0]
  unfold Gin.csumsq
  refine Finset.sum_congr rfl fun i _ => ?_
  unfold s0colsq
  rw [dif_pos i.isLt]
  rfl

end Region

end Cert.KernelIdeal.GinK

end
-- ==== Proof.KLayer0.lean ====
/-
  Layer 0 of the kernel program, read as a value: the array its second region leaves is, entry by entry, the layer
  function `Gin.layerK` (variance as mean of squares minus square of the mean) of the seven arrays the layer's first
  host stretch left — the aggregated node features, the two weight matrices and the four parameter rows. The first
  region's two outputs are the column sums and the column sums of squares of the pre-activation; the host divides them
  by 100000 and forms the variance; the second region reads those two rows and the same seven arrays.
-/
import proofs.«151523_j51427938402588_1_alg».proof.Proof.KKeep
import proofs.«151523_j51427938402588_1_alg».proof.Proof.KHost
import proofs.«151523_j51427938402588_1_alg».proof.Proof.KStats0
import proofs.«151523_j51427938402588_1_alg».proof.Proof.KApply1
import proofs.«151523_j51427938402588_1_alg».proof.Proof.GinRows

set_option maxRecDepth 16384

noncomputable section

namespace Cert.KernelIdeal.GinK

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The number of rows, 100000, as the programs' f32 word reads at the ideal instance. -/
abbrev nnW : EReal := Ideal.ofBits .f32 0x47C35000#32

/-- The pre-activation of layer 0, from what the first host stretch of the layer left. -/
def P0 (c : Dev nD) : Fin 100000 → Fin 128 → EReal :=
  Gin.pre (a1A (V1 m ρ) c) (a1W1 (V1 m ρ) c) (a1B1 (V1 m ρ) c)

/-- The mean row the second region reads is the column mean of the pre-activation. -/
theorem mu0_eq (c : Dev nD) : a1Mu (V3 m ρ) c = Gin.meanOf nnW (P0 m ρ c) := funext fun j => by
  show (W3 m ρ c (Proc.devRef .tc main_v21) : S1x128.Idx → EReal) (ix2 (0 : Fin 1) j) = _
  rw [mean0_at, Gin.div_row_apply, sum0_at, stats0_sum (V1 m ρ) c j]
  rfl

/-- The variance row the second region reads is mean of squares minus square of the mean. -/
theorem var0_eq (c : Dev nD) : a1Var (V3 m ρ) c = Gin.varK nnW (P0 m ρ c) := funext fun j => by
  have hmu : (W3 m ρ c (Proc.devRef .tc main_v21) : S1x128.Idx → EReal) (ix2 (0 : Fin 1) j) = Gin.meanOf nnW (P0 m ρ c) j :=
    congrFun (mu0_eq m ρ c) j
  show (W3 m ρ c (Proc.devRef .tc main_v25) : S1x128.Idx → EReal) (ix2 (0 : Fin 1) j) = _
  rw [var0_at, Gin.sub_mul_row_apply, hmu, Gin.div_row_apply, sumsq0_at, stats0_sumsq (V1 m ρ) c j]
  rfl

/-- Layer 0's output array, entry by entry. -/
theorem layer0_value (c : Dev nD) (i : Fin 100000) (j : Fin 128) :
    (W4 m ρ c (Proc.devRef .tc main_v26) : S100000x128.Idx → EReal) (ix2 i j)
      = Gin.layerK nnW epsW (a1A (V1 m ρ) c) (a1W1 (V1 m ρ) c) (a1B1 (V1 m ρ) c) (a1G (V1 m ρ) c)
          (a1Be (V1 m ρ) c) (a1W2 (V1 m ρ) c) (a1B2 (V1 m ρ) c) i j := by
  have hA : a1A (V3 m ρ) c = a1A (V1 m ρ) c := funext fun i => funext fun k => congrFun (keep3_v14 m ρ c) (ix2 i k)
  have hW1 : a1W1 (V3 m ρ) c = a1W1 (V1 m ρ) c := funext fun k => funext fun j => congrFun (keep3_arg2 m ρ c) (ix2 k j)
  have hB1 : a1B1 (V3 m ρ) c = a1B1 (V1 m ρ) c := funext fun j => congrFun (keep3_v15 m ρ c) (ix2 (0 : Fin 1) j)
  have hG : a1G (V3 m ρ) c = a1G (V1 m ρ) c := funext fun j => congrFun (keep3_v16 m ρ c) (ix2 (0 : Fin 1) j)
  have hBe : a1Be (V3 m ρ) c = a1Be (V1 m ρ) c := funext fun j => congrFun (keep3_v17 m ρ c) (ix2 (0 : Fin 1) j)
  have hW2 : a1W2 (V3 m ρ) c = a1W2 (V1 m ρ) c := funext fun k => funext fun j => congrFun (keep3_arg6 m ρ c) (ix2 k j)
  have hB2 : a1B2 (V3 m ρ) c = a1B2 (V1 m ρ) c := funext fun j => congrFun (keep3_v18 m ρ c) (ix2 (0 : Fin 1) j)
  rw [res0_at, apply1 (V3 m ρ) c i j, hA, hW1, hB1, hG, hBe, hW2, hB2, mu0_eq, var0_eq]
  rfl

end Cert.KernelIdeal.GinK

end
-- ==== Proof.KLayer1.lean ====
/-
  Layer 1 of the kernel program, read as a value: the array its second region leaves is, entry by entry, the layer
  function `Gin.layerK` (variance as mean of squares minus square of the mean) of the seven arrays the layer's first
  host stretch left — the aggregated node features, the two weight matrices and the four parameter rows. The first
  region's two outputs are the column sums and the column sums of squares of the pre-activation; the host divides them
  by 100000 and forms the variance; the second region reads those two rows and the same seven arrays.
-/
import proofs.«151523_j51427938402588_1_alg».proof.Proof.KKeep
import proofs.«151523_j51427938402588_1_alg».proof.Proof.KHost
import proofs.«151523_j51427938402588_1_alg».proof.Proof.KStats2
import proofs.«151523_j51427938402588_1_alg».proof.Proof.KApply3
import proofs.«151523_j51427938402588_1_alg».proof.Proof.GinRows
import proofs.«151523_j51427938402588_1_alg».proof.Proof.KLayer0

set_option maxRecDepth 16384

noncomputable section

namespace Cert.KernelIdeal.GinK

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The pre-activation of layer 1, from what the first host stretch of the layer left. -/
def P1 (c : Dev nD) : Fin 100000 → Fin 128 → EReal :=
  Gin.pre (a3A (V5 m ρ) c) (a3W1 (V5 m ρ) c) (a3B1 (V5 m ρ) c)

/-- The mean row the second region reads is the column mean of the pre-activation. -/
theorem mu1_eq (c : Dev nD) : a3Mu (V7 m ρ) c = Gin.meanOf nnW (P1 m ρ c) := funext fun j => by
  show (W7 m ρ c (Proc.devRef .tc main_v44) : S1x128.Idx → EReal) (ix2 (0 : Fin 1) j) = _
  rw [mean1_at, Gin.div_row_apply, sum1_at, stats2_sum (V5 m ρ) c j]
  rfl

/-- The variance row the second region reads is mean of squares minus square of the mean. -/
theorem var1_eq (c : Dev nD) : a3Var (V7 m ρ) c = Gin.varK nnW (P1 m ρ c) := funext fun j => by
  have hmu : (W7 m ρ c (Proc.devRef .tc main_v44) : S1x128.Idx → EReal) (ix2 (0 : Fin 1) j) = Gin.meanOf nnW (P1 m ρ c) j :=
    congrFun (mu1_eq m ρ c) j
  show (W7 m ρ c (Proc.devRef .tc main_v48) : S1x128.Idx → EReal) (ix2 (0 : Fin 1) j) = _
  rw [var1_at, Gin.sub_mul_row_apply, hmu, Gin.div_row_apply, sumsq1_at, stats2_sumsq (V5 m ρ) c j]
  rfl

/-- Layer 1's output array, entry by entry. -/
theorem layer1_value (c : Dev nD) (i : Fin 100000) (j : Fin 128) :
    (W8 m ρ c (Proc.devRef .tc main_v49) : S100000x128.Idx → EReal) (ix2 i j)
      = Gin.layerK nnW epsW (a3A (V5 m ρ) c) (a3W1 (V5 m ρ) c) (a3B1 (V5 m ρ) c) (a3G (V5 m ρ) c)
          (a3Be (V5 m ρ) c) (a3W2 (V5 m ρ) c) (a3B2 (V5 m ρ) c) i j := by
  have hA : a3A (V7 m ρ) c = a3A (V5 m ρ) c := funext fun i => funext fun k => congrFun (keep7_v37 m ρ c) (ix2 i k)
  have hW1 : a3W1 (V7 m ρ) c = a3W1 (V5 m ρ) c := funext fun k => funext fun j => congrFun (keep7_arg8 m ρ c) (ix2 k j)
  have hB1 : a3B1 (V7 m ρ) c = a3B1 (V5 m ρ) c := funext fun j => congrFun (keep7_v38 m ρ c) (ix2 (0 : Fin 1) j)
  have hG : a3G (V7 m ρ) c = a3G (V5 m ρ) c := funext fun j => congrFun (keep7_v39 m ρ c) (ix2 (0 : Fin 1) j)
  have hBe : a3Be (V7 m ρ) c = a3Be (V5 m ρ) c := funext fun j => congrFun (keep7_v40 m ρ c) (ix2 (0 : Fin 1) j)
  have hW2 : a3W2 (V7 m ρ) c = a3W2 (V5 m ρ) c := funext fun k => funext fun j => congrFun (keep7_arg12 m ρ c) (ix2 k j)
  have hB2 : a3B2 (V7 m ρ) c = a3B2 (V5 m ρ) c := funext fun j => congrFun (keep7_v41 m ρ c) (ix2 (0 : Fin 1) j)
  rw [res1_at, apply3 (V7 m ρ) c i j, hA, hW1, hB1, hG, hBe, hW2, hB2, mu1_eq, var1_eq]
  rfl

end Cert.KernelIdeal.GinK

end
-- ==== Proof.KLayer2.lean ====
/-
  Layer 2 of the kernel program, read as a value: the array its second region leaves is, entry by entry, the layer
  function `Gin.layerK` (variance as mean of squares minus square of the mean) of the seven arrays the layer's first
  host stretch left — the aggregated node features, the two weight matrices and the four parameter rows. The first
  region's two outputs are the column sums and the column sums of squares of the pre-activation; the host divides them
  by 100000 and forms the variance; the second region reads those two rows and the same seven arrays.
-/
import proofs.«151523_j51427938402588_1_alg».proof.Proof.KKeep
import proofs.«151523_j51427938402588_1_alg».proof.Proof.KHost
import proofs.«151523_j51427938402588_1_alg».proof.Proof.KStats4
import proofs.«151523_j51427938402588_1_alg».proof.Proof.KApply5
import proofs.«151523_j51427938402588_1_alg».proof.Proof.GinRows
import proofs.«151523_j51427938402588_1_alg».proof.Proof.KLayer1

set_option maxRecDepth 16384

noncomputable section

namespace Cert.KernelIdeal.GinK

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The pre-activation of layer 2, from what the first host stretch of the layer left. -/
def P2 (c : Dev nD) : Fin 100000 → Fin 64 → EReal :=
  Gin.pre (a5A (V9 m ρ) c) (a5W1 (V9 m ρ) c) (a5B1 (V9 m ρ) c)

/-- The mean row the second region reads is the column mean of the pre-activation. -/
theorem mu2_eq (c : Dev nD) : a5Mu (V11 m ρ) c = Gin.meanOf nnW (P2 m ρ c) := funext fun j => by
  show (W11 m ρ c (Proc.devRef .tc main_v67) : S1x64.Idx → EReal) (ix2 (0 : Fin 1) j) = _
  rw [mean2_at, Gin.div_row_apply, sum2_at, stats4_sum (V9 m ρ) c j]
  rfl

/-- The variance row the second region reads is mean of squares minus square of the mean. -/
theorem var2_eq (c : Dev nD) : a5Var (V11 m ρ) c = Gin.varK nnW (P2 m ρ c) := funext fun j => by
  have hmu : (W11 m ρ c (Proc.devRef .tc main_v67) : S1x64.Idx → EReal) (ix2 (0 : Fin 1) j) = Gin.meanOf nnW (P2 m ρ c) j :=
    congrFun (mu2_eq m ρ c) j
  show (W11 m ρ c (Proc.devRef .tc main_v71) : S1x64.Idx → EReal) (ix2 (0 : Fin 1) j) = _
  rw [var2_at, Gin.sub_mul_row_apply, hmu, Gin.div_row_apply, sumsq2_at, stats4_sumsq (V9 m ρ) c j]
  rfl

/-- Layer 2's output array, entry by entry. -/
theorem layer2_value (c : Dev nD) (i : Fin 100000) (j : Fin 64) :
    (W12 m ρ c (Proc.devRef .tc main_v72) : S100000x64.Idx → EReal) (ix2 i j)
      = Gin.layerK nnW epsW (a5A (V9 m ρ) c) (a5W1 (V9 m ρ) c) (a5B1 (V9 m ρ) c) (a5G (V9 m ρ) c)
          (a5Be (V9 m ρ) c) (a5W2 (V9 m ρ) c) (a5B2 (V9 m ρ) c) i j := by
  have hA : a5A (V11 m ρ) c = a5A (V9 m ρ) c := funext fun i => funext fun k => congrFun (keep11_v60 m ρ c) (ix2 i k)
  have hW1 : a5W1 (V11 m ρ) c = a5W1 (V9 m ρ) c := funext fun k => funext fun j => congrFun (keep11_arg14 m ρ c) (ix2 k j)
  have hB1 : a5B1 (V11 m ρ) c = a5B1 (V9 m ρ) c := funext fun j => congrFun (keep11_v61 m ρ c) (ix2 (0 : Fin 1) j)
  have hG : a5G (V11 m ρ) c = a5G (V9 m ρ) c := funext fun j => congrFun (keep11_v62 m ρ c) (ix2 (0 : Fin 1) j)
  have hBe : a5Be (V11 m ρ) c = a5Be (V9 m ρ) c := funext fun j => congrFun (keep11_v63 m ρ c) (ix2 (0 : Fin 1) j)
  have hW2 : a5W2 (V11 m ρ) c = a5W2 (V9 m ρ) c := funext fun k => funext fun j => congrFun (keep11_arg18 m ρ c) (ix2 k j)
  have hB2 : a5B2 (V11 m ρ) c = a5B2 (V9 m ρ) c := funext fun j => congrFun (keep11_v64 m ρ c) (ix2 (0 : Fin 1) j)
  rw [res2_at, apply5 (V11 m ρ) c i j, hA, hW1, hB1, hG, hBe, hW2, hB2, mu2_eq, var2_eq]
  rfl

end Cert.KernelIdeal.GinK

end
-- ==== Proof.GinReal.lean ====
/-
  Real numbers inside the extended reals: sums, products, differences, maxima with zero and quotients by a nonzero
  real of real numbers are real numbers; and the two float constants of the layer (the row count 100000 and a
  positive epsilon) as real numbers.
-/
import proofs.«151523_j51427938402588_1_alg».proof.Proof.GinSpec
import Idealize.ShloMosaic.PureOps.Ideal.Laws
import Mathlib.Data.EReal.Operations
import Mathlib.Data.EReal.Inv
import Mathlib.Algebra.BigOperators.Field
import Mathlib.Tactic

noncomputable section

namespace Gin

open Idealize.ShloMosaic

/-! ### Real numbers inside the extended reals are closed under the layer's operations -/

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_neg {x : EReal} (hx : IsReal x) : IsReal (-x) := by
  obtain ⟨a, rfl⟩ := hx
  exact ⟨-a, (EReal.coe_neg a).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max_zero {x : EReal} (hx : IsReal x) : IsReal (max x 0) := by
  rcases max_choice x 0 with h | h
  · rw [h]; exact hx
  · rw [h]; exact isReal_zero

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h a (Finset.mem_insert_self a s))
      (ih (fun i hi => h i (Finset.mem_insert_of_mem hi)))

/-- Division by a nonzero real number keeps a real number real. -/
theorem isReal_div_coe {x : EReal} (hx : IsReal x) {y : ℝ} (hy : y ≠ 0) : IsReal (Ideal.div x (y : EReal)) := by
  rw [Ideal.div_coe hy]
  exact isReal_mul hx (isReal_coe _)

/-! ### The two float constants -/

/-- The pattern `0x47C35000` is `(2^23 + 4411392) · 2^(143 - 127 - 23) = 100000`. -/
theorem nn_eq : Ideal.ofBits .f32 0x47C35000#32 = ((100000 : ℝ) : EReal) := by
  simp [Ideal.ofBits, Ideal.ieee, -EReal.coe_mul]; norm_num

/-- The pattern `0x3727C5AC` is `(2^23 + 2606508) · 2^(110 - 127 - 23)`, a positive real (close to `1e-5`). -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Gin

end
-- ==== Proof.GinMath.lean ====
/-
  The law that joins the two forms of the variance of one GIN layer over the extended reals,

      (∑ᵢ Pᵢ²)/n − ((∑ᵢ Pᵢ)/n)²  =  (∑ᵢ (Pᵢ − (∑ᵢ Pᵢ)/n)²)/n,

  valid as soon as every Pᵢ is a real number and n is the number of summands; and its consequences for the layer.
-/
import proofs.«151523_j51427938402588_1_alg».proof.Proof.GinReal

noncomputable section

namespace Gin

open Idealize.ShloMosaic

/-! ### Finite sums of reals inside the extended reals -/

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pre-activation of real inputs is real. -/
theorem pre_real {n di dz : ℕ} (A : Fin n → Fin di → EReal) (w1 : Fin di → Fin dz → EReal) (b1 : Fin dz → EReal)
    (hA : ∀ i k, IsReal (A i k)) (hw : ∀ k j, IsReal (w1 k j)) (hb : ∀ j, IsReal (b1 j)) :
    ∀ i j, IsReal (pre (n := n) (di := di) (dz := dz) A w1 b1 i j) := by
  intro i j
  unfold pre
  exact isReal_add (isReal_sum _ _ (fun k _ => isReal_mul (hA i k) (hw k j))) (hb j)

/-! ### The variance law over the reals -/

/-- Mean of squares minus square of the mean is the mean of squared deviations: with `S = ∑ f`, `c = S/n`,
    `∑ (f - c)² = ∑ f² - 2·c·S + n·c²`, and `n·c = S`. -/
theorem real_var_identity (n : ℕ) (hn : 0 < n) (f : Fin n → ℝ) :
    (∑ i, f i * f i) * (1 / (n : ℝ)) - ((∑ i, f i) * (1 / (n : ℝ))) * ((∑ i, f i) * (1 / (n : ℝ)))
      = (∑ i, (f i - (∑ i, f i) * (1 / (n : ℝ))) * (f i - (∑ i, f i) * (1 / (n : ℝ)))) * (1 / (n : ℝ)) := by
  have hn' : (n : ℝ) ≠ 0 := Nat.cast_ne_zero.mpr hn.ne'
  generalize hS : (∑ i, f i) = S
  have h1 : ∀ c : ℝ, ∑ i, (f i - c) * (f i - c) = (∑ i, f i * f i) - 2 * c * S + n * (c * c) := by
    intro c
    have h2 : ∀ i, (f i - c) * (f i - c) = f i * f i - 2 * c * f i + c * c := fun i => by ring
    simp only [h2, Finset.sum_add_distrib, Finset.sum_sub_distrib, ← Finset.mul_sum, Finset.sum_const,
      Finset.card_univ, Fintype.card_fin, nsmul_eq_mul, hS]
    ring
  rw [h1]
  field_simp
  ring

/-! ### The variance law over the extended reals -/

theorem varK_eq_varR {n dz : ℕ} (hn : 0 < n) (nn : EReal) (hnn : nn = ((n : ℝ) : EReal))
    (P : Fin n → Fin dz → EReal) (hP : ∀ i j, IsReal (P i j)) : varK nn P = varR nn P := by
  choose p hp using hP
  have hn' : (n : ℝ) ≠ 0 := Nat.cast_ne_zero.mpr hn.ne'
  funext j
  simp only [varK, varR, meanOf, csum, csumsq, hnn, Ideal.div_coe hn', hp]
  simp only [← EReal.coe_mul, ← coe_sum, ← EReal.coe_sub]
  exact congrArg _ (real_var_identity n hn (fun i => p i j))

/-- The mean of squared deviations of real numbers is a nonnegative real number. -/
theorem varR_real_nonneg {n dz : ℕ} (hn : 0 < n) (nn : EReal) (hnn : nn = ((n : ℝ) : EReal))
    (P : Fin n → Fin dz → EReal) (hP : ∀ i j, IsReal (P i j)) (j : Fin dz) :
    ∃ v : ℝ, 0 ≤ v ∧ varR nn P j = (v : EReal) := by
  choose p hp using hP
  have hn' : (n : ℝ) ≠ 0 := Nat.cast_ne_zero.mpr hn.ne'
  refine ⟨(∑ i, (p i j - (∑ i, p i j) * (1 / (n : ℝ))) * (p i j - (∑ i, p i j) * (1 / (n : ℝ)))) * (1 / (n : ℝ)),
    ?_, ?_⟩
  · exact mul_nonneg (Finset.sum_nonneg (fun i _ => mul_self_nonneg _)) (by positivity)
  · simp only [varR, meanOf, csum, hnn, Ideal.div_coe hn', hp]
    simp only [← EReal.coe_mul, ← coe_sum, ← EReal.coe_sub]

/-- The reciprocal square root of a positive real number is a real number. -/
theorem rsqrt_real {v e : ℝ} (hv : 0 ≤ v) (he : 0 < e) : IsReal (Ideal.rsqrt ((v : EReal) + (e : EReal))) := by
  have h : 0 < v + e := by linarith
  rw [← EReal.coe_add, Ideal.rsqrt_coe, if_neg (not_lt.mpr h.le), if_neg h.ne']
  exact isReal_coe _

/-! ### The layer -/

theorem layerK_eq_layerR {n di dz d2 : ℕ} (hn : 0 < n) (nn eps : EReal) (hnn : nn = ((n : ℝ) : EReal))
    (A : Fin n → Fin di → EReal) (w1 : Fin di → Fin dz → EReal) (b1 g be : Fin dz → EReal)
    (w2 : Fin dz → Fin d2 → EReal) (b2 : Fin d2 → EReal)
    (hA : ∀ i k, IsReal (A i k)) (hw : ∀ k j, IsReal (w1 k j)) (hb : ∀ j, IsReal (b1 j)) :
    layerK (n := n) (di := di) (dz := dz) (d2 := d2) nn eps A w1 b1 g be w2 b2
      = layerR nn eps A w1 b1 g be w2 b2 := by
  unfold layerK layerR
  rw [varK_eq_varR hn nn hnn _ (pre_real A w1 b1 hA hw hb)]

theorem layerR_real {n di dz d2 : ℕ} (hn : 0 < n) (nn eps : EReal) (hnn : nn = ((n : ℝ) : EReal))
    (heps : ∃ e : ℝ, 0 < e ∧ eps = (e : EReal))
    (A : Fin n → Fin di → EReal) (w1 : Fin di → Fin dz → EReal) (b1 g be : Fin dz → EReal)
    (w2 : Fin dz → Fin d2 → EReal) (b2 : Fin d2 → EReal)
    (hA : ∀ i k, IsReal (A i k)) (hw : ∀ k j, IsReal (w1 k j)) (hb : ∀ j, IsReal (b1 j))
    (hg : ∀ j, IsReal (g j)) (hbe : ∀ j, IsReal (be j)) (hw2 : ∀ k j, IsReal (w2 k j))
    (hb2 : ∀ j, IsReal (b2 j)) :
    ∀ i j, IsReal (layerR nn eps A w1 b1 g be w2 b2 i j) := by
  intro i j
  obtain ⟨e, he, rfl⟩ := heps
  have hP := pre_real A w1 b1 hA hw hb
  have hn' : (n : ℝ) ≠ 0 := Nat.cast_ne_zero.mpr hn.ne'
  simp only [layerR, lin2, Gin.norm]
  refine isReal_add (isReal_sum _ _ (fun k _ => isReal_mul (isReal_max_zero ?_) (hw2 k j))) (hb2 j)
  obtain ⟨v, hv, hvar⟩ := varR_real_nonneg hn nn hnn _ hP k
  rw [hvar]
  have hmu : IsReal (meanOf nn (pre A w1 b1) k) := by
    unfold meanOf csum
    rw [hnn]
    exact isReal_div_coe (isReal_sum _ _ (fun i _ => hP i k)) hn'
  exact isReal_add (isReal_mul (isReal_mul (isReal_sub (hP i k) hmu) (rsqrt_real hv he)) (hg k)) (hbe k)

end Gin

end
-- ==== Proof.LibHostLayout.lean ====
/-
  Host-side layout operations and two host operations read at an index, over arrays of any extents: a vector laid as a
  single row, a single row repeated down the rows, a vector stood up as a column, a column repeated along the columns
  (each a broadcast that names which axes of the result the operand's axes become), one member cut out of a stack of
  matrices, the host's square root of an entry, and the host's sum over the entries of each row from an initial value
  that is zero, which over the extended reals is the sum of the row. Each lemma says which single entry (or which row)
  of the operand an entry of the result reads.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Idealize.ShloMosaic.HostLayout

open Idealize.ShloMosaic Idealize.ShloMosaic.ValueIdx

variable {α : Type}

/-- A vector `[b]` laid as the single row `[1, b]` reads, at `(u, j)`, the vector at `j`. -/
theorem bcast_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The single row `[1, b]` repeated down `a` rows reads, at `(p, j)`, the row at `j`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (j : Fin b) :
    broadcastInDim ⟨2, ![a, b]⟩ ![0, 1] h x (ix2 p j) = x (ix2 (0 : Fin 1) j) := by
  refine broadcastInDim_apply _ h x (ix2 p j) (ix2 (0 : Fin 1) j) fun ax => ?_
  match ax with
  | ⟨0, _⟩ => rfl
  | ⟨1, _⟩ =>
    show j.val = if b = 1 then 0 else j.val
    split
    · have := j.isLt; omega
    · rfl

/-- A vector `[a]` stood up as the column `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` repeated along `b` columns reads, at `(p, j)`, the column's entry of row `p`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (j : Fin b) :
    broadcastInDim ⟨2, ![a, b]⟩ ![0, 1] h x (ix2 p j) = x (ix2 p (0 : Fin 1)) := by
  refine broadcastInDim_apply _ h x (ix2 p j) (ix2 p (0 : Fin 1)) fun ax => ?_
  match ax with
  | ⟨0, _⟩ =>
    show p.val = if a = 1 then 0 else p.val
    split
    · have := p.isLt; omega
    · rfl
  | ⟨1, _⟩ => rfl

/-- Member `o` cut out of a stack `[n0, n1, n2]` reads, at `(u, p, q)`, the stack at `(o, p, q)`. -/
theorem slice3_axis0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (p : Fin n1) (q : Fin n2) (k : Fin n0) (hk : k.val = o) :
    extractStridedSlice ⟨3, ![1, n1, n2]⟩ ![o, 0, 0] X h (ix3 u p q) = X (ix3 k p q) :=
  extractStridedSlice_apply _ _ _ _ _ (fun ax => by
    match ax with
    | ⟨0, _⟩ =>
      show k.val = o + u.val
      have := u.isLt; omega
    | ⟨1, _⟩ => exact (Nat.zero_add _).symm
    | ⟨2, _⟩ => exact (Nat.zero_add _).symm)

/-- The host's square root at an index is the square root of the entry. -/
theorem hostSqrt_apply {s : Shape} {φ : FTy} (x : FVec Ideal s φ) (i : s.Idx) : Host.sqrt x i = Ideal.sqrt (x i) := rfl

/-- The host's sum over the rows' entries, from an initial value that is zero, read at row `p`: the sum of the row. -/
theorem hostRowSum_apply {a b : ℕ} {u : Shape} (x : FVec Ideal ⟨2, ![a, b]⟩ .f32) (init : u.Idx → Ideal .f32)
    (h' : (⟨2, ![a, b]⟩ : Shape).ReducesTo [1] ⟨1, ![a]⟩) (hu : 0 < u.numel) (h0 : init (Shape.Idx.first hu) = 0)
    (p : Fin a) : Host.reduceAdd x init h' hu (ix1 p) = ∑ k : Fin b, x (ix2 p k) := by
  have h : (⟨2, ![a, b]⟩ : Shape).Reduces [1] ⟨1, ![a]⟩ := ⟨h'.1, Nat.one_pos, h'.2⟩
  show Ideal.hostReduceAdd h' x _ (ix1 p) = _
  rw [Ideal.hostReduceAdd_single h' h, h0, zero_add]
  exact Finset.sum_congr rfl fun k _ => congrArg x (funext fun ax => Fin.ext (by
    match ax with
    | ⟨0, _⟩ => rfl
    | ⟨1, _⟩ => rfl))

end Idealize.ShloMosaic.HostLayout

end
-- ==== Proof.RefRead.lean ====
/-
  The reference program's perceptron layers read at an index, over the extended reals: each layer's term (RefTerms) at
  row `i` and column `j` is the index-by-index layer of GinSpec with the variance taken as the mean of squared
  deviations. First the operations one at a time over arrays of any extents (a vector laid along the rows, a column
  sum, the linear map, the mean, the variance function, the normalisation, the maximum with zero), then each layer's
  pieces, then the layers.
-/
import proofs.«151523_j51427938402588_1_alg».proof.Proof.RefTerms
import proofs.«151523_j51427938402588_1_alg».proof.Proof.GinSpec
import proofs.«151523_j51427938402588_1_alg».proof.Proof.LibPlainProduct
import proofs.«151523_j51427938402588_1_alg».proof.Proof.LibHostLayout

namespace Cert.ReferenceIdeal.RefValue

open Cert.ReferenceIdeal Idealize.ShloMosaic Idealize.ShloMosaic.ValueIdx
open Cert.ReferenceIdeal.Facts₀ Cert.ReferenceIdeal.Facts
open scoped BigOperators

/-- The number of rows as the program writes it: the float whose bits are `0x47C35000`. -/
noncomputable abbrev nnW : EReal := Ideal.ofBits .f32 0x47C35000#32
/-- The normalisation's epsilon as the program writes it: the float whose bits are `0x3727C5AC`. -/
noncomputable abbrev epsW : EReal := Ideal.ofBits .f32 0x3727C5AC#32

/-! ## The operations over arrays of any extents -/

section Generic

variable {a b c : ℕ}

/-- A vector `[b]` laid as one row, the row repeated down `a` rows: at `(i, j)` the vector at `j`. -/
theorem rows_apply {α : Type} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 v) (ix2 i j) = v (ix1 j) := by
  rw [HostLayout.bcast_1b_ab_apply, HostLayout.bcast_b_1b_apply]

/-- A column index with row `k` put back is `(k, j)`. -/
theorem lift_ix2 (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext d; apply Fin.ext
  fin_cases d <;> rfl

/-- The host's sum over the rows, from an initial value that is zero, at column `j`: the sum of the column. -/
theorem colSum_apply {u : Shape} (x : FVec Ideal ⟨2, ![a, b]⟩ .f32) (init : u.Idx → Ideal .f32)
    (h' : (⟨2, ![a, b]⟩ : Shape).ReducesTo [0] ⟨1, ![b]⟩) (hu : 0 < u.numel) (h0 : init (Shape.Idx.first hu) = 0)
    (j : Fin b) : Host.reduceAdd x init h' hu (ix1 j) = ∑ i : Fin a, x (ix2 i j) := by
  have h : (⟨2, ![a, b]⟩ : Shape).Reduces [0] ⟨1, ![b]⟩ := ⟨h'.1, Nat.one_pos, h'.2⟩
  show Ideal.hostReduceAdd h' x _ (ix1 j) = _
  rw [Ideal.hostReduceAdd_single h' h, h0, zero_add]
  exact Finset.sum_congr rfl fun k _ => congrArg x (lift_ix2 h j k)

/-- The constant zero, as a scalar array, is zero at its one index. -/
theorem zero_first (hu : 0 < (⟨0, ![]⟩ : Shape).numel) :
    (constant (F := Ideal) ⟨0, ![]⟩ .f32 0x00000000#32) (Shape.Idx.first hu) = 0 := by
  rw [constant_apply]; exact Ideal.ofBits_zero_f32

/-- A linear map: the plain product plus the bias laid along the rows. -/
theorem linear_apply (d : DotDims ⟨2, ![a, c]⟩ ⟨2, ![c, b]⟩ ⟨2, ![a, b]⟩) (hd : d = DotDims.plain a c b)
    (A : FVec Ideal ⟨2, ![a, c]⟩ .f32) (w : FVec Ideal ⟨2, ![c, b]⟩ .f32) (bias : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    addf (Host.dotGeneral d none A w) (broadcastInDim ⟨2, ![a, b]⟩ ![0, 1] h2 (broadcastInDim ⟨2, ![1, b]⟩ ![1] h1 bias)) (ix2 i j)
      = (∑ k : Fin c, A (ix2 i k) * w (ix2 k j)) + bias (ix1 j) := by
  rw [addf_apply, PlainProduct.dotGeneral_at d hd, rows_apply]

/-- The column mean: the column sum from zero over the number of rows. -/
theorem mean_apply (P : FVec Ideal ⟨2, ![a, b]⟩ .f32)
    (hr : (⟨2, ![a, b]⟩ : Shape).ReducesTo [0] ⟨1, ![b]⟩) (hu : 0 < (⟨0, ![]⟩ : Shape).numel)
    (hb : (⟨0, ![]⟩ : Shape).BroadcastsInDim ⟨1, ![b]⟩ ![]) (j : Fin b) :
    Host.divf (Host.reduceAdd P (constant ⟨0, ![]⟩ .f32 0x00000000#32) hr hu)
        (broadcastInDim ⟨1, ![b]⟩ ![] hb (constant ⟨0, ![]⟩ .f32 0x47C35000#32)) (ix1 j)
      = Gin.meanOf nnW (fun i j => P (ix2 i j)) j := by
  rw [hostDivf_apply, colSum_apply _ _ hr hu (zero_first hu), broadcastInDim_scalar_apply, constant_apply]
  rfl

/-- The variance function's deviations: the entry less the column mean, the mean taken through a one-row array. -/
theorem dev_apply (P : FVec Ideal ⟨2, ![a, b]⟩ .f32)
    (hr : (⟨2, ![a, b]⟩ : Shape).ReducesTo [0] ⟨1, ![b]⟩) (hu : 0 < (⟨0, ![]⟩ : Shape).numel)
    (h1 : (⟨1, ![b]⟩ : Shape).BroadcastsInDim ⟨2, ![1, b]⟩ (![1] : Fin 1 → Fin 2))
    (hb1 : (⟨0, ![]⟩ : Shape).BroadcastsInDim ⟨2, ![1, b]⟩ ![])
    (h2 : (⟨2, ![1, b]⟩ : Shape).BroadcastsInDim ⟨2, ![a, b]⟩ (![0, 1] : Fin 2 → Fin 2)) (i : Fin a) (j : Fin b) :
    subf P (broadcastInDim ⟨2, ![a, b]⟩ ![0, 1] h2
      (Host.divf (broadcastInDim ⟨2, ![1, b]⟩ ![1] h1 (Host.reduceAdd P (constant ⟨0, ![]⟩ .f32 0x00000000#32) hr hu))
        (broadcastInDim ⟨2, ![1, b]⟩ ![] hb1 (constant ⟨0, ![]⟩ .f32 0x47C35000#32)))) (ix2 i j)
      = P (ix2 i j) - Gin.meanOf nnW (fun i j => P (ix2 i j)) j := by
  rw [subf_apply, HostLayout.bcast_1b_ab_apply, hostDivf_apply, HostLayout.bcast_b_1b_apply,
    colSum_apply _ _ hr hu (zero_first hu), broadcastInDim_scalar_apply, constant_apply]
  rfl

variable [Facts]

/-- The variance function's divisor at correction zero: the number of rows. -/
theorem cnt_zero (i : (⟨0, ![]⟩ : Shape).Idx) : cnt (F := Ideal) (constantI S_ 32 0#32) i = nnW := by
  show Ideal.ofBits .f32 0x47C35000#32 - (((0#32 : BitVec 32).toInt : ℝ) : EReal) = _
  simp

/-- The variance function at correction zero, given its deviations `D`: the divisor is the number of rows, which is
    positive, so the choice keeps the quotient: the column sum of squared deviations over the number of rows. -/
theorem var_apply (hnn : nnW = ((100000 : ℝ) : EReal)) (D : FVec Ideal ⟨2, ![a, b]⟩ .f32)
    (hr : (⟨2, ![a, b]⟩ : Shape).ReducesTo [0] ⟨1, ![b]⟩) (hu : 0 < (⟨0, ![]⟩ : Shape).numel)
    (hb : (⟨0, ![]⟩ : Shape).BroadcastsInDim ⟨1, ![b]⟩ ![]) (j : Fin b) :
    select (broadcastInDim ⟨1, ![b]⟩ ![] hb (cmpf .ogt (cnt (F := Ideal) (constantI S_ 32 0#32)) (constant ⟨0, ![]⟩ .f32 0x00000000#32)))
      (Host.divf (Host.reduceAdd (mulf D D) (constant ⟨0, ![]⟩ .f32 0x00000000#32) hr hu)
        (broadcastInDim ⟨1, ![b]⟩ ![] hb (cnt (constantI S_ 32 0#32))))
      (broadcastInDim ⟨1, ![b]⟩ ![] hb (id (constant ⟨0, ![]⟩ .f32 0x7FC00000#32))) (ix1 j)
      = Ideal.div (∑ i : Fin a, D (ix2 i j) * D (ix2 i j)) nnW := by
  have hpos : Ideal.cmp .ogt nnW 0 = 1#1 := by
    rw [hnn]; unfold Ideal.cmp; simp
  rw [select_apply, broadcastInDim_scalar_apply, cmpf_apply, cnt_zero, constant_apply, Ideal.ofBits_zero_f32,
    Ideal.cmpf_def, hpos, select_one, hostDivf_apply, colSum_apply _ _ hr hu (zero_first hu),
    broadcastInDim_scalar_apply, cnt_zero]
  simp only [mulf_apply]

omit [Facts] in
/-- Normalisation: deviation from the mean, times the reciprocal root of variance plus epsilon, scale, shift. -/
theorem nrm_apply (P : FVec Ideal ⟨2, ![a, b]⟩ .f32) (mu va g be : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (hb : (⟨0, ![]⟩ : Shape).BroadcastsInDim ⟨1, ![b]⟩ ![]) (i : Fin a) (j : Fin b) :
    addf (mulf (mulf (subf P (broadcastInDim ⟨2, ![a, b]⟩ ![0, 1] h2 (broadcastInDim ⟨2, ![1, b]⟩ ![1] h1 mu)))
        (broadcastInDim ⟨2, ![a, b]⟩ ![0, 1] h2 (broadcastInDim ⟨2, ![1, b]⟩ ![1] h1
          (Host.rsqrt (addf va (broadcastInDim ⟨1, ![b]⟩ ![] hb (constant ⟨0, ![]⟩ .f32 0x3727C5AC#32)))))))
        (broadcastInDim ⟨2, ![a, b]⟩ ![0, 1] h2 (broadcastInDim ⟨2, ![1, b]⟩ ![1] h1 g)))
        (broadcastInDim ⟨2, ![a, b]⟩ ![0, 1] h2 (broadcastInDim ⟨2, ![1, b]⟩ ![1] h1 be)) (ix2 i j)
      = Gin.norm epsW (fun i j => P (ix2 i j)) (fun j => mu (ix1 j)) (fun j => va (ix1 j)) (fun j => g (ix1 j))
          (fun j => be (ix1 j)) i j := by
  rw [addf_apply, mulf_apply, mulf_apply, subf_apply, rows_apply, rows_apply, rows_apply, rows_apply]
  show _ * Ideal.rsqrt (addf va _ (ix1 j)) * _ + _ = _
  rw [addf_apply, broadcastInDim_scalar_apply, constant_apply]
  rfl

omit [Facts] in
/-- The maximum with the constant zero. -/
theorem relu_apply {s : Shape} (Y : FVec Ideal s .f32) (hb : (⟨0, ![]⟩ : Shape).BroadcastsInDim s ![]) (i : s.Idx) :
    maximumf Y (broadcastInDim s ![] hb (constant ⟨0, ![]⟩ .f32 0x00000000#32)) i = max (Y i) 0 := by
  rw [maximumf_apply, broadcastInDim_scalar_apply, constant_apply, Ideal.ofBits_zero_f32]

end Generic

variable [Facts]

/-! ## Layer 0 (64 features in, 128 hidden, 128 out) -/

theorem pre0_apply (A : FVec Ideal S100000x64 .f32) (w1 : FVec Ideal S64x128 .f32) (b1 : FVec Ideal S128 .f32)
    (i : Fin 100000) (j : Fin 128) :
    pre0 A w1 b1 (ix2 i j) = Gin.pre (fun (i : Fin 100000) (k : Fin 64) => A (ix2 i k)) (fun (k : Fin 64) (j : Fin 128) => w1 (ix2 k j)) (fun (j : Fin 128) => b1 (ix1 j)) i j := by
  unfold pre0; exact linear_apply _ rfl A w1 b1 _ _ i j

theorem mean0_apply (P : FVec Ideal S100000x128 .f32) (j : Fin 128) :
    mean0 P (ix1 j) = Gin.meanOf nnW (fun (i : Fin 100000) (j : Fin 128) => P (ix2 i j)) j := by
  unfold mean0; exact mean_apply P _ _ _ j

theorem dev0_apply (P : FVec Ideal S100000x128 .f32) (i : Fin 100000) (j : Fin 128) :
    dev0 P (ix2 i j) = P (ix2 i j) - Gin.meanOf nnW (fun (i : Fin 100000) (j : Fin 128) => P (ix2 i j)) j := by
  unfold dev0; exact dev_apply P _ _ _ _ _ i j

theorem var0_apply (hnn : nnW = ((100000 : ℝ) : EReal)) (P : FVec Ideal S100000x128 .f32) (j : Fin 128) :
    var0 P (constantI S_ 32 0#32) (ix1 j) = Gin.varR nnW (fun (i : Fin 100000) (j : Fin 128) => P (ix2 i j)) j := by
  unfold var0; rw [var_apply hnn]; unfold Gin.varR; simp only [dev0_apply]

theorem nrm0_apply (P : FVec Ideal S100000x128 .f32) (mu va g be : FVec Ideal S128 .f32) (i : Fin 100000) (j : Fin 128) :
    nrm0 P mu va g be (ix2 i j)
      = Gin.norm epsW (fun (i : Fin 100000) (j : Fin 128) => P (ix2 i j)) (fun (j : Fin 128) => mu (ix1 j)) (fun (j : Fin 128) => va (ix1 j)) (fun (j : Fin 128) => g (ix1 j)) (fun (j : Fin 128) => be (ix1 j)) i j := by
  unfold nrm0; exact nrm_apply P mu va g be _ _ _ i j

theorem linrelu0_apply (Y : FVec Ideal S100000x128 .f32) (w2 : FVec Ideal S128x128 .f32) (b2 : FVec Ideal S128 .f32)
    (i : Fin 100000) (j : Fin 128) :
    lin0 (relu0 Y) w2 b2 (ix2 i j) = Gin.lin2 (fun (i : Fin 100000) (j : Fin 128) => Y (ix2 i j)) (fun (k : Fin 128) (j : Fin 128) => w2 (ix2 k j)) (fun (j : Fin 128) => b2 (ix1 j)) i j := by
  unfold lin0; rw [linear_apply dot_S100000x128_S128x128_S100000x128_1_0_0_1_n_n rfl]; unfold relu0 Gin.lin2
  refine congrArg (fun s => s + b2 (ix1 j)) (Finset.sum_congr rfl fun k _ => ?_)
  rw [relu_apply]

/-- Layer 0's perceptron at row `i`, column `j` is the index-by-index layer with the variance as the mean of squared
    deviations, the number of rows and the epsilon the program's two constants. -/
theorem mlp0_apply (hnn : nnW = ((100000 : ℝ) : EReal)) (A : FVec Ideal S100000x64 .f32) (w1 : FVec Ideal S64x128 .f32)
    (b1 g be : FVec Ideal S128 .f32) (w2 : FVec Ideal S128x128 .f32) (b2 : FVec Ideal S128 .f32)
    (i : Fin 100000) (j : Fin 128) :
    mlp0 A w1 b1 g be w2 b2 (ix2 i j)
      = Gin.layerR nnW epsW (fun i k => A (ix2 i k)) (fun k j => w1 (ix2 k j)) (fun j => b1 (ix1 j)) (fun j => g (ix1 j))
          (fun j => be (ix1 j)) (fun k j => w2 (ix2 k j)) (fun j => b2 (ix1 j)) i j := by
  have hP : (fun (i : Fin 100000) (j : Fin 128) => pre0 A w1 b1 (ix2 i j)) = (Gin.pre (fun (i : Fin 100000) (k : Fin 64) => A (ix2 i k)) (fun (k : Fin 64) (j : Fin 128) => w1 (ix2 k j)) (fun (j : Fin 128) => b1 (ix1 j))) := by
    funext i j; exact pre0_apply A w1 b1 i j
  have hM : (fun (j : Fin 128) => mean0 (pre0 A w1 b1) (ix1 j)) = Gin.meanOf nnW (Gin.pre (fun (i : Fin 100000) (k : Fin 64) => A (ix2 i k)) (fun (k : Fin 64) (j : Fin 128) => w1 (ix2 k j)) (fun (j : Fin 128) => b1 (ix1 j))) := by
    funext j; rw [mean0_apply, hP]
  have hV : (fun (j : Fin 128) => var0 (pre0 A w1 b1) (constantI S_ 32 0#32) (ix1 j)) = Gin.varR nnW (Gin.pre (fun (i : Fin 100000) (k : Fin 64) => A (ix2 i k)) (fun (k : Fin 64) (j : Fin 128) => w1 (ix2 k j)) (fun (j : Fin 128) => b1 (ix1 j))) := by
    funext j; rw [var0_apply hnn, hP]
  unfold mlp0 Gin.layerR
  rw [linrelu0_apply]
  refine congrArg (fun Y => Gin.lin2 Y _ _ i j) ?_
  funext i j
  rw [nrm0_apply, hP, hM, hV]

/-! ## Layer 1 (128 features in, 128 hidden, 128 out) -/

theorem pre1_apply (A : FVec Ideal S100000x128 .f32) (w1 : FVec Ideal S128x128 .f32) (b1 : FVec Ideal S128 .f32)
    (i : Fin 100000) (j : Fin 128) :
    pre1 A w1 b1 (ix2 i j) = Gin.pre (fun (i : Fin 100000) (k : Fin 128) => A (ix2 i k)) (fun (k : Fin 128) (j : Fin 128) => w1 (ix2 k j)) (fun (j : Fin 128) => b1 (ix1 j)) i j := by
  unfold pre1; exact linear_apply _ rfl A w1 b1 _ _ i j

theorem mean1_apply (P : FVec Ideal S100000x128 .f32) (j : Fin 128) :
    mean1 P (ix1 j) = Gin.meanOf nnW (fun (i : Fin 100000) (j : Fin 128) => P (ix2 i j)) j := by
  unfold mean1; exact mean_apply P _ _ _ j

theorem dev1_apply (P : FVec Ideal S100000x128 .f32) (i : Fin 100000) (j : Fin 128) :
    dev1 P (ix2 i j) = P (ix2 i j) - Gin.meanOf nnW (fun (i : Fin 100000) (j : Fin 128) => P (ix2 i j)) j := by
  unfold dev1; exact dev_apply P _ _ _ _ _ i j

theorem var1_apply (hnn : nnW = ((100000 : ℝ) : EReal)) (P : FVec Ideal S100000x128 .f32) (j : Fin 128) :
    var1 P (constantI S_ 32 0#32) (ix1 j) = Gin.varR nnW (fun (i : Fin 100000) (j : Fin 128) => P (ix2 i j)) j := by
  unfold var1; rw [var_apply hnn]; unfold Gin.varR; simp only [dev1_apply]

theorem nrm1_apply (P : FVec Ideal S100000x128 .f32) (mu va g be : FVec Ideal S128 .f32) (i : Fin 100000) (j : Fin 128) :
    nrm1 P mu va g be (ix2 i j)
      = Gin.norm epsW (fun (i : Fin 100000) (j : Fin 128) => P (ix2 i j)) (fun (j : Fin 128) => mu (ix1 j)) (fun (j : Fin 128) => va (ix1 j)) (fun (j : Fin 128) => g (ix1 j)) (fun (j : Fin 128) => be (ix1 j)) i j := by
  unfold nrm1; exact nrm_apply P mu va g be _ _ _ i j

theorem linrelu1_apply (Y : FVec Ideal S100000x128 .f32) (w2 : FVec Ideal S128x128 .f32) (b2 : FVec Ideal S128 .f32)
    (i : Fin 100000) (j : Fin 128) :
    lin1 (relu1 Y) w2 b2 (ix2 i j) = Gin.lin2 (fun (i : Fin 100000) (j : Fin 128) => Y (ix2 i j)) (fun (k : Fin 128) (j : Fin 128) => w2 (ix2 k j)) (fun (j : Fin 128) => b2 (ix1 j)) i j := by
  unfold lin1; rw [linear_apply dot_S100000x128_S128x128_S100000x128_1_0_0_1_n_n rfl]; unfold relu1 Gin.lin2
  refine congrArg (fun s => s + b2 (ix1 j)) (Finset.sum_congr rfl fun k _ => ?_)
  rw [relu_apply]

/-- Layer 1's perceptron at row `i`, column `j` is the index-by-index layer with the variance as the mean of squared
    deviations, the number of rows and the epsilon the program's two constants. -/
theorem mlp1_apply (hnn : nnW = ((100000 : ℝ) : EReal)) (A : FVec Ideal S100000x128 .f32) (w1 : FVec Ideal S128x128 .f32)
    (b1 g be : FVec Ideal S128 .f32) (w2 : FVec Ideal S128x128 .f32) (b2 : FVec Ideal S128 .f32)
    (i : Fin 100000) (j : Fin 128) :
    mlp1 A w1 b1 g be w2 b2 (ix2 i j)
      = Gin.layerR nnW epsW (fun i k => A (ix2 i k)) (fun k j => w1 (ix2 k j)) (fun j => b1 (ix1 j)) (fun j => g (ix1 j))
          (fun j => be (ix1 j)) (fun k j => w2 (ix2 k j)) (fun j => b2 (ix1 j)) i j := by
  have hP : (fun (i : Fin 100000) (j : Fin 128) => pre1 A w1 b1 (ix2 i j)) = (Gin.pre (fun (i : Fin 100000) (k : Fin 128) => A (ix2 i k)) (fun (k : Fin 128) (j : Fin 128) => w1 (ix2 k j)) (fun (j : Fin 128) => b1 (ix1 j))) := by
    funext i j; exact pre1_apply A w1 b1 i j
  have hM : (fun (j : Fin 128) => mean1 (pre1 A w1 b1) (ix1 j)) = Gin.meanOf nnW (Gin.pre (fun (i : Fin 100000) (k : Fin 128) => A (ix2 i k)) (fun (k : Fin 128) (j : Fin 128) => w1 (ix2 k j)) (fun (j : Fin 128) => b1 (ix1 j))) := by
    funext j; rw [mean1_apply, hP]
  have hV : (fun (j : Fin 128) => var1 (pre1 A w1 b1) (constantI S_ 32 0#32) (ix1 j)) = Gin.varR nnW (Gin.pre (fun (i : Fin 100000) (k : Fin 128) => A (ix2 i k)) (fun (k : Fin 128) (j : Fin 128) => w1 (ix2 k j)) (fun (j : Fin 128) => b1 (ix1 j))) := by
    funext j; rw [var1_apply hnn, hP]
  unfold mlp1 Gin.layerR
  rw [linrelu1_apply]
  refine congrArg (fun Y => Gin.lin2 Y _ _ i j) ?_
  funext i j
  rw [nrm1_apply, hP, hM, hV]

/-! ## Layer 2 (128 features in, 64 hidden, 64 out) -/

theorem pre2_apply (A : FVec Ideal S100000x128 .f32) (w1 : FVec Ideal S128x64 .f32) (b1 : FVec Ideal S64 .f32)
    (i : Fin 100000) (j : Fin 64) :
    pre2 A w1 b1 (ix2 i j) = Gin.pre (fun (i : Fin 100000) (k : Fin 128) => A (ix2 i k)) (fun (k : Fin 128) (j : Fin 64) => w1 (ix2 k j)) (fun (j : Fin 64) => b1 (ix1 j)) i j := by
  unfold pre2; exact linear_apply _ rfl A w1 b1 _ _ i j

theorem mean2_apply (P : FVec Ideal S100000x64 .f32) (j : Fin 64) :
    mean2 P (ix1 j) = Gin.meanOf nnW (fun (i : Fin 100000) (j : Fin 64) => P (ix2 i j)) j := by
  unfold mean2; exact mean_apply P _ _ _ j

theorem dev2_apply (P : FVec Ideal S100000x64 .f32) (i : Fin 100000) (j : Fin 64) :
    dev2 P (ix2 i j) = P (ix2 i j) - Gin.meanOf nnW (fun (i : Fin 100000) (j : Fin 64) => P (ix2 i j)) j := by
  unfold dev2; exact dev_apply P _ _ _ _ _ i j

theorem var2_apply (hnn : nnW = ((100000 : ℝ) : EReal)) (P : FVec Ideal S100000x64 .f32) (j : Fin 64) :
    var2 P (constantI S_ 32 0#32) (ix1 j) = Gin.varR nnW (fun (i : Fin 100000) (j : Fin 64) => P (ix2 i j)) j := by
  unfold var2; rw [var_apply hnn]; unfold Gin.varR; simp only [dev2_apply]

theorem nrm2_apply (P : FVec Ideal S100000x64 .f32) (mu va g be : FVec Ideal S64 .f32) (i : Fin 100000) (j : Fin 64) :
    nrm2 P mu va g be (ix2 i j)
      = Gin.norm epsW (fun (i : Fin 100000) (j : Fin 64) => P (ix2 i j)) (fun (j : Fin 64) => mu (ix1 j)) (fun (j : Fin 64) => va (ix1 j)) (fun (j : Fin 64) => g (ix1 j)) (fun (j : Fin 64) => be (ix1 j)) i j := by
  unfold nrm2; exact nrm_apply P mu va g be _ _ _ i j

theorem linrelu2_apply (Y : FVec Ideal S100000x64 .f32) (w2 : FVec Ideal S64x64 .f32) (b2 : FVec Ideal S64 .f32)
    (i : Fin 100000) (j : Fin 64) :
    lin2 (relu2 Y) w2 b2 (ix2 i j) = Gin.lin2 (fun (i : Fin 100000) (j : Fin 64) => Y (ix2 i j)) (fun (k : Fin 64) (j : Fin 64) => w2 (ix2 k j)) (fun (j : Fin 64) => b2 (ix1 j)) i j := by
  unfold lin2; rw [linear_apply dot_S100000x64_S64x64_S100000x64_1_0_0_1_n_n rfl]; unfold relu2 Gin.lin2
  refine congrArg (fun s => s + b2 (ix1 j)) (Finset.sum_congr rfl fun k _ => ?_)
  rw [relu_apply]

/-- Layer 2's perceptron at row `i`, column `j` is the index-by-index layer with the variance as the mean of squared
    deviations, the number of rows and the epsilon the program's two constants. -/
theorem mlp2_apply (hnn : nnW = ((100000 : ℝ) : EReal)) (A : FVec Ideal S100000x128 .f32) (w1 : FVec Ideal S128x64 .f32)
    (b1 g be : FVec Ideal S64 .f32) (w2 : FVec Ideal S64x64 .f32) (b2 : FVec Ideal S64 .f32)
    (i : Fin 100000) (j : Fin 64) :
    mlp2 A w1 b1 g be w2 b2 (ix2 i j)
      = Gin.layerR nnW epsW (fun i k => A (ix2 i k)) (fun k j => w1 (ix2 k j)) (fun j => b1 (ix1 j)) (fun j => g (ix1 j))
          (fun j => be (ix1 j)) (fun k j => w2 (ix2 k j)) (fun j => b2 (ix1 j)) i j := by
  have hP : (fun (i : Fin 100000) (j : Fin 64) => pre2 A w1 b1 (ix2 i j)) = (Gin.pre (fun (i : Fin 100000) (k : Fin 128) => A (ix2 i k)) (fun (k : Fin 128) (j : Fin 64) => w1 (ix2 k j)) (fun (j : Fin 64) => b1 (ix1 j))) := by
    funext i j; exact pre2_apply A w1 b1 i j
  have hM : (fun (j : Fin 64) => mean2 (pre2 A w1 b1) (ix1 j)) = Gin.meanOf nnW (Gin.pre (fun (i : Fin 100000) (k : Fin 128) => A (ix2 i k)) (fun (k : Fin 128) (j : Fin 64) => w1 (ix2 k j)) (fun (j : Fin 64) => b1 (ix1 j))) := by
    funext j; rw [mean2_apply, hP]
  have hV : (fun (j : Fin 64) => var2 (pre2 A w1 b1) (constantI S_ 32 0#32) (ix1 j)) = Gin.varR nnW (Gin.pre (fun (i : Fin 100000) (k : Fin 128) => A (ix2 i k)) (fun (k : Fin 128) (j : Fin 64) => w1 (ix2 k j)) (fun (j : Fin 64) => b1 (ix1 j))) := by
    funext j; rw [var2_apply hnn, hP]
  unfold mlp2 Gin.layerR
  rw [linrelu2_apply]
  refine congrArg (fun Y => Gin.lin2 Y _ _ i j) ?_
  funext i j
  rw [nrm2_apply, hP, hM, hV]

end Cert.ReferenceIdeal.RefValue
-- ==== Proof.LibFiniteReal.lean ====
/-
  From "every entry's absolute value compares below +∞" to "every entry is a real number", at the ideal instance.

  A printed finiteness precondition asks, array by array, `jnp.all(jnp.abs(x) < inf)`: a host `abs`, a comparison against the
  broadcast word of +∞, and an all-reduce by `and` into a scalar. `posInf`: that word denotes ⊤. `real_of_abs_lt`: an
  extended real whose absolute value `max x (-x)` compares below ⊤ is neither infinity, hence a real. `all_real`: if the
  and-reduce of the comparisons over the whole array is 1, every entry of the array is real — for any shape and any list
  of reduced axes, the result a scalar. A certificate opens its own precondition's conjunction (`IntOp.andi_eq_one`) and
  hands each conjunct to `all_real`.
-/
import Idealize.ShloMosaic.Lib.ReduceAll
import Idealize.ShloMosaic.Lib.Affine
import Idealize.ShloMosaic.Lib.ValueIdx
import Idealize.ShloMosaic.PureOps.Ideal.Laws

noncomputable section

namespace FiniteReal

open Idealize.ShloMosaic Idealize.ShloMosaic.ValueIdx

/-- A scalar has one index. -/
instance scalarIdx_subsingleton : Subsingleton (⟨0, ![]⟩ : Shape).Idx := ⟨fun _ _ => funext fun d => d.elim0⟩

/-- The word of +∞ denotes the top of the extended reals. -/
theorem posInf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    have : Ideal.cmp .olt (max x (-x)) ⊤ = 0#1 := by
      unfold Ideal.cmp
      simp [hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One array's answer: if all its entries' absolute values compare below +∞, every entry is real. -/
theorem all_real {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] hb (constant (F := Ideal) (⟨0, ![]⟩ : Shape) .f32 0x7F800000#32))) init h hu ix0 = 1#1)
    (i : s.Idx) : ∃ r : ℝ, x i = (r : EReal) :=
  real_of_abs_lt (x i) (Host.reduce_andi_all _ init h hu ix0 e i)

end FiniteReal

end
-- ==== Proof.KFinite.lean ====
/-
  From the precondition to the real numbers: the precondition of the idealized kernel says, array by array, that the
  absolute value of every entry of every float argument compares below +∞, and-ed into one bit that is 1. Opening the
  conjunction gives each array's own bit, and an array whose bit is 1 has only real entries.
-/
import proofs.«151523_j51427938402588_1_alg».proof.Defs
import proofs.«151523_j51427938402588_1_alg».proof.Proof.Gen.Pre_finite_inputs
import proofs.«151523_j51427938402588_1_alg».proof.Proof.LibFiniteReal
import proofs.«151523_j51427938402588_1_alg».proof.Proof.GinReal

noncomputable section

namespace Cert.KernelIdeal.GinK

open Idealize.ShloMosaic Idealize.SL.Sem Cert.Pre_finite_inputs

/-- If the finiteness function of twenty arrays (nineteen float arrays and one integer table) is 1 over the extended
    reals, every entry of every float array is a real number: the function is the left-nested conjunction of the
    nineteen arrays' bits. -/
theorem fn_real [Cert.Pre_finite_inputs.Facts]
    (a0 : FVec Ideal S100000x64 .f32) (a1 : IVec S2x1000000 32) (a2 : FVec Ideal S64x128 .f32) (a3 : FVec Ideal S128 .f32) (a4 : FVec Ideal S128 .f32) (a5 : FVec Ideal S128 .f32) (a6 : FVec Ideal S128x128 .f32) (a7 : FVec Ideal S128 .f32) (a8 : FVec Ideal S128x128 .f32) (a9 : FVec Ideal S128 .f32) (a10 : FVec Ideal S128 .f32) (a11 : FVec Ideal S128 .f32) (a12 : FVec Ideal S128x128 .f32) (a13 : FVec Ideal S128 .f32) (a14 : FVec Ideal S128x64 .f32) (a15 : FVec Ideal S64 .f32) (a16 : FVec Ideal S64 .f32) (a17 : FVec Ideal S64 .f32) (a18 : FVec Ideal S64x64 .f32) (a19 : FVec Ideal S64 .f32)
    (h : Cert.Pre_finite_inputs.fn (F := Ideal) a0 a1 a2 a3 a4 a5 a6 a7 a8 a9 a10 a11 a12 a13 a14 a15 a16 a17 a18 a19 = (fun _ => 1#1)) :
    (∀ i, Gin.IsReal (a0 i)) ∧
      (∀ i, Gin.IsReal (a2 i)) ∧
      (∀ i, Gin.IsReal (a3 i)) ∧
      (∀ i, Gin.IsReal (a4 i)) ∧
      (∀ i, Gin.IsReal (a5 i)) ∧
      (∀ i, Gin.IsReal (a6 i)) ∧
      (∀ i, Gin.IsReal (a7 i)) ∧
      (∀ i, Gin.IsReal (a8 i)) ∧
      (∀ i, Gin.IsReal (a9 i)) ∧
      (∀ i, Gin.IsReal (a10 i)) ∧
      (∀ i, Gin.IsReal (a11 i)) ∧
      (∀ i, Gin.IsReal (a12 i)) ∧
      (∀ i, Gin.IsReal (a13 i)) ∧
      (∀ i, Gin.IsReal (a14 i)) ∧
      (∀ i, Gin.IsReal (a15 i)) ∧
      (∀ i, Gin.IsReal (a16 i)) ∧
      (∀ i, Gin.IsReal (a17 i)) ∧
      (∀ i, Gin.IsReal (a18 i)) ∧
      (∀ i, Gin.IsReal (a19 i)) := by
  have h0 := congrFun h ValueIdx.ix0
  dsimp only [fn, fn_part1, fn_part2, fn_part3, fn_part4, fn_part5] at h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => FiniteReal.all_real a0 _ _ _ _ e0 i,
    fun i => FiniteReal.all_real a2 _ _ _ _ e2 i,
    fun i => FiniteReal.all_real a3 _ _ _ _ e3 i,
    fun i => FiniteReal.all_real a4 _ _ _ _ e4 i,
    fun i => FiniteReal.all_real a5 _ _ _ _ e5 i,
    fun i => FiniteReal.all_real a6 _ _ _ _ e6 i,
    fun i => FiniteReal.all_real a7 _ _ _ _ e7 i,
    fun i => FiniteReal.all_real a8 _ _ _ _ e8 i,
    fun i => FiniteReal.all_real a9 _ _ _ _ e9 i,
    fun i => FiniteReal.all_real a10 _ _ _ _ e10 i,
    fun i => FiniteReal.all_real a11 _ _ _ _ e11 i,
    fun i => FiniteReal.all_real a12 _ _ _ _ e12 i,
    fun i => FiniteReal.all_real a13 _ _ _ _ e13 i,
    fun i => FiniteReal.all_real a14 _ _ _ _ e14 i,
    fun i => FiniteReal.all_real a15 _ _ _ _ e15 i,
    fun i => FiniteReal.all_real a16 _ _ _ _ e16 i,
    fun i => FiniteReal.all_real a17 _ _ _ _ e17 i,
    fun i => FiniteReal.all_real a18 _ _ _ _ e18 i,
    fun i => FiniteReal.all_real a19 _ _ _ _ e19 i⟩

/-- Under the precondition of the idealized kernel every entry of each of its nineteen float arguments is a real
    number, on every device. -/
theorem args_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, Gin.IsReal ((m ((c.tc : Thread Cert.KernelIdeal.nD Cert.KernelIdeal.τ).loc Cert.KernelIdeal.main_arg0)) i)) ∧
      (∀ i, Gin.IsReal ((m ((c.tc : Thread Cert.KernelIdeal.nD Cert.KernelIdeal.τ).loc Cert.KernelIdeal.main_arg2)) i)) ∧
      (∀ i, Gin.IsReal ((m ((c.tc : Thread Cert.KernelIdeal.nD Cert.KernelIdeal.τ).loc Cert.KernelIdeal.main_arg3)) i)) ∧
      (∀ i, Gin.IsReal ((m ((c.tc : Thread Cert.KernelIdeal.nD Cert.KernelIdeal.τ).loc Cert.KernelIdeal.main_arg4)) i)) ∧
      (∀ i, Gin.IsReal ((m ((c.tc : Thread Cert.KernelIdeal.nD Cert.KernelIdeal.τ).loc Cert.KernelIdeal.main_arg5)) i)) ∧
      (∀ i, Gin.IsReal ((m ((c.tc : Thread Cert.KernelIdeal.nD Cert.KernelIdeal.τ).loc Cert.KernelIdeal.main_arg6)) i)) ∧
      (∀ i, Gin.IsReal ((m ((c.tc : Thread Cert.KernelIdeal.nD Cert.KernelIdeal.τ).loc Cert.KernelIdeal.main_arg7)) i)) ∧
      (∀ i, Gin.IsReal ((m ((c.tc : Thread Cert.KernelIdeal.nD Cert.KernelIdeal.τ).loc Cert.KernelIdeal.main_arg8)) i)) ∧
      (∀ i, Gin.IsReal ((m ((c.tc : Thread Cert.KernelIdeal.nD Cert.KernelIdeal.τ).loc Cert.KernelIdeal.main_arg9)) i)) ∧
      (∀ i, Gin.IsReal ((m ((c.tc : Thread Cert.KernelIdeal.nD Cert.KernelIdeal.τ).loc Cert.KernelIdeal.main_arg10)) i)) ∧
      (∀ i, Gin.IsReal ((m ((c.tc : Thread Cert.KernelIdeal.nD Cert.KernelIdeal.τ).loc Cert.KernelIdeal.main_arg11)) i)) ∧
      (∀ i, Gin.IsReal ((m ((c.tc : Thread Cert.KernelIdeal.nD Cert.KernelIdeal.τ).loc Cert.KernelIdeal.main_arg12)) i)) ∧
      (∀ i, Gin.IsReal ((m ((c.tc : Thread Cert.KernelIdeal.nD Cert.KernelIdeal.τ).loc Cert.KernelIdeal.main_arg13)) i)) ∧
      (∀ i, Gin.IsReal ((m ((c.tc : Thread Cert.KernelIdeal.nD Cert.KernelIdeal.τ).loc Cert.KernelIdeal.main_arg14)) i)) ∧
      (∀ i, Gin.IsReal ((m ((c.tc : Thread Cert.KernelIdeal.nD Cert.KernelIdeal.τ).loc Cert.KernelIdeal.main_arg15)) i)) ∧
      (∀ i, Gin.IsReal ((m ((c.tc : Thread Cert.KernelIdeal.nD Cert.KernelIdeal.τ).loc Cert.KernelIdeal.main_arg16)) i)) ∧
      (∀ i, Gin.IsReal ((m ((c.tc : Thread Cert.KernelIdeal.nD Cert.KernelIdeal.τ).loc Cert.KernelIdeal.main_arg17)) i)) ∧
      (∀ i, Gin.IsReal ((m ((c.tc : Thread Cert.KernelIdeal.nD Cert.KernelIdeal.τ).loc Cert.KernelIdeal.main_arg18)) i)) ∧
      (∀ i, Gin.IsReal ((m ((c.tc : Thread Cert.KernelIdeal.nD Cert.KernelIdeal.τ).loc Cert.KernelIdeal.main_arg19)) i)) :=
  fn_real _ _ _ _ _ _ _ _ _ _ _ _ _ _ _ _ _ _ _ _ (hpre c)

end Cert.KernelIdeal.GinK

end
-- ==== Proof.GinAgg.lean ====
/-
  Real numbers through the neighbour aggregation, for any shapes: a gather reads entries of its operand, so it keeps
  real entries real; an accumulating scatter over the extended reals gives each operand entry plus a finite sum of
  update entries, real when both arrays are; an array of zeros is real; and the entrywise sum of two real arrays
  is real.
-/
import proofs.«151523_j51427938402588_1_alg».proof.Proof.GinReal
import Idealize.ShloMosaic.PureOps.Ideal
import Idealize.ShloMosaic.PureOps.ShapeOps
import Idealize.ShloMosaic.PureOps.Contract

noncomputable section

namespace Gin

open Idealize.ShloMosaic

/-- Every entry of a gather is an entry of its operand. -/
theorem gather_real {s si t : Shape} {w : Nat} (d : GatherDims s si t) (x : s.Idx → EReal) (idx : IVec si w)
    (hx : ∀ i, IsReal (x i)) : ∀ j, IsReal (Host.gather d x idx j) :=
  fun j => hx (d.operandIdx j idx)

/-- An accumulating scatter of real updates into a real operand is real: each entry is the operand's plus the finite
    sum of the updates that land on it. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) :
    ∀ i, IsReal (Host.scatterAdd (F := Ideal) d x idx upd i) := by
  intro i
  simp only [Host.scatterAdd, Ideal.hostScatterAdd_def, Ideal.hostScatterAdd]
  exact isReal_add (hx i) (isReal_sum _ _ (fun j _ => hu j))

/-- The word `0x00000000` denotes zero. -/
theorem ofBits_zero : Ideal.ofBits .f32 0x00000000#32 = 0 := by
  simp [Ideal.ofBits, Ideal.ieee]

/-- The array of zeros (the scalar `+0.0` broadcast to any shape) is zero at every index. -/
theorem zeros_apply {s : Shape} (h : (⟨0, ![]⟩ : Shape).BroadcastsInDim s (![] : Fin 0 → Fin s.rank)) (i : s.Idx) :
    broadcastInDim s ![] h (constant (F := Ideal) ⟨0, ![]⟩ .f32 0x00000000#32) i = 0 := by
  simp only [broadcastInDim, constant, Ideal.ofBits_def, ofBits_zero]

/-- The array of zeros is real. -/
theorem zeros_real {s : Shape} (h : (⟨0, ![]⟩ : Shape).BroadcastsInDim s (![] : Fin 0 → Fin s.rank)) :
    ∀ i, IsReal (broadcastInDim s ![] h (constant (F := Ideal) ⟨0, ![]⟩ .f32 0x00000000#32) i) := by
  intro i
  rw [zeros_apply]
  exact isReal_zero

/-- The entrywise sum of two real arrays is real. -/
theorem addf_real {s : Shape} (x y : FVec Ideal s .f32) (hx : ∀ i, IsReal (x i)) (hy : ∀ i, IsReal (y i)) :
    ∀ i, IsReal (addf x y i) := by
  intro i
  simp only [addf, Ideal.addf_def]
  exact isReal_add (hx i) (hy i)

end Gin

end
-- ==== Proof.KAggReal.lean ====
/-
  The neighbour aggregation of real node features is real: it is the features plus an accumulating scatter, into an
  array of zeros, of a gather of the features.
-/
import proofs.«151523_j51427938402588_1_alg».proof.Proof.KHost
import proofs.«151523_j51427938402588_1_alg».proof.Proof.GinAgg

noncomputable section

namespace Cert.KernelIdeal.GinK

open Cert.KernelIdeal Cert.KernelIdeal.Gen Idealize.ShloMosaic

/-- The aggregation of real 64-wide node features is real, whatever the edge table. -/
theorem aggK64_real (H : FVec Ideal S100000x64 .f32) (v1 v3 : IVec S1000000 32) (hH : ∀ i, Gin.IsReal (H i)) :
    ∀ i, Gin.IsReal (aggK64 (F := Ideal) H v1 v3 i) := by
  unfold aggK64
  exact Gin.addf_real _ _ hH
    (Gin.scatterAdd_real _ _ _ _ (Gin.zeros_real _) (Gin.gather_real _ _ _ hH))

/-- The aggregation of real 128-wide node features is real, whatever the edge table. -/
theorem aggK128_real (H : FVec Ideal S100000x128 .f32) (v1 v3 : IVec S1000000 32) (hH : ∀ i, Gin.IsReal (H i)) :
    ∀ i, Gin.IsReal (aggK128 (F := Ideal) H v1 v3 i) := by
  unfold aggK128
  exact Gin.addf_real _ _ hH
    (Gin.scatterAdd_real _ _ _ _ (Gin.zeros_real _) (Gin.gather_real _ _ _ hH))

end Cert.KernelIdeal.GinK

end
-- ==== Proof.AggSame.lean ====
/-
  The reference's neighbour aggregation and the kernel program's are one function of the node features and the edge
  table: both are the features plus an accumulating scatter, into zeros at each edge's destination row, of the gather
  of the features at each edge's wrapped source row, written with the same operations in the same order. Each program
  carries its own copies of the shapes and of the gather's and the scatter's dimension records; the copies are the
  same literals, so the two terms are equal by unfolding.
-/
import proofs.«151523_j51427938402588_1_alg».proof.Proof.KHost
import proofs.«151523_j51427938402588_1_alg».proof.Proof.RefTerms
import Idealize.ShloMosaic.PureOps.Ideal

noncomputable section

namespace Cert.Proof.GinBridge

open Idealize.ShloMosaic

-- the gather and the accumulating scatter are compared by their arguments, never opened
attribute [local irreducible] Host.gather Host.scatterAdd

/-- At width 64 the two aggregations are the same term. -/
theorem agg64_same [Cert.ReferenceIdeal.Facts]
    (H : FVec Ideal Cert.KernelIdeal.S100000x64 .f32) (ei : IVec Cert.KernelIdeal.S2x1000000 32) :
    Cert.ReferenceIdeal.RefValue.agg64 (F := Ideal) H ei
      = Cert.KernelIdeal.GinK.aggK64 (F := Ideal) H (Cert.KernelIdeal.GinK.srcK ei) (Cert.KernelIdeal.GinK.dstK ei) :=
  rfl

/-- At width 128 the two aggregations are the same term. -/
theorem agg128_same [Cert.ReferenceIdeal.Facts]
    (H : FVec Ideal Cert.KernelIdeal.S100000x128 .f32) (ei : IVec Cert.KernelIdeal.S2x1000000 32) :
    Cert.ReferenceIdeal.RefValue.agg128 (F := Ideal) H ei
      = Cert.KernelIdeal.GinK.aggK128 (F := Ideal) H (Cert.KernelIdeal.GinK.srcK ei) (Cert.KernelIdeal.GinK.dstK ei) :=
  rfl

end Cert.Proof.GinBridge

end
-- ==== Proof.Bridge.lean ====
/-
  The kernel program's layers against the reference's, one layer at a time. A layer's second region leaves an array
  that is, entry by entry, the layer function with the variance taken as mean of squares minus square of the mean; the
  reference's perceptron term of the same inputs is, entry by entry, the layer function with the variance taken as
  mean of squared deviations. On real-valued inputs the two are one function, and its values are real again
  (the variance is a nonnegative real, so the reciprocal square root of variance plus ε is real): so real-valuedness
  is handed from each layer to the next, through the neighbour aggregation, which only re-reads and adds entries.
-/
import proofs.«151523_j51427938402588_1_alg».proof.Proof.KLayer2
import proofs.«151523_j51427938402588_1_alg».proof.Proof.GinMath
import proofs.«151523_j51427938402588_1_alg».proof.Proof.GinRows
import proofs.«151523_j51427938402588_1_alg».proof.Proof.RefRead
import proofs.«151523_j51427938402588_1_alg».proof.Proof.KFinite
import proofs.«151523_j51427938402588_1_alg».proof.Proof.KAggReal
import proofs.«151523_j51427938402588_1_alg».proof.Proof.AggSame

set_option maxRecDepth 16384

noncomputable section

namespace Cert.KernelIdeal.GinK

open Cert.KernelIdeal Cert.KernelIdeal.Gen Idealize.ShloMosaic Idealize.ShloMosaic.ValueIdx Idealize.ShloMosaic.TcCoe Idealize.SL.Sem

variable [Cert.ReferenceIdeal.Facts]
variable (m : (ℓ : Loc nD τ sig) → Buf (Elt Ideal) ℓ) (ρ : Dev nD → PrngReg)

/-- The f32 word of 100000.0 denotes the number of rows. -/
theorem hnn : nnW = (((100000 : ℕ) : ℝ) : EReal) := by rw [show nnW = ((100000 : ℝ) : EReal) from Gin.nn_eq]; norm_num

/-! ## Layer 0 -/

section Layer0

variable (c : Dev nD)

/-- The layer's weight matrices and parameter rows, as the first host stretch of the layer left them, are the
    program's arguments: a matrix as it is, a vector as the one row it was stood up as. -/
theorem w1f0 : a1W1 (V1 m ρ) c = fun k j => ((m ((c : Thread nD τ).loc main_arg2)) : _ → EReal) (ix2 k j) :=
  funext fun k => funext fun j => congrFun (w10_at m ρ c) (ix2 k j)
theorem w2f0 : a1W2 (V1 m ρ) c = fun k j => ((m ((c : Thread nD τ).loc main_arg6)) : _ → EReal) (ix2 k j) :=
  funext fun k => funext fun j => congrFun (w20_at m ρ c) (ix2 k j)
theorem b1f0 : a1B1 (V1 m ρ) c = fun j => ((m ((c : Thread nD τ).loc main_arg3)) : _ → EReal) (ix1 j) :=
  funext fun j => (congrFun (b10_at m ρ c) (ix2 (0 : Fin 1) j)).trans (Gin.row_of_vec _ _ j)
theorem gf0 : a1G (V1 m ρ) c = fun j => ((m ((c : Thread nD τ).loc main_arg4)) : _ → EReal) (ix1 j) :=
  funext fun j => (congrFun (g0_at m ρ c) (ix2 (0 : Fin 1) j)).trans (Gin.row_of_vec _ _ j)
theorem bef0 : a1Be (V1 m ρ) c = fun j => ((m ((c : Thread nD τ).loc main_arg5)) : _ → EReal) (ix1 j) :=
  funext fun j => (congrFun (be0_at m ρ c) (ix2 (0 : Fin 1) j)).trans (Gin.row_of_vec _ _ j)
theorem b2f0 : a1B2 (V1 m ρ) c = fun j => ((m ((c : Thread nD τ).loc main_arg7)) : _ → EReal) (ix1 j) :=
  funext fun j => (congrFun (b20_at m ρ c) (ix2 (0 : Fin 1) j)).trans (Gin.row_of_vec _ _ j)

/-- With real-valued aggregated features and real first-linear-map parameters, the array the layer's second region
    leaves is the reference's perceptron term of the same aggregated features and the same parameters: entry by
    entry both are one layer function, the two variance formulas agreeing on real pre-activations. -/
theorem layer0_same (hA : ∀ i, Gin.IsReal ((W1 m ρ c (Proc.devRef .tc main_v14) : S100000x64.Idx → EReal) i))
    (hw : ∀ i, Gin.IsReal (((m ((c : Thread nD τ).loc main_arg2)) : _ → EReal) i)) (hb : ∀ i, Gin.IsReal (((m ((c : Thread nD τ).loc main_arg3)) : _ → EReal) i)) :
    (W4 m ρ c (Proc.devRef .tc main_v26) : S100000x128.Idx → EReal)
      = Cert.ReferenceIdeal.RefValue.mlp0 (F := Ideal) (W1 m ρ c (Proc.devRef .tc main_v14)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext idx
  obtain ⟨i, j, rfl⟩ : ∃ (i : Fin 100000) (j : Fin 128), idx = ix2 i j := ⟨idx 0, idx 1, eq_ix2 idx⟩
  rw [layer0_value m ρ c i j, Cert.ReferenceIdeal.RefValue.mlp0_apply Gin.nn_eq, w1f0, w2f0, b1f0, gf0, bef0, b2f0]
  exact congrFun (congrFun (Gin.layerK_eq_layerR (n := 100000) (by norm_num) _ _ hnn _ _ _ _ _ _ _
    (fun i k => hA (ix2 i k)) (fun k j => hw (ix2 k j)) (fun j => hb (ix1 j))) i) j

/-- And that array is real-valued when all seven inputs are. -/
theorem layer0_real (hA : ∀ i, Gin.IsReal ((W1 m ρ c (Proc.devRef .tc main_v14) : S100000x64.Idx → EReal) i))
    (hw : ∀ i, Gin.IsReal (((m ((c : Thread nD τ).loc main_arg2)) : _ → EReal) i)) (hb : ∀ i, Gin.IsReal (((m ((c : Thread nD τ).loc main_arg3)) : _ → EReal) i))
    (hg : ∀ i, Gin.IsReal (((m ((c : Thread nD τ).loc main_arg4)) : _ → EReal) i)) (hbe : ∀ i, Gin.IsReal (((m ((c : Thread nD τ).loc main_arg5)) : _ → EReal) i))
    (hw2 : ∀ i, Gin.IsReal (((m ((c : Thread nD τ).loc main_arg6)) : _ → EReal) i)) (hb2 : ∀ i, Gin.IsReal (((m ((c : Thread nD τ).loc main_arg7)) : _ → EReal) i)) :
    ∀ idx, Gin.IsReal ((W4 m ρ c (Proc.devRef .tc main_v26) : S100000x128.Idx → EReal) idx) := by
  intro idx
  obtain ⟨i, j, rfl⟩ : ∃ (i : Fin 100000) (j : Fin 128), idx = ix2 i j := ⟨idx 0, idx 1, eq_ix2 idx⟩
  rw [layer0_value m ρ c i j, w1f0, w2f0, b1f0, gf0, bef0, b2f0]
  exact (congrArg Gin.IsReal (congrFun (congrFun (Gin.layerK_eq_layerR (n := 100000) (by norm_num) _ _ hnn _ _ _ _ _ _ _
      (fun i k => hA (ix2 i k)) (fun k j => hw (ix2 k j)) (fun j => hb (ix1 j))) i) j)).mpr
    (Gin.layerR_real (n := 100000) (by norm_num) _ _ hnn Gin.eps_pos _ _ _ _ _ _ _
      (fun i k => hA (ix2 i k)) (fun k j => hw (ix2 k j)) (fun j => hb (ix1 j)) (fun j => hg (ix1 j)) (fun j => hbe (ix1 j))
      (fun k j => hw2 (ix2 k j)) (fun j => hb2 (ix1 j)) i j)

end Layer0

/-! ## Layer 1 -/

section Layer1

variable (c : Dev nD)

/-- The layer's weight matrices and parameter rows, as the first host stretch of the layer left them, are the
    program's arguments: a matrix as it is, a vector as the one row it was stood up as. -/
theorem w1f1 : a3W1 (V5 m ρ) c = fun k j => ((m ((c : Thread nD τ).loc main_arg8)) : _ → EReal) (ix2 k j) :=
  funext fun k => funext fun j => congrFun (w11_at m ρ c) (ix2 k j)
theorem w2f1 : a3W2 (V5 m ρ) c = fun k j => ((m ((c : Thread nD τ).loc main_arg12)) : _ → EReal) (ix2 k j) :=
  funext fun k => funext fun j => congrFun (w21_at m ρ c) (ix2 k j)
theorem b1f1 : a3B1 (V5 m ρ) c = fun j => ((m ((c : Thread nD τ).loc main_arg9)) : _ → EReal) (ix1 j) :=
  funext fun j => (congrFun (b11_at m ρ c) (ix2 (0 : Fin 1) j)).trans (Gin.row_of_vec _ _ j)
theorem gf1 : a3G (V5 m ρ) c = fun j => ((m ((c : Thread nD τ).loc main_arg10)) : _ → EReal) (ix1 j) :=
  funext fun j => (congrFun (g1_at m ρ c) (ix2 (0 : Fin 1) j)).trans (Gin.row_of_vec _ _ j)
theorem bef1 : a3Be (V5 m ρ) c = fun j => ((m ((c : Thread nD τ).loc main_arg11)) : _ → EReal) (ix1 j) :=
  funext fun j => (congrFun (be1_at m ρ c) (ix2 (0 : Fin 1) j)).trans (Gin.row_of_vec _ _ j)
theorem b2f1 : a3B2 (V5 m ρ) c = fun j => ((m ((c : Thread nD τ).loc main_arg13)) : _ → EReal) (ix1 j) :=
  funext fun j => (congrFun (b21_at m ρ c) (ix2 (0 : Fin 1) j)).trans (Gin.row_of_vec _ _ j)

/-- With real-valued aggregated features and real first-linear-map parameters, the array the layer's second region
    leaves is the reference's perceptron term of the same aggregated features and the same parameters: entry by
    entry both are one layer function, the two variance formulas agreeing on real pre-activations. -/
theorem layer1_same (hA : ∀ i, Gin.IsReal ((W5 m ρ c (Proc.devRef .tc main_v37) : S100000x128.Idx → EReal) i))
    (hw : ∀ i, Gin.IsReal (((m ((c : Thread nD τ).loc main_arg8)) : _ → EReal) i)) (hb : ∀ i, Gin.IsReal (((m ((c : Thread nD τ).loc main_arg9)) : _ → EReal) i)) :
    (W8 m ρ c (Proc.devRef .tc main_v49) : S100000x128.Idx → EReal)
      = Cert.ReferenceIdeal.RefValue.mlp1 (F := Ideal) (W5 m ρ c (Proc.devRef .tc main_v37)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext idx
  obtain ⟨i, j, rfl⟩ : ∃ (i : Fin 100000) (j : Fin 128), idx = ix2 i j := ⟨idx 0, idx 1, eq_ix2 idx⟩
  rw [layer1_value m ρ c i j, Cert.ReferenceIdeal.RefValue.mlp1_apply Gin.nn_eq, w1f1, w2f1, b1f1, gf1, bef1, b2f1]
  exact congrFun (congrFun (Gin.layerK_eq_layerR (n := 100000) (by norm_num) _ _ hnn _ _ _ _ _ _ _
    (fun i k => hA (ix2 i k)) (fun k j => hw (ix2 k j)) (fun j => hb (ix1 j))) i) j

/-- And that array is real-valued when all seven inputs are. -/
theorem layer1_real (hA : ∀ i, Gin.IsReal ((W5 m ρ c (Proc.devRef .tc main_v37) : S100000x128.Idx → EReal) i))
    (hw : ∀ i, Gin.IsReal (((m ((c : Thread nD τ).loc main_arg8)) : _ → EReal) i)) (hb : ∀ i, Gin.IsReal (((m ((c : Thread nD τ).loc main_arg9)) : _ → EReal) i))
    (hg : ∀ i, Gin.IsReal (((m ((c : Thread nD τ).loc main_arg10)) : _ → EReal) i)) (hbe : ∀ i, Gin.IsReal (((m ((c : Thread nD τ).loc main_arg11)) : _ → EReal) i))
    (hw2 : ∀ i, Gin.IsReal (((m ((c : Thread nD τ).loc main_arg12)) : _ → EReal) i)) (hb2 : ∀ i, Gin.IsReal (((m ((c : Thread nD τ).loc main_arg13)) : _ → EReal) i)) :
    ∀ idx, Gin.IsReal ((W8 m ρ c (Proc.devRef .tc main_v49) : S100000x128.Idx → EReal) idx) := by
  intro idx
  obtain ⟨i, j, rfl⟩ : ∃ (i : Fin 100000) (j : Fin 128), idx = ix2 i j := ⟨idx 0, idx 1, eq_ix2 idx⟩
  rw [layer1_value m ρ c i j, w1f1, w2f1, b1f1, gf1, bef1, b2f1]
  exact (congrArg Gin.IsReal (congrFun (congrFun (Gin.layerK_eq_layerR (n := 100000) (by norm_num) _ _ hnn _ _ _ _ _ _ _
      (fun i k => hA (ix2 i k)) (fun k j => hw (ix2 k j)) (fun j => hb (ix1 j))) i) j)).mpr
    (Gin.layerR_real (n := 100000) (by norm_num) _ _ hnn Gin.eps_pos _ _ _ _ _ _ _
      (fun i k => hA (ix2 i k)) (fun k j => hw (ix2 k j)) (fun j => hb (ix1 j)) (fun j => hg (ix1 j)) (fun j => hbe (ix1 j))
      (fun k j => hw2 (ix2 k j)) (fun j => hb2 (ix1 j)) i j)

end Layer1

/-! ## Layer 2 -/

section Layer2

variable (c : Dev nD)

/-- The layer's weight matrices and parameter rows, as the first host stretch of the layer left them, are the
    program's arguments: a matrix as it is, a vector as the one row it was stood up as. -/
theorem w1f2 : a5W1 (V9 m ρ) c = fun k j => ((m ((c : Thread nD τ).loc main_arg14)) : _ → EReal) (ix2 k j) :=
  funext fun k => funext fun j => congrFun (w12_at m ρ c) (ix2 k j)
theorem w2f2 : a5W2 (V9 m ρ) c = fun k j => ((m ((c : Thread nD τ).loc main_arg18)) : _ → EReal) (ix2 k j) :=
  funext fun k => funext fun j => congrFun (w22_at m ρ c) (ix2 k j)
theorem b1f2 : a5B1 (V9 m ρ) c = fun j => ((m ((c : Thread nD τ).loc main_arg15)) : _ → EReal) (ix1 j) :=
  funext fun j => (congrFun (b12_at m ρ c) (ix2 (0 : Fin 1) j)).trans (Gin.row_of_vec _ _ j)
theorem gf2 : a5G (V9 m ρ) c = fun j => ((m ((c : Thread nD τ).loc main_arg16)) : _ → EReal) (ix1 j) :=
  funext fun j => (congrFun (g2_at m ρ c) (ix2 (0 : Fin 1) j)).trans (Gin.row_of_vec _ _ j)
theorem bef2 : a5Be (V9 m ρ) c = fun j => ((m ((c : Thread nD τ).loc main_arg17)) : _ → EReal) (ix1 j) :=
  funext fun j => (congrFun (be2_at m ρ c) (ix2 (0 : Fin 1) j)).trans (Gin.row_of_vec _ _ j)
theorem b2f2 : a5B2 (V9 m ρ) c = fun j => ((m ((c : Thread nD τ).loc main_arg19)) : _ → EReal) (ix1 j) :=
  funext fun j => (congrFun (b22_at m ρ c) (ix2 (0 : Fin 1) j)).trans (Gin.row_of_vec _ _ j)

/-- With real-valued aggregated features and real first-linear-map parameters, the array the layer's second region
    leaves is the reference's perceptron term of the same aggregated features and the same parameters: entry by
    entry both are one layer function, the two variance formulas agreeing on real pre-activations. -/
theorem layer2_same (hA : ∀ i, Gin.IsReal ((W9 m ρ c (Proc.devRef .tc main_v60) : S100000x128.Idx → EReal) i))
    (hw : ∀ i, Gin.IsReal (((m ((c : Thread nD τ).loc main_arg14)) : _ → EReal) i)) (hb : ∀ i, Gin.IsReal (((m ((c : Thread nD τ).loc main_arg15)) : _ → EReal) i)) :
    (W12 m ρ c (Proc.devRef .tc main_v72) : S100000x64.Idx → EReal)
      = Cert.ReferenceIdeal.RefValue.mlp2 (F := Ideal) (W9 m ρ c (Proc.devRef .tc main_v60)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  funext idx
  obtain ⟨i, j, rfl⟩ : ∃ (i : Fin 100000) (j : Fin 64), idx = ix2 i j := ⟨idx 0, idx 1, eq_ix2 idx⟩
  rw [layer2_value m ρ c i j, Cert.ReferenceIdeal.RefValue.mlp2_apply Gin.nn_eq, w1f2, w2f2, b1f2, gf2, bef2, b2f2]
  exact congrFun (congrFun (Gin.layerK_eq_layerR (n := 100000) (by norm_num) _ _ hnn _ _ _ _ _ _ _
    (fun i k => hA (ix2 i k)) (fun k j => hw (ix2 k j)) (fun j => hb (ix1 j))) i) j

/-- And that array is real-valued when all seven inputs are. -/
theorem layer2_real (hA : ∀ i, Gin.IsReal ((W9 m ρ c (Proc.devRef .tc main_v60) : S100000x128.Idx → EReal) i))
    (hw : ∀ i, Gin.IsReal (((m ((c : Thread nD τ).loc main_arg14)) : _ → EReal) i)) (hb : ∀ i, Gin.IsReal (((m ((c : Thread nD τ).loc main_arg15)) : _ → EReal) i))
    (hg : ∀ i, Gin.IsReal (((m ((c : Thread nD τ).loc main_arg16)) : _ → EReal) i)) (hbe : ∀ i, Gin.IsReal (((m ((c : Thread nD τ).loc main_arg17)) : _ → EReal) i))
    (hw2 : ∀ i, Gin.IsReal (((m ((c : Thread nD τ).loc main_arg18)) : _ → EReal) i)) (hb2 : ∀ i, Gin.IsReal (((m ((c : Thread nD τ).loc main_arg19)) : _ → EReal) i)) :
    ∀ idx, Gin.IsReal ((W12 m ρ c (Proc.devRef .tc main_v72) : S100000x64.Idx → EReal) idx) := by
  intro idx
  obtain ⟨i, j, rfl⟩ : ∃ (i : Fin 100000) (j : Fin 64), idx = ix2 i j := ⟨idx 0, idx 1, eq_ix2 idx⟩
  rw [layer2_value m ρ c i j, w1f2, w2f2, b1f2, gf2, bef2, b2f2]
  exact (congrArg Gin.IsReal (congrFun (congrFun (Gin.layerK_eq_layerR (n := 100000) (by norm_num) _ _ hnn _ _ _ _ _ _ _
      (fun i k => hA (ix2 i k)) (fun k j => hw (ix2 k j)) (fun j => hb (ix1 j))) i) j)).mpr
    (Gin.layerR_real (n := 100000) (by norm_num) _ _ hnn Gin.eps_pos _ _ _ _ _ _ _
      (fun i k => hA (ix2 i k)) (fun k j => hw (ix2 k j)) (fun j => hb (ix1 j)) (fun j => hg (ix1 j)) (fun j => hbe (ix1 j))
      (fun k j => hw2 (ix2 k j)) (fun j => hb2 (ix1 j)) i j)

end Layer2

/-! ## The three layers composed -/

section Net

variable [Cert.Pre_finite_inputs.Facts]

/-- Under the precondition (every float argument finite) the reference's whole term of the arguments is what the
    kernel program leaves in its result buffer. The input features are real, so their aggregation is; layer 0 then
    agrees with the reference's first perceptron and is real-valued; so is its aggregation; and so on through layer 2.
    The two programs' aggregation terms are one function. -/
theorem net_same (hpre : Cert.Pre_KernelIdeal m) (c : Dev nD) :
    Cert.ReferenceIdeal.RefValue.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      = W12 m ρ c (Proc.devRef .tc main_v72) := by
  obtain ⟨h0, h2, h3, h4, h5, h6, h7, h8, h9, h10, h11, h12, h13, h14, h15, h16, h17, h18, h19⟩ := args_real m hpre c
  have hA0 : ∀ i, Gin.IsReal ((W1 m ρ c (Proc.devRef .tc main_v14) : S100000x64.Idx → EReal) i) := by
    rw [A0_at]; exact aggK64_real _ _ _ h0
  have e1 := layer0_same m ρ c hA0 h2 h3
  have r1 := layer0_real m ρ c hA0 h2 h3 h4 h5 h6 h7
  have hA1 : ∀ i, Gin.IsReal ((W5 m ρ c (Proc.devRef .tc main_v37) : S100000x128.Idx → EReal) i) := by
    rw [A1_at]; exact aggK128_real _ _ _ r1
  have e2 := layer1_same m ρ c hA1 h8 h9
  have r2 := layer1_real m ρ c hA1 h8 h9 h10 h11 h12 h13
  have hA2 : ∀ i, Gin.IsReal ((W9 m ρ c (Proc.devRef .tc main_v60) : S100000x128.Idx → EReal) i) := by
    rw [A2_at]; exact aggK128_real _ _ _ r2
  have e3 := layer2_same m ρ c hA2 h14 h15
  rw [e3, A2_at, e2, A1_at, e1, A0_at]
  unfold Cert.ReferenceIdeal.RefValue.net
  rw [Cert.Proof.GinBridge.agg64_same, Cert.Proof.GinBridge.agg128_same, Cert.Proof.GinBridge.agg128_same]

end Net

end Cert.KernelIdeal.GinK

end
-- ==== Proof.lean ====
/-
  The certificate of a three-layer graph isomorphism network: a Pallas kernel program against its jnp reference, over the
  extended reals.

  Each layer aggregates every node's neighbours (a gather by source node, a scatter-add by destination node, added to
  the node's own features) and applies  Linear → batch normalisation over the 100000 nodes → ReLU → Linear.  The kernel
  program computes a layer in two tiled passes over the nodes: the first accumulates the column sums and column sums of
  squares of the pre-activation over fifty tiles of 2000 rows, the host forms  mean = sum / n  and
  var = sumsq / n − mean²,  and the second normalises, rectifies and projects tile by tile. The reference computes the
  variance as the mean of squared deviations from the mean. Over the reals the two variances are one number; over the
  extended reals they agree because, the float arguments being finite, every pre-activation is a real number — the
  aggregation only re-reads entries (a gather clamps its index into range) and adds finitely many of them (a scatter-add
  drops an update that lands outside), whatever the edge table holds — and every layer's output is real again, the
  variance being a nonnegative real and ε a positive one. Everything else the two programs do is the same arithmetic in
  another arrangement: a change of float format is the identity at the ideal instance, a tile-by-tile sum is the whole sum.

  The three frames: the kernel program's and its idealization's are generated; the reference's is its run with the result
  dropped. The ideal pass rewrote nothing, so the preservation claim is `True`.
-/
import proofs.«151523_j51427938402588_1_alg».proof.Defs
import proofs.«151523_j51427938402588_1_alg».proof.Proof.Gen.Kernel
import proofs.«151523_j51427938402588_1_alg».proof.Proof.Gen.Kernel.Frame
import proofs.«151523_j51427938402588_1_alg».proof.Proof.Gen.KernelIdeal
import proofs.«151523_j51427938402588_1_alg».proof.Proof.Gen.KernelIdeal.Frame
import proofs.«151523_j51427938402588_1_alg».proof.Proof.Gen.ReferenceIdeal
import proofs.«151523_j51427938402588_1_alg».proof.Proof.Gen.Pre_finite_inputs
import proofs.«151523_j51427938402588_1_alg».proof.Proof.KRun
import proofs.«151523_j51427938402588_1_alg».proof.Proof.RefOut
import proofs.«151523_j51427938402588_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefOut.run (F := Ideal) m ρ)

theorem preserves : Cert.preserves_Kernel_KernelIdeal := trivial

/-- Both programs run; the kernel program's result buffer ends at the last boundary's contents, the reference's at its
    term of arguments that agree with the kernel program's: one array (`net_same`). -/
theorem algebraic : Cert.algebraic_KernelIdeal_ReferenceIdeal := by
  intro m ρ m' ρ' hpre hagree
  refine ⟨fun c => Cert.KernelIdeal.Gen.W12 m ρ c (Proc.devRef .tc Cert.KernelIdeal.main_v72),
    Cert.KernelIdeal.GinK.run_value (F := Ideal) m ρ, ?_⟩
  refine (θ_run Cert.ReferenceIdeal.defs _ _).mono (fun _ h c => ⟨(h c).1.trans ?_, (h c).2⟩)
    (Cert.ReferenceIdeal.RefOut.run (F := Ideal) m' ρ')
  obtain ⟨a0, a1, a2, a3, a4, a5, a6, a7, a8, a9, a10, a11, a12, a13, a14, a15, a16, a17, a18, a19⟩ := hagree c
  rw [a0, a1, a2, a3, a4, a5, a6, a7, a8, a9, a10, a11, a12, a13, a14, a15, a16, a17, a18, a19]
  exact Cert.KernelIdeal.GinK.net_same m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
